-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x128x128x1 : Shape := ⟨5, ![1, 128, 128, 128, 1]⟩
abbrev S_ : Shape := ⟨0, ![]⟩

class Facts : Prop where
  bcast_S_S1x128x128x128x1 : S_.BroadcastsInDim S1x128x128x128x1 (![] : Fin 0 → Fin S1x128x128x128x1.rank)
  reducesTo_S1x128x128x128x1_S_d0_1_2_3_4 : S1x128x128x128x1.ReducesTo [0, 1, 2, 3, 4] S_
  h_S_ : 0 < S_.numel

variable [Facts]

def fn {F : FTy → Type} [FloatOps F] (main_arg0 : FVec F S1x128x128x128x1 .f32) (main_arg1 : FVec F S1x128x128x128x1 .f32) (main_arg2 : FVec F S1x128x128x128x1 .f32) : IVec S_ 1 :=
  let main_v0 : FVec F S1x128x128x128x1 .f32 := Host.absf main_arg0
  let main_cst : FVec F S_ .f32 := constant S_ .f32 0x7F800000#32
  let main_v1 : FVec F S1x128x128x128x1 .f32 := broadcastInDim S1x128x128x128x1 ![] bcast_S_S1x128x128x128x1 main_cst
  let main_v2 : IVec S1x128x128x128x1 1 := cmpf .olt main_v0 main_v1
  let main_c : IVec S_ 1 := constantI S_ 1 1#1
  let main_v3 : IVec S_ 1 := (fun x v => Host.reduce IntOp.andi x v reducesTo_S1x128x128x128x1_S_d0_1_2_3_4 h_S_) main_v2 main_c
  let main_v4 : FVec F S1x128x128x128x1 .f32 := Host.absf main_arg1
  let main_cst_0 : FVec F S_ .f32 := constant S_ .f32 0x7F800000#32
  let main_v5 : FVec F S1x128x128x128x1 .f32 := broadcastInDim S1x128x128x128x1 ![] bcast_S_S1x128x128x128x1 main_cst_0
  let main_v6 : IVec S1x128x128x128x1 1 := cmpf .olt main_v4 main_v5
  let main_c_1 : IVec S_ 1 := constantI S_ 1 1#1
  let main_v7 : IVec S_ 1 := (fun x v => Host.reduce IntOp.andi x v reducesTo_S1x128x128x128x1_S_d0_1_2_3_4 h_S_) main_v6 main_c_1
  let main_v8 : IVec S_ 1 := andi main_v3 main_v7
  let main_v9 : FVec F S1x128x128x128x1 .f32 := Host.absf main_arg2
  let main_cst_2 : FVec F S_ .f32 := constant S_ .f32 0x7F800000#32
  let main_v10 : FVec F S1x128x128x128x1 .f32 := broadcastInDim S1x128x128x128x1 ![] bcast_S_S1x128x128x128x1 main_cst_2
  let main_v11 : IVec S1x128x128x128x1 1 := cmpf .olt main_v9 main_v10
  let main_c_3 : IVec S_ 1 := constantI S_ 1 1#1
  let main_v12 : IVec S_ 1 := (fun x v => Host.reduce IntOp.andi x v reducesTo_S1x128x128x128x1_S_d0_1_2_3_4 h_S_) main_v11 main_c_3
  let main_v13 : IVec S_ 1 := andi main_v8 main_v12
  main_v13
-- ==== Kernel.lean ====
abbrev S1x128x128x128x1 : Shape := ⟨5, ![1, 128, 128, 128, 1]⟩
abbrev S128x128x128 : Shape := ⟨3, ![128, 128, 128]⟩
abbrev S16x128x128 : Shape := ⟨3, ![16, 128, 128]⟩
abbrev S16x1x1 : Shape := ⟨3, ![16, 1, 1]⟩
abbrev S1x128x1 : Shape := ⟨3, ![1, 128, 1]⟩
abbrev S1x1x128 : Shape := ⟨3, ![1, 1, 128]⟩
abbrev S16x1x128 : Shape := ⟨3, ![16, 1, 128]⟩
abbrev S1x128x128 : Shape := ⟨3, ![1, 128, 128]⟩
abbrev S16x128x1 : Shape := ⟨3, ![16, 128, 1]⟩
abbrev S128x128 : Shape := ⟨2, ![128, 128]⟩
abbrev S_ : Shape := ⟨0, ![]⟩
abbrev S16 : Shape := ⟨1, ![16]⟩
abbrev S1x16 : Shape := ⟨2, ![1, 16]⟩

abbrev nBuf : Table → Nat
  | .hbm => 12
  | .local .tc .vmem => 8
  | .local .scVector .vmem => 4
  | _ => 0

abbrev bufTy : (tb : Table) → Fin (nBuf tb) → BufTy
  | .hbm, ⟨0, _⟩ => ⟨S1x128x128x128x1, .f32⟩
  | .hbm, ⟨1, _⟩ => ⟨S1x128x128x128x1, .f32⟩
  | .hbm, ⟨2, _⟩ => ⟨S1x128x128x128x1, .f32⟩
  | .hbm, ⟨3, _⟩ => ⟨S128x128x128, .f32⟩
  | .hbm, ⟨4, _⟩ => ⟨S128x128x128, .f32⟩
  | .hbm, ⟨5, _⟩ => ⟨S128x128x128, .f32⟩
  | .hbm, ⟨6, _⟩ => ⟨S128x128x128, .f32⟩
  | .hbm, ⟨7, _⟩ => ⟨S128x128x128, .f32⟩
  | .hbm, ⟨8, _⟩ => ⟨S128x128x128, .f32⟩
  | .hbm, ⟨9, _⟩ => ⟨S1x128x128x128x1, .f32⟩
  | .hbm, ⟨10, _⟩ => ⟨S1x128x128x128x1, .f32⟩
  | .hbm, ⟨11, _⟩ => ⟨S1x128x128x128x1, .f32⟩
  | .local .tc .vmem, ⟨0, _⟩ => ⟨S16x128x128, .f32⟩
  | .local .tc .vmem, ⟨1, _⟩ => ⟨S16x128x128, .f32⟩
  | .local .tc .vmem, ⟨2, _⟩ => ⟨S16x128x128, .f32⟩
  | .local .tc .vmem, ⟨3, _⟩ => ⟨S16x128x128, .f32⟩
  | .local .tc .vmem, ⟨4, _⟩ => ⟨S16x128x128, .f32⟩
  | .local .tc .vmem, ⟨5, _⟩ => ⟨S16x128x128, .f32⟩
  | .local .tc .vmem, ⟨6, _⟩ => ⟨S16x128x128, .f32⟩
  | .local .tc .vmem, ⟨7, _⟩ => ⟨S16x128x128, .f32⟩
  | .local .scVector .vmem, ⟨0, _⟩ => ⟨S128x128, .f32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | _, _ => ⟨S1x128x128x128x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v2_scv : Ref sig .scVector := ⟨.hbm, 5, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) (c0_i32_0 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v9 : BitVec 32 := Scalar.addi v2 c0_i32_0
  let c0_i32_1 : BitVec 32 := 0#32
  let c0_i32_2 : BitVec 32 := 0#32
  ![v9.toNat, 0, 0]
def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_18 : BitVec 32 := 0#32
  let v29 : BitVec 32 := Scalar.addi v2 c0_i32_18
  let c1_i32_23 : BitVec 32 := 1#32
  let v34 : BitVec 1 := Scalar.cmpi .sge v29 c1_i32_23
  let c126_i32 : BitVec 32 := 126#32
  let v35 : BitVec 1 := Scalar.cmpi .sle v29 c126_i32
  let v36 : BitVec 1 := Scalar.andi v34 v35
  let v37 : BitVec 32 := Scalar.extui v36
  let c0_i32_24 : BitVec 32 := 0#32
  let v38 : BitVec 1 := Scalar.cmpi .ne v37 c0_i32_24
  v38

@[reducible] def k1_t1_loop : Scf.Loop 32 :=
  let c1_i32_112 : BitVec 32 := 1#32
  let c126_i32_113 : BitVec 32 := 126#32
  let v177 : BitVec 32 := Scalar.addi c1_i32_112 c126_i32_113
  let c1_i32_114 : BitVec 32 := 1#32
  ⟨c1_i32_112, v177, c1_i32_114⟩
def k1_off2 (k1_t1 : Fin k1_t1_loop.trips) : Fin 2 → Nat :=
  let c1_i32_112 : BitVec 32 := 1#32
  let c1_i32_114 : BitVec 32 := 1#32
  let arg16 : BitVec 32 := Scf.iv c1_i32_112 c1_i32_114 k1_t1
  let v178 : Index := Scalar.indexCast arg16
  let c0_116 : Index := 0#32
  ![v178.toNat, 0]
def k1_off3 (k1_t1 : Fin k1_t1_loop.trips) : Fin 2 → Nat :=
  let c1_i32_112 : BitVec 32 := 1#32
  let c1_i32_114 : BitVec 32 := 1#32
  let arg16 : BitVec 32 := Scf.iv c1_i32_112 c1_i32_114 k1_t1
  let v186 : Index := Scalar.indexCast arg16
  let c112_118 : Index := 112#32
  ![v186.toNat, 112]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_18 : BitVec 32 := 0#32
  let v29 : BitVec 32 := Scalar.addi v2 c0_i32_18
  let c1_i32_23 : BitVec 32 := 1#32
  let v34 : BitVec 1 := Scalar.cmpi .sge v29 c1_i32_23
  let c126_i32 : BitVec 32 := 126#32
  let v35 : BitVec 1 := Scalar.cmpi .sle v29 c126_i32
  let v36 : BitVec 1 := Scalar.andi v34 v35
  let v_true : BitVec 1 := 1#1
  let v39 : BitVec 1 := Scalar.xori v36 v_true
  let v40 : BitVec 32 := Scalar.extui v39
  let c0_i32_25 : BitVec 32 := 0#32
  let v41 : BitVec 1 := Scalar.cmpi .ne v40 c0_i32_25
  v41

@[reducible] def k1_t2_loop : Scf.Loop 32 :=
  let c0_i32_89 : BitVec 32 := 0#32
  let c128_i32 : BitVec 32 := 128#32
  let v113 : BitVec 32 := Scalar.addi c0_i32_89 c128_i32
  let c1_i32_90 : BitVec 32 := 1#32
  ⟨c0_i32_89, v113, c1_i32_90⟩
def k1_off4 (k1_t2 : Fin k1_t2_loop.trips) : Fin 2 → Nat :=
  let c0_i32_89 : BitVec 32 := 0#32
  let c1_i32_90 : BitVec 32 := 1#32
  let arg16 : BitVec 32 := Scf.iv c0_i32_89 c1_i32_90 k1_t2
  let v114 : Index := Scalar.indexCast arg16
  let c0 : Index := 0#32
  ![v114.toNat, 0]
def k1_off5 (k1_t2 : Fin k1_t2_loop.trips) : Fin 2 → Nat :=
  let c0_i32_89 : BitVec 32 := 0#32
  let c1_i32_90 : BitVec 32 := 1#32
  let arg16 : BitVec 32 := Scf.iv c0_i32_89 c1_i32_90 k1_t2
  let v118 : Index := Scalar.indexCast arg16
  let c16 : Index := 16#32
  ![v118.toNat, 16]
def k1_off6 (k1_t2 : Fin k1_t2_loop.trips) : Fin 2 → Nat :=
  let c0_i32_89 : BitVec 32 := 0#32
  let c1_i32_90 : BitVec 32 := 1#32
  let arg16 : BitVec 32 := Scf.iv c0_i32_89 c1_i32_90 k1_t2
  let v122 : Index := Scalar.indexCast arg16
  let c32 : Index := 32#32
  ![v122.toNat, 32]
def k1_off7 (k1_t2 : Fin k1_t2_loop.trips) : Fin 2 → Nat :=
  let c0_i32_89 : BitVec 32 := 0#32
  let c1_i32_90 : BitVec 32 := 1#32
  let arg16 : BitVec 32 := Scf.iv c0_i32_89 c1_i32_90 k1_t2
  let v126 : Index := Scalar.indexCast arg16
  let c48 : Index := 48#32
  ![v126.toNat, 48]
def k1_off8 (k1_t2 : Fin k1_t2_loop.trips) : Fin 2 → Nat :=
  let c0_i32_89 : BitVec 32 := 0#32
  let c1_i32_90 : BitVec 32 := 1#32
  let arg16 : BitVec 32 := Scf.iv c0_i32_89 c1_i32_90 k1_t2
  let v130 : Index := Scalar.indexCast arg16
  let c64 : Index := 64#32
  ![v130.toNat, 64]
def k1_off9 (k1_t2 : Fin k1_t2_loop.trips) : Fin 2 → Nat :=
  let c0_i32_89 : BitVec 32 := 0#32
  let c1_i32_90 : BitVec 32 := 1#32
  let arg16 : BitVec 32 := Scf.iv c0_i32_89 c1_i32_90 k1_t2
  let v134 : Index := Scalar.indexCast arg16
  let c80 : Index := 80#32
  ![v134.toNat, 80]
def k1_off10 (k1_t2 : Fin k1_t2_loop.trips) : Fin 2 → Nat :=
  let c0_i32_89 : BitVec 32 := 0#32
  let c1_i32_90 : BitVec 32 := 1#32
  let arg16 : BitVec 32 := Scf.iv c0_i32_89 c1_i32_90 k1_t2
  let v138 : Index := Scalar.indexCast arg16
  let c96 : Index := 96#32
  ![v138.toNat, 96]
def k1_off11 (k1_t2 : Fin k1_t2_loop.trips) : Fin 2 → Nat :=
  let c0_i32_89 : BitVec 32 := 0#32
  let c1_i32_90 : BitVec 32 := 1#32
  let arg16 : BitVec 32 := Scf.iv c0_i32_89 c1_i32_90 k1_t2
  let v142 : Index := Scalar.indexCast arg16
  let c112 : Index := 112#32
  ![v142.toNat, 112]
def k1_cond3 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_30 : BitVec 32 := 1#32
  let v46 : BitVec 32 := Scalar.addi v2 c1_i32_30
  let c1_i32_35 : BitVec 32 := 1#32
  let v51 : BitVec 1 := Scalar.cmpi .sge v46 c1_i32_35
  let c126_i32_36 : BitVec 32 := 126#32
  let v52 : BitVec 1 := Scalar.cmpi .sle v46 c126_i32_36
  let v53 : BitVec 1 := Scalar.andi v51 v52
  let v54 : BitVec 32 := Scalar.extui v53
  let c0_i32_37 : BitVec 32 := 0#32
  let v55 : BitVec 1 := Scalar.cmpi .ne v54 c0_i32_37
  v55

@[reducible] def k1_t3_loop : Scf.Loop 32 :=
  let c1_i32_112 : BitVec 32 := 1#32
  let c126_i32_113 : BitVec 32 := 126#32
  let v177 : BitVec 32 := Scalar.addi c1_i32_112 c126_i32_113
  let c1_i32_114 : BitVec 32 := 1#32
  ⟨c1_i32_112, v177, c1_i32_114⟩
def k1_off12 (k1_t3 : Fin k1_t3_loop.trips) : Fin 2 → Nat :=
  let c1_i32_112 : BitVec 32 := 1#32
  let c1_i32_114 : BitVec 32 := 1#32
  let arg16 : BitVec 32 := Scf.iv c1_i32_112 c1_i32_114 k1_t3
  let v178 : Index := Scalar.indexCast arg16
  let c0_116 : Index := 0#32
  ![v178.toNat, 0]
def k1_off13 (k1_t3 : Fin k1_t3_loop.trips) : Fin 2 → Nat :=
  let c1_i32_112 : BitVec 32 := 1#32
  let c1_i32_114 : BitVec 32 := 1#32
  let arg16 : BitVec 32 := Scf.iv c1_i32_112 c1_i32_114 k1_t3
  let v186 : Index := Scalar.indexCast arg16
  let c112_118 : Index := 112#32
  ![v186.toNat, 112]
def k1_cond4 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_30 : BitVec 32 := 1#32
  let v46 : BitVec 32 := Scalar.addi v2 c1_i32_30
  let c1_i32_35 : BitVec 32 := 1#32
  let v51 : BitVec 1 := Scalar.cmpi .sge v46 c1_i32_35
  let c126_i32_36 : BitVec 32 := 126#32
  let v52 : BitVec 1 := Scalar.cmpi .sle v46 c126_i32_36
  let v53 : BitVec 1 := Scalar.andi v51 v52
  let true_38 : BitVec 1 := 1#1
  let v56 : BitVec 1 := Scalar.xori v53 true_38
  let v57 : BitVec 32 := Scalar.extui v56
  let c0_i32_39 : BitVec 32 := 0#32
  let v58 : BitVec 1 := Scalar.cmpi .ne v57 c0_i32_39
  v58

@[reducible] def k1_t4_loop : Scf.Loop 32 :=
  let c0_i32_89 : BitVec 32 := 0#32
  let c128_i32 : BitVec 32 := 128#32
  let v113 : BitVec 32 := Scalar.addi c0_i32_89 c128_i32
  let c1_i32_90 : BitVec 32 := 1#32
  ⟨c0_i32_89, v113, c1_i32_90⟩
def k1_off14 (k1_t4 : Fin k1_t4_loop.trips) : Fin 2 → Nat :=
  let c0_i32_89 : BitVec 32 := 0#32
  let c1_i32_90 : BitVec 32 := 1#32
  let arg16 : BitVec 32 := Scf.iv c0_i32_89 c1_i32_90 k1_t4
  let v114 : Index := Scalar.indexCast arg16
  let c0 : Index := 0#32
  ![v114.toNat, 0]
def k1_off15 (k1_t4 : Fin k1_t4_loop.trips) : Fin 2 → Nat :=
  let c0_i32_89 : BitVec 32 := 0#32
  let c1_i32_90 : BitVec 32 := 1#32
  let arg16 : BitVec 32 := Scf.iv c0_i32_89 c1_i32_90 k1_t4
  let v118 : Index := Scalar.indexCast arg16
  let c16 : Index := 16#32
  ![v118.toNat, 16]
def k1_off16 (k1_t4 : Fin k1_t4_loop.trips) : Fin 2 → Nat :=
  let c0_i32_89 : BitVec 32 := 0#32
  let c1_i32_90 : BitVec 32 := 1#32
  let arg16 : BitVec 32 := Scf.iv c0_i32_89 c1_i32_90 k1_t4
  let v122 : Index := Scalar.indexCast arg16
  let c32 : Index := 32#32
  ![v122.toNat, 32]
def k1_off17 (k1_t4 : Fin k1_t4_loop.trips) : Fin 2 → Nat :=
  let c0_i32_89 : BitVec 32 := 0#32
  let c1_i32_90 : BitVec 32 := 1#32
  let arg16 : BitVec 32 := Scf.iv c0_i32_89 c1_i32_90 k1_t4
  let v126 : Index := Scalar.indexCast arg16
  let c48 : Index := 48#32
  ![v126.toNat, 48]
def k1_off18 (k1_t4 : Fin k1_t4_loop.trips) : Fin 2 → Nat :=
  let c0_i32_89 : BitVec 32 := 0#32
  let c1_i32_90 : BitVec 32 := 1#32
  let arg16 : BitVec 32 := Scf.iv c0_i32_89 c1_i32_90 k1_t4
  let v130 : Index := Scalar.indexCast arg16
  let c64 : Index := 64#32
  ![v130.toNat, 64]
def k1_off19 (k1_t4 : Fin k1_t4_loop.trips) : Fin 2 → Nat :=
  let c0_i32_89 : BitVec 32 := 0#32
  let c1_i32_90 : BitVec 32 := 1#32
  let arg16 : BitVec 32 := Scf.iv c0_i32_89 c1_i32_90 k1_t4
  let v134 : Index := Scalar.indexCast arg16
  let c80 : Index := 80#32
  ![v134.toNat, 80]
def k1_off20 (k1_t4 : Fin k1_t4_loop.trips) : Fin 2 → Nat :=
  let c0_i32_89 : BitVec 32 := 0#32
  let c1_i32_90 : BitVec 32 := 1#32
  let arg16 : BitVec 32 := Scf.iv c0_i32_89 c1_i32_90 k1_t4
  let v138 : Index := Scalar.indexCast arg16
  let c96 : Index := 96#32
  ![v138.toNat, 96]
def k1_off21 (k1_t4 : Fin k1_t4_loop.trips) : Fin 2 → Nat :=
  let c0_i32_89 : BitVec 32 := 0#32
  let c1_i32_90 : BitVec 32 := 1#32
  let arg16 : BitVec 32 := Scf.iv c0_i32_89 c1_i32_90 k1_t4
  let v142 : Index := Scalar.indexCast arg16
  let c112 : Index := 112#32
  ![v142.toNat, 112]
def k1_cond5 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_44 : BitVec 32 := 2#32
  let v63 : BitVec 32 := Scalar.addi v2 c2_i32_44
  let c1_i32_49 : BitVec 32 := 1#32
  let v68 : BitVec 1 := Scalar.cmpi .sge v63 c1_i32_49
  let c126_i32_50 : BitVec 32 := 126#32
  let v69 : BitVec 1 := Scalar.cmpi .sle v63 c126_i32_50
  let v70 : BitVec 1 := Scalar.andi v68 v69
  let v71 : BitVec 32 := Scalar.extui v70
  let c0_i32_51 : BitVec 32 := 0#32
  let v72 : BitVec 1 := Scalar.cmpi .ne v71 c0_i32_51
  v72

@[reducible] def k1_t5_loop : Scf.Loop 32 :=
  let c1_i32_112 : BitVec 32 := 1#32
  let c126_i32_113 : BitVec 32 := 126#32
  let v177 : BitVec 32 := Scalar.addi c1_i32_112 c126_i32_113
  let c1_i32_114 : BitVec 32 := 1#32
  ⟨c1_i32_112, v177, c1_i32_114⟩
def k1_off22 (k1_t5 : Fin k1_t5_loop.trips) : Fin 2 → Nat :=
  let c1_i32_112 : BitVec 32 := 1#32
  let c1_i32_114 : BitVec 32 := 1#32
  let arg16 : BitVec 32 := Scf.iv c1_i32_112 c1_i32_114 k1_t5
  let v178 : Index := Scalar.indexCast arg16
  let c0_116 : Index := 0#32
  ![v178.toNat, 0]
def k1_off23 (k1_t5 : Fin k1_t5_loop.trips) : Fin 2 → Nat :=
  let c1_i32_112 : BitVec 32 := 1#32
  let c1_i32_114 : BitVec 32 := 1#32
  let arg16 : BitVec 32 := Scf.iv c1_i32_112 c1_i32_114 k1_t5
  let v186 : Index := Scalar.indexCast arg16
  let c112_118 : Index := 112#32
  ![v186.toNat, 112]
def k1_cond6 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_44 : BitVec 32 := 2#32
  let v63 : BitVec 32 := Scalar.addi v2 c2_i32_44
  let c1_i32_49 : BitVec 32 := 1#32
  let v68 : BitVec 1 := Scalar.cmpi .sge v63 c1_i32_49
  let c126_i32_50 : BitVec 32 := 126#32
  let v69 : BitVec 1 := Scalar.cmpi .sle v63 c126_i32_50
  let v70 : BitVec 1 := Scalar.andi v68 v69
  let true_52 : BitVec 1 := 1#1
  let v73 : BitVec 1 := Scalar.xori v70 true_52
  let v74 : BitVec 32 := Scalar.extui v73
  let c0_i32_53 : BitVec 32 := 0#32
  let v75 : BitVec 1 := Scalar.cmpi .ne v74 c0_i32_53
  v75

@[reducible] def k1_t6_loop : Scf.Loop 32 :=
  let c0_i32_89 : BitVec 32 := 0#32
  let c128_i32 : BitVec 32 := 128#32
  let v113 : BitVec 32 := Scalar.addi c0_i32_89 c128_i32
  let c1_i32_90 : BitVec 32 := 1#32
  ⟨c0_i32_89, v113, c1_i32_90⟩
def k1_off24 (k1_t6 : Fin k1_t6_loop.trips) : Fin 2 → Nat :=
  let c0_i32_89 : BitVec 32 := 0#32
  let c1_i32_90 : BitVec 32 := 1#32
  let arg16 : BitVec 32 := Scf.iv c0_i32_89 c1_i32_90 k1_t6
  let v114 : Index := Scalar.indexCast arg16
  let c0 : Index := 0#32
  ![v114.toNat, 0]
def k1_off25 (k1_t6 : Fin k1_t6_loop.trips) : Fin 2 → Nat :=
  let c0_i32_89 : BitVec 32 := 0#32
  let c1_i32_90 : BitVec 32 := 1#32
  let arg16 : BitVec 32 := Scf.iv c0_i32_89 c1_i32_90 k1_t6
  let v118 : Index := Scalar.indexCast arg16
  let c16 : Index := 16#32
  ![v118.toNat, 16]
def k1_off26 (k1_t6 : Fin k1_t6_loop.trips) : Fin 2 → Nat :=
  let c0_i32_89 : BitVec 32 := 0#32
  let c1_i32_90 : BitVec 32 := 1#32
  let arg16 : BitVec 32 := Scf.iv c0_i32_89 c1_i32_90 k1_t6
  let v122 : Index := Scalar.indexCast arg16
  let c32 : Index := 32#32
  ![v122.toNat, 32]
def k1_off27 (k1_t6 : Fin k1_t6_loop.trips) : Fin 2 → Nat :=
  let c0_i32_89 : BitVec 32 := 0#32
  let c1_i32_90 : BitVec 32 := 1#32
  let arg16 : BitVec 32 := Scf.iv c0_i32_89 c1_i32_90 k1_t6
  let v126 : Index := Scalar.indexCast arg16
  let c48 : Index := 48#32
  ![v126.toNat, 48]
def k1_off28 (k1_t6 : Fin k1_t6_loop.trips) : Fin 2 → Nat :=
  let c0_i32_89 : BitVec 32 := 0#32
  let c1_i32_90 : BitVec 32 := 1#32
  let arg16 : BitVec 32 := Scf.iv c0_i32_89 c1_i32_90 k1_t6
  let v130 : Index := Scalar.indexCast arg16
  let c64 : Index := 64#32
  ![v130.toNat, 64]
def k1_off29 (k1_t6 : Fin k1_t6_loop.trips) : Fin 2 → Nat :=
  let c0_i32_89 : BitVec 32 := 0#32
  let c1_i32_90 : BitVec 32 := 1#32
  let arg16 : BitVec 32 := Scf.iv c0_i32_89 c1_i32_90 k1_t6
  let v134 : Index := Scalar.indexCast arg16
  let c80 : Index := 80#32
  ![v134.toNat, 80]
def k1_off30 (k1_t6 : Fin k1_t6_loop.trips) : Fin 2 → Nat :=
  let c0_i32_89 : BitVec 32 := 0#32
  let c1_i32_90 : BitVec 32 := 1#32
  let arg16 : BitVec 32 := Scf.iv c0_i32_89 c1_i32_90 k1_t6
  let v138 : Index := Scalar.indexCast arg16
  let c96 : Index := 96#32
  ![v138.toNat, 96]
def k1_off31 (k1_t6 : Fin k1_t6_loop.trips) : Fin 2 → Nat :=
  let c0_i32_89 : BitVec 32 := 0#32
  let c1_i32_90 : BitVec 32 := 1#32
  let arg16 : BitVec 32 := Scf.iv c0_i32_89 c1_i32_90 k1_t6
  let v142 : Index := Scalar.indexCast arg16
  let c112 : Index := 112#32
  ![v142.toNat, 112]
def k1_cond7 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32_58 : BitVec 32 := 3#32
  let v80 : BitVec 32 := Scalar.addi v2 c3_i32_58
  let c1_i32_63 : BitVec 32 := 1#32
  let v85 : BitVec 1 := Scalar.cmpi .sge v80 c1_i32_63
  let c126_i32_64 : BitVec 32 := 126#32
  let v86 : BitVec 1 := Scalar.cmpi .sle v80 c126_i32_64
  let v87 : BitVec 1 := Scalar.andi v85 v86
  let v88 : BitVec 32 := Scalar.extui v87
  let c0_i32_65 : BitVec 32 := 0#32
  let v89 : BitVec 1 := Scalar.cmpi .ne v88 c0_i32_65
  v89

@[reducible] def k1_t7_loop : Scf.Loop 32 :=
  let c1_i32_112 : BitVec 32 := 1#32
  let c126_i32_113 : BitVec 32 := 126#32
  let v177 : BitVec 32 := Scalar.addi c1_i32_112 c126_i32_113
  let c1_i32_114 : BitVec 32 := 1#32
  ⟨c1_i32_112, v177, c1_i32_114⟩
def k1_off32 (k1_t7 : Fin k1_t7_loop.trips) : Fin 2 → Nat :=
  let c1_i32_112 : BitVec 32 := 1#32
  let c1_i32_114 : BitVec 32 := 1#32
  let arg16 : BitVec 32 := Scf.iv c1_i32_112 c1_i32_114 k1_t7
  let v178 : Index := Scalar.indexCast arg16
  let c0_116 : Index := 0#32
  ![v178.toNat, 0]
def k1_off33 (k1_t7 : Fin k1_t7_loop.trips) : Fin 2 → Nat :=
  let c1_i32_112 : BitVec 32 := 1#32
  let c1_i32_114 : BitVec 32 := 1#32
  let arg16 : BitVec 32 := Scf.iv c1_i32_112 c1_i32_114 k1_t7
  let v186 : Index := Scalar.indexCast arg16
  let c112_118 : Index := 112#32
  ![v186.toNat, 112]
def k1_cond8 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32_58 : BitVec 32 := 3#32
  let v80 : BitVec 32 := Scalar.addi v2 c3_i32_58
  let c1_i32_63 : BitVec 32 := 1#32
  let v85 : BitVec 1 := Scalar.cmpi .sge v80 c1_i32_63
  let c126_i32_64 : BitVec 32 := 126#32
  let v86 : BitVec 1 := Scalar.cmpi .sle v80 c126_i32_64
  let v87 : BitVec 1 := Scalar.andi v85 v86
  let true_66 : BitVec 1 := 1#1
  let v90 : BitVec 1 := Scalar.xori v87 true_66
  let v91 : BitVec 32 := Scalar.extui v90
  let c0_i32_67 : BitVec 32 := 0#32
  let v92 : BitVec 1 := Scalar.cmpi .ne v91 c0_i32_67
  v92

@[reducible] def k1_t8_loop : Scf.Loop 32 :=
  let c0_i32_89 : BitVec 32 := 0#32
  let c128_i32 : BitVec 32 := 128#32
  let v113 : BitVec 32 := Scalar.addi c0_i32_89 c128_i32
  let c1_i32_90 : BitVec 32 := 1#32
  ⟨c0_i32_89, v113, c1_i32_90⟩
def k1_off34 (k1_t8 : Fin k1_t8_loop.trips) : Fin 2 → Nat :=
  let c0_i32_89 : BitVec 32 := 0#32
  let c1_i32_90 : BitVec 32 := 1#32
  let arg16 : BitVec 32 := Scf.iv c0_i32_89 c1_i32_90 k1_t8
  let v114 : Index := Scalar.indexCast arg16
  let c0 : Index := 0#32
  ![v114.toNat, 0]
def k1_off35 (k1_t8 : Fin k1_t8_loop.trips) : Fin 2 → Nat :=
  let c0_i32_89 : BitVec 32 := 0#32
  let c1_i32_90 : BitVec 32 := 1#32
  let arg16 : BitVec 32 := Scf.iv c0_i32_89 c1_i32_90 k1_t8
  let v118 : Index := Scalar.indexCast arg16
  let c16 : Index := 16#32
  ![v118.toNat, 16]
def k1_off36 (k1_t8 : Fin k1_t8_loop.trips) : Fin 2 → Nat :=
  let c0_i32_89 : BitVec 32 := 0#32
  let c1_i32_90 : BitVec 32 := 1#32
  let arg16 : BitVec 32 := Scf.iv c0_i32_89 c1_i32_90 k1_t8
  let v122 : Index := Scalar.indexCast arg16
  let c32 : Index := 32#32
  ![v122.toNat, 32]
def k1_off37 (k1_t8 : Fin k1_t8_loop.trips) : Fin 2 → Nat :=
  let c0_i32_89 : BitVec 32 := 0#32
  let c1_i32_90 : BitVec 32 := 1#32
  let arg16 : BitVec 32 := Scf.iv c0_i32_89 c1_i32_90 k1_t8
  let v126 : Index := Scalar.indexCast arg16
  let c48 : Index := 48#32
  ![v126.toNat, 48]
def k1_off38 (k1_t8 : Fin k1_t8_loop.trips) : Fin 2 → Nat :=
  let c0_i32_89 : BitVec 32 := 0#32
  let c1_i32_90 : BitVec 32 := 1#32
  let arg16 : BitVec 32 := Scf.iv c0_i32_89 c1_i32_90 k1_t8
  let v130 : Index := Scalar.indexCast arg16
  let c64 : Index := 64#32
  ![v130.toNat, 64]
def k1_off39 (k1_t8 : Fin k1_t8_loop.trips) : Fin 2 → Nat :=
  let c0_i32_89 : BitVec 32 := 0#32
  let c1_i32_90 : BitVec 32 := 1#32
  let arg16 : BitVec 32 := Scf.iv c0_i32_89 c1_i32_90 k1_t8
  let v134 : Index := Scalar.indexCast arg16
  let c80 : Index := 80#32
  ![v134.toNat, 80]
def k1_off40 (k1_t8 : Fin k1_t8_loop.trips) : Fin 2 → Nat :=
  let c0_i32_89 : BitVec 32 := 0#32
  let c1_i32_90 : BitVec 32 := 1#32
  let arg16 : BitVec 32 := Scf.iv c0_i32_89 c1_i32_90 k1_t8
  let v138 : Index := Scalar.indexCast arg16
  let c96 : Index := 96#32
  ![v138.toNat, 96]
def k1_off41 (k1_t8 : Fin k1_t8_loop.trips) : Fin 2 → Nat :=
  let c0_i32_89 : BitVec 32 := 0#32
  let c1_i32_90 : BitVec 32 := 1#32
  let arg16 : BitVec 32 := Scf.iv c0_i32_89 c1_i32_90 k1_t8
  let v142 : Index := Scalar.indexCast arg16
  let c112 : Index := 112#32
  ![v142.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x128x128x128x1_S128x128x128 : S1x128x128x128x1.ShapeCasts S128x128x128
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  iota_S16x1x1_d0_w32 : S16x1x1.Iotas .tc 32 [0]
  iota_S1x128x1_d1_w32 : S1x128x1.Iotas .tc 32 [1]
  iota_S1x1x128_d2_w32 : S1x1x128.Iotas .tc 32 [2]
  slices_S16x128x128_o0_1_0_S16x1x128 : S16x128x128.Slices ![0, 1, 0] S16x1x128
  slices_S16x128x128_o0_126_0_S16x1x128 : S16x128x128.Slices ![0, 126, 0] S16x1x128
  shapeCasts_S1x128x1_S1x128x1 : S1x128x1.ShapeCasts S1x128x1
  broadcasts_S1x128x1_S16x128x128 : S1x128x1.Broadcasts S16x128x128
  shapeCasts_S16x1x128_S16x1x128 : S16x1x128.ShapeCasts S16x1x128
  broadcasts_S16x1x128_S16x128x128 : S16x1x128.Broadcasts S16x128x128
  broadcasts_S1x1x128_S1x128x128 : S1x1x128.Broadcasts S1x128x128
  broadcasts_S1x128x1_S1x128x128 : S1x128x1.Broadcasts S1x128x128
  shapeCasts_S1x128x128_S1x128x128 : S1x128x128.ShapeCasts S1x128x128
  broadcasts_S1x128x128_S16x128x128 : S1x128x128.Broadcasts S16x128x128
  slices_S16x128x128_o1_0_0_S1x128x128 : S16x128x128.Slices ![1, 0, 0] S1x128x128
  shapeCasts_S16x1x1_S16x1x1 : S16x1x1.ShapeCasts S16x1x1
  broadcasts_S16x1x1_S16x128x128 : S16x1x1.Broadcasts S16x128x128
  slices_S16x128x128_o14_0_0_S1x128x128 : S16x128x128.Slices ![14, 0, 0] S1x128x128
  broadcasts_S16x1x1_S16x128x1 : S16x1x1.Broadcasts S16x128x1
  broadcasts_S1x128x1_S16x128x1 : S1x128x1.Broadcasts S16x128x1
  broadcasts_S16x128x1_S16x128x128 : S16x128x1.Broadcasts S16x128x128
  broadcasts_S1x1x128_S16x128x128 : S1x1x128.Broadcasts S16x128x128
  iota_S16_d0_w32_scVector : S16.Iotas .scVector 32 [0]
  squeezes_S1x128x128_S128x128 : S1x128x128.Squeezes S128x128
  inb_S128x128_S1x16_0_0 : ∀ a, (![0, 0] : Fin 2 → Nat) a + S1x16.size a ≤ S128x128.size a
  h_S1x16 : 0 < S1x16.numel
  shapeCasts_S1x16_S16 : S1x16.ShapeCasts S16
  shapeCasts_S16_S1x16 : S16.ShapeCasts S1x16
  inb_S128x128_S1x16_127_0 : ∀ a, (![127, 0] : Fin 2 → Nat) a + S1x16.size a ≤ S128x128.size a
  inb_S128x128_S1x16_0_16 : ∀ a, (![0, 16] : Fin 2 → Nat) a + S1x16.size a ≤ S128x128.size a
  inb_S128x128_S1x16_127_16 : ∀ a, (![127, 16] : Fin 2 → Nat) a + S1x16.size a ≤ S128x128.size a
  inb_S128x128_S1x16_0_32 : ∀ a, (![0, 32] : Fin 2 → Nat) a + S1x16.size a ≤ S128x128.size a
  inb_S128x128_S1x16_127_32 : ∀ a, (![127, 32] : Fin 2 → Nat) a + S1x16.size a ≤ S128x128.size a
  inb_S128x128_S1x16_0_48 : ∀ a, (![0, 48] : Fin 2 → Nat) a + S1x16.size a ≤ S128x128.size a
  inb_S128x128_S1x16_127_48 : ∀ a, (![127, 48] : Fin 2 → Nat) a + S1x16.size a ≤ S128x128.size a
  inb_S128x128_S1x16_0_64 : ∀ a, (![0, 64] : Fin 2 → Nat) a + S1x16.size a ≤ S128x128.size a
  inb_S128x128_S1x16_127_64 : ∀ a, (![127, 64] : Fin 2 → Nat) a + S1x16.size a ≤ S128x128.size a
  inb_S128x128_S1x16_0_80 : ∀ a, (![0, 80] : Fin 2 → Nat) a + S1x16.size a ≤ S128x128.size a
  inb_S128x128_S1x16_127_80 : ∀ a, (![127, 80] : Fin 2 → Nat) a + S1x16.size a ≤ S128x128.size a
  inb_S128x128_S1x16_0_96 : ∀ a, (![0, 96] : Fin 2 → Nat) a + S1x16.size a ≤ S128x128.size a
  inb_S128x128_S1x16_127_96 : ∀ a, (![127, 96] : Fin 2 → Nat) a + S1x16.size a ≤ S128x128.size a
  inb_S128x128_S1x16_0_112 : ∀ a, (![0, 112] : Fin 2 → Nat) a + S1x16.size a ≤ S128x128.size a
  inb_S128x128_S1x16_127_112 : ∀ a, (![127, 112] : Fin 2 → Nat) a + S1x16.size a ≤ S128x128.size a
  shapeCasts_S128x128x128_S1x128x128x128x1 : S128x128x128.ShapeCasts S1x128x128x128x1
  hcc1_scratch4 : 8 + S_.numel ≤ 16
  hcc1_scratch5 : 9 + S_.numel ≤ 16
  hcc1_scratch6 : 10 + S_.numel ≤ 16
  hcc1_scratch7 : 11 + S_.numel ≤ 16
  hcc1_scratch8 : 12 + S_.numel ≤ 16
  hcc1_scratch9 : 13 + S_.numel ≤ 16
  hcc1_scratch10 : 14 + S_.numel ≤ 16
  hcc1_scratch11 : 15 + S_.numel ≤ 16
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x128.size a ≤ S128x128x128.size a
  hwx0_0 : ∀ i : grid0.Coords, EltTy.bits .f32 = 32 ∨ (Rect.block (s := S128x128x128) S16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S128x128x128.size a
  hwx0_1 : ∀ i : grid0.Coords, EltTy.bits .f32 = 32 ∨ (Rect.block (s := S128x128x128) S16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x128.size a ≤ S128x128x128.size a
  hwx0_2 : ∀ i : grid0.Coords, EltTy.bits .f32 = 32 ∨ (Rect.block (s := S128x128x128) S16x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x128.size a ≤ S128x128x128.size a
  hwx0_3 : ∀ i : grid0.Coords, EltTy.bits .f32 = 32 ∨ (Rect.block (s := S128x128x128) S16x128x128.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ (r : Fin 4), ∀ a, (k1_off1 i (BitVec.ofNat 32 r.val)) a + S1x128x128.size a ≤ S128x128x128.size a
  k1_t1_ok : ∀ i : grid1.Coords, ∀ (k1_h1 : k1_cond1 i = 1#1), k1_t1_loop.OK
  k1_off2_inb : ∀ (i : grid1.Coords) (k1_t1 : Fin k1_t1_loop.trips), ∀ (k1_h1 : k1_cond1 i = 1#1), ∀ a, (k1_off2 k1_t1) a + S1x16.size a ≤ S128x128.size a
  k1_off3_inb : ∀ (i : grid1.Coords) (k1_t1 : Fin k1_t1_loop.trips), ∀ (k1_h1 : k1_cond1 i = 1#1), ∀ a, (k1_off3 k1_t1) a + S1x16.size a ≤ S128x128.size a
  k1_t2_ok : ∀ i : grid1.Coords, ∀ (k1_h2 : k1_cond2 i = 1#1), k1_t2_loop.OK
  k1_off4_inb : ∀ (i : grid1.Coords) (k1_t2 : Fin k1_t2_loop.trips), ∀ (k1_h2 : k1_cond2 i = 1#1), ∀ a, (k1_off4 k1_t2) a + S1x16.size a ≤ S128x128.size a
  k1_off5_inb : ∀ (i : grid1.Coords) (k1_t2 : Fin k1_t2_loop.trips), ∀ (k1_h2 : k1_cond2 i = 1#1), ∀ a, (k1_off5 k1_t2) a + S1x16.size a ≤ S128x128.size a
  k1_off6_inb : ∀ (i : grid1.Coords) (k1_t2 : Fin k1_t2_loop.trips), ∀ (k1_h2 : k1_cond2 i = 1#1), ∀ a, (k1_off6 k1_t2) a + S1x16.size a ≤ S128x128.size a
  k1_off7_inb : ∀ (i : grid1.Coords) (k1_t2 : Fin k1_t2_loop.trips), ∀ (k1_h2 : k1_cond2 i = 1#1), ∀ a, (k1_off7 k1_t2) a + S1x16.size a ≤ S128x128.size a
  k1_off8_inb : ∀ (i : grid1.Coords) (k1_t2 : Fin k1_t2_loop.trips), ∀ (k1_h2 : k1_cond2 i = 1#1), ∀ a, (k1_off8 k1_t2) a + S1x16.size a ≤ S128x128.size a
  k1_off9_inb : ∀ (i : grid1.Coords) (k1_t2 : Fin k1_t2_loop.trips), ∀ (k1_h2 : k1_cond2 i = 1#1), ∀ a, (k1_off9 k1_t2) a + S1x16.size a ≤ S128x128.size a
  k1_off10_inb : ∀ (i : grid1.Coords) (k1_t2 : Fin k1_t2_loop.trips), ∀ (k1_h2 : k1_cond2 i = 1#1), ∀ a, (k1_off10 k1_t2) a + S1x16.size a ≤ S128x128.size a
  k1_off11_inb : ∀ (i : grid1.Coords) (k1_t2 : Fin k1_t2_loop.trips), ∀ (k1_h2 : k1_cond2 i = 1#1), ∀ a, (k1_off11 k1_t2) a + S1x16.size a ≤ S128x128.size a
  k1_t3_ok : ∀ i : grid1.Coords, ∀ (k1_h3 : k1_cond3 i = 1#1), k1_t3_loop.OK
  k1_off12_inb : ∀ (i : grid1.Coords) (k1_t3 : Fin k1_t3_loop.trips), ∀ (k1_h3 : k1_cond3 i = 1#1), ∀ a, (k1_off12 k1_t3) a + S1x16.size a ≤ S128x128.size a
  k1_off13_inb : ∀ (i : grid1.Coords) (k1_t3 : Fin k1_t3_loop.trips), ∀ (k1_h3 : k1_cond3 i = 1#1), ∀ a, (k1_off13 k1_t3) a + S1x16.size a ≤ S128x128.size a
  k1_t4_ok : ∀ i : grid1.Coords, ∀ (k1_h4 : k1_cond4 i = 1#1), k1_t4_loop.OK
  k1_off14_inb : ∀ (i : grid1.Coords) (k1_t4 : Fin k1_t4_loop.trips), ∀ (k1_h4 : k1_cond4 i = 1#1), ∀ a, (k1_off14 k1_t4) a + S1x16.size a ≤ S128x128.size a
  k1_off15_inb : ∀ (i : grid1.Coords) (k1_t4 : Fin k1_t4_loop.trips), ∀ (k1_h4 : k1_cond4 i = 1#1), ∀ a, (k1_off15 k1_t4) a + S1x16.size a ≤ S128x128.size a
  k1_off16_inb : ∀ (i : grid1.Coords) (k1_t4 : Fin k1_t4_loop.trips), ∀ (k1_h4 : k1_cond4 i = 1#1), ∀ a, (k1_off16 k1_t4) a + S1x16.size a ≤ S128x128.size a
  k1_off17_inb : ∀ (i : grid1.Coords) (k1_t4 : Fin k1_t4_loop.trips), ∀ (k1_h4 : k1_cond4 i = 1#1), ∀ a, (k1_off17 k1_t4) a + S1x16.size a ≤ S128x128.size a
  k1_off18_inb : ∀ (i : grid1.Coords) (k1_t4 : Fin k1_t4_loop.trips), ∀ (k1_h4 : k1_cond4 i = 1#1), ∀ a, (k1_off18 k1_t4) a + S1x16.size a ≤ S128x128.size a
  k1_off19_inb : ∀ (i : grid1.Coords) (k1_t4 : Fin k1_t4_loop.trips), ∀ (k1_h4 : k1_cond4 i = 1#1), ∀ a, (k1_off19 k1_t4) a + S1x16.size a ≤ S128x128.size a
  k1_off20_inb : ∀ (i : grid1.Coords) (k1_t4 : Fin k1_t4_loop.trips), ∀ (k1_h4 : k1_cond4 i = 1#1), ∀ a, (k1_off20 k1_t4) a + S1x16.size a ≤ S128x128.size a
  k1_off21_inb : ∀ (i : grid1.Coords) (k1_t4 : Fin k1_t4_loop.trips), ∀ (k1_h4 : k1_cond4 i = 1#1), ∀ a, (k1_off21 k1_t4) a + S1x16.size a ≤ S128x128.size a
  k1_t5_ok : ∀ i : grid1.Coords, ∀ (k1_h5 : k1_cond5 i = 1#1), k1_t5_loop.OK
  k1_off22_inb : ∀ (i : grid1.Coords) (k1_t5 : Fin k1_t5_loop.trips), ∀ (k1_h5 : k1_cond5 i = 1#1), ∀ a, (k1_off22 k1_t5) a + S1x16.size a ≤ S128x128.size a
  k1_off23_inb : ∀ (i : grid1.Coords) (k1_t5 : Fin k1_t5_loop.trips), ∀ (k1_h5 : k1_cond5 i = 1#1), ∀ a, (k1_off23 k1_t5) a + S1x16.size a ≤ S128x128.size a
  k1_t6_ok : ∀ i : grid1.Coords, ∀ (k1_h6 : k1_cond6 i = 1#1), k1_t6_loop.OK
  k1_off24_inb : ∀ (i : grid1.Coords) (k1_t6 : Fin k1_t6_loop.trips), ∀ (k1_h6 : k1_cond6 i = 1#1), ∀ a, (k1_off24 k1_t6) a + S1x16.size a ≤ S128x128.size a
  k1_off25_inb : ∀ (i : grid1.Coords) (k1_t6 : Fin k1_t6_loop.trips), ∀ (k1_h6 : k1_cond6 i = 1#1), ∀ a, (k1_off25 k1_t6) a + S1x16.size a ≤ S128x128.size a
  k1_off26_inb : ∀ (i : grid1.Coords) (k1_t6 : Fin k1_t6_loop.trips), ∀ (k1_h6 : k1_cond6 i = 1#1), ∀ a, (k1_off26 k1_t6) a + S1x16.size a ≤ S128x128.size a
  k1_off27_inb : ∀ (i : grid1.Coords) (k1_t6 : Fin k1_t6_loop.trips), ∀ (k1_h6 : k1_cond6 i = 1#1), ∀ a, (k1_off27 k1_t6) a + S1x16.size a ≤ S128x128.size a
  k1_off28_inb : ∀ (i : grid1.Coords) (k1_t6 : Fin k1_t6_loop.trips), ∀ (k1_h6 : k1_cond6 i = 1#1), ∀ a, (k1_off28 k1_t6) a + S1x16.size a ≤ S128x128.size a
  k1_off29_inb : ∀ (i : grid1.Coords) (k1_t6 : Fin k1_t6_loop.trips), ∀ (k1_h6 : k1_cond6 i = 1#1), ∀ a, (k1_off29 k1_t6) a + S1x16.size a ≤ S128x128.size a
  k1_off30_inb : ∀ (i : grid1.Coords) (k1_t6 : Fin k1_t6_loop.trips), ∀ (k1_h6 : k1_cond6 i = 1#1), ∀ a, (k1_off30 k1_t6) a + S1x16.size a ≤ S128x128.size a
  k1_off31_inb : ∀ (i : grid1.Coords) (k1_t6 : Fin k1_t6_loop.trips), ∀ (k1_h6 : k1_cond6 i = 1#1), ∀ a, (k1_off31 k1_t6) a + S1x16.size a ≤ S128x128.size a
  k1_t7_ok : ∀ i : grid1.Coords, ∀ (k1_h7 : k1_cond7 i = 1#1), k1_t7_loop.OK
  k1_off32_inb : ∀ (i : grid1.Coords) (k1_t7 : Fin k1_t7_loop.trips), ∀ (k1_h7 : k1_cond7 i = 1#1), ∀ a, (k1_off32 k1_t7) a + S1x16.size a ≤ S128x128.size a
  k1_off33_inb : ∀ (i : grid1.Coords) (k1_t7 : Fin k1_t7_loop.trips), ∀ (k1_h7 : k1_cond7 i = 1#1), ∀ a, (k1_off33 k1_t7) a + S1x16.size a ≤ S128x128.size a
  k1_t8_ok : ∀ i : grid1.Coords, ∀ (k1_h8 : k1_cond8 i = 1#1), k1_t8_loop.OK
  k1_off34_inb : ∀ (i : grid1.Coords) (k1_t8 : Fin k1_t8_loop.trips), ∀ (k1_h8 : k1_cond8 i = 1#1), ∀ a, (k1_off34 k1_t8) a + S1x16.size a ≤ S128x128.size a
  k1_off35_inb : ∀ (i : grid1.Coords) (k1_t8 : Fin k1_t8_loop.trips), ∀ (k1_h8 : k1_cond8 i = 1#1), ∀ a, (k1_off35 k1_t8) a + S1x16.size a ≤ S128x128.size a
  k1_off36_inb : ∀ (i : grid1.Coords) (k1_t8 : Fin k1_t8_loop.trips), ∀ (k1_h8 : k1_cond8 i = 1#1), ∀ a, (k1_off36 k1_t8) a + S1x16.size a ≤ S128x128.size a
  k1_off37_inb : ∀ (i : grid1.Coords) (k1_t8 : Fin k1_t8_loop.trips), ∀ (k1_h8 : k1_cond8 i = 1#1), ∀ a, (k1_off37 k1_t8) a + S1x16.size a ≤ S128x128.size a
  k1_off38_inb : ∀ (i : grid1.Coords) (k1_t8 : Fin k1_t8_loop.trips), ∀ (k1_h8 : k1_cond8 i = 1#1), ∀ a, (k1_off38 k1_t8) a + S1x16.size a ≤ S128x128.size a
  k1_off39_inb : ∀ (i : grid1.Coords) (k1_t8 : Fin k1_t8_loop.trips), ∀ (k1_h8 : k1_cond8 i = 1#1), ∀ a, (k1_off39 k1_t8) a + S1x16.size a ≤ S128x128.size a
  k1_off40_inb : ∀ (i : grid1.Coords) (k1_t8 : Fin k1_t8_loop.trips), ∀ (k1_h8 : k1_cond8 i = 1#1), ∀ a, (k1_off40 k1_t8) a + S1x16.size a ≤ S128x128.size a
  k1_off41_inb : ∀ (i : grid1.Coords) (k1_t8 : Fin k1_t8_loop.trips), ∀ (k1_h8 : k1_cond8 i = 1#1), ∀ a, (k1_off41 k1_t8) a + S1x16.size a ≤ S128x128.size a

variable [Facts₀]

abbrev cc1_scratch4 : DmaSems sig S_ := SemArray.consecutive 8 S_ hcc1_scratch4
abbrev cc1_scratch5 : DmaSems sig S_ := SemArray.consecutive 9 S_ hcc1_scratch5
abbrev cc1_scratch6 : DmaSems sig S_ := SemArray.consecutive 10 S_ hcc1_scratch6
abbrev cc1_scratch7 : DmaSems sig S_ := SemArray.consecutive 11 S_ hcc1_scratch7
abbrev cc1_scratch8 : DmaSems sig S_ := SemArray.consecutive 12 S_ hcc1_scratch8
abbrev cc1_scratch9 : DmaSems sig S_ := SemArray.consecutive 13 S_ hcc1_scratch9
abbrev cc1_scratch10 : DmaSems sig S_ := SemArray.consecutive 14 S_ hcc1_scratch10
abbrev cc1_scratch11 : DmaSems sig S_ := SemArray.consecutive 15 S_ hcc1_scratch11

abbrev win0_0 : Pipeline.Window sig grid0 :=
  Pipeline.Window.ofSpec (Memref.whole main_v0) S16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S16x128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S16x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x128x128x128x1 : Shape := ⟨5, ![1, 128, 128, 128, 1]⟩
abbrev S_ : Shape := ⟨0, ![]⟩
abbrev S128x128 : Shape := ⟨2, ![128, 128]⟩
abbrev S1 : Shape := ⟨1, ![1]⟩
abbrev S3 : Shape := ⟨1, ![3]⟩
abbrev S1x128x1x128x1 : Shape := ⟨5, ![1, 128, 1, 128, 1]⟩
abbrev S1x1x128x128x1 : Shape := ⟨5, ![1, 1, 128, 128, 1]⟩

abbrev nBuf : Space → Nat
  | .hbm => 165
  | .vmem => 0
  | .smem => 0
  | _ => 0

abbrev hbmTy0_0 (i : Nat) : BufTy := match i % 128 with
  | 0 => ⟨S1x128x128x128x1, .f32⟩
  | 1 => ⟨S1x128x128x128x1, .f32⟩
  | 2 => ⟨S1x128x128x128x1, .f32⟩
  | 3 => ⟨S_, .f32⟩
  | 4 => ⟨S128x128, .f32⟩
  | 5 => ⟨S_, .f32⟩
  | 6 => ⟨S128x128, .f32⟩
  | 7 => ⟨S_, .f32⟩
  | 8 => ⟨S128x128, .f32⟩
  | 9 => ⟨S128x128, .f32⟩
  | 10 => ⟨S_, .i32⟩
  | 11 => ⟨S1, .i32⟩
  | 12 => ⟨S_, .i32⟩
  | 13 => ⟨S1, .i32⟩
  | 14 => ⟨S_, .i32⟩
  | 15 => ⟨S1, .i32⟩
  | 16 => ⟨S3, .i32⟩
  | 17 => ⟨S1x128x128x128x1, .f32⟩
  | 18 => ⟨S_, .i32⟩
  | 19 => ⟨S1, .i32⟩
  | 20 => ⟨S_, .i32⟩
  | 21 => ⟨S1, .i32⟩
  | 22 => ⟨S_, .i32⟩
  | 23 => ⟨S1, .i32⟩
  | 24 => ⟨S3, .i32⟩
  | 25 => ⟨S1x128x128x128x1, .f32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S3, .i32⟩
  | 33 => ⟨S1x128x128x128x1, .f32⟩
  | 34 => ⟨S_, .f32⟩
  | 35 => ⟨S128x128, .f32⟩
  | 36 => ⟨S128x128, .f32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S3, .i32⟩
  | 44 => ⟨S1x128x128x128x1, .f32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S3, .i32⟩
  | 52 => ⟨S1x128x128x128x1, .f32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S3, .i32⟩
  | 60 => ⟨S1x128x128x128x1, .f32⟩
  | 61 => ⟨S1x128x1x128x1, .f32⟩
  | 62 => ⟨S128x128, .f32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S3, .i32⟩
  | 70 => ⟨S1x128x128x128x1, .f32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S3, .i32⟩
  | 78 => ⟨S1x128x128x128x1, .f32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S3, .i32⟩
  | 86 => ⟨S1x128x128x128x1, .f32⟩
  | 87 => ⟨S1x128x1x128x1, .f32⟩
  | 88 => ⟨S128x128, .f32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S3, .i32⟩
  | 96 => ⟨S1x128x128x128x1, .f32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S3, .i32⟩
  | 104 => ⟨S1x128x128x128x1, .f32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S3, .i32⟩
  | 112 => ⟨S1x128x128x128x1, .f32⟩
  | 113 => ⟨S1x1x128x128x1, .f32⟩
  | 114 => ⟨S128x128, .f32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S3, .i32⟩
  | 122 => ⟨S1x128x128x128x1, .f32⟩
  | 123 => ⟨S_, .i32⟩
  | 124 => ⟨S1, .i32⟩
  | 125 => ⟨S_, .i32⟩
  | 126 => ⟨S1, .i32⟩
  | 127 => ⟨S_, .i32⟩
  | _ => ⟨S1x128x128x128x1, .f32⟩

abbrev hbmTy0_1 (i : Nat) : BufTy := match i % 128 with
  | 0 => ⟨S1, .i32⟩
  | 1 => ⟨S3, .i32⟩
  | 2 => ⟨S1x128x128x128x1, .f32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S3, .i32⟩
  | 10 => ⟨S1x128x128x128x1, .f32⟩
  | 11 => ⟨S1x1x128x128x1, .f32⟩
  | 12 => ⟨S128x128, .f32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S3, .i32⟩
  | 20 => ⟨S1x128x128x128x1, .f32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S3, .i32⟩
  | 28 => ⟨S1x128x128x128x1, .f32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S3, .i32⟩
  | 36 => ⟨S1x128x128x128x1, .f32⟩
  | _ => ⟨S1x128x128x128x1, .f32⟩

abbrev hbmTy (i : Nat) : BufTy := match i / 128 with
  | 0 => hbmTy0_0 i
  | 1 => hbmTy0_1 i
  | _ => ⟨S1x128x128x128x1, .f32⟩

abbrev bufTy : (tb : Table) → Fin (tcTables nBuf tb) → BufTy
  | .hbm, ⟨i, _⟩ => hbmTy i
  | _, _ => ⟨S1x128x128x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_c_9 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_10 : Ref sig .tc := ⟨.hbm, 34, rfl⟩
abbrev main_v19 : Ref sig .tc := ⟨.hbm, 35, rfl⟩
abbrev main_v20 : Ref sig .tc := ⟨.hbm, 36, rfl⟩
abbrev main_c_11 : Ref sig .tc := ⟨.hbm, 37, rfl⟩
abbrev main_v21 : Ref sig .tc := ⟨.hbm, 38, rfl⟩
abbrev main_c_12 : Ref sig .tc := ⟨.hbm, 39, rfl⟩
abbrev main_v22 : Ref sig .tc := ⟨.hbm, 40, rfl⟩
abbrev main_c_13 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_14 : Ref sig .tc := ⟨.hbm, 45, rfl⟩
abbrev main_v26 : Ref sig .tc := ⟨.hbm, 46, rfl⟩
abbrev main_c_15 : Ref sig .tc := ⟨.hbm, 47, rfl⟩
abbrev main_v27 : Ref sig .tc := ⟨.hbm, 48, rfl⟩
abbrev main_c_16 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_17 : Ref sig .tc := ⟨.hbm, 53, rfl⟩
abbrev main_v31 : Ref sig .tc := ⟨.hbm, 54, rfl⟩
abbrev main_c_18 : Ref sig .tc := ⟨.hbm, 55, rfl⟩
abbrev main_v32 : Ref sig .tc := ⟨.hbm, 56, rfl⟩
abbrev main_c_19 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_20 : Ref sig .tc := ⟨.hbm, 63, rfl⟩
abbrev main_v38 : Ref sig .tc := ⟨.hbm, 64, rfl⟩
abbrev main_c_21 : Ref sig .tc := ⟨.hbm, 65, rfl⟩
abbrev main_v39 : Ref sig .tc := ⟨.hbm, 66, rfl⟩
abbrev main_c_22 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_23 : Ref sig .tc := ⟨.hbm, 71, rfl⟩
abbrev main_v43 : Ref sig .tc := ⟨.hbm, 72, rfl⟩
abbrev main_c_24 : Ref sig .tc := ⟨.hbm, 73, rfl⟩
abbrev main_v44 : Ref sig .tc := ⟨.hbm, 74, rfl⟩
abbrev main_c_25 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_26 : Ref sig .tc := ⟨.hbm, 79, rfl⟩
abbrev main_v48 : Ref sig .tc := ⟨.hbm, 80, rfl⟩
abbrev main_c_27 : Ref sig .tc := ⟨.hbm, 81, rfl⟩
abbrev main_v49 : Ref sig .tc := ⟨.hbm, 82, rfl⟩
abbrev main_c_28 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_29 : Ref sig .tc := ⟨.hbm, 89, rfl⟩
abbrev main_v55 : Ref sig .tc := ⟨.hbm, 90, rfl⟩
abbrev main_c_30 : Ref sig .tc := ⟨.hbm, 91, rfl⟩
abbrev main_v56 : Ref sig .tc := ⟨.hbm, 92, rfl⟩
abbrev main_c_31 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_32 : Ref sig .tc := ⟨.hbm, 97, rfl⟩
abbrev main_v60 : Ref sig .tc := ⟨.hbm, 98, rfl⟩
abbrev main_c_33 : Ref sig .tc := ⟨.hbm, 99, rfl⟩
abbrev main_v61 : Ref sig .tc := ⟨.hbm, 100, rfl⟩
abbrev main_c_34 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_35 : Ref sig .tc := ⟨.hbm, 105, rfl⟩
abbrev main_v65 : Ref sig .tc := ⟨.hbm, 106, rfl⟩
abbrev main_c_36 : Ref sig .tc := ⟨.hbm, 107, rfl⟩
abbrev main_v66 : Ref sig .tc := ⟨.hbm, 108, rfl⟩
abbrev main_c_37 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_38 : Ref sig .tc := ⟨.hbm, 115, rfl⟩
abbrev main_v72 : Ref sig .tc := ⟨.hbm, 116, rfl⟩
abbrev main_c_39 : Ref sig .tc := ⟨.hbm, 117, rfl⟩
abbrev main_v73 : Ref sig .tc := ⟨.hbm, 118, rfl⟩
abbrev main_c_40 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_41 : Ref sig .tc := ⟨.hbm, 123, rfl⟩
abbrev main_v77 : Ref sig .tc := ⟨.hbm, 124, rfl⟩
abbrev main_c_42 : Ref sig .tc := ⟨.hbm, 125, rfl⟩
abbrev main_v78 : Ref sig .tc := ⟨.hbm, 126, rfl⟩
abbrev main_c_43 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_44 : Ref sig .tc := ⟨.hbm, 131, rfl⟩
abbrev main_v82 : Ref sig .tc := ⟨.hbm, 132, rfl⟩
abbrev main_c_45 : Ref sig .tc := ⟨.hbm, 133, rfl⟩
abbrev main_v83 : Ref sig .tc := ⟨.hbm, 134, rfl⟩
abbrev main_c_46 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_c_47 : Ref sig .tc := ⟨.hbm, 141, rfl⟩
abbrev main_v89 : Ref sig .tc := ⟨.hbm, 142, rfl⟩
abbrev main_c_48 : Ref sig .tc := ⟨.hbm, 143, rfl⟩
abbrev main_v90 : Ref sig .tc := ⟨.hbm, 144, rfl⟩
abbrev main_c_49 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_c_50 : Ref sig .tc := ⟨.hbm, 149, rfl⟩
abbrev main_v94 : Ref sig .tc := ⟨.hbm, 150, rfl⟩
abbrev main_c_51 : Ref sig .tc := ⟨.hbm, 151, rfl⟩
abbrev main_v95 : Ref sig .tc := ⟨.hbm, 152, rfl⟩
abbrev main_c_52 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_53 : Ref sig .tc := ⟨.hbm, 157, rfl⟩
abbrev main_v99 : Ref sig .tc := ⟨.hbm, 158, rfl⟩
abbrev main_c_54 : Ref sig .tc := ⟨.hbm, 159, rfl⟩
abbrev main_v100 : Ref sig .tc := ⟨.hbm, 160, rfl⟩
abbrev main_c_55 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S_S1 : S_.BroadcastsInDim S1 (![] : Fin 0 → Fin S1.rank)
  concatenates_S1_S1_S1_S3_d0 : Shape.Concatenates [S1, S1, S1] S3 0
  slices_S1x128x128x128x1_S1x128x1x128x1_0_0_1_0_0 : S1x128x128x128x1.Slices ![0, 0, 1, 0, 0] S1x128x1x128x1
  shapeCasts_S1x128x1x128x1_S128x128 : S1x128x1x128x1.ShapeCasts S128x128
  slices_S1x128x128x128x1_S1x128x1x128x1_0_0_126_0_0 : S1x128x128x128x1.Slices ![0, 0, 126, 0, 0] S1x128x1x128x1
  slices_S1x128x128x128x1_S1x1x128x128x1_0_1_0_0_0 : S1x128x128x128x1.Slices ![0, 1, 0, 0, 0] S1x1x128x128x1
  shapeCasts_S1x1x128x128x1_S128x128 : S1x1x128x128x1.ShapeCasts S128x128
  slices_S1x128x128x128x1_S1x1x128x128x1_0_126_0_0_0 : S1x128x128x128x1.Slices ![0, 126, 0, 0, 0] S1x1x128x128x1
  scatter_S1x128x128x128x1_S3_S128x128_01_034_034_0_wf : ScatterDims.WF S1x128x128x128x1 S3 S128x128 [0, 1] [0, 3, 4] [0, 3, 4] 0
  scatter_S1x128x128x128x1_S3_S128x128_01_024_024_0_wf : ScatterDims.WF S1x128x128x128x1 S3 S128x128 [0, 1] [0, 2, 4] [0, 2, 4] 0
  scatter_S1x128x128x128x1_S3_S128x128_01_014_014_0_wf : ScatterDims.WF S1x128x128x128x1 S3 S128x128 [0, 1] [0, 1, 4] [0, 1, 4] 0

variable [Facts₀]

def scatter_S1x128x128x128x1_S3_S128x128_01_034_034_0 : ScatterDims S1x128x128x128x1 S3 S128x128 where
  updateWindowDims := [0, 1]
  insertedWindowDims := [0, 3, 4]
  scatterDimsToOperandDims := [0, 3, 4]
  indexVectorDim := 0
  wf := scatter_S1x128x128x128x1_S3_S128x128_01_034_034_0_wf
def scatter_S1x128x128x128x1_S3_S128x128_01_024_024_0 : ScatterDims S1x128x128x128x1 S3 S128x128 where
  updateWindowDims := [0, 1]
  insertedWindowDims := [0, 2, 4]
  scatterDimsToOperandDims := [0, 2, 4]
  indexVectorDim := 0
  wf := scatter_S1x128x128x128x1_S3_S128x128_01_024_024_0_wf
def scatter_S1x128x128x128x1_S3_S128x128_01_014_014_0 : ScatterDims S1x128x128x128x1 S3 S128x128 where
  updateWindowDims := [0, 1]
  insertedWindowDims := [0, 1, 4]
  scatterDimsToOperandDims := [0, 1, 4]
  indexVectorDim := 0
  wf := scatter_S1x128x128x128x1_S3_S128x128_01_014_014_0_wf

class Facts : Prop extends Facts₀ where

variable [Facts]
-- ==== Proof.Setup.lean ====
/-
  The idealized kernel as the SparseCore launch theorem sees it: the program's label signature, its SparseCore
  configuration, its body table, the side conditions of the configuration, and the ghost state — the launch
  handshakes' rounds, the TensorCore pipeline's rounds, and the transfer counters of the vector subcores' own copies.
-/
import proofs.«203824_g32177894982282_cont_8to1_b_1676_14_alg».proof.Defs
import proofs.«203824_g32177894982282_cont_8to1_b_1676_14_alg».proof.Proof.Gen.KernelIdeal
import proofs.«203824_g32177894982282_cont_8to1_b_1676_14_alg».proof.Proof.Gen.KernelIdeal.Skeleton
import proofs.«203824_g32177894982282_cont_8to1_b_1676_14_alg».proof.Proof.Gen.KernelIdeal.Launch
import proofs.«203824_g32177894982282_cont_8to1_b_1676_14_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the TensorCore side: the kernels' own and the one pipelined region's. -/
abbrev ΛP : Labels := Pipeline.Sig Λ₀ (Fin 1) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table below the SparseCore launch: the kernels' bodies and the pipelined region. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipeline's rounds: the left factor of the right factor (the counters, the right factor of the right factor,
    are found by instance). -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The launch element splits: the handshakes' part, the pipeline's part; the counters' part is dropped. -/
theorem ownU_split (a : UH) (b : UP) (c : Counters) :
    (ownU (a, (b, c)) : sProp (MT nD τ sig (HIx 1) (Elt F) ℕ UU ℕ)) ⊢ iprop(BI.own (EH a) ∗ BI.own (EP b)) := by
  iintro Hu
  ihave H := (ownU_pair _ _) $$ Hu
  icases H with ⟨HH, HR⟩
  ihave HR' := (own_pair_emb embR b c) $$ HR
  icases HR' with ⟨HP, -⟩
  isplitl [HH]; · iexact HH
  unfold EP; iexact HP

end Cert.Proof.KI

end
-- ==== Proof.RegionBody.lean ====
/-
  The TensorCore kernel's body on whole staging buffers: from the two input blocks it leaves, in the two output
  buffers, one pure function each of the input block and the grid point.
-/
import proofs.«203824_g32177894982282_cont_8to1_b_1676_14_alg».proof.Proof.Setup
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## What the body leaves in each output buffer -/

/-- The one rectangle every access of the body goes through: the whole block. -/
abbrev rB : Rect S16x128x128 := Rect.unit (s := S16x128x128) ![0, 0, 0] S16x128x128.size inb_S16x128x128_S16x128x128_0_0_0

/-- The first output's block, from the first input's block at grid point `i`: its one store, over the payloads. -/
def blkU (i : grid0.Coords) (x0 : Vec F S16x128x128 .f32) : Vec F S16x128x128 .f32 :=
  View.canon [⟨rB, k0_pay1 (k0_pay3 (View.ld x0 rB)) (k0_pay5 i) (k0_pay7 (View.ld x0 rB)) k0_pay8⟩]

/-- The second output's block, from the second input's block at grid point `i`. -/
def blkV (i : grid0.Coords) (x1 : Vec F S16x128x128 .f32) : Vec F S16x128x128 .f32 :=
  View.canon [⟨rB, k0_pay2 (k0_pay4 (View.ld x1 rB)) (k0_pay5 i) (iota .tc S1x128x1 32 [1] iota_S1x128x1_d1_w32) k0_pay6⟩]

/-- One store through the whole block covers the block. -/
theorem coverB (p0 : Vec F S16x128x128 .f32) (y : S16x128x128.Idx) :
    ∃ pc ∈ ([⟨rB, p0⟩] : List (View.Piece (Elt F) S16x128x128 .f32)), y ∈ pc.1.set :=
  View.cover_of_tiled [⟨rB, p0⟩] S16x128x128.size (by rfl) y

/-! ## The body's triple -/

set_option maxHeartbeats 1000000 in
/-- On whole staging buffers, the inputs' at contents `x0`, `x1` and the outputs' at anything, the body runs to the
    continuation holding the inputs' as they were and the outputs' at `blkU i x0`, `blkV i x1`. -/
theorem sound_kernel (c : Dev nD) (E : Set ℕ) (i : grid0.Coords)
    (arg1 : Memref sig .tc .vmem S16x128x128 .f32) (harg1 : arg1.IsWhole) (arg2 : Memref sig .tc .vmem S16x128x128 .f32) (harg2 : arg2.IsWhole)
    (arg3 : Memref sig .tc .vmem S16x128x128 .f32) (harg3 : arg3.IsWhole) (arg4 : Memref sig .tc .vmem S16x128x128 .f32) (harg4 : arg4.IsWhole)
    (x0 : Vec F S16x128x128 .f32) (x1 : Vec F S16x128x128 .f32) (Kc : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (blkU i x0) ∗ owns (c : Thread nD τ) arg4 fullShare (blkV i x1)) -∗ Kc ⟨⟩))
      ⊢ wp frame (wpE (defs₀ (F := F)) Variants.none c none) E (cc0__tc_kernel i arg1 harg1 arg2 harg2 arg3 harg3 arg4 harg4) Kc := by
  simp only [cc0__tc_kernel_eq_skeleton]; unfold cc0__tc_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverB _)
  iexists _; isplitr
  swap; · iexact H3
  ipureintro
  exact View.read_writes_eq_canon _ _ _ (coverB _)

end Cert.Proof.KI

end
-- ==== Proof.RegionDat.lean ====
/-
  The pipeline's proof data on a TensorCore: the four windowed arrays at given contents, each input's staging buffer
  at its block of the array, each output's at the body's function of the input block; the body obligation.
-/
import proofs.«203824_g32177894982282_cont_8to1_b_1676_14_alg».proof.Proof.RegionBody
import proofs.«203824_g32177894982282_cont_8to1_b_1676_14_alg».proof.Proof.Gen.KernelIdeal.Launch
import proofs.«203824_g32177894982282_cont_8to1_b_1676_14_alg».proof.Proof.Gen.KernelIdeal.Points

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The contents of an array of the grid's shape. -/
abbrev Arr3 : Type := S128x128x128.Idx → Elt F .f32

variable (O : CellTallies nD τ sig (HIx 1)) (B : Set (SemLoc sig × HIx 1)) (a0 a1 f0 f1 : Arr3 (F := F))

/-- The windowed arrays' contents when the region is entered: the two inputs, the two results at anything. -/
def arrs (c : Dev nD) : (w : Fin cfg0.W) → Buf (Elt F) ((cfg0.win w).arr.view.loc (c : Thread nD τ))
  | ⟨0, _⟩ => a0
  | ⟨1, _⟩ => a1
  | ⟨2, _⟩ => f0
  | ⟨3, _⟩ => f1

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (arrs a0 a1 f0 f1 c w)

/-- The proof data: after the body at point `t` each input's buffer holds its block and each output's the body's
    function of the input block; the invariant is the scoped rest (nothing); the core owes `O` throughout, its
    recorded pairs within `B`; full shares. -/
def dats (_ : Fin 1) (c : Dev nD) : Dat τ (Elt F) (HIx 1) ℕ UU ℕ cfg0 c where
  A := arrs a0 a1 f0 f1 c
  after w t := match w with
    | ⟨0, _⟩ => iblk a0 a1 f0 f1 c 0 t
    | ⟨1, _⟩ => iblk a0 a1 f0 f1 c 1 t
    | ⟨2, _⟩ => blkU (grid0.coords t) (iblk a0 a1 f0 f1 c 0 t)
    | ⟨3, _⟩ => blkV (grid0.coords t) (iblk a0 a1 f0 f1 c 1 t)
  Φ _ := Pipeline.scopedRest (Ix := HIx 1) (Name := ℕ) (U := UU) (Lvl := ℕ) (Val := Elt F) spec0 c
  q _ := fullShare
  owed _ := O
  recorded _ := B

theorem A_eq (c : Dev nD) (w : Fin cfg0.W) : (dats O B a0 a1 f0 f1 0 c).A w = arrs a0 a1 f0 f1 c w := by
  dsimp only [dats]

theorem after0 (c : Dev nD) (t : Fin cfg0.N) : (dats O B a0 a1 f0 f1 0 c).after 0 t = iblk a0 a1 f0 f1 c 0 t := by dsimp only [dats]
theorem after1 (c : Dev nD) (t : Fin cfg0.N) : (dats O B a0 a1 f0 f1 0 c).after 1 t = iblk a0 a1 f0 f1 c 1 t := by dsimp only [dats]
theorem after2 (c : Dev nD) (t : Fin cfg0.N) :
    (dats O B a0 a1 f0 f1 0 c).after 2 t = blkU (grid0.coords t) (iblk a0 a1 f0 f1 c 0 t) := by dsimp only [dats]
theorem after3 (c : Dev nD) (t : Fin cfg0.N) :
    (dats O B a0 a1 f0 f1 0 c).after 3 t = blkV (grid0.coords t) (iblk a0 a1 f0 f1 c 1 t) := by dsimp only [dats]

/-- Each input's current staging buffer holds its block at every point. -/
theorem before0 (c : Dev nD) (t : Fin cfg0.N) (d) : (dats O B a0 a1 f0 f1 0 c).before 0 t d = iblk a0 a1 f0 f1 c 0 t :=
  ((dats O B a0 a1 f0 f1 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats O B a0 a1 f0 f1 0 c).before 1 t d = iblk a0 a1 f0 f1 c 1 t :=
  ((dats O B a0 a1 f0 f1 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats O B a0 a1 f0 f1 0 c).Φ t.castSucc ∗ (dats O B a0 a1 f0 f1 0 c).owesAt none t.castSucc
    ∗ (∃ d, owns (c : Thread nD τ) (st0_0 t) fullShare ((dats O B a0 a1 f0 f1 0 c).before 0 t d))
    ∗ (∃ d, owns (c : Thread nD τ) (st0_1 t) fullShare ((dats O B a0 a1 f0 f1 0 c).before 1 t d))
    ∗ (∃ d, owns (c : Thread nD τ) (st0_2 t) fullShare ((dats O B a0 a1 f0 f1 0 c).before 2 t d))
    ∗ (∃ d, owns (c : Thread nD τ) (st0_3 t) fullShare ((dats O B a0 a1 f0 f1 0 c).before 3 t d)))

def bodyPost (c : Dev nD) (t : Fin cfg0.N) : sProp 𝕄 :=
  iprop((dats O B a0 a1 f0 f1 0 c).Φ t.succ ∗ (dats O B a0 a1 f0 f1 0 c).owesAt none t.succ
    ∗ owns (c : Thread nD τ) (st0_0 t) fullShare ((dats O B a0 a1 f0 f1 0 c).after 0 t)
    ∗ owns (c : Thread nD τ) (st0_1 t) fullShare ((dats O B a0 a1 f0 f1 0 c).after 1 t)
    ∗ owns (c : Thread nD τ) (st0_2 t) fullShare ((dats O B a0 a1 f0 f1 0 c).after 2 t)
    ∗ owns (c : Thread nD τ) (st0_3 t) fullShare ((dats O B a0 a1 f0 f1 0 c).after 3 t))

theorem sound_body (c : Dev nD) (t : Fin cfg0.N) :
    bodyPre O B a0 a1 f0 f1 c t ⊢ wp frame (wpE (defs₀ (F := F)) Variants.none c none) Set.univ (bodyAt0 t) (fun _ => bodyPost O B a0 a1 f0 f1 c t) := by
  unfold bodyPre bodyPost bodyAt0
  simp only [before0, before1]
  rw [show (dats O B a0 a1 f0 f1 0 c).Φ t.succ = (dats O B a0 a1 f0 f1 0 c).Φ t.castSucc from rfl,
    show (dats O B a0 a1 f0 f1 0 c).owesAt none t.succ = (dats O B a0 a1 f0 f1 0 c).owesAt none t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk a0 a1 f0 f1 c 0 t) (iblk a0 a1 f0 f1 c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats O B a0 a1 f0 f1 0 c) (defs₀ (F := F)) Variants.none none Set.univ := fun t => by
  rw [bigSep_W0, bigSep_W0]
  exact sound_body O B a0 a1 f0 f1 c t

end Cert.Proof.KI

end
-- ==== Proof.RegionRun.lean ====
/-
  The region's run on a TensorCore inside the SparseCore program: from the four arrays, the region boundary, the
  staging cells' ghost state and what the TensorCore owes, the pipelined region runs to the arrays at what the
  pipeline library computes from the proof data, everything else handed back.
-/
import proofs.«203824_g32177894982282_cont_8to1_b_1676_14_alg».proof.Proof.RegionDat
import Idealize.ShloMosaic.Lib.Pipeline.Regions

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The pipeline prefetches no table: its one admissible contents. -/
abbrev adm : (p : Fin 1) → (pcfgs (F := F) p).Adm := fun p => (cfgs p).toPCfg_adm

/-- The rounds ghost state of the pipeline's staging cells on device `d`, with its duty tokens. -/
def GP (d : Dev nD) : sProp 𝕄 :=
  iprop(Pipeline.cellsGhost (Pipeline.pin (pcfgs (F := F)) adm) EP 0 d ∗ Pipeline.toksInit (Pipeline.pin (pcfgs (F := F)) adm) EP 0 d)

/-- The launch element's component for the pipeline's rounds. -/
def u₀P : UP := initOf (Pipeline.cells (nD := nD) (τ := τ) cfgs cellOf_inj) (Pipeline.launchToks (nD := nD) (τ := τ) cfgs cellOf_inj)

/-- What the TensorCore owes before the SparseCore call is all at a call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

variable (a0 a1 f0 f1 : Arr3 (F := F))

/-- The recorded pairs the TensorCore may hold before the call: those at level zero. -/
def Bd (c : Dev nD) : Set (SemLoc sig × HIx 1) := {p | (K (F := F)).lev ((T c : Thread nD τ), p.1) p.2 ≤ 0}

/-- The proof data of the pipeline on each device. -/
abbrev pdats (p : Fin 1) (c : Dev nD) : Dat τ (Elt F) (HIx 1) ℕ UU ℕ cfg0 c :=
  dats ((K (F := F)).Otc c 0) (Bd (F := F) c) a0 a1 f0 f1 p c

/-- What the TensorCore owes, as its handshake state holds it. -/
abbrev owesIn (c : Dev nD) : sProp 𝕄 :=
  iprop(∃ W, ⌜(K (F := F)).WBelow (T c) W (8 * 0)⌝ ∗ owes (T c : Thread nD τ) ((K (F := F)).Otc c 0) W)

/-- The four arrays at contents `G w`, one by one. -/
abbrev arrPts (c : Dev nD) (G : (w : Fin cfg0.W) → Buf (Elt F) ((cfg0.win w).arr.view.loc (c : Thread nD τ))) : sProp 𝕄 :=
  iprop((((c : Thread nD τ).loc main_v0) ↦{fullShare} G 0) ∗ (((c : Thread nD τ).loc main_v1) ↦{fullShare} G 1)
    ∗ (((c : Thread nD τ).loc main_v3_0) ↦{fullShare} G 2) ∗ (((c : Thread nD τ).loc main_v3_1) ↦{fullShare} G 3))

theorem share_full (c : Dev nD) (w : Fin cfg0.W) : (pdats a0 a1 f0 f1 0 c).share w = fullShare :=
  (pdats a0 a1 f0 f1 0 c).share_full (fun _ => rfl) w

set_option backward.isDefEq.respectTransparency.types false in
/-- The proof data's arrays are the four points-to. -/
theorem arrays_pts (c : Dev nD) (G : (w : Fin cfg0.W) → Buf (Elt F) ((cfg0.win w).arr.view.loc (c : Thread nD τ))) :
    (pdats a0 a1 f0 f1 0 c).arrays G = arrPts c G := by
  rw [Pipeline.arrays_eq (Pipeline.pin (pcfgs (F := F)) adm) (pdats a0 a1 f0 f1) 0 c launch0.arr_whole (share_full a0 a1 f0 f1 c) G, bigSep_W0]

set_option backward.isDefEq.respectTransparency.types false in
/-- THE REGION as the library's record: the launch kit's layout, no semaphore of the kernel's own, the body obligation,
    the wait evidence from the handshakes' levels (the TensorCore owes only at a call's index, its staging cells wait at
    index `none`); entered from the four arrays and what the core owes, left with the arrays at the computed contents. -/
def reg0 : Pipeline.RegionSeg (pcfgs (F := F)) adm (pdats a0 a1 f0 f1) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation _ _ a0 a1 f0 f1 c).loose
  hwaits c := Pipeline.cellsWaits_intro (Pipeline.pin (pcfgs (F := F)) adm) (pdats a0 a1 f0 f1) none 0 c fun w s t =>
    (K (F := F)).mayWait_none _ (fun g => Otc_none c 0 g)
  pre c := iprop(arrPts c (arrs a0 a1 f0 f1 c) ∗ owesIn c)
  post c := iprop(arrPts c ((pdats a0 a1 f0 f1 0 c).arrAt · cfg0.N) ∗ owesIn c)
  X _ := iprop(emp)
  Y _ := iprop(emp)
  Z _ := iprop(emp)
  hentry c := by
    rw [arrays_pts]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats a0 a1 f0 f1 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats a0 a1 f0 f1 0 c).Φ (Fin.last cfg0.N) = Pipeline.scopedRest (Ix := HIx 1) (Name := ℕ) (U := UU) (Lvl := ℕ) (Val := Elt F) spec0 c from rfl]
    iintro Hr
    isplitr; · iempintro
    isplitr; · iempintro
    iexact Hr
  hexit c := by
    rw [arrays_pts]
    iintro ⟨Ha, HO, -, -⟩
    imodintro
    isplitl [Ha]; · iexact Ha
    unfold Pipeline.Dat.owesAt Pipeline.owesWithin
    icases HO with ⟨%W, %hW, HO⟩; iexists W; isplitr
    · ipureintro
      intro p hp
      rcases hW hp with h | ⟨w, s, rfl⟩
      · exact h
      · exact Nat.le_of_eq rfl
    iexact HO

theorem reg0_pre (c : Dev nD) : (reg0 a0 a1 f0 f1).pre c = iprop(arrPts c (arrs a0 a1 f0 f1 c) ∗ owesIn c) := rfl
theorem reg0_post (c : Dev nD) : (reg0 a0 a1 f0 f1).post c = iprop(arrPts c ((pdats a0 a1 f0 f1 0 c).arrAt · cfg0.N) ∗ owesIn c) := rfl

set_option backward.isDefEq.respectTransparency.types false in
/-- The region's run under the program's own body table: from the level facts, the region boundary, the staging cells'
    ghost state, the four arrays and what the core owes, the region runs to the continuation holding the boundary, the
    arrays at what the pipeline library computes, and what the core owes. -/
theorem region_run_inner [∀ e, Nonempty (Elt F e)] (d : Dev nD) (Φ : PUnit → sProp 𝕄) :
    iprop(levAts (K (F := F)).L (K (F := F)).lev ∗ boundary (T d : Thread nD τ) ∗ GP d ∗ arrPts d (arrs a0 a1 f0 f1 d) ∗ owesIn d
        ∗ (iprop(boundary (T d : Thread nD τ) ∗ arrPts d ((pdats a0 a1 f0 f1 0 d).arrAt · cfg0.N) ∗ owesIn d) -∗ Φ ⟨⟩))
      ⊢ wp frame (wpE (D (F := F)) 𝒱 (T d) none) Set.univ (.op (.customCall (Pipeline.entry 0) ()) Prog.ret) Φ := by
  unfold GP
  iintro ⟨Hlv, Hb, ⟨Hg, Ht⟩, Ha, HO, Hk⟩
  iapply (Pipeline.RegionSeg.wp (pcfgs (F := F)) adm (pdats a0 a1 f0 f1) none cellOf_inj EP defs₀ 𝒱₀ (K (F := F)).L (K (F := F)).lev
    (reg0 a0 a1 f0 f1) d none (fun _ h => nomatch h) Prog.ret Φ)
  rw [reg0_pre, reg0_post]
  isplitl [Hk]
  · iintro ⟨Hb, Ha, HO⟩
    rw [wp_ret]; imodintro
    iapply Hk
    isplitl [Hb]; · iexact Hb
    isplitl [Ha]; · iexact Ha
    iexact HO
  isplitl [Hb]; · iexact Hb
  isplitl [Ha HO]
  · isplitl [Ha]; · iexact Ha
    iexact HO
  isplitl [Hlv]; · iexact Hlv
  isplitl [Hg]; · iexact Hg
  iexact Ht

/-- THE REGION'S RUN on device `d`'s TensorCore, inside the SparseCore program: the same under the extended body table. -/
theorem region_run [∀ e, Nonempty (Elt F e)] (d : Dev nD) (Φ : PUnit → sProp 𝕄) :
    iprop(levAts (K (F := F)).L (K (F := F)).lev ∗ boundary (T d : Thread nD τ) ∗ GP d ∗ arrPts d (arrs a0 a1 f0 f1 d) ∗ owesIn d
        ∗ (iprop(boundary (T d : Thread nD τ) ∗ arrPts d ((pdats a0 a1 f0 f1 0 d).arrAt · cfg0.N) ∗ owesIn d) -∗ Φ ⟨⟩))
      ⊢ wp frame (wpE ((K (F := F)).defs (D (F := F))) 𝒱 (T d) none) Set.univ
          (Prog.lift (.customCall (SparseCore.inner (Pipeline.entry 0)) ())) Φ :=
  (region_run_inner a0 a1 f0 f1 d Φ).trans
    ((K (F := F)).wp_liftProg (D (F := F)) 𝒱 (T d) Set.univ none (.op (.customCall (Pipeline.entry 0) ()) Prog.ret) Φ)

end Cert.Proof.KI

end
-- ==== Proof.Spec.lean ====
/-
  The mathematics both programs compute, as ONE function per result of the argument arrays, over any element type.

  The arrays are velocity components on a 128 × 128 × 128 grid, indexed [z, y, x] (stored with a leading and a trailing
  unit axis, [0, z, y, x, 0]). A cell is on the boundary when one of its coordinates is 0 or 127.

  * The first component `u` gets a zero-gradient condition in z and in y and a moving lid in x. The six boundary planes
    are written one pair after another — x, then y, then z — so where planes meet the LAST write wins:
      z = 0   takes the ORIGINAL plane z = 1,   z = 127 the original plane z = 126   (every y, x);
      otherwise y = 0 takes the original row y = 1, y = 127 the original row y = 126 (every x);
      otherwise x = 0 and x = 127 hold the lid speed `one`;
      otherwise the cell keeps its value.
    All reads are of the original array, so no boundary value depends on another boundary write.
  * The other two components `v`, `w` are no-slip: `zero` on every boundary cell, unchanged inside. Here the order of
    the writes does not matter, since they all write the same value.
-/
import Idealize.ShloMosaic.Lib.ValueIdx

namespace Cert.Spec

open Idealize.ShloMosaic Idealize.ShloMosaic.ValueIdx

/-- The stored layout [1, 128, 128, 128, 1]. -/
abbrev S5 : Shape := ⟨5, ![1, 128, 128, 128, 1]⟩
/-- The grid [z, y, x]. -/
abbrev S3 : Shape := ⟨3, ![128, 128, 128]⟩

variable {E : Type}

/-- A coordinate on the boundary of the grid. -/
def edge (a : Fin 128) : Prop := a.val = 0 ∨ a.val = 127

instance (a : Fin 128) : Decidable (edge a) := by unfold edge; infer_instance

/-- The cell next to the boundary, on the inside: 1 for the low side, 126 for the high side. -/
def lo : Fin 128 := ⟨1, by omega⟩
def hi : Fin 128 := ⟨126, by omega⟩

/-- Zero-gradient in z, then in y, lid speed `one` on the two x planes, by coordinates. -/
def valU (one : E) (u : Fin 128 → Fin 128 → Fin 128 → E) (z y x : Fin 128) : E :=
  if z.val = 0 then u lo y x
  else if z.val = 127 then u hi y x
  else if y.val = 0 then u z lo x
  else if y.val = 127 then u z hi x
  else if edge x then one
  else u z y x

/-- No-slip: `zero` on the boundary, the cell's own value inside, by coordinates. -/
def valZ (zero : E) (v : Fin 128 → Fin 128 → Fin 128 → E) (z y x : Fin 128) : E :=
  if edge z ∨ edge y ∨ edge x then zero else v z y x

/-- A stored array read by grid coordinates. -/
def grid (a : S5.Idx → E) : Fin 128 → Fin 128 → Fin 128 → E := fun z y x => a (ix5 (0 : Fin 1) z y x (0 : Fin 1))

/-- A grid array read by grid coordinates. -/
def grid3 (a : S3.Idx → E) : Fin 128 → Fin 128 → Fin 128 → E := fun z y x => a (ix3 z y x)

/-- The first result, in the stored layout. -/
def outU (one : E) (a : S5.Idx → E) : S5.Idx → E := fun j => valU one (grid a) (j 1) (j 2) (j 3)

/-- The second and third results, in the stored layout. -/
def outZ (zero : E) (a : S5.Idx → E) : S5.Idx → E := fun j => valZ zero (grid a) (j 1) (j 2) (j 3)

/-- The first result on the grid [z, y, x]. -/
def out3U (one : E) (a : S3.Idx → E) : S3.Idx → E := fun i => valU one (grid3 a) (i 0) (i 1) (i 2)

/-- The other results on the grid [z, y, x]. -/
def out3Z (zero : E) (a : S3.Idx → E) : S3.Idx → E := fun i => valZ zero (grid3 a) (i 0) (i 1) (i 2)

end Cert.Spec
-- ==== Proof.RegionPay.lean ====
/-
  The TensorCore kernel's two stored values read at coordinates of the block: the layout operations of rank 3 at
  coordinates, the iota masks decided over the coordinates' ranges, and each payload as a chain of conditions on
  (grid point, plane, row, column) over the loaded block.
-/
import proofs.«203824_g32177894982282_cont_8to1_b_1676_14_alg».proof.Proof.Gen.KernelIdeal.Skeleton
import proofs.«203824_g32177894982282_cont_8to1_b_1676_14_alg».proof.Proof.Spec
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-! ## Layout operations of rank 3 read at coordinates -/

/-- A rank-3 broadcast read at coordinates: the operand at the same coordinates, `0` on its unit axes. -/
theorem bcast3 {α : Type} {m0 m1 m2 n0 n1 n2 : Nat} (v : (⟨3, ![m0, m1, m2]⟩ : Shape).Idx → α)
    (h : Shape.Broadcasts ⟨3, ![m0, m1, m2]⟩ ⟨3, ![n0, n1, n2]⟩) (a : Fin n0) (b : Fin n1) (c : Fin n2)
    (a' : Fin m0) (b' : Fin m1) (c' : Fin m2)
    (ha : a'.val = if m0 = 1 then 0 else a.val) (hb : b'.val = if m1 = 1 then 0 else b.val) (hc : c'.val = if m2 = 1 then 0 else c.val) :
    broadcastTo ⟨3, ![n0, n1, n2]⟩ v h (ix3 a b c) = v (ix3 a' b' c') :=
  broadcastTo_apply v h _ _ fun x => match x with | ⟨0, _⟩ => ha | ⟨1, _⟩ => hb | ⟨2, _⟩ => hc

/-- A rank-3 unit-stride slice read at coordinates: the operand at the coordinates shifted by the offsets. -/
theorem slice3 {α : Type} {m0 m1 m2 n0 n1 n2 : Nat} (off : Fin 3 → Nat) (x : (⟨3, ![m0, m1, m2]⟩ : Shape).Idx → α)
    (h : Shape.Slices ⟨3, ![m0, m1, m2]⟩ off ⟨3, ![n0, n1, n2]⟩) (a : Fin n0) (b : Fin n1) (c : Fin n2)
    (a' : Fin m0) (b' : Fin m1) (c' : Fin m2)
    (ha : a'.val = off 0 + a.val) (hb : b'.val = off 1 + b.val) (hc : c'.val = off 2 + c.val) :
    extractStridedSlice ⟨3, ![n0, n1, n2]⟩ off x h (ix3 a b c) = x (ix3 a' b' c') :=
  extractStridedSlice_apply off x h _ _ fun y => match y with | ⟨0, _⟩ => ha | ⟨1, _⟩ => hb | ⟨2, _⟩ => hc

/-! ## The masks, decided over the coordinates' ranges -/

/-- A select on a decided bit. -/
theorem select_ite {α : Type} (c : Prop) [Decidable c] (A B : α) : Scalar.select (if c then 1#1 else 0#1) A B = if c then A else B := by
  by_cases h : c
  · rw [if_pos h, if_pos h]; exact select_one A B
  · rw [if_neg h, if_neg h]; exact select_zero A B

/-- The global plane of local plane `p` of block `i0`, as the body computes it. -/
abbrev gzW (i0 p : Nat) : BitVec 32 := IntOp.addi (BitVec.ofNat 32 p) (Scalar.muli (BitVec.ofNat 32 i0) 16#32)

theorem gz_eq127 : ∀ (i0 : Fin 8) (p : Fin 16), IntOp.cmpi .eq (gzW i0.val p.val) 127#32 = if i0.val * 16 + p.val = 127 then 1#1 else 0#1 := by
  decide +kernel
theorem gz_eq0 : ∀ (i0 : Fin 8) (p : Fin 16), IntOp.cmpi .eq (gzW i0.val p.val) 0#32 = if i0.val * 16 + p.val = 0 then 1#1 else 0#1 := by
  decide +kernel
theorem co_eq0 : ∀ q : Fin 128, IntOp.cmpi .eq (BitVec.ofNat 32 q.val) 0#32 = if q.val = 0 then 1#1 else 0#1 := by decide +kernel
theorem co_eq127 : ∀ q : Fin 128, IntOp.cmpi .eq (BitVec.ofNat 32 q.val) 127#32 = if q.val = 127 then 1#1 else 0#1 := by decide +kernel
theorem co_int : ∀ q : Fin 128, IntOp.andi (IntOp.cmpi .sge (BitVec.ofNat 32 q.val) 1#32) (IntOp.cmpi .sle (BitVec.ofNat 32 q.val) 126#32)
    = if 1 ≤ q.val ∧ q.val ≤ 126 then 1#1 else 0#1 := by decide +kernel
theorem co_edge : ∀ r : Fin 128, IntOp.ori (IntOp.cmpi .eq (BitVec.ofNat 32 r.val) 0#32) (IntOp.cmpi .eq (BitVec.ofNat 32 r.val) 127#32)
    = if r.val = 0 ∨ r.val = 127 then 1#1 else 0#1 := by decide +kernel
theorem and_bits (a b : Prop) [Decidable a] [Decidable b] : IntOp.andi (if a then 1#1 else 0#1) (if b then 1#1 else 0#1) = if a ∧ b then 1#1 else 0#1 := by
  by_cases ha : a <;> by_cases hb : b <;> simp [ha, hb] <;> decide
theorem or_bits (a b : Prop) [Decidable a] [Decidable b] : IntOp.ori (if a then 1#1 else 0#1) (if b then 1#1 else 0#1) = if a ∨ b then 1#1 else 0#1 := by
  by_cases ha : a <;> by_cases hb : b <;> simp [ha, hb] <;> decide

theorem andi_apply {s : Shape} {w : Nat} (x y : IVec s w) (i : s.Idx) : andi x y i = IntOp.andi (x i) (y i) := rfl
theorem ori_apply {s : Shape} {w : Nat} (x y : IVec s w) (i : s.Idx) : ori x y i = IntOp.ori (x i) (y i) := rfl
theorem cmpi_apply {s : Shape} {w : Nat} (pr : CmpIPredicate) (x y : IVec s w) (i : s.Idx) : cmpi pr x y i = IntOp.cmpi pr (x i) (y i) := rfl

/-! ## The payloads read at coordinates -/

/-- The global plane of a block's local plane, as the body computes it. -/
theorem k0_pay5_apply (i : grid0.Coords) (p : Fin 16) : k0_pay5 i (ix3 p (0 : Fin 1) (0 : Fin 1)) = gzW (i 0).val p.val := by
  unfold k0_pay5
  show IntOp.addi (iota .tc S16x1x1 32 [0] iota_S16x1x1_d0_w32 (ix3 p (0 : Fin 1) (0 : Fin 1))) _ = _
  rw [iota_single_apply]; rfl

/-- The x-edge mask. -/
theorem k0_pay6_apply (r : Fin 128) : k0_pay6 (ix3 (0 : Fin 1) (0 : Fin 1) r) = if r.val = 0 ∨ r.val = 127 then 1#1 else 0#1 := by
  unfold k0_pay6
  show IntOp.ori (IntOp.cmpi .eq (iota .tc S1x1x128 32 [2] iota_S1x1x128_d2_w32 (ix3 (0 : Fin 1) (0 : Fin 1) r)) 0#32)
    (IntOp.cmpi .eq (iota .tc S1x1x128 32 [2] iota_S1x1x128_d2_w32 (ix3 (0 : Fin 1) (0 : Fin 1) r)) 127#32) = _
  rw [iota_single_apply]; exact co_edge r

/-- The y coordinate as the body's iota reads it. -/
theorem iotaY_apply (q : Fin 128) : iota .tc S1x128x1 32 [1] iota_S1x128x1_d1_w32 (ix3 (0 : Fin 1) q (0 : Fin 1)) = BitVec.ofNat 32 q.val := by
  rw [iota_single_apply]

/-- The first result's payload over its four operands, at coordinates. -/
theorem k0_pay1_apply (v1 : FVec F S16x128x128 .f32) (v7 : IVec S16x1x1 32) (v42 : FVec F S16x128x128 .f32) (v43 : IVec S16x1x1 32)
    (p : Fin 16) (q r : Fin 128) :
    k0_pay1 v1 v7 v42 v43 (ix3 p q r)
      = Scalar.select (IntOp.cmpi .eq (v7 (ix3 p (0 : Fin 1) (0 : Fin 1))) 127#32) (v1 (ix3 (14 : Fin 16) q r))
          (Scalar.select (IntOp.cmpi .eq (v7 (ix3 p (0 : Fin 1) (0 : Fin 1))) (v43 (ix3 p (0 : Fin 1) (0 : Fin 1)))) (v1 (ix3 (1 : Fin 16) q r)) (v42 (ix3 p q r))) := by
  unfold k0_pay1
  simp only [shapeCast_self, select_apply]
  rw [bcast3 _ _ p q r p (0 : Fin 1) (0 : Fin 1) rfl rfl rfl, bcast3 _ _ p q r p (0 : Fin 1) (0 : Fin 1) rfl rfl rfl,
    bcast3 _ _ p q r (0 : Fin 1) q r rfl rfl rfl, bcast3 _ _ p q r (0 : Fin 1) q r rfl rfl rfl,
    slice3 _ _ _ (0 : Fin 1) q r (14 : Fin 16) q r rfl (Nat.zero_add _).symm (Nat.zero_add _).symm,
    slice3 _ _ _ (0 : Fin 1) q r (1 : Fin 16) q r rfl (Nat.zero_add _).symm (Nat.zero_add _).symm]
  rfl

/-- The lid-and-rows payload over the loaded block, at coordinates, the masks still as words. -/
theorem k0_pay7_raw (x0 : Vec F S16x128x128 .f32) (p : Fin 16) (q r : Fin 128) :
    k0_pay7 x0 (ix3 p q r)
      = Scalar.select (IntOp.andi (k0_pay6 (ix3 (0 : Fin 1) (0 : Fin 1) r))
            (IntOp.andi (IntOp.cmpi .sge (BitVec.ofNat 32 q.val) 1#32) (IntOp.cmpi .sle (BitVec.ofNat 32 q.val) 126#32)))
          (Scalar.ofBits .f32 0x3F800000#32 : F .f32)
          (Scalar.select (IntOp.cmpi .eq (BitVec.ofNat 32 q.val) 0#32) (x0 (ix3 p (1 : Fin 128) r))
            (Scalar.select (IntOp.cmpi .eq (BitVec.ofNat 32 q.val) 127#32) (x0 (ix3 p (126 : Fin 128) r)) (x0 (ix3 p q r)))) := by
  unfold k0_pay7 k0_pay3
  simp only [shapeCast_self, select_apply]
  rw [bcast3 _ _ p q r (0 : Fin 1) q r rfl rfl rfl]
  simp only [andi_apply]
  rw [bcast3 _ _ (0 : Fin 1) q r (0 : Fin 1) (0 : Fin 1) r rfl rfl rfl, bcast3 _ _ (0 : Fin 1) q r (0 : Fin 1) q (0 : Fin 1) rfl rfl rfl,
    bcast3 _ _ p q r (0 : Fin 1) q (0 : Fin 1) rfl rfl rfl, bcast3 _ _ p q r (0 : Fin 1) q (0 : Fin 1) rfl rfl rfl,
    bcast3 _ _ p q r p (0 : Fin 1) r rfl rfl rfl, bcast3 _ _ p q r p (0 : Fin 1) r rfl rfl rfl,
    slice3 _ _ _ p (0 : Fin 1) r p (1 : Fin 128) r (Nat.zero_add _).symm rfl (Nat.zero_add _).symm,
    slice3 _ _ _ p (0 : Fin 1) r p (126 : Fin 128) r (Nat.zero_add _).symm rfl (Nat.zero_add _).symm]
  simp only [andi_apply, cmpi_apply, broadcast_apply]
  rw [iotaY_apply q]

/-- The no-slip payload over its four operands, at coordinates. -/
theorem k0_pay2_apply (v3 : FVec F S16x128x128 .f32) (v7 : IVec S16x1x1 32) (v8 : IVec S1x128x1 32) (v30 : IVec S1x1x128 1)
    (p : Fin 16) (q r : Fin 128) :
    k0_pay2 v3 v7 v8 v30 (ix3 p q r)
      = Scalar.select (IntOp.ori (IntOp.ori (IntOp.ori
            (IntOp.ori (IntOp.cmpi .eq (v7 (ix3 p (0 : Fin 1) (0 : Fin 1))) 0#32) (IntOp.cmpi .eq (v7 (ix3 p (0 : Fin 1) (0 : Fin 1))) 127#32))
            (IntOp.cmpi .eq (v8 (ix3 (0 : Fin 1) q (0 : Fin 1))) 0#32))
            (IntOp.cmpi .eq (v8 (ix3 (0 : Fin 1) q (0 : Fin 1))) 127#32))
            (v30 (ix3 (0 : Fin 1) (0 : Fin 1) r)))
          (Scalar.ofBits .f32 0x00000000#32 : F .f32) (v3 (ix3 p q r)) := by
  unfold k0_pay2
  simp only [select_apply, ori_apply]
  rw [bcast3 _ _ p q r p q (0 : Fin 1) rfl rfl rfl, bcast3 _ _ p q r (0 : Fin 1) (0 : Fin 1) r rfl rfl rfl]
  simp only [ori_apply]
  rw [bcast3 _ _ p q (0 : Fin 1) p (0 : Fin 1) (0 : Fin 1) rfl rfl rfl, bcast3 _ _ p q (0 : Fin 1) (0 : Fin 1) q (0 : Fin 1) rfl rfl rfl,
    bcast3 _ _ p q (0 : Fin 1) (0 : Fin 1) q (0 : Fin 1) rfl rfl rfl]
  simp only [ori_apply, cmpi_apply, broadcast_apply]

/-! ## The two blocks' payloads as functions of coordinates -/

/-- The lid-and-rows payload at coordinates: the lid speed on the two x planes of an interior row, row 1 for row 0, row 126
    for row 127, the element itself elsewhere. -/
theorem k0_pay7_apply (x0 : Vec F S16x128x128 .f32) (p : Fin 16) (q r : Fin 128) :
    k0_pay7 x0 (ix3 p q r)
      = if (r.val = 0 ∨ r.val = 127) ∧ (1 ≤ q.val ∧ q.val ≤ 126) then (Scalar.ofBits .f32 0x3F800000#32 : F .f32)
        else if q.val = 0 then x0 (ix3 p (1 : Fin 128) r)
        else if q.val = 127 then x0 (ix3 p (126 : Fin 128) r) else x0 (ix3 p q r) := by
  rw [k0_pay7_raw, k0_pay6_apply, co_int q, and_bits, co_eq0 q, co_eq127 q, select_ite, select_ite, select_ite]

/-- The first result's block at coordinates, from the loaded block `x0` at grid point `i`. -/
theorem payU_apply (i : grid0.Coords) (x0 : Vec F S16x128x128 .f32) (p : Fin 16) (q r : Fin 128) :
    k0_pay1 (k0_pay3 x0) (k0_pay5 i) (k0_pay7 x0) k0_pay8 (ix3 p q r)
      = if (i 0).val * 16 + p.val = 127 then x0 (ix3 (14 : Fin 16) q r)
        else if (i 0).val * 16 + p.val = 0 then x0 (ix3 (1 : Fin 16) q r)
        else if (r.val = 0 ∨ r.val = 127) ∧ (1 ≤ q.val ∧ q.val ≤ 126) then (Scalar.ofBits .f32 0x3F800000#32 : F .f32)
        else if q.val = 0 then x0 (ix3 p (1 : Fin 128) r)
        else if q.val = 127 then x0 (ix3 p (126 : Fin 128) r) else x0 (ix3 p q r) := by
  rw [k0_pay1_apply, k0_pay5_apply, k0_pay7_apply]
  unfold k0_pay3 k0_pay8
  simp only [shapeCast_self, broadcast_apply]
  rw [gz_eq127 (i 0) p, gz_eq0 (i 0) p, select_ite, select_ite]

/-- The second result's block at coordinates, from the loaded block `x1` at grid point `i`. -/
theorem payV_apply (i : grid0.Coords) (x1 : Vec F S16x128x128 .f32) (p : Fin 16) (q r : Fin 128) :
    k0_pay2 (k0_pay4 x1) (k0_pay5 i) (iota .tc S1x128x1 32 [1] iota_S1x128x1_d1_w32) k0_pay6 (ix3 p q r)
      = if ((((i 0).val * 16 + p.val = 0 ∨ (i 0).val * 16 + p.val = 127) ∨ q.val = 0) ∨ q.val = 127) ∨ (r.val = 0 ∨ r.val = 127)
        then (Scalar.ofBits .f32 0x00000000#32 : F .f32) else x1 (ix3 p q r) := by
  rw [k0_pay2_apply, k0_pay5_apply, k0_pay6_apply, iotaY_apply]
  unfold k0_pay4
  simp only [shapeCast_self]
  rw [gz_eq127 (i 0) p, gz_eq0 (i 0) p, co_eq0 q, co_eq127 q, or_bits, or_bits, or_bits, or_bits, select_ite]

end Cert.Proof.KI

end
-- ==== Proof.RegionArith.lean ====
/-
  The two results' specifications restricted to one block of sixteen planes: the chain of conditions the kernel's
  body evaluates on (block, local plane, row, column) over the block's contents is the specification at the global plane.
-/
import proofs.«203824_g32177894982282_cont_8to1_b_1676_14_alg».proof.Proof.Spec

namespace Cert.Proof.KI

open Idealize.ShloMosaic Idealize.ShloMosaic.ValueIdx
open Cert.Spec

variable {E : Type}

theorem out3U_ix3 (one : E) (a : S3.Idx → E) (z y x : Fin 128) :
    out3U one a (ix3 z y x) = valU one (fun z y x => a (ix3 z y x)) z y x := rfl

theorem out3Z_ix3 (zero : E) (a : S3.Idx → E) (z y x : Fin 128) :
    out3Z zero a (ix3 z y x) = valZ zero (fun z y x => a (ix3 z y x)) z y x := rfl

/-- The first result on block `T`: the body's chain of conditions over the block `x0` of `a` is the specification. -/
theorem valU_block (one : E) (a : S3.Idx → E) (T : Nat) (hT : T < 8) (x0 : (⟨3, ![16, 128, 128]⟩ : Shape).Idx → E)
    (hx : ∀ (p' : Fin 16) (q' r' : Fin 128), x0 (ix3 p' q' r') = a (ix3 (⟨T * 16 + p'.val, by have := p'.isLt; omega⟩ : Fin 128) q' r'))
    (p : Fin 16) (q r : Fin 128) :
    (if T * 16 + p.val = 127 then x0 (ix3 (14 : Fin 16) q r)
      else if T * 16 + p.val = 0 then x0 (ix3 (1 : Fin 16) q r)
      else if (r.val = 0 ∨ r.val = 127) ∧ (1 ≤ q.val ∧ q.val ≤ 126) then one
      else if q.val = 0 then x0 (ix3 p (1 : Fin 128) r)
      else if q.val = 127 then x0 (ix3 p (126 : Fin 128) r) else x0 (ix3 p q r))
      = out3U one a (ix3 (⟨T * 16 + p.val, by have := p.isLt; omega⟩ : Fin 128) q r) := by
  have hp := p.isLt
  have h14 : ((14 : Fin 16) : ℕ) = 14 := rfl
  have h1 : ((1 : Fin 16) : ℕ) = 1 := rfl
  rw [out3U_ix3]
  simp only [hx]
  unfold valU edge lo hi
  dsimp only
  split_ifs <;> first
    | rfl
    | (exfalso; omega)
    | (refine congrArg (fun z => a (ix3 z q r)) (Fin.ext ?_); dsimp only; omega)
    | (rename_i h; first | exact (if_pos h).symm | exact (if_neg h).symm)

/-- The other results on block `T`. -/
theorem valZ_block (zero : E) (a : S3.Idx → E) (T : Nat) (hT : T < 8) (x1 : (⟨3, ![16, 128, 128]⟩ : Shape).Idx → E)
    (hx : ∀ (p' : Fin 16) (q' r' : Fin 128), x1 (ix3 p' q' r') = a (ix3 (⟨T * 16 + p'.val, by have := p'.isLt; omega⟩ : Fin 128) q' r'))
    (p : Fin 16) (q r : Fin 128) :
    (if ((((T * 16 + p.val = 0 ∨ T * 16 + p.val = 127) ∨ q.val = 0) ∨ q.val = 127) ∨ (r.val = 0 ∨ r.val = 127)) then zero else x1 (ix3 p q r))
      = out3Z zero a (ix3 (⟨T * 16 + p.val, by have := p.isLt; omega⟩ : Fin 128) q r) := by
  rw [out3Z_ix3]
  simp only [hx]
  unfold valZ edge
  dsimp only
  split_ifs <;> first
    | rfl
    | (exfalso; omega)
    | (split <;> first | rfl | (exfalso; omega))

end Cert.Proof.KI
-- ==== Proof.RegionValue.lean ====
/-
  From blocks to arrays: what each grid point writes back is its block of the specification, the blocks cover the
  array, so after the region each result array IS the specification of its input array; the inputs are as they were.
-/
import proofs.«203824_g32177894982282_cont_8to1_b_1676_14_alg».proof.Proof.RegionRun
import proofs.«203824_g32177894982282_cont_8to1_b_1676_14_alg».proof.Proof.RegionPay
import proofs.«203824_g32177894982282_cont_8to1_b_1676_14_alg».proof.Proof.RegionArith
import Idealize.ShloMosaic.Lib.Pipeline.Value

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (a0 a1 f0 f1 : Arr3 (F := F))

theorem hz3 : (![0, 0, 0] : Fin 3 → Nat) = fun _ => 0 := funext fun a => by fin_cases a <;> rfl

/-- The printed index maps, decided over the grid: every window's block at point `t` is block `t` along z and the
    whole extent along y and x; the point's one coordinate is `t`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ ((grid0.coords t) 0).val = t.val :=
  (by decide +kernel : ∀ t : Fin grid0.N, _)

theorem t_lt (t : Fin cfg0.N) : t.val < 8 := lt_of_lt_of_eq t.isLt N_0

/-! ## A block's index inside the array, and inside the staging buffer -/

section Emb
variable (t : Fin cfg0.N)

/-- The array index under local index `j` of window 0's block at point `t`: plane `16 t + j₀`. -/
theorem emb0 (j : ((cfg0.win 0).xblock (cfg0.grid.coords t)).Idx) :
    ((cfg0.win 0).blk t).view.emb j = ix3 (⟨t.val * 16 + (j 0).val, by have := t_lt t; have : (j 0).val < 16 := (j 0).isLt; omega⟩ : Fin 128)
      (⟨(j 1).val, (j 1).isLt⟩ : Fin 128) (⟨(j 2).val, (j 2).isLt⟩ : Fin 128) := by
  obtain ⟨⟨e0, e1, e2⟩, -⟩ := idx_facts t
  funext a; apply Fin.ext
  match a with
  | ⟨0, _⟩ => show win0_0.index t (0 : Fin 3) * 16 + 1 * (j 0).val = t.val * 16 + (j 0).val; omega
  | ⟨1, _⟩ => show win0_0.index t (1 : Fin 3) * 128 + 1 * (j 1).val = (j 1).val; omega
  | ⟨2, _⟩ => show win0_0.index t (2 : Fin 3) * 128 + 1 * (j 2).val = (j 2).val; omega

theorem emb1 (j : ((cfg0.win 1).xblock (cfg0.grid.coords t)).Idx) :
    ((cfg0.win 1).blk t).view.emb j = ix3 (⟨t.val * 16 + (j 0).val, by have := t_lt t; have : (j 0).val < 16 := (j 0).isLt; omega⟩ : Fin 128)
      (⟨(j 1).val, (j 1).isLt⟩ : Fin 128) (⟨(j 2).val, (j 2).isLt⟩ : Fin 128) := by
  obtain ⟨-, ⟨e0, e1, e2⟩, -⟩ := idx_facts t
  funext a; apply Fin.ext
  match a with
  | ⟨0, _⟩ => show win0_1.index t (0 : Fin 3) * 16 + 1 * (j 0).val = t.val * 16 + (j 0).val; omega
  | ⟨1, _⟩ => show win0_1.index t (1 : Fin 3) * 128 + 1 * (j 1).val = (j 1).val; omega
  | ⟨2, _⟩ => show win0_1.index t (2 : Fin 3) * 128 + 1 * (j 2).val = (j 2).val; omega

theorem emb2 (j : ((cfg0.win 2).xblock (cfg0.grid.coords t)).Idx) :
    ((cfg0.win 2).blk t).view.emb j = ix3 (⟨t.val * 16 + (j 0).val, by have := t_lt t; have : (j 0).val < 16 := (j 0).isLt; omega⟩ : Fin 128)
      (⟨(j 1).val, (j 1).isLt⟩ : Fin 128) (⟨(j 2).val, (j 2).isLt⟩ : Fin 128) := by
  obtain ⟨-, -, ⟨e0, e1, e2⟩, -⟩ := idx_facts t
  funext a; apply Fin.ext
  match a with
  | ⟨0, _⟩ => show win0_2.index t (0 : Fin 3) * 16 + 1 * (j 0).val = t.val * 16 + (j 0).val; omega
  | ⟨1, _⟩ => show win0_2.index t (1 : Fin 3) * 128 + 1 * (j 1).val = (j 1).val; omega
  | ⟨2, _⟩ => show win0_2.index t (2 : Fin 3) * 128 + 1 * (j 2).val = (j 2).val; omega

theorem emb3 (j : ((cfg0.win 3).xblock (cfg0.grid.coords t)).Idx) :
    ((cfg0.win 3).blk t).view.emb j = ix3 (⟨t.val * 16 + (j 0).val, by have := t_lt t; have : (j 0).val < 16 := (j 0).isLt; omega⟩ : Fin 128)
      (⟨(j 1).val, (j 1).isLt⟩ : Fin 128) (⟨(j 2).val, (j 2).isLt⟩ : Fin 128) := by
  obtain ⟨-, -, -, ⟨e0, e1, e2⟩, -⟩ := idx_facts t
  funext a; apply Fin.ext
  match a with
  | ⟨0, _⟩ => show win0_3.index t (0 : Fin 3) * 16 + 1 * (j 0).val = t.val * 16 + (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega

/-- A local index of an uncut block, as an index of the staging buffer, by coordinates. -/
theorem xinj2 (j : ((cfg0.win 2).xblock (cfg0.grid.coords t)).Idx) :
    (cfg0.win 2).xinj (cfg0.grid.coords t) j = ix3 (⟨(j 0).val, (j 0).isLt⟩ : Fin 16) (⟨(j 1).val, (j 1).isLt⟩ : Fin 128) (⟨(j 2).val, (j 2).isLt⟩ : Fin 128) := by
  funext a; match a with | ⟨0, _⟩ => rfl | ⟨1, _⟩ => rfl | ⟨2, _⟩ => rfl
theorem xinj3 (j : ((cfg0.win 3).xblock (cfg0.grid.coords t)).Idx) :
    (cfg0.win 3).xinj (cfg0.grid.coords t) j = ix3 (⟨(j 0).val, (j 0).isLt⟩ : Fin 16) (⟨(j 1).val, (j 1).isLt⟩ : Fin 128) (⟨(j 2).val, (j 2).isLt⟩ : Fin 128) := by
  funext a; match a with | ⟨0, _⟩ => rfl | ⟨1, _⟩ => rfl | ⟨2, _⟩ => rfl

end Emb

/-- Each input's block at point `t`, read at coordinates: the array at plane `16 t + p`. -/
theorem iblk0_apply (c : Dev nD) (t : Fin cfg0.N) (p : Fin 16) (q r : Fin 128) :
    iblk a0 a1 f0 f1 c 0 t (ix3 p q r) = a0 (ix3 (⟨t.val * 16 + p.val, by have := t_lt t; have := p.isLt; omega⟩ : Fin 128) q r) := by
  show a0 (((cfg0.win 0).blk t).view.emb (ix3 p q r)) = _
  rw [emb0 t (ix3 p q r)]
  rfl
theorem iblk1_apply (c : Dev nD) (t : Fin cfg0.N) (p : Fin 16) (q r : Fin 128) :
    iblk a0 a1 f0 f1 c 1 t (ix3 p q r) = a1 (ix3 (⟨t.val * 16 + p.val, by have := t_lt t; have := p.isLt; omega⟩ : Fin 128) q r) := by
  show a1 (((cfg0.win 1).blk t).view.emb (ix3 p q r)) = _
  rw [emb1 t (ix3 p q r)]
  rfl

/-! ## What each point writes back -/

/-- Point `t` writes back, to the first result, block `t` of the first specification of the first input. -/
theorem flushed2_eq (c : Dev nD) (t : Fin cfg0.N) :
    (pdats a0 a1 f0 f1 0 c).flushed 2 t
      = ((cfg0.win 2).blk t).view.read (Elt F) (Cert.Spec.out3U (Scalar.ofBits .f32 0x3F800000#32 : Elt F .f32) a0) := by
  show (cfg0.win 2).cut (grid0.coords t) ((pdats a0 a1 f0 f1 0 c).after 2 t) = _
  rw [after2]
  funext j
  show blkU (grid0.coords t) (iblk a0 a1 f0 f1 c 0 t) ((cfg0.win 2).xinj (cfg0.grid.coords t) j)
    = Cert.Spec.out3U (Scalar.ofBits .f32 0x3F800000#32 : Elt F .f32) a0 (((cfg0.win 2).blk t).view.emb j)
  rw [xinj2 t j, emb2 t j]
  unfold blkU
  rw [View.canon_unit_zero hz3]
  simp only [View.ld_unit_zero (S := S16x128x128) hz3]
  rw [payU_apply, (idx_facts t).2.2.2.2]
  exact valU_block _ a0 t.val (t_lt t) (iblk a0 a1 f0 f1 c 0 t) (fun p' q' r' => iblk0_apply a0 a1 f0 f1 c t p' q' r') _ _ _

/-- Point `t` writes back, to the second result, block `t` of the second specification of the second input. -/
theorem flushed3_eq (c : Dev nD) (t : Fin cfg0.N) :
    (pdats a0 a1 f0 f1 0 c).flushed 3 t
      = ((cfg0.win 3).blk t).view.read (Elt F) (Cert.Spec.out3Z (Scalar.ofBits .f32 0x00000000#32 : Elt F .f32) a1) := by
  show (cfg0.win 3).cut (grid0.coords t) ((pdats a0 a1 f0 f1 0 c).after 3 t) = _
  rw [after3]
  funext j
  show blkV (grid0.coords t) (iblk a0 a1 f0 f1 c 1 t) ((cfg0.win 3).xinj (cfg0.grid.coords t) j)
    = Cert.Spec.out3Z (Scalar.ofBits .f32 0x00000000#32 : Elt F .f32) a1 (((cfg0.win 3).blk t).view.emb j)
  rw [xinj3 t j, emb3 t j]
  unfold blkV
  rw [View.canon_unit_zero hz3]
  simp only [View.ld_unit_zero (S := S16x128x128) hz3]
  rw [payV_apply, (idx_facts t).2.2.2.2]
  exact valZ_block _ a1 t.val (t_lt t) (iblk a0 a1 f0 f1 c 1 t) (fun p' q' r' => iblk1_apply a0 a1 f0 f1 c t p' q' r') _ _ _

/-! ## The blocks cover the arrays -/

theorem mem_blk2 (t : Fin cfg0.N) (i : S128x128x128.Idx) :
    i ∈ ((cfg0.win 2).blk t).view.set ↔ ∀ a : Fin 3, win0_2.index t a * S16x128x128.size a ≤ (i a).val ∧ (i a).val < win0_2.index t a * S16x128x128.size a + S16x128x128.size a := by
  show i ∈ ((View.whole main_v3_0).slice (win0_2.rect t)).set ↔ _
  rw [View.set_slice_whole, Rect.mem_set_unit]
  exact Iff.rfl
theorem mem_blk3 (t : Fin cfg0.N) (i : S128x128x128.Idx) :
    i ∈ ((cfg0.win 3).blk t).view.set ↔ ∀ a : Fin 3, win0_3.index t a * S16x128x128.size a ≤ (i a).val ∧ (i a).val < win0_3.index t a * S16x128x128.size a + S16x128x128.size a := by
  show i ∈ ((View.whole main_v3_1).slice (win0_3.rect t)).set ↔ _
  rw [View.set_slice_whole, Rect.mem_set_unit]
  exact Iff.rfl

/-- Plane `z` is in the block of point `z / 16`. -/
theorem cover2 (i : S128x128x128.Idx) : ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 128 := (i 2).isLt
  have hN : (i 0).val / 16 < cfg0.N := by show _ < grid0.N; rw [N_0]; omega
  obtain ⟨-, -, ⟨e0, e1, e2⟩, -⟩ := idx_facts ⟨(i 0).val / 16, hN⟩
  refine ⟨⟨(i 0).val / 16, hN⟩, flush0_2 _, ?_⟩
  rw [mem_blk2]
  intro a
  match a with
  | ⟨0, _⟩ => show win0_2.index ⟨(i 0).val / 16, hN⟩ (0 : Fin 3) * 16 ≤ (i 0).val ∧ (i 0).val < win0_2.index ⟨(i 0).val / 16, hN⟩ (0 : Fin 3) * 16 + 16; rw [e0]; dsimp only; omega
  | ⟨1, _⟩ => show win0_2.index ⟨(i 0).val / 16, hN⟩ (1 : Fin 3) * 128 ≤ (i 1).val ∧ (i 1).val < win0_2.index ⟨(i 0).val / 16, hN⟩ (1 : Fin 3) * 128 + 128; rw [e1]; omega
  | ⟨2, _⟩ => show win0_2.index ⟨(i 0).val / 16, hN⟩ (2 : Fin 3) * 128 ≤ (i 2).val ∧ (i 2).val < win0_2.index ⟨(i 0).val / 16, hN⟩ (2 : Fin 3) * 128 + 128; rw [e2]; omega
theorem cover3 (i : S128x128x128.Idx) : ∃ t : Fin cfg0.N, (cfg0.win 3).flush t = true ∧ i ∈ ((cfg0.win 3).blk t).view.set := by
  have hi0 : (i 0).val < 128 := (i 0).isLt
  have hi1 : (i 1).val < 128 := (i 1).isLt
  have hi2 : (i 2).val < 128 := (i 2).isLt
  have hN : (i 0).val / 16 < cfg0.N := by show _ < grid0.N; rw [N_0]; omega
  obtain ⟨-, -, -, ⟨e0, e1, e2⟩, -⟩ := idx_facts ⟨(i 0).val / 16, hN⟩
  refine ⟨⟨(i 0).val / 16, hN⟩, flush0_3 _, ?_⟩
  rw [mem_blk3]
  intro a
  match a with
  | ⟨0, _⟩ => show win0_3.index ⟨(i 0).val / 16, hN⟩ (0 : Fin 3) * 16 ≤ (i 0).val ∧ (i 0).val < win0_3.index ⟨(i 0).val / 16, hN⟩ (0 : Fin 3) * 16 + 16; rw [e0]; dsimp only; omega
  | ⟨1, _⟩ => show win0_3.index ⟨(i 0).val / 16, hN⟩ (1 : Fin 3) * 128 ≤ (i 1).val ∧ (i 1).val < win0_3.index ⟨(i 0).val / 16, hN⟩ (1 : Fin 3) * 128 + 128; rw [e1]; omega
  | ⟨2, _⟩ => show win0_3.index ⟨(i 0).val / 16, hN⟩ (2 : Fin 3) * 128 ≤ (i 2).val ∧ (i 2).val < win0_3.index ⟨(i 0).val / 16, hN⟩ (2 : Fin 3) * 128 + 128; rw [e2]; omega

/-! ## The arrays after the region -/

theorem final0 (c : Dev nD) : (pdats a0 a1 f0 f1 0 c).arrAt 0 cfg0.N = a0 :=
  (pdats a0 a1 f0 f1 0 c).arrAt_in 0 rfl _
theorem final1 (c : Dev nD) : (pdats a0 a1 f0 f1 0 c).arrAt 1 cfg0.N = a1 :=
  (pdats a0 a1 f0 f1 0 c).arrAt_in 1 rfl _
theorem final2 (c : Dev nD) : (pdats a0 a1 f0 f1 0 c).arrAt 2 cfg0.N = Cert.Spec.out3U (Scalar.ofBits .f32 0x3F800000#32 : Elt F .f32) a0 :=
  (pdats a0 a1 f0 f1 0 c).arrAt_eq_of_cover 2 _ (fun t _ => flushed2_eq a0 a1 f0 f1 c t) cover2
theorem final3 (c : Dev nD) : (pdats a0 a1 f0 f1 0 c).arrAt 3 cfg0.N = Cert.Spec.out3Z (Scalar.ofBits .f32 0x00000000#32 : Elt F .f32) a1 :=
  (pdats a0 a1 f0 f1 0 c).arrAt_eq_of_cover 3 _ (fun t _ => flushed3_eq a0 a1 f0 f1 c t) cover3

end Cert.Proof.KI

end
-- ==== Proof.Region.lean ====
/-
  THE TENSORCORE REGION inside the SparseCore program, as one weakest-precondition lemma for @main's proof on the
  TensorCore: from the handshake state, the region boundary, the staging cells' ghost state, the two input arrays and
  the two result arrays at anything, the pipelined region runs to the continuation holding the same handshake state
  and boundary, the inputs unchanged, and the results at their specifications of the inputs. With the launch element's
  component for the pipeline's rounds and its funding.
-/
import proofs.«203824_g32177894982282_cont_8to1_b_1676_14_alg».proof.Proof.RegionValue
import proofs.«203824_g32177894982282_cont_8to1_b_1676_14_alg».proof.Proof.Spec

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A conjunction over the one pipeline is its one term. -/
theorem bigSep_fin1 (Ψ : Fin 1 → sProp 𝕄) : bigSep Finset.univ Ψ = Ψ 0 := by
  rw [show (Finset.univ : Finset (Fin 1)) = {0} from rfl, BI.bigSep_singleton]

/-- FUNDING: the launch element's pipeline component deals every device its staging cells' ghost state and duty tokens. -/
theorem fundP : (BI.own ((EP (F := F)) u₀P) : sProp 𝕄) ⊢ |={Set.univ}=> bigSep Finset.univ (GP (F := F)) := by
  have hG : (bigSep Finset.univ (GP (F := F)) : sProp 𝕄)
      = iprop((bigSep Finset.univ fun c : Dev nD => bigSep Finset.univ fun p : Fin 1 => Pipeline.cellsGhost (Pipeline.pin (pcfgs (F := F)) adm) EP p c)
          ∗ (bigSep Finset.univ fun c : Dev nD => bigSep Finset.univ fun p : Fin 1 => (Pipeline.toksInit (Pipeline.pin (pcfgs (F := F)) adm) EP p c : sProp 𝕄))) := by
    unfold GP; rw [bigSep_sep']; simp only [bigSep_fin1]
  rw [hG]; unfold u₀P
  iintro Hu
  imod (Pipeline.fund_ghost (Pipeline.pin (pcfgs (F := F)) adm) EP cellOf_inj) $$ Hu with H
  imodintro
  iexact H

/-- The four arrays after the region: the inputs as they were, the results at their specifications. -/
theorem arrPts_final (a0 a1 f0 f1 : Arr3 (F := F)) (d : Dev nD) :
    (arrPts d ((pdats a0 a1 f0 f1 0 d).arrAt · cfg0.N) : sProp 𝕄)
      = iprop((((d : Thread nD τ).loc main_v0) ↦{fullShare} a0) ∗ (((d : Thread nD τ).loc main_v1) ↦{fullShare} a1)
          ∗ (((d : Thread nD τ).loc main_v3_0) ↦{fullShare} (Cert.Spec.out3U (Scalar.ofBits .f32 0x3F800000#32 : Elt F .f32) a0 : Buf (Elt F) ((d : Thread nD τ).loc main_v3_0)))
          ∗ (((d : Thread nD τ).loc main_v3_1) ↦{fullShare} (Cert.Spec.out3Z (Scalar.ofBits .f32 0x00000000#32 : Elt F .f32) a1 : Buf (Elt F) ((d : Thread nD τ).loc main_v3_1)))) := by
  dsimp only [arrPts]
  rw [final0, final1, final2, final3]

/-- THE REGION on device `d`'s TensorCore, for @main's proof under the SparseCore launch theorem. -/
theorem region_wp [∀ e, Nonempty (Elt F e)] (P : (K (F := F)).Pay (nD := nD) (Val := Elt F) (Name := ℕ) (U := UU)) (κ : GSem nD τ sig → ℕ) (d : Dev nD)
    (a0 : Buf (Elt F) ((T d : Thread nD τ).loc main_v0)) (a1 : Buf (Elt F) ((T d : Thread nD τ).loc main_v1))
    (Φ : PUnit → sProp 𝕄) :
    iprop((K (F := F)).ctx EH P κ ∗ (K (F := F)).tcSt EH d 0 ∗ boundary (T d : Thread nD τ) ∗ GP d
        ∗ (((T d : Thread nD τ).loc main_v0) ↦{fullShare} a0) ∗ (((T d : Thread nD τ).loc main_v1) ↦{fullShare} a1)
        ∗ (∃ f, ((T d : Thread nD τ).loc main_v3_0) ↦{fullShare} f) ∗ (∃ f, ((T d : Thread nD τ).loc main_v3_1) ↦{fullShare} f)
        ∗ (iprop((K (F := F)).tcSt EH d 0 ∗ boundary (T d : Thread nD τ)
            ∗ (((T d : Thread nD τ).loc main_v0) ↦{fullShare} a0) ∗ (((T d : Thread nD τ).loc main_v1) ↦{fullShare} a1)
            ∗ (((T d : Thread nD τ).loc main_v3_0) ↦{fullShare} (Cert.Spec.out3U (Scalar.ofBits .f32 0x3F800000#32 : Elt F .f32) a0 : Buf (Elt F) ((T d : Thread nD τ).loc main_v3_0)))
            ∗ (((T d : Thread nD τ).loc main_v3_1) ↦{fullShare} (Cert.Spec.out3Z (Scalar.ofBits .f32 0x00000000#32 : Elt F .f32) a1 : Buf (Elt F) ((T d : Thread nD τ).loc main_v3_1)))) -∗ Φ ⟨⟩))
      ⊢ wp frame (wpE ((K (F := F)).defs (D (F := F))) 𝒱 (T d) none) Set.univ (Prog.lift (.customCall (SparseCore.inner (Pipeline.entry 0)) ())) Φ := by
  unfold SparseCore.Cfg.tcSt
  iintro ⟨#Hctx, ⟨HO, Hrest⟩, Hb, Hg, H0, H1, ⟨%f0, H2⟩, ⟨%f1, H3⟩, Hk⟩
  ihave Hlv := (SparseCore.Cfg.ctx_levAts (K := K (F := F)) (EH := EH) (P := P) κ) $$ Hctx
  iapply (region_run a0 a1 f0 f1 d Φ)
  rw [arrPts_final]
  isplitl [Hlv]; · iexact Hlv
  isplitl [Hb]; · iexact Hb
  isplitl [Hg]; · iexact Hg
  isplitl [H0 H1 H2 H3]
  · isplitl [H0]; · iexact H0
    isplitl [H1]; · iexact H1
    isplitl [H2]; · iexact H2
    iexact H3
  isplitl [HO]; · iexact HO
  iintro ⟨Hb, ⟨H0, H1, H2, H3⟩, HO⟩
  iapply Hk
  isplitl [HO Hrest]
  · isplitl [HO]; · iexact HO
    iexact Hrest
  isplitl [Hb]; · iexact Hb
  isplitl [H0]; · iexact H0
  isplitl [H1]; · iexact H1
  isplitl [H2]; · iexact H2
  iexact H3

end Cert.Proof.KI

end
-- ==== Proof.HostHeld.lean ====
/-
  @main's arrays on the TensorCore, held together: the three arguments, their reshapes to the grid, the two results of the
  pipelined region, the SparseCore call's result, and the three results reshaped back to the stored layout.
-/
import proofs.«203824_g32177894982282_cont_8to1_b_1676_14_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v30' : DevRef τ sig := Proc.devRef .tc (main_v3_0 : Ref sig .tc)
abbrev v31' : DevRef τ sig := Proc.devRef .tc (main_v3_1 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The TensorCore's unscoped arrays. -/
abbrev S12 : Finset (DevRef τ sig) := {a0', a1', a2', v0', v1', v2', v30', v31', v4', v5', v6', v7'}

variable [FloatOps F]

omit [FloatOps F] in
theorem held_S12 (d : Dev nD) (W : Valuation τ sig (Elt F)) :
    (held (T d) S12 W : sProp 𝕄) = iprop(((SparseCore.T d).loc main_arg0 ↦{fullShare} W a0')
      ∗ ((SparseCore.T d).loc main_arg1 ↦{fullShare} W a1')
      ∗ ((SparseCore.T d).loc main_arg2 ↦{fullShare} W a2')
      ∗ ((SparseCore.T d).loc main_v0 ↦{fullShare} W v0')
      ∗ ((SparseCore.T d).loc main_v1 ↦{fullShare} W v1')
      ∗ ((SparseCore.T d).loc main_v2 ↦{fullShare} W v2')
      ∗ ((SparseCore.T d).loc main_v3_0 ↦{fullShare} W v30')
      ∗ ((SparseCore.T d).loc main_v3_1 ↦{fullShare} W v31')
      ∗ ((SparseCore.T d).loc main_v4 ↦{fullShare} W v4')
      ∗ ((SparseCore.T d).loc main_v5 ↦{fullShare} W v5')
      ∗ ((SparseCore.T d).loc main_v6 ↦{fullShare} W v6')
      ∗ ((SparseCore.T d).loc main_v7 ↦{fullShare} W v7')) := by
  unfold held S12
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3_0 ↦{fullShare} W main_v3_0)
      ∗ ((SparseCore.T d).loc main_v3_1 ↦{fullShare} W main_v3_1)
      ∗ ((SparseCore.T d).loc main_v4 ↦{fullShare} W main_v4)
      ∗ ((SparseCore.T d).loc main_v5 ↦{fullShare} W main_v5)
      ∗ ((SparseCore.T d).loc main_v6 ↦{fullShare} W main_v6)
      ∗ ((SparseCore.T d).loc main_v7 ↦{fullShare} W main_v7)) := by
  unfold unscopedBufs
  rw [show (Finset.univ.filter fun b : Ref sig .tc => ¬ b.isScoped) = {main_arg0, main_arg1, main_arg2, main_v0, main_v1, main_v2, main_v3_0, main_v3_1, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S12 (V0 m d) := by
  rw [unscopedBufs_eq, held_S12]; rfl

end Cert.Proof.KI

end
-- ==== Proof.HostOps.lean ====
/-
  One reshape of @main on the TensorCore, as a step on the two arrays it names: the source is read, the destination takes
  the source's cells in row-major order, nothing else is touched.
-/
import proofs.«203824_g32177894982282_cont_8to1_b_1676_14_alg».proof.Proof.HostHeld

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe

variable [FloatOps F]

omit [FloatOps F] in
theorem held_pair (d : Dev nD) (x y : Ref sig .tc) (hxy : x ≠ y) (W : Valuation τ sig (Elt F)) :
    (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by rw [Finset.mem_singleton]; exact fun e => hxy (Proc.devRef_injective _ e)), bigSep_singleton]

/-- The two arrays after the reshape. -/
theorem held_after (d : Dev nD) (x y : Ref sig .tc) (hxy : x ≠ y) (he : x.ty.elt = y.ty.elt)
    (hn : x.ty.shape.ShapeCasts y.ty.shape)
    (hx : x.space ≠ .host ∧ (x : DevRef τ sig).isScoped = false) (hy : y.space ≠ .host ∧ (y : DevRef τ sig).isScoped = false)
    (W : Valuation τ sig (Elt F)) :
    (held (T d) {Proc.devRef .tc x, Proc.devRef .tc y} ((StableHlo.reshape (τ := τ) (Val := Elt F) x y he hn hx hy).result W) : sProp 𝕄)
      = iprop(((SparseCore.T d).loc x ↦{fullShare} W (Proc.devRef .tc x))
          ∗ ((SparseCore.T d).loc y ↦{fullShare} (fun i => he ▸ shapeCast y.ty.shape (W (Proc.devRef .tc x)) hn i))) := by
  rw [held_pair d x y hxy, StableHlo.reshape_result', StableHlo.reshape_result_ne' (h := hxy)]

/-- A reshape of @main from `x` into `y`, from the two arrays alone. -/
theorem wp_reshape_step {α : Type} (d : Dev nD) (x y : Ref sig .tc) (hxy : x ≠ y) (he : x.ty.elt = y.ty.elt)
    (hn : x.ty.shape.ShapeCasts y.ty.shape)
    (hx : x.space ≠ .host ∧ (x : DevRef τ sig).isScoped = false) (hy : y.space ≠ .host ∧ (y : DevRef τ sig).isScoped = false)
    (W : Valuation τ sig (Elt F))
    (k : ((b : (StableHlo.reshape (τ := τ) (Val := Elt F) x y he hn hx hy).writes) → b.1.ty.Contents (Elt F))
      → Prog (TpuEff nD τ sig (Elt F) (SparseCore.Sig (ΛP (F := F)) 1) .tc) α) (Q : α → sProp 𝕄) :
    iprop(boundary (T d : Thread nD τ) ∗ ((SparseCore.T d).loc x ↦{fullShare} W (Proc.devRef .tc x)) ∗ ((SparseCore.T d).loc y ↦{fullShare} W (Proc.devRef .tc y)))
      ⊢ iprop(((boundary (T d : Thread nD τ) ∗ ((SparseCore.T d).loc x ↦{fullShare} W (Proc.devRef .tc x))
            ∗ ((SparseCore.T d).loc y ↦{fullShare} (fun i => he ▸ shapeCast y.ty.shape (W (Proc.devRef .tc x)) hn i)))
          -∗ wp frame (wpE ((K (F := F)).defs (D (F := F))) 𝒱 (SparseCore.T d) none) Set.univ
              (k ((StableHlo.reshape (τ := τ) (Val := Elt F) x y he hn hx hy).fn fun b => W b.1)) Q)
        -∗ wp frame (wpE ((K (F := F)).defs (D (F := F))) 𝒱 (SparseCore.T d) none) Set.univ
            (hlo rfl (StableHlo.reshape (τ := τ) (Val := Elt F) x y he hn hx hy) k) Q) := by
  iintro ⟨Hb, Hx, Hy⟩ Hk
  iapply (wp_hlo_within 𝒱 (SparseCore.T d) none Set.univ (op := StableHlo.reshape (τ := τ) (Val := Elt F) x y he hn hx hy)
    (S := {Proc.devRef .tc x, Proc.devRef .tc y}) (Finset.Subset.refl _) (V := W)) $$ [Hb Hx Hy]
  · isplitl [Hb]; · iexact Hb
    rw [held_pair d x y hxy]
    isplitl [Hx]; · iexact Hx
    iexact Hy
  iintro ⟨Hb, Hh⟩
  ihave Hh' := (Entails.of_eq (held_after (F := F) d x y hxy he hn hx hy W)) $$ Hh
  icases Hh' with ⟨Hx, Hy⟩
  iapply Hk
  isplitl [Hb]; · iexact Hb
  isplitl [Hx]; · iexact Hx
  iexact Hy

/-- The same from the two arrays' contents `a`, `b`, whatever else the memory holds, for a reshape followed by a program
    that does not use its value. -/
theorem wp_reshape {α : Type} (W₀ : Valuation τ sig (Elt F)) (d : Dev nD) (x y : Ref sig .tc) (hxy : x ≠ y) (he : x.ty.elt = y.ty.elt)
    (hn : x.ty.shape.ShapeCasts y.ty.shape)
    (hx : x.space ≠ .host ∧ (x : DevRef τ sig).isScoped = false) (hy : y.space ≠ .host ∧ (y : DevRef τ sig).isScoped = false)
    (a : Buf (Elt F) ((SparseCore.T d : Thread nD τ).loc x)) (b : Buf (Elt F) ((SparseCore.T d : Thread nD τ).loc y))
    (p : Prog (TpuEff nD τ sig (Elt F) (SparseCore.Sig (ΛP (F := F)) 1) .tc) α) (Q : α → sProp 𝕄) :
    iprop(boundary (T d : Thread nD τ) ∗ ((SparseCore.T d).loc x ↦{fullShare} a) ∗ ((SparseCore.T d).loc y ↦{fullShare} b))
      ⊢ iprop(((boundary (T d : Thread nD τ) ∗ ((SparseCore.T d).loc x ↦{fullShare} a)
            ∗ ((SparseCore.T d).loc y ↦{fullShare} (fun i => he ▸ shapeCast y.ty.shape a hn i)))
          -∗ wp frame (wpE ((K (F := F)).defs (D (F := F))) 𝒱 (SparseCore.T d) none) Set.univ p Q)
        -∗ wp frame (wpE ((K (F := F)).defs (D (F := F))) 𝒱 (SparseCore.T d) none) Set.univ
            (hlo rfl (StableHlo.reshape (τ := τ) (Val := Elt F) x y he hn hx hy) (fun _ => p)) Q) := by
  have hne : (Proc.devRef .tc x : DevRef τ sig) ≠ Proc.devRef .tc y := fun e => hxy (Proc.devRef_injective _ e)
  have hWx : (Function.update (Function.update W₀ (Proc.devRef .tc x) a) (Proc.devRef .tc y) b) (Proc.devRef .tc x) = a := by
    rw [Function.update_of_ne hne, Function.update_self]
  have hWy : (Function.update (Function.update W₀ (Proc.devRef .tc x) a) (Proc.devRef .tc y) b) (Proc.devRef .tc y) = b :=
    Function.update_self _ _ _
  have h := wp_reshape_step (F := F) d x y hxy he hn hx hy (Function.update (Function.update W₀ (Proc.devRef .tc x) a) (Proc.devRef .tc y) b) (fun _ => p) Q
  rw [hWx, hWy] at h
  exact h

end Cert.Proof.KI

end
-- ==== Proof.Planes.lean ====
/-
  The grid array [z, y, x] cut into its 128 planes z = const: the pieces the vector subcores work on. Subcore s of
  SparseCore c handles the four planes z = 8 s + 4 c + t, t < 4, so the 32 subcores cover every plane once.
-/
import proofs.«203824_g32177894982282_cont_8to1_b_1676_14_alg».proof.Proof.Setup
import proofs.«203824_g32177894982282_cont_8to1_b_1676_14_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The planes of the grid array -/

theorem hdiv128 : 128 ∣ S128x128x128.size 0 := ⟨1, rfl⟩

/-- Plane `z`: the indices [z, ·, ·]. -/
abbrev plane (z : Fin 128) : Rect S128x128x128 := Rect.part (s := S128x128x128) (a₀ := 0) hdiv128 z
abbrev planeSet (z : Fin 128) : Finset S128x128x128.Idx := (plane z).set

theorem planes_disjoint : ∀ i ∈ (Finset.univ : Finset (Fin 128)), ∀ j ∈ (Finset.univ : Finset (Fin 128)), i ≠ j → Disjoint (planeSet i) (planeSet j) :=
  fun i _ j _ h => Rect.part_disjoint hdiv128 h
theorem planes_cover : (Finset.univ : Finset (Fin 128)).biUnion planeSet = Finset.univ := Rect.biUnion_part hdiv128

/-! ## Which planes a vector subcore handles -/

/-- The plane number of step `t` on the subcore at grid coordinates `L` = (core, subcore). -/
def zOf (L : grid1.Coords) (t : Fin 4) : Fin 128 := ⟨8 * (L 1).val + 4 * (L 0).val + t.val, by
  have h0 : (L 0).val < 2 := (L 0).isLt
  have h1 : (L 1).val < 16 := (L 1).isLt
  omega⟩

/-- The printed slice of step `t`: the one-plane rectangle at the offsets the body computes. -/
abbrev planeK (L : grid1.Coords) (t : Fin 4) : Rect S128x128x128 :=
  Rect.unit (s := S128x128x128) (k1_off1 L (BitVec.ofNat 32 t.val)) S1x128x128.size (k1_off1_inb L t)

theorem planeK_eq (L : grid1.Coords) (t : Fin 4) : planeK L t = plane (zOf L t) := by
  unfold planeK plane Rect.part Rect.block
  congr 1 <;> funext a
  · rw [k1_off1_eq]
    match a with
    | 0 => simp [Shape.partIx, Shape.partSize, zOf]
    | 1 => simp [Shape.partIx, Shape.partSize]
    | 2 => simp [Shape.partIx, Shape.partSize]
  · match a with
    | 0 => simp [Shape.partSize]
    | 1 => simp [Shape.partSize]
    | 2 => simp [Shape.partSize]

end Cert.Proof.KI

end
-- ==== Proof.Lanes.lean ====
/-
  The row payloads of the vector subcores' stores, read at a lane: a row of zeros; a loaded row of sixteen cells with its
  first lane zeroed; the same with its last lane zeroed.
-/
import proofs.«203824_g32177894982282_cont_8to1_b_1676_14_alg».proof.Proof.Setup

import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx

/-- The first-lane mask: lane 0 only. -/
theorem lane0_apply : ∀ j : Fin 16, (k1_pay82 (ix1 j) : BitVec 1) = if j.val = 0 then 1#1 else 0#1 := by decide +kernel
/-- The last-lane mask: lane 15 only. -/
theorem lane15_apply : ∀ j : Fin 16, (k1_pay83 (ix1 j) : BitVec 1) = if j.val = 15 then 1#1 else 0#1 := by decide +kernel

variable [FloatOps F]

/-- The kernel's zero. -/
abbrev zeroF : F .f32 := Scalar.ofBits .f32 0x00000000#32

/-- A row of sixteen cells is the same sixteen values whether indexed [j] or [0, j]. -/
theorem row_of_vec {α : Type} (v : S16.Idx → α) (x : S1x16.Idx) : shapeCast S1x16 v shapeCasts_S16_S1x16 x = v (ix1 (x 1)) := by
  refine shapeCast_apply v shapeCasts_S16_S1x16 x (ix1 (x 1)) ?_
  rw [Shape.rowMajor_val_one, Shape.rowMajor_val_two]
  have h0 : (x 0).val < 1 := (x 0).isLt
  simp; omega
theorem vec_of_row {α : Type} (v : S1x16.Idx → α) (j : Fin 16) : shapeCast S16 v shapeCasts_S1x16_S16 (ix1 j) = v (ix2 (0 : Fin 1) j) := by
  refine shapeCast_apply v shapeCasts_S1x16_S16 (ix1 j) (ix2 (0 : Fin 1) j) ?_
  rw [Shape.rowMajor_val_one, Shape.rowMajor_val_two]
  simp

/-- The zero row, at any lane. -/
theorem zeroRow_apply (x : S1x16.Idx) : shapeCast S1x16 (k1_pay81 (F := F)) shapeCasts_S16_S1x16 x = zeroF := by
  rw [row_of_vec]; rfl

/-- A row with its first lane zeroed. -/
theorem firstLane_apply (v : Vec F S1x16 .f32) (x : S1x16.Idx) :
    shapeCast S1x16 (select k1_pay82 (k1_pay81 (F := F)) (shapeCast S16 v shapeCasts_S1x16_S16)) shapeCasts_S16_S1x16 x
      = if (x 1).val = 0 then zeroF else v x := by
  obtain ⟨j, rfl⟩ : ∃ j : Fin 16, x = ix2 (0 : Fin 1) j := ⟨x 1, by
    have h0 : (x 0).val < 1 := (x 0).isLt
    funext a; match a with
    | ⟨0, _⟩ => exact Fin.ext (by show (x 0).val = 0; omega)
    | ⟨1, _⟩ => rfl⟩
  rw [row_of_vec]
  show Scalar.select (k1_pay82 (ix1 j)) (k1_pay81 (F := F) (ix1 j)) (shapeCast S16 v shapeCasts_S1x16_S16 (ix1 j)) = if j.val = 0 then zeroF else v (ix2 (0 : Fin 1) j)
  rw [lane0_apply, vec_of_row]
  by_cases h : j.val = 0
  · rw [if_pos h, if_pos h]; rfl
  · rw [if_neg h, if_neg h]; rfl

/-- A row with its last lane zeroed. -/
theorem lastLane_apply (v : Vec F S1x16 .f32) (x : S1x16.Idx) :
    shapeCast S1x16 (select k1_pay83 (k1_pay81 (F := F)) (shapeCast S16 v shapeCasts_S1x16_S16)) shapeCasts_S16_S1x16 x
      = if (x 1).val = 15 then zeroF else v x := by
  obtain ⟨j, rfl⟩ : ∃ j : Fin 16, x = ix2 (0 : Fin 1) j := ⟨x 1, by
    have h0 : (x 0).val < 1 := (x 0).isLt
    funext a; match a with
    | ⟨0, _⟩ => exact Fin.ext (by show (x 0).val = 0; omega)
    | ⟨1, _⟩ => rfl⟩
  rw [row_of_vec]
  show Scalar.select (k1_pay83 (ix1 j)) (k1_pay81 (F := F) (ix1 j)) (shapeCast S16 v shapeCasts_S1x16_S16 (ix1 j)) = if j.val = 15 then zeroF else v (ix2 (0 : Fin 1) j)
  rw [lane15_apply, vec_of_row]
  by_cases h : j.val = 15
  · rw [if_pos h, if_pos h]; rfl
  · rw [if_neg h, if_neg h]; rfl

end Cert.Proof.KI

end
-- ==== Proof.Pay.lean ====
/-
  What the one SparseCore call carries: the third velocity component w (read) and its result tw (written), dealt plane
  by plane. Subcore (c, s) is handed its four planes of both arrays and hands back w unchanged and tw at the no-slip
  values of w on those planes.
-/
import proofs.«203824_g32177894982282_cont_8to1_b_1676_14_alg».proof.Proof.Planes
import proofs.«203824_g32177894982282_cont_8to1_b_1676_14_alg».proof.Proof.Lanes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The call's operand and result, as the TensorCore names them. -/
abbrev wLoc (d : Dev nD) : Loc nD τ sig := (SparseCore.T d).loc main_v2
abbrev twLoc (d : Dev nD) : Loc nD τ sig := (SparseCore.T d).loc main_v4

variable [FloatOps F]

/-- The no-slip values of `w`: what the call leaves in the result array. -/
def twOut (d : Dev nD) (w : Buf (Elt F) (wLoc d)) : Buf (Elt F) (twLoc d) := Cert.Spec.out3Z (zeroF (F := F)) w

abbrev wPlane (d : Dev nD) (w : Buf (Elt F) (wLoc d)) (z : Fin 128) : sProp 𝕄 := wLoc d ↦[planeSet z]{fullShare} w
abbrev twPlane (d : Dev nD) (f : Buf (Elt F) (twLoc d)) (z : Fin 128) : sProp 𝕄 := twLoc d ↦[planeSet z]{fullShare} f

/-- The coordinates of subcore `i` of SparseCore `c` of the call's grid. -/
def coordsV (c : Fin (grid1.bound 0)) (s : Fin (grid1.bound 1)) : grid1.Coords :=
  fun | 0 => c | 1 => s | ⟨_ + 2, h⟩ => absurd h (Nat.not_lt.2 (Nat.le_add_left _ _))

/-- A subcore's share going in: its four planes of `w` and of the result array at its entry contents `f₀`. -/
def goV (d : Dev nD) (w : Buf (Elt F) (wLoc d)) (f₀ : Buf (Elt F) (twLoc d)) (L : grid1.Coords) : sProp 𝕄 :=
  bigSep (Finset.univ : Finset (Fin 4)) fun t => iprop(wPlane d w (zOf L t) ∗ twPlane d f₀ (zOf L t))
/-- and coming back: `w` as it was, the result planes at the no-slip values. -/
def tdV (d : Dev nD) (w : Buf (Elt F) (wLoc d)) (L : grid1.Coords) : sProp 𝕄 :=
  bigSep (Finset.univ : Finset (Fin 4)) fun t => iprop(wPlane d w (zOf L t) ∗ twPlane d (twOut d w) (zOf L t))

variable (w : (d : Dev nD) → Buf (Elt F) (wLoc d)) (f₀ : (d : Dev nD) → Buf (Elt F) (twLoc d))

/-- The call's payloads: each SparseCore gets its sixteen subcores' shares and deals them on. -/
def P : (K (F := F)).Pay (nD := nD) (Val := Elt F) (Name := ℕ) (U := UU) where
  st := fun q d c => match q with
    | 0 => bigSep (Finset.univ : Finset (Fin ((K (F := F)).nSub 0))) fun i => goV d (w d) (f₀ d) (coordsV (Fin.cast nCore_zero c) (Fin.cast nSub_zero i))
  dn := fun q d c => match q with
    | 0 => bigSep (Finset.univ : Finset (Fin ((K (F := F)).nSub 0))) fun i => tdV d (w d) (coordsV (Fin.cast nCore_zero c) (Fin.cast nSub_zero i))
  go := fun q d c i => match q with
    | 0 => goV d (w d) (f₀ d) (coordsV (Fin.cast nCore_zero c) (Fin.cast nSub_zero i))
  td := fun q d c i => match q with
    | 0 => tdV d (w d) (coordsV (Fin.cast nCore_zero c) (Fin.cast nSub_zero i))
  x := fun _ _ => iprop(emp)

instance P_storable : (P (F := F) w f₀).IsStorable where
  st q d c := match q with
    | 0 => (by unfold P goV; infer_instance)
  dn q d c := match q with
    | 0 => (by unfold P tdV; infer_instance)
  go q d c i := match q with
    | 0 => (by unfold P goV; infer_instance)
  td q d c i := match q with
    | 0 => (by unfold P tdV; infer_instance)

end Cert.Proof.KI

end
-- ==== Proof.PlaneSplit.lean ====
/-
  The grid arrays dealt plane by plane: an array held whole is its 128 planes held separately, and the 128 planes are the
  four planes of each of the sixteen subcores of each of the two SparseCores. With it, what the SparseCore call takes from
  the TensorCore and hands back, as the two arrays whole.
-/
import proofs.«203824_g32177894982282_cont_8to1_b_1676_14_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- Plane number from (SparseCore, subcore, step). -/
def zEquiv : Fin 2 × Fin 16 × Fin 4 ≃ Fin 128 where
  toFun p := ⟨8 * p.2.1.val + 4 * p.1.val + p.2.2.val, by have := p.1.isLt; have := p.2.1.isLt; have := p.2.2.isLt; omega⟩
  invFun z := (⟨z.val / 4 % 2, by omega⟩, ⟨z.val / 8, by have := z.isLt; omega⟩, ⟨z.val % 4, by omega⟩)
  left_inv p := by
    obtain ⟨c, i, t⟩ := p
    have hc := c.isLt; have hi := i.isLt; have ht := t.isLt
    refine Prod.ext (Fin.ext ?_) (Prod.ext (Fin.ext ?_) (Fin.ext ?_)) <;> (show _ = _; simp only []; omega)
  right_inv z := by
    have hz := z.isLt
    refine Fin.ext ?_
    show 8 * (z.val / 8) + 4 * (z.val / 4 % 2) + z.val % 4 = z.val
    omega

theorem zOf_coordsV (c : Fin 2) (i : Fin 16) (t : Fin 4) : zOf (coordsV c i) t = zEquiv (c, i, t) := rfl

/-- A family over the 128 planes, regrouped by SparseCore, subcore and step. -/
theorem bigSep_planes (Φ : Fin 128 → sProp 𝕄) :
    bigSep Finset.univ Φ
      = bigSep (Finset.univ : Finset (Fin 2)) fun c => bigSep (Finset.univ : Finset (Fin 16)) fun i =>
          bigSep (Finset.univ : Finset (Fin 4)) fun t => Φ (zOf (coordsV c i) t) := by
  rw [← Finset.map_univ_equiv zEquiv, BI.bigSep_map, BI.bigSep_univ_prod]
  refine bigSep_congr fun c _ => ?_
  rw [BI.bigSep_univ_prod]
  rfl

variable (m : (ℓ : Loc nD τ sig) → Buf (Elt F) ℓ)

/-- An array of the grid shape held whole is its planes held one by one. -/
theorem w_planes (d : Dev nD) (f : Buf (Elt F) (wLoc d)) :
    (wLoc d ↦{fullShare} f : sProp 𝕄) = bigSep Finset.univ fun z : Fin 128 => wLoc d ↦[planeSet z]{fullShare} f := by
  rw [← pointsTo_biUnion Finset.univ (ℓ := wLoc d) planeSet planes_disjoint, planes_cover]; try rfl
theorem tw_planes (d : Dev nD) (f : Buf (Elt F) (twLoc d)) :
    (twLoc d ↦{fullShare} f : sProp 𝕄) = bigSep Finset.univ fun z : Fin 128 => twLoc d ↦[planeSet z]{fullShare} f := by
  rw [← pointsTo_biUnion Finset.univ (ℓ := twLoc d) planeSet planes_disjoint, planes_cover]; try rfl

variable [FloatOps F]
variable (w : (d : Dev nD) → Buf (Elt F) (wLoc d)) (f₀ : (d : Dev nD) → Buf (Elt F) (twLoc d))

/-- What the call takes: the operand and the result array, whole. -/
theorem st_all (d : Dev nD) :
    (bigSep Finset.univ fun c : Fin ((K (F := F)).nCore 0) => (P (F := F) w f₀).st 0 d c)
      = iprop((wLoc d ↦{fullShare} w d) ∗ (twLoc d ↦{fullShare} f₀ d)) := by
  show (bigSep (Finset.univ : Finset (Fin 2)) fun c => bigSep (Finset.univ : Finset (Fin 16)) fun i =>
      bigSep (Finset.univ : Finset (Fin 4)) fun t => iprop(wPlane d (w d) (zOf (coordsV c i) t) ∗ twPlane d (f₀ d) (zOf (coordsV c i) t))) = _
  rw [← bigSep_planes (F := F) (fun z => iprop(wPlane d (w d) z ∗ twPlane d (f₀ d) z)), bigSep_sep', w_planes, tw_planes]

/-- What it hands back: the operand unchanged, the result array at the no-slip values of the operand. -/
theorem dn_all (d : Dev nD) :
    (bigSep Finset.univ fun c : Fin ((K (F := F)).nCore 0) => (P (F := F) w f₀).dn 0 d c)
      = iprop((wLoc d ↦{fullShare} w d) ∗ (twLoc d ↦{fullShare} twOut d (w d))) := by
  show (bigSep (Finset.univ : Finset (Fin 2)) fun c => bigSep (Finset.univ : Finset (Fin 16)) fun i =>
      bigSep (Finset.univ : Finset (Fin 4)) fun t => iprop(wPlane d (w d) (zOf (coordsV c i) t) ∗ twPlane d (twOut d (w d)) (zOf (coordsV c i) t))) = _
  rw [← bigSep_planes (F := F) (fun z => iprop(wPlane d (w d) z ∗ twPlane d (twOut d (w d)) z)), bigSep_sep', w_planes, tw_planes]

end Cert.Proof.KI

end
-- ==== Proof.SpecReshape.lean ====
/-
  The stored layout [1, 128, 128, 128, 1] and the grid [128, 128, 128] hold the same cells in the same row-major order:
  reading a stored array by grid coordinates is the reshape to the grid, and a result computed on the grid and
  reshaped back is the result in the stored layout.
-/
import proofs.«203824_g32177894982282_cont_8to1_b_1676_14_alg».proof.Proof.Spec
import Idealize.ShloMosaic.Lib.Pipeline.Value

namespace Cert.Spec

open Idealize.ShloMosaic Idealize.ShloMosaic.ValueIdx

variable {E : Type}

/-- The reshape of a stored array to the grid, read by grid coordinates, is the stored array read by grid coordinates. -/
theorem grid3_shapeCast (a : S5.Idx → E) (h : S5.ShapeCasts S3) : grid3 (shapeCast S3 a h) = grid a := by
  funext z y x
  show shapeCast S3 a h (ix3 z y x) = a (ix5 (0 : Fin 1) z y x (0 : Fin 1))
  refine shapeCast_apply a h (ix3 z y x) (ix5 (0 : Fin 1) z y x (0 : Fin 1)) ?_
  rw [Shape.rowMajor_val_five, Shape.rowMajor_val_three]
  simp

/-- A grid array reshaped to the stored layout, at [0, z, y, x, 0], is the grid array at [z, y, x]. -/
theorem shapeCast5_apply (b : S3.Idx → E) (h : S3.ShapeCasts S5) (j : S5.Idx) : shapeCast S5 b h j = b (ix3 (j 1) (j 2) (j 3)) := by
  refine shapeCast_apply b h j (ix3 (j 1) (j 2) (j 3)) ?_
  rw [Shape.rowMajor_val_five, Shape.rowMajor_val_three]
  have h0 : (j 0).val = 0 := by have h : (j 0).val < 1 := (j 0).isLt; omega
  have h4 : (j 4).val = 0 := by have h : (j 4).val < 1 := (j 4).isLt; omega
  simp [h0, h4]

/-- The first result: computed on the grid from the reshaped argument and reshaped back. -/
theorem outU_reshape (one : E) (a : S5.Idx → E) (h53 : S5.ShapeCasts S3) (h35 : S3.ShapeCasts S5) :
    shapeCast S5 (out3U one (shapeCast S3 a h53)) h35 = outU one a := by
  funext j
  rw [shapeCast5_apply]
  show valU one (grid3 (shapeCast S3 a h53)) (j 1) (j 2) (j 3) = valU one (grid a) (j 1) (j 2) (j 3)
  rw [grid3_shapeCast]

/-- The other results likewise. -/
theorem outZ_reshape (zero : E) (a : S5.Idx → E) (h53 : S5.ShapeCasts S3) (h35 : S3.ShapeCasts S5) :
    shapeCast S5 (out3Z zero (shapeCast S3 a h53)) h35 = outZ zero a := by
  funext j
  rw [shapeCast5_apply]
  show valZ zero (grid3 (shapeCast S3 a h53)) (j 1) (j 2) (j 3) = valZ zero (grid a) (j 1) (j 2) (j 3)
  rw [grid3_shapeCast]

end Cert.Spec
-- ==== Proof.Main.lean ====
/-
  @main on the TensorCore, inside the SparseCore launch: the three arguments are reshaped to the grid, the pipelined region
  computes the first two results from the first two, the SparseCore call the third from the third, and the three are
  reshaped back. What the TensorCore is left holding: its arguments unchanged and the three results at the specification's
  functions of them.
-/
import proofs.«203824_g32177894982282_cont_8to1_b_1676_14_alg».proof.Proof.Region
import proofs.«203824_g32177894982282_cont_8to1_b_1676_14_alg».proof.Proof.HostOps
import proofs.«203824_g32177894982282_cont_8to1_b_1676_14_alg».proof.Proof.PlaneSplit
import proofs.«203824_g32177894982282_cont_8to1_b_1676_14_alg».proof.Proof.SpecReshape

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ) (ρ : Dev nD → PrngReg)
variable [FloatOps F]

/-- The kernel's one. -/
abbrev oneF : F .f32 := Scalar.ofBits .f32 0x3F800000#32

/-- The third argument on the grid: the SparseCore call's operand. -/
def W2 (d : Dev nD) : Buf (Elt F) (wLoc d) := shapeCast S128x128x128 (m ((SparseCore.T d).loc main_arg2)) shapeCasts_S1x128x128x128x1_S128x128x128
/-- The call's result array as the launch left it. -/
def F4 (d : Dev nD) : Buf (Elt F) (twLoc d) := m (twLoc d)

/-- The call's payloads at this launch. -/
abbrev PP : (K (F := F)).Pay (nD := nD) (Val := Elt F) (Name := ℕ) (U := UU) := P (F := F) (W2 m) (F4 m)

/-- What @main leaves the claim: the arguments unchanged, the results at the specification. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v5 ↦{fullShare} (Cert.Spec.outU (oneF (F := F)) (m ((SparseCore.T d).loc main_arg0)) : Buf (Elt F) ((SparseCore.T d).loc main_v5)))
    ∗ ((SparseCore.T d).loc main_v6 ↦{fullShare} (Cert.Spec.outZ (zeroF (F := F)) (m ((SparseCore.T d).loc main_arg1)) : Buf (Elt F) ((SparseCore.T d).loc main_v6)))
    ∗ ((SparseCore.T d).loc main_v7 ↦{fullShare} (Cert.Spec.outZ (zeroF (F := F)) (m ((SparseCore.T d).loc main_arg2)) : Buf (Elt F) ((SparseCore.T d).loc main_v7))))

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Hv0, Hv1, Hv2, Hv30, Hv31, Hv4, Hv5, Hv6, Hv7⟩, -, -⟩, HG⟩
  -- the three arguments to the grid
  iapply (wp_reshape (F := F) (V0 m d) d main_arg0 main_v0 (by decide) rfl shapeCasts_S1x128x128x128x1_S128x128x128 ⟨by decide, rfl⟩ ⟨by decide, rfl⟩ _ _ _ _) $$ [Hb Ha0 Hv0]
  · isplitl [Hb]; · iexact Hb
    isplitl [Ha0]; · iexact Ha0
    iexact Hv0
  iintro ⟨Hb, Ha0, Hv0⟩
  rw [wp_ret]; imodintro
  iapply (wp_reshape (F := F) (V0 m d) d main_arg1 main_v1 (by decide) rfl shapeCasts_S1x128x128x128x1_S128x128x128 ⟨by decide, rfl⟩ ⟨by decide, rfl⟩ _ _ _ _) $$ [Hb Ha1 Hv1]
  · isplitl [Hb]; · iexact Hb
    isplitl [Ha1]; · iexact Ha1
    iexact Hv1
  iintro ⟨Hb, Ha1, Hv1⟩
  rw [wp_ret]; imodintro
  iapply (wp_reshape (F := F) (V0 m d) d main_arg2 main_v2 (by decide) rfl shapeCasts_S1x128x128x128x1_S128x128x128 ⟨by decide, rfl⟩ ⟨by decide, rfl⟩ _ _ _ _) $$ [Hb Ha2 Hv2]
  · isplitl [Hb]; · iexact Hb
    isplitl [Ha2]; · iexact Ha2
    iexact Hv2
  iintro ⟨Hb, Ha2, Hv2⟩
  rw [wp_ret]; imodintro
  -- the pipelined region: the first two results
  iapply (region_wp (F := F) (PP m) κ d _ _ _) $$ [Hst Hb HG Ha0 Ha1 Ha2 Hv0 Hv1 Hv2 Hv30 Hv31 Hv4 Hv5 Hv6 Hv7]
  isplitr; · iexact Hctx
  isplitl [Hst]; · iexact Hst
  isplitl [Hb]; · iexact Hb
  isplitl [HG]; · iexact HG
  isplitl [Hv0]; · iexact Hv0
  isplitl [Hv1]; · iexact Hv1
  isplitl [Hv30]; · iexists _; iexact Hv30
  isplitl [Hv31]; · iexists _; iexact Hv31
  iintro ⟨Hst, Hb, Hv0, Hv1, Hv30, Hv31⟩
  -- the SparseCore call: the third result
  iapply ((K (F := F)).wp_run (D (F := F)) 𝒱 (EH := EH) (P := PP m) κ d 0) $$ [Hst Hb Ha0 Ha1 Ha2 Hv0 Hv1 Hv2 Hv30 Hv31 Hv4 Hv5 Hv6 Hv7]
  isplitr; · iexact Hctx
  isplitl [Hst]; · iexact Hst
  isplitl [Hv2 Hv4]
  · rw [st_all]
    isplitl [Hv2]; · iexact Hv2
    iexact Hv4
  iintro ⟨Hst, Hdn⟩
  ihave Hdn' := (Entails.of_eq (dn_all (F := F) (W2 m) (F4 m) d)) $$ Hdn
  icases Hdn' with ⟨Hv2, Hv4⟩
  -- the three results back to the stored layout
  iapply (wp_reshape (F := F) (V0 m d) d main_v3_0 main_v5 (by decide) rfl shapeCasts_S128x128x128_S1x128x128x128x1 ⟨by decide, rfl⟩ ⟨by decide, rfl⟩ _ _ _ _) $$ [Hb Hv30 Hv5]
  · isplitl [Hb]; · iexact Hb
    isplitl [Hv30]; · iexact Hv30
    iexact Hv5
  iintro ⟨Hb, Hv30, Hv5⟩
  rw [wp_ret]; imodintro
  iapply (wp_reshape (F := F) (V0 m d) d main_v3_1 main_v6 (by decide) rfl shapeCasts_S128x128x128_S1x128x128x128x1 ⟨by decide, rfl⟩ ⟨by decide, rfl⟩ _ _ _ _) $$ [Hb Hv31 Hv6]
  · isplitl [Hb]; · iexact Hb
    isplitl [Hv31]; · iexact Hv31
    iexact Hv6
  iintro ⟨Hb, Hv31, Hv6⟩
  rw [wp_ret]; imodintro
  iapply (wp_reshape (F := F) (V0 m d) d main_v4 main_v7 (by decide) rfl shapeCasts_S128x128x128_S1x128x128x128x1 ⟨by decide, rfl⟩ ⟨by decide, rfl⟩ _ _ _ _) $$ [Hb Hv4 Hv7]
  · isplitl [Hb]; · iexact Hb
    isplitl [Hv4]; · iexact Hv4
    iexact Hv7
  iintro ⟨Hb, Hv4, Hv7⟩
  rw [wp_ret]; imodintro
  imodintro
  isplitl [Hst]; · iexact Hst
  unfold FIN
  isplitl [Ha0]; · iexact Ha0
  isplitl [Ha1]; · iexact Ha1
  isplitl [Ha2]; · iexact Ha2
  isplitl [Hv5]
  · iapply (Entails.of_eq (congrArg (fun c => ((SparseCore.T d).loc main_v5 ↦{fullShare} c : sProp 𝕄))
      (Cert.Spec.outU_reshape (oneF (F := F)) (m ((SparseCore.T d).loc main_arg0)) shapeCasts_S1x128x128x128x1_S128x128x128 shapeCasts_S128x128x128_S1x128x128x128x1)))
    iexact Hv5
  isplitl [Hv6]
  · iapply (Entails.of_eq (congrArg (fun c => ((SparseCore.T d).loc main_v6 ↦{fullShare} c : sProp 𝕄))
      (Cert.Spec.outZ_reshape (zeroF (F := F)) (m ((SparseCore.T d).loc main_arg1)) shapeCasts_S1x128x128x128x1_S128x128x128 shapeCasts_S128x128x128_S1x128x128x128x1)))
    iexact Hv6
  · iapply (Entails.of_eq (congrArg (fun c => ((SparseCore.T d).loc main_v7 ↦{fullShare} c : sProp 𝕄))
      (Cert.Spec.outZ_reshape (zeroF (F := F)) (m ((SparseCore.T d).loc main_arg2)) shapeCasts_S1x128x128x128x1_S128x128x128 shapeCasts_S128x128x128_S1x128x128x128x1)))
    iexact Hv7

end Cert.Proof.KI

end
-- ==== Proof.TileRes.lean ====
/-
  The holdings of one vector subcore, in the form its body's steps read them: its four planes of the operand and of the
  result as the sliced arrays the copies name, its four plane-sized scratch buffers, its eight copy semaphores.
-/
import proofs.«203824_g32177894982282_cont_8to1_b_1676_14_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

/-- The vector subcore at grid coordinates `L`. -/
abbrev cV (L : grid1.Coords) : Fin τ.nSC := (L 0).castLE hcore1
abbrev jV (L : grid1.Coords) : Fin τ.nSub := (L 1).castLE hsub1

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

/-! ## The sliced arrays of step `t` -/

/-- Plane `zOf L t` of the operand, as the body slices it for its copy in. -/
abbrev srcK (L : grid1.Coords) (t : Fin 4) : Memref sig .scVector .hbm S128x128 .f32 :=
  ((wW).slice (planeK L t) (fun _ => rfl)).squeeze S128x128 squeezes_S1x128x128_S128x128
/-- The same plane of the result, as the body slices it for its copy out. -/
abbrev dstK (L : grid1.Coords) (t : Fin 4) : Memref sig .scVector .hbm S128x128 .f32 :=
  ((twW).slice (planeK L t) (fun _ => rfl)).squeeze S128x128 squeezes_S1x128x128_S128x128

omit [FloatOps F] in
theorem set_srcK (t : Fin 4) : (srcK L t).view.set = planeSet (zOf L t) := by
  show (((wW).view.slice (planeK L t)).reshape S128x128 squeezes_S1x128x128_S128x128.numel_eq).set = (plane (zOf L t)).set
  rw [View.set_reshape]
  have h : ∀ r : Rect S128x128x128, ((wW).view.slice r).set = r.set := fun r => by
    show ((View.whole (main_v2_scv : Ref sig .scVector)).slice r).set = _
    rw [View.set_slice]; exact Finset.map_refl
  rw [h]
  exact congrArg (fun r : Rect S128x128x128 => r.set) (planeK_eq L t)
omit [FloatOps F] in
theorem set_dstK (t : Fin 4) : (dstK L t).view.set = planeSet (zOf L t) := by
  show (((twW).view.slice (planeK L t)).reshape S128x128 squeezes_S1x128x128_S128x128.numel_eq).set = (plane (zOf L t)).set
  rw [View.set_reshape]
  have h : ∀ r : Rect S128x128x128, ((twW).view.slice r).set = r.set := fun r => by
    show ((View.whole (main_v4_scv : Ref sig .scVector)).slice r).set = _
    rw [View.set_slice]; exact Finset.map_refl
  rw [h]
  exact congrArg (fun r : Rect S128x128x128 => r.set) (planeK_eq L t)

omit [FloatOps F] in
theorem pts_srcK (t : Fin 4) (f : Buf (Elt F) (wLoc d)) :
    ((srcK L t).view.loc (V d (cV L) (jV L)) ↦[(srcK L t).view.set]{fullShare} f : sProp 𝕄) = wLoc d ↦[planeSet (zOf L t)]{fullShare} f := by
  rw [set_srcK]
omit [FloatOps F] in
theorem pts_dstK (t : Fin 4) (f : Buf (Elt F) (twLoc d)) :
    ((dstK L t).view.loc (V d (cV L) (jV L)) ↦[(dstK L t).view.set]{fullShare} f : sProp 𝕄) = twLoc d ↦[planeSet (zOf L t)]{fullShare} f := by
  rw [set_dstK]

/-! ## The same, spelt with the body's literal words -/

abbrev src0 (L : grid1.Coords) : Memref sig .scVector .hbm S128x128 .f32 := ((wW).slice (Rect.unit (s := S128x128x128) (k1_off1 L 0#32) S1x128x128.size (k1_off1_inb L 0)) (fun _ => rfl)).squeeze S128x128 squeezes_S1x128x128_S128x128
abbrev src1 (L : grid1.Coords) : Memref sig .scVector .hbm S128x128 .f32 := ((wW).slice (Rect.unit (s := S128x128x128) (k1_off1 L 1#32) S1x128x128.size (k1_off1_inb L 1)) (fun _ => rfl)).squeeze S128x128 squeezes_S1x128x128_S128x128
abbrev src2 (L : grid1.Coords) : Memref sig .scVector .hbm S128x128 .f32 := ((wW).slice (Rect.unit (s := S128x128x128) (k1_off1 L 2#32) S1x128x128.size (k1_off1_inb L 2)) (fun _ => rfl)).squeeze S128x128 squeezes_S1x128x128_S128x128
abbrev src3 (L : grid1.Coords) : Memref sig .scVector .hbm S128x128 .f32 := ((wW).slice (Rect.unit (s := S128x128x128) (k1_off1 L 3#32) S1x128x128.size (k1_off1_inb L 3)) (fun _ => rfl)).squeeze S128x128 squeezes_S1x128x128_S128x128
abbrev dst0 (L : grid1.Coords) : Memref sig .scVector .hbm S128x128 .f32 := ((twW).slice (Rect.unit (s := S128x128x128) (k1_off1 L 0#32) S1x128x128.size (k1_off1_inb L 0)) (fun _ => rfl)).squeeze S128x128 squeezes_S1x128x128_S128x128
abbrev dst1 (L : grid1.Coords) : Memref sig .scVector .hbm S128x128 .f32 := ((twW).slice (Rect.unit (s := S128x128x128) (k1_off1 L 1#32) S1x128x128.size (k1_off1_inb L 1)) (fun _ => rfl)).squeeze S128x128 squeezes_S1x128x128_S128x128
abbrev dst2 (L : grid1.Coords) : Memref sig .scVector .hbm S128x128 .f32 := ((twW).slice (Rect.unit (s := S128x128x128) (k1_off1 L 2#32) S1x128x128.size (k1_off1_inb L 2)) (fun _ => rfl)).squeeze S128x128 squeezes_S1x128x128_S128x128
abbrev dst3 (L : grid1.Coords) : Memref sig .scVector .hbm S128x128 .f32 := ((twW).slice (Rect.unit (s := S128x128x128) (k1_off1 L 3#32) S1x128x128.size (k1_off1_inb L 3)) (fun _ => rfl)).squeeze S128x128 squeezes_S1x128x128_S128x128

omit [FloatOps F] in
theorem pts_src0 (f : Buf (Elt F) (wLoc d)) : ((src0 L).view.loc (V d (cV L) (jV L)) ↦[(src0 L).view.set]{fullShare} f : sProp 𝕄) = wLoc d ↦[planeSet (zOf L 0)]{fullShare} f := pts_srcK d L 0 f
omit [FloatOps F] in
theorem pts_src1 (f : Buf (Elt F) (wLoc d)) : ((src1 L).view.loc (V d (cV L) (jV L)) ↦[(src1 L).view.set]{fullShare} f : sProp 𝕄) = wLoc d ↦[planeSet (zOf L 1)]{fullShare} f := pts_srcK d L 1 f
omit [FloatOps F] in
theorem pts_src2 (f : Buf (Elt F) (wLoc d)) : ((src2 L).view.loc (V d (cV L) (jV L)) ↦[(src2 L).view.set]{fullShare} f : sProp 𝕄) = wLoc d ↦[planeSet (zOf L 2)]{fullShare} f := pts_srcK d L 2 f
omit [FloatOps F] in
theorem pts_src3 (f : Buf (Elt F) (wLoc d)) : ((src3 L).view.loc (V d (cV L) (jV L)) ↦[(src3 L).view.set]{fullShare} f : sProp 𝕄) = wLoc d ↦[planeSet (zOf L 3)]{fullShare} f := pts_srcK d L 3 f
omit [FloatOps F] in
theorem pts_dst0 (f : Buf (Elt F) (twLoc d)) : ((dst0 L).view.loc (V d (cV L) (jV L)) ↦[(dst0 L).view.set]{fullShare} f : sProp 𝕄) = twLoc d ↦[planeSet (zOf L 0)]{fullShare} f := pts_dstK d L 0 f
omit [FloatOps F] in
theorem pts_dst1 (f : Buf (Elt F) (twLoc d)) : ((dst1 L).view.loc (V d (cV L) (jV L)) ↦[(dst1 L).view.set]{fullShare} f : sProp 𝕄) = twLoc d ↦[planeSet (zOf L 1)]{fullShare} f := pts_dstK d L 1 f
omit [FloatOps F] in
theorem pts_dst2 (f : Buf (Elt F) (twLoc d)) : ((dst2 L).view.loc (V d (cV L) (jV L)) ↦[(dst2 L).view.set]{fullShare} f : sProp 𝕄) = twLoc d ↦[planeSet (zOf L 2)]{fullShare} f := pts_dstK d L 2 f
omit [FloatOps F] in
theorem pts_dst3 (f : Buf (Elt F) (twLoc d)) : ((dst3 L).view.loc (V d (cV L) (jV L)) ↦[(dst3 L).view.set]{fullShare} f : sProp 𝕄) = twLoc d ↦[planeSet (zOf L 3)]{fullShare} f := pts_dstK d L 3 f

omit [FloatOps F] in
theorem pts_b0 (f : Buf (Elt F) ((V d (cV L) (jV L)).loc cc1_scratch0)) : ((bW0).view.loc (V d (cV L) (jV L)) ↦{fullShare} f : sProp 𝕄) = (V d (cV L) (jV L)).loc cc1_scratch0 ↦{fullShare} f := rfl
omit [FloatOps F] in
theorem pts_b1 (f : Buf (Elt F) ((V d (cV L) (jV L)).loc cc1_scratch1)) : ((bW1).view.loc (V d (cV L) (jV L)) ↦{fullShare} f : sProp 𝕄) = (V d (cV L) (jV L)).loc cc1_scratch1 ↦{fullShare} f := rfl
omit [FloatOps F] in
theorem pts_b2 (f : Buf (Elt F) ((V d (cV L) (jV L)).loc cc1_scratch2)) : ((bW2).view.loc (V d (cV L) (jV L)) ↦{fullShare} f : sProp 𝕄) = (V d (cV L) (jV L)).loc cc1_scratch2 ↦{fullShare} f := rfl
omit [FloatOps F] in
theorem pts_b3 (f : Buf (Elt F) ((V d (cV L) (jV L)).loc cc1_scratch3)) : ((bW3).view.loc (V d (cV L) (jV L)) ↦{fullShare} f : sProp 𝕄) = (V d (cV L) (jV L)).loc cc1_scratch3 ↦{fullShare} f := rfl

/-! ## The scratch buffers and the copy semaphores -/

/-- Scratch buffer `k`. -/
def bufK : Fin 4 → Ref sig .scVector := fun | 0 => cc1_scratch0 | 1 => cc1_scratch1 | 2 => cc1_scratch2 | 3 => cc1_scratch3
/-- Copy semaphore `k`: 0–3 for the copies in, 4–7 for the copies out. -/
def semK : Fin 8 → DmaSem sig := fun
  | 0 => cc1_scratch4.sem | 1 => cc1_scratch5.sem | 2 => cc1_scratch6.sem | 3 => cc1_scratch7.sem
  | 4 => cc1_scratch8.sem | 5 => cc1_scratch9.sem | 6 => cc1_scratch10.sem | 7 => cc1_scratch11.sem

theorem bufK_inj : Function.Injective bufK := by decide
theorem semK_inj : Function.Injective semK := by decide

/-- The subcore's four scratch buffers among its own. -/
def bufs4 (c : Fin τ.nSC) (i : Fin τ.nSub) : Finset (DevRef τ sig) :=
  (Finset.univ : Finset (Fin 4)).map ⟨fun k => (Proc.scVector c i).devRef (bufK k), fun _ _ e => bufK_inj (Proc.devRef_injective _ e)⟩
/-- The subcore's eight copy semaphores among its own cells. -/
def cells8 (thr : Thread nD τ) : Finset (GSem nD τ sig) :=
  (Finset.univ : Finset (Fin 8)).map ⟨fun k => (thr, SemLoc.dma (semK k)), fun _ _ e => semK_inj (SemLoc.dma.inj (Prod.mk.inj e).2)⟩

omit [FloatOps F] in
theorem cells8_sub (c : Fin τ.nSC) (i : Fin τ.nSub) : cells8 (V d c i) ⊆ ownCells (V d c i) := by
  intro g hg
  obtain ⟨k, -, rfl⟩ := Finset.mem_map.mp hg
  refine mem_ownCells.mpr ⟨rfl, ?_⟩
  have h : ∀ k : Fin 8, (SemLoc.dma (semK k) : SemLoc sig).isScoped .scVector = true := by decide
  exact h k

omit [FloatOps F] in
theorem bufs4_sub (c : Fin τ.nSC) (i : Fin τ.nSub) : bufs4 c i ⊆ ownRefs (τ := τ) (.scVector c i) := by
  intro b hb
  obtain ⟨k, -, rfl⟩ := Finset.mem_map.mp hb
  show (Proc.scVector c i).devRef (bufK k) ∈ ownRefs (τ := τ) (Proc.scVector c i)
  fin_cases k <;> exact SparseCore.Cfg.mem_ownRefs_of_owner (p := Proc.scVector c i) rfl

omit [FloatOps F] in
/-- The subcore's own semaphores at zero: the eight copy semaphores, and the rest. -/
theorem ownSems0_split (c : Fin τ.nSC) (i : Fin τ.nSub) :
    (ownSems0 (V d c i) : sProp 𝕄)
      = iprop((bigSep (Finset.univ : Finset (Fin 8)) fun k => semVal ((V d c i, SemLoc.dma (semK k)) : GSem nD τ sig) 0)
          ∗ bigSep (ownCells (V d c i) \ cells8 (V d c i)) fun g => semVal g 0) := by
  unfold SparseCore.Cfg.ownSems0
  rw [SparseCore.bigSep_sdiff_split' (cells8_sub d c i)]
  unfold cells8
  rw [BI.bigSep_map]
  rfl

omit [FloatOps F] in
/-- The subcore's own buffers: the four scratch buffers at some contents, and the rest. -/
theorem ownBufs_split (c : Fin τ.nSC) (i : Fin τ.nSub) :
    (ownBufs (V d c i) : sProp 𝕄)
      = iprop((bigSep (Finset.univ : Finset (Fin 4)) fun k => iprop(∃ f, (V d c i).loc (bufK k) ↦{fullShare} f))
          ∗ bigSep (ownRefs (τ := τ) (.scVector c i) \ bufs4 c i) fun b => iprop(∃ f, ((d, b) : Loc nD τ sig) ↦{fullShare} f)) := by
  unfold SparseCore.Cfg.ownBufs
  rw [show (V d c i : Thread nD τ).2 = .scVector c i from rfl, SparseCore.bigSep_sdiff_split' (bufs4_sub c i)]
  unfold bufs4
  rw [BI.bigSep_map]
  rfl

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

omit [FloatOps F] in
/-- The same with the eight semaphores by name. -/
theorem ownSems0_split8 (c : Fin τ.nSC) (i : Fin τ.nSub) :
    (ownSems0 (V d c i) : sProp 𝕄)
      = iprop((semVal ((V d c i, SemLoc.dma cc1_scratch4.sem) : GSem nD τ sig) 0 ∗ semVal ((V d c i, SemLoc.dma cc1_scratch5.sem) : GSem nD τ sig) 0
            ∗ semVal ((V d c i, SemLoc.dma cc1_scratch6.sem) : GSem nD τ sig) 0 ∗ semVal ((V d c i, SemLoc.dma cc1_scratch7.sem) : GSem nD τ sig) 0
            ∗ semVal ((V d c i, SemLoc.dma cc1_scratch8.sem) : GSem nD τ sig) 0 ∗ semVal ((V d c i, SemLoc.dma cc1_scratch9.sem) : GSem nD τ sig) 0
            ∗ semVal ((V d c i, SemLoc.dma cc1_scratch10.sem) : GSem nD τ sig) 0 ∗ semVal ((V d c i, SemLoc.dma cc1_scratch11.sem) : GSem nD τ sig) 0)
          ∗ bigSep (ownCells (V d c i) \ cells8 (V d c i)) fun g => semVal g 0) := by
  rw [ownSems0_split, bigSep_fin8]; rfl

omit [FloatOps F] in
/-- The same with the four buffers by name. -/
theorem ownBufs_split4 (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f)
            ∗ (∃ f, (V d c i).loc cc1_scratch2 ↦{fullShare} f) ∗ (∃ f, (V d c i).loc cc1_scratch3 ↦{fullShare} f))
          ∗ bigSep (ownRefs (τ := τ) (.scVector c i) \ bufs4 c i) fun b => iprop(∃ f, ((d, b) : Loc nD τ sig) ↦{fullShare} f)) := by
  rw [ownBufs_split, bigSep_fin4]; rfl

end Cert.Proof.KI

end
-- ==== Proof.PlaneMath.lean ====
/-
  One plane of the grid as a 128 × 128 array [y, x], and what zeroing does to it. Inside the grid (1 ≤ z ≤ 126) a plane
  keeps its interior and gets its frame zeroed: first the rows y = 0 and y = 127 whole, then, row by row, the two end
  cells x = 0 and x = 127. On the two boundary planes every cell is zeroed, row by row. The partial results after k rows
  are the loop invariants; their first and last members are the plane before and after.
  Also: what a run of stores leaves in a whole buffer, read at a cell.
-/
import Idealize.ShloMosaic.Lib.Writes
import proofs.«203824_g32177894982282_cont_8to1_b_1676_14_alg».proof.Proof.Spec

namespace Cert.Proof.PlaneMath

open Idealize.ShloMosaic Cert.Spec

/-- A plane [y, x]. -/
abbrev P2 : Shape := ⟨2, ![128, 128]⟩

variable {E : Type}

/-- A coordinate value on the boundary of the grid. -/
abbrev eN (n : Nat) : Prop := n = 0 ∨ n = 127

/-- Rows 0 and 127 zeroed. -/
def rowsZero (zero : E) (c : P2.Idx → E) : P2.Idx → E := fun y => if eN (y 0).val then zero else c y
/-- Rows 0 and 127 zeroed and, in rows 1 … k, the two end cells. -/
def frameUpTo (zero : E) (c : P2.Idx → E) (k : Nat) : P2.Idx → E :=
  fun y => if eN (y 0).val then zero else if (y 0).val ≤ k ∧ eN (y 1).val then zero else c y
/-- The whole frame zeroed. -/
def frameZero (zero : E) (c : P2.Idx → E) : P2.Idx → E := fun y => if eN (y 0).val ∨ eN (y 1).val then zero else c y
/-- Rows 0 … k − 1 zeroed whole. -/
def fillUpTo (zero : E) (c : P2.Idx → E) (k : Nat) : P2.Idx → E := fun y => if (y 0).val < k then zero else c y
/-- What plane `z` of a no-slip component holds, given the plane `c` of the component itself. -/
def planeOut (zero : E) (z : Fin 128) (c : P2.Idx → E) : P2.Idx → E := if eN z.val then (fun _ => zero) else frameZero zero c

/-- Case analysis on nested conditions about coordinates: each branch is closed by reflexivity or by arithmetic. -/
macro "coord_cases" : tactic =>
  `(tactic| (split_ifs <;> first | rfl | (exfalso; simp only [Cert.Spec.edge, Cert.Proof.PlaneMath.eN] at *; omega)))

theorem frameUpTo_zero (zero : E) (c : P2.Idx → E) : frameUpTo zero c 0 = rowsZero zero c := by
  funext y; unfold frameUpTo rowsZero; coord_cases
theorem frameUpTo_last (zero : E) (c : P2.Idx → E) : frameUpTo zero c 126 = frameZero zero c := by
  funext y; unfold frameUpTo frameZero
  have h0 : (y 0).val < 128 := (y 0).isLt
  coord_cases
theorem frameUpTo_succ (zero : E) (c : P2.Idx → E) (k : Nat) :
    (fun y : P2.Idx => if (y 0).val = k + 1 ∧ eN (y 1).val then zero else frameUpTo zero c k y) = frameUpTo zero c (k + 1) := by
  funext y; unfold frameUpTo; coord_cases
theorem fillUpTo_zero (zero : E) (c : P2.Idx → E) : fillUpTo zero c 0 = c := by
  funext y; unfold fillUpTo; coord_cases
theorem fillUpTo_last (zero : E) (c : P2.Idx → E) : fillUpTo zero c 128 = fun _ => zero := by
  funext y; unfold fillUpTo
  have h0 : (y 0).val < 128 := (y 0).isLt
  coord_cases
theorem fillUpTo_succ (zero : E) (c : P2.Idx → E) (k : Nat) :
    (fun y : P2.Idx => if (y 0).val = k then zero else fillUpTo zero c k y) = fillUpTo zero c (k + 1) := by
  funext y; unfold fillUpTo; coord_cases

/-! ## Stores into a whole buffer, read at a cell -/

variable {sig : RefSig} {κ : Kind} {Val : EltTy → Type}

/-- A run of stores into a whole buffer, read at a cell: the last store decides where its rectangle holds the cell, when
    its payload is a function `φ` of the cell; elsewhere the earlier stores do. -/
theorem whole_writes_cons (b : Ref sig κ) (f : (View.whole b).ty.Contents Val) (r : Rect b.ty.shape)
    (w : r.shape.Idx → Val b.ty.elt) (Ls : List (View.Piece Val b.ty.shape b.ty.elt))
    (φ : b.ty.shape.Idx → Val b.ty.elt) (hφ : ∀ x, w x = φ (r.emb x)) (y : b.ty.shape.Idx) :
    (View.whole b).writes Val f (⟨r, w⟩ :: Ls) y = if y ∈ r.set then φ y else (View.whole b).writes Val f Ls y := by
  by_cases hy : y ∈ r.set
  · rw [if_pos hy]
    rw [← Rect.map_emb_univ] at hy
    obtain ⟨x, -, rfl⟩ := Finset.mem_map.mp hy
    rw [← hφ]
    exact View.read_writes_cons_emb (View.whole b) f r w Ls x
  · rw [if_neg hy]
    show (View.whole b).read Val ((View.whole b).writes Val f (⟨r, w⟩ :: Ls)) y = (View.whole b).read Val ((View.whole b).writes Val f Ls) y
    rw [View.writes_cons, View.read_slice_write_of_not_mem r _ _ _ (by rw [Rect.map_emb_univ]; exact hy)]

/-- Two stores, the later first. -/
theorem two_stores (b : Ref sig κ) (f : (View.whole b).ty.Contents Val) {r₂ r₃ : Rect b.ty.shape}
    {w₂ : r₂.shape.Idx → Val b.ty.elt} {w₃ : r₃.shape.Idx → Val b.ty.elt} (φ₂ φ₃ : b.ty.shape.Idx → Val b.ty.elt)
    (h₂ : ∀ x, w₂ x = φ₂ (r₂.emb x)) (h₃ : ∀ x, w₃ x = φ₃ (r₃.emb x)) (y : b.ty.shape.Idx) :
    (View.whole b).writes Val f [⟨r₃, w₃⟩, ⟨r₂, w₂⟩] y = if y ∈ r₃.set then φ₃ y else if y ∈ r₂.set then φ₂ y else f y := by
  rw [whole_writes_cons b f r₃ w₃ _ φ₃ h₃, whole_writes_cons b f r₂ w₂ _ φ₂ h₂]; rfl

/-- A run of stores that all store the same value `z` everywhere: a cell in any of the rectangles holds `z`, the
    others keep their contents. -/
theorem const_stores (b : Ref sig κ) (f : (View.whole b).ty.Contents Val) (z : Val b.ty.elt) :
    ∀ (Ls : List (View.Piece Val b.ty.shape b.ty.elt)), (∀ p ∈ Ls, ∀ x, p.2 x = z) → ∀ y : b.ty.shape.Idx,
      (View.whole b).writes Val f Ls y = if ∃ p ∈ Ls, y ∈ p.1.set then z else f y
  | [], _, y => by simp
  | ⟨r, w⟩ :: Ls, h, y => by
    rw [whole_writes_cons b f r w Ls (fun _ => z) (fun x => h ⟨r, w⟩ List.mem_cons_self x),
      const_stores b f z Ls (fun p hp => h p (List.mem_cons_of_mem _ hp)) y]
    by_cases hy : y ∈ r.set
    · rw [if_pos hy, if_pos ⟨⟨r, w⟩, List.mem_cons_self, hy⟩]
    · rw [if_neg hy]
      by_cases hL : ∃ p ∈ Ls, y ∈ p.1.set
      · obtain ⟨p, hp, hpy⟩ := hL
        rw [if_pos ⟨p, hp, hpy⟩, if_pos ⟨p, List.mem_cons_of_mem _ hp, hpy⟩]
      · rw [if_neg hL, if_neg]
        rintro ⟨p, hp, hpy⟩
        rcases List.mem_cons.mp hp with rfl | hp
        · exact hy hpy
        · exact hL ⟨p, hp, hpy⟩

end Cert.Proof.PlaneMath
-- ==== Proof.BufStores.lean ====
/-
  The two facts about runs of stores into a whole buffer (two lane-masked stores; any number of constant stores), stated
  for each of the four plane-sized scratch buffers with its shape spelt out.
-/
import proofs.«203824_g32177894982282_cont_8to1_b_1676_14_alg».proof.Proof.TileRes
import proofs.«203824_g32177894982282_cont_8to1_b_1676_14_alg».proof.Proof.PlaneMath

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.Proof.PlaneMath

theorem two_stores0 (f : S128x128.Idx → Elt F .f32) {r₂ r₃ : Rect S128x128}
    {w₂ : r₂.shape.Idx → Elt F .f32} {w₃ : r₃.shape.Idx → Elt F .f32} (φ₂ φ₃ : S128x128.Idx → Elt F .f32)
    (h₂ : ∀ x, w₂ x = φ₂ (r₂.emb x)) (h₃ : ∀ x, w₃ x = φ₃ (r₃.emb x)) (y : S128x128.Idx) :
    (View.whole (cc1_scratch0 : Ref sig .scVector)).writes (Elt F) f [⟨r₃, w₃⟩, ⟨r₂, w₂⟩] y
      = if y ∈ r₃.set then φ₃ y else if y ∈ r₂.set then φ₂ y else f y :=
  two_stores (Val := Elt F) (cc1_scratch0 : Ref sig .scVector) f φ₂ φ₃ h₂ h₃ y

theorem const_stores0 (f : S128x128.Idx → Elt F .f32) (z : Elt F .f32) (Ls : List (View.Piece (Elt F) S128x128 .f32))
    (h : ∀ p ∈ Ls, ∀ x, p.2 x = z) (y : S128x128.Idx) :
    (View.whole (cc1_scratch0 : Ref sig .scVector)).writes (Elt F) f Ls y = if ∃ p ∈ Ls, y ∈ p.1.set then z else f y :=
  const_stores (Val := Elt F) (cc1_scratch0 : Ref sig .scVector) f z Ls h y

theorem two_stores1 (f : S128x128.Idx → Elt F .f32) {r₂ r₃ : Rect S128x128}
    {w₂ : r₂.shape.Idx → Elt F .f32} {w₃ : r₃.shape.Idx → Elt F .f32} (φ₂ φ₃ : S128x128.Idx → Elt F .f32)
    (h₂ : ∀ x, w₂ x = φ₂ (r₂.emb x)) (h₃ : ∀ x, w₃ x = φ₃ (r₃.emb x)) (y : S128x128.Idx) :
    (View.whole (cc1_scratch1 : Ref sig .scVector)).writes (Elt F) f [⟨r₃, w₃⟩, ⟨r₂, w₂⟩] y
      = if y ∈ r₃.set then φ₃ y else if y ∈ r₂.set then φ₂ y else f y :=
  two_stores (Val := Elt F) (cc1_scratch1 : Ref sig .scVector) f φ₂ φ₃ h₂ h₃ y

theorem const_stores1 (f : S128x128.Idx → Elt F .f32) (z : Elt F .f32) (Ls : List (View.Piece (Elt F) S128x128 .f32))
    (h : ∀ p ∈ Ls, ∀ x, p.2 x = z) (y : S128x128.Idx) :
    (View.whole (cc1_scratch1 : Ref sig .scVector)).writes (Elt F) f Ls y = if ∃ p ∈ Ls, y ∈ p.1.set then z else f y :=
  const_stores (Val := Elt F) (cc1_scratch1 : Ref sig .scVector) f z Ls h y

theorem two_stores2 (f : S128x128.Idx → Elt F .f32) {r₂ r₃ : Rect S128x128}
    {w₂ : r₂.shape.Idx → Elt F .f32} {w₃ : r₃.shape.Idx → Elt F .f32} (φ₂ φ₃ : S128x128.Idx → Elt F .f32)
    (h₂ : ∀ x, w₂ x = φ₂ (r₂.emb x)) (h₃ : ∀ x, w₃ x = φ₃ (r₃.emb x)) (y : S128x128.Idx) :
    (View.whole (cc1_scratch2 : Ref sig .scVector)).writes (Elt F) f [⟨r₃, w₃⟩, ⟨r₂, w₂⟩] y
      = if y ∈ r₃.set then φ₃ y else if y ∈ r₂.set then φ₂ y else f y :=
  two_stores (Val := Elt F) (cc1_scratch2 : Ref sig .scVector) f φ₂ φ₃ h₂ h₃ y

theorem const_stores2 (f : S128x128.Idx → Elt F .f32) (z : Elt F .f32) (Ls : List (View.Piece (Elt F) S128x128 .f32))
    (h : ∀ p ∈ Ls, ∀ x, p.2 x = z) (y : S128x128.Idx) :
    (View.whole (cc1_scratch2 : Ref sig .scVector)).writes (Elt F) f Ls y = if ∃ p ∈ Ls, y ∈ p.1.set then z else f y :=
  const_stores (Val := Elt F) (cc1_scratch2 : Ref sig .scVector) f z Ls h y

theorem two_stores3 (f : S128x128.Idx → Elt F .f32) {r₂ r₃ : Rect S128x128}
    {w₂ : r₂.shape.Idx → Elt F .f32} {w₃ : r₃.shape.Idx → Elt F .f32} (φ₂ φ₃ : S128x128.Idx → Elt F .f32)
    (h₂ : ∀ x, w₂ x = φ₂ (r₂.emb x)) (h₃ : ∀ x, w₃ x = φ₃ (r₃.emb x)) (y : S128x128.Idx) :
    (View.whole (cc1_scratch3 : Ref sig .scVector)).writes (Elt F) f [⟨r₃, w₃⟩, ⟨r₂, w₂⟩] y
      = if y ∈ r₃.set then φ₃ y else if y ∈ r₂.set then φ₂ y else f y :=
  two_stores (Val := Elt F) (cc1_scratch3 : Ref sig .scVector) f φ₂ φ₃ h₂ h₃ y

theorem const_stores3 (f : S128x128.Idx → Elt F .f32) (z : Elt F .f32) (Ls : List (View.Piece (Elt F) S128x128 .f32))
    (h : ∀ p ∈ Ls, ∀ x, p.2 x = z) (y : S128x128.Idx) :
    (View.whole (cc1_scratch3 : Ref sig .scVector)).writes (Elt F) f Ls y = if ∃ p ∈ Ls, y ∈ p.1.set then z else f y :=
  const_stores (Val := Elt F) (cc1_scratch3 : Ref sig .scVector) f z Ls h y

end Cert.Proof.KI

end
-- ==== Proof.TripA0.lean ====
/-
  One trip of a vector subcore's frame loop on its first scratch buffer: inside the grid a trip zeroes the two end cells
  of row k + 1 and leaves every other cell.
-/
import proofs.«203824_g32177894982282_cont_8to1_b_1676_14_alg».proof.Proof.BufStores

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Cert.Proof.PlaneMath

/-- One trip of the frame loop on scratch buffer 0: the two end cells of row `k + 1` are zeroed. -/
theorem tripA0 (k1_h : k1_cond1 L = 1#1) (k : Fin k1_t1_loop.trips) (g' : Buf (Elt F) ((V d (cV L) (jV L)).loc cc1_scratch0)) :
    ((bW0).view.loc (V d (cV L) (jV L)) ↦{fullShare} g' : sProp 𝕄)
      ⊢ wp frame (wpE (defs₀ (F := F)) 𝒱₀ (V d (cV L) (jV L)) none) Set.univ
          (k1_t1_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => (bW0).view.loc (V d (cV L) (jV L)) ↦{fullShare}
            (fun y : S128x128.Idx => if (y 0).val = k.val + 1 ∧ eN (y 1).val then zeroF (F := F) else g' y) := by
  unfold k1_t1_body
  iintro Hb
  sl_exec
  sl_step
  refine (Entails.of_eq (congrArg (fun c => ((bW0).view.loc (V d (cV L) (jV L)) ↦{fullShare} c : sProp 𝕄)) ?_)).trans .rfl
  funext y
  have o2 : k1_off2 k 1 = 0 := by rw [k1_off2_eq]; rfl
  have o3 : k1_off3 k 1 = 112 := by rw [k1_off3_eq]; rfl
  refine (two_stores0 (F := F) g'
    (fun y' : S128x128.Idx => if (y' 1).val = 0 then zeroF (F := F) else g' y')
    (fun y' : S128x128.Idx => if (y' 1).val = 127 then zeroF (F := F) else g' y') ?h2 ?h3 y).trans ?_
  case h2 =>
    intro x
    unfold k1_pay25
    rw [firstLane_apply]
    have e1 : (((Rect.unit (s := S128x128) (k1_off2 k) S1x16.size (k1_off2_inb L k k1_h)).emb x) 1).val = (x 1).val := by
      rw [Rect.emb_apply]; show k1_off2 k 1 + 1 * (x 1).val = _; omega
    simp only [e1]
    rfl
  case h3 =>
    intro x
    unfold k1_pay26 tripA0.sl.v187
    rw [lastLane_apply]
    have e1 : (((Rect.unit (s := S128x128) (k1_off3 k) S1x16.size (k1_off3_inb L k k1_h)).emb x) 1).val = 112 + (x 1).val := by
      rw [Rect.emb_apply]; show k1_off3 k 1 + 1 * (x 1).val = _; omega
    have e2 : ((x 1).val = 15) = (112 + (x 1).val = 127) := by apply propext; omega
    simp only [e1, e2]
    rfl
  simp only [Rect.mem_set_unit, Fin.forall_fin_two, k1_off2_eq, k1_off3_eq]
  have a0 : (![k.val + 1, 112] : Fin 2 → ℕ) 0 = k.val + 1 := rfl
  have a1 : (![k.val + 1, 112] : Fin 2 → ℕ) 1 = 112 := rfl
  have b0 : (![k.val + 1, 0] : Fin 2 → ℕ) 0 = k.val + 1 := rfl
  have b1 : (![k.val + 1, 0] : Fin 2 → ℕ) 1 = 0 := rfl
  have s0 : (![1, 16] : Fin 2 → ℕ) 0 = 1 := rfl
  have s1 : (![1, 16] : Fin 2 → ℕ) 1 = 16 := rfl
  simp only [a0, a1, b0, b1, s0, s1]
  have h1 : (y 1).val < 128 := (y 1).isLt
  coord_cases

end Cert.Proof.KI

end
-- ==== Proof.TripB0.lean ====
/-
  One trip of a vector subcore's fill loop on its first scratch buffer: on a boundary plane a trip zeroes row k whole and
  leaves every other row.
-/
import proofs.«203824_g32177894982282_cont_8to1_b_1676_14_alg».proof.Proof.BufStores

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Cert.Proof.PlaneMath

/-- One trip of the fill loop on scratch buffer 0: row `k` is zeroed whole, sixteen cells at a time. -/
theorem tripB0 (v2 : BitVec 32) (v6 v8 : IVec S16 1) (k1_h : k1_cond2 L = 1#1) (k : Fin k1_t2_loop.trips) (g' : Buf (Elt F) ((V d (cV L) (jV L)).loc cc1_scratch0)) :
    ((bW0).view.loc (V d (cV L) (jV L)) ↦{fullShare} g' : sProp 𝕄)
      ⊢ wp frame (wpE (defs₀ (F := F)) 𝒱₀ (V d (cV L) (jV L)) none) Set.univ
          (k1_t2_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => (bW0).view.loc (V d (cV L) (jV L)) ↦{fullShare}
            (fun y : S128x128.Idx => if (y 0).val = k.val then zeroF (F := F) else g' y) := by
  unfold k1_t2_body
  iintro Hb
  sl_exec
  sl_step
  refine (Entails.of_eq (congrArg (fun c => ((bW0).view.loc (V d (cV L) (jV L)) ↦{fullShare} c : sProp 𝕄)) ?_)).trans .rfl
  funext y
  refine (const_stores0 (F := F) g' (zeroF (F := F)) _ ?hz y).trans ?_
  case hz =>
    intro p hp x
    simp only [List.mem_cons, List.not_mem_nil, or_false] at hp
    rcases hp with rfl | rfl | rfl | rfl | rfl | rfl | rfl | rfl <;> exact zeroRow_apply x
  refine if_congr ?_ rfl rfl
  simp only [List.mem_cons, List.not_mem_nil, or_false, exists_eq_or_imp, exists_eq_left, Rect.mem_set_unit, Fin.forall_fin_two,
    k1_off4_eq, k1_off5_eq, k1_off6_eq, k1_off7_eq, k1_off8_eq, k1_off9_eq, k1_off10_eq, k1_off11_eq]
  have h1 : (y 1).val < 128 := (y 1).isLt
  simp; omega

end Cert.Proof.KI

end
-- ==== Proof.TripA1.lean ====
/-
  One trip of a vector subcore's frame loop on its second scratch buffer: inside the grid a trip zeroes the two end cells
  of row k + 1 and leaves every other cell.
-/
import proofs.«203824_g32177894982282_cont_8to1_b_1676_14_alg».proof.Proof.BufStores

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Cert.Proof.PlaneMath

/-- One trip of the frame loop on scratch buffer 1: the two end cells of row `k + 1` are zeroed. -/
theorem tripA1 (k1_h : k1_cond3 L = 1#1) (k : Fin k1_t3_loop.trips) (g' : Buf (Elt F) ((V d (cV L) (jV L)).loc cc1_scratch1)) :
    ((bW1).view.loc (V d (cV L) (jV L)) ↦{fullShare} g' : sProp 𝕄)
      ⊢ wp frame (wpE (defs₀ (F := F)) 𝒱₀ (V d (cV L) (jV L)) none) Set.univ
          (k1_t3_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => (bW1).view.loc (V d (cV L) (jV L)) ↦{fullShare}
            (fun y : S128x128.Idx => if (y 0).val = k.val + 1 ∧ eN (y 1).val then zeroF (F := F) else g' y) := by
  unfold k1_t3_body
  iintro Hb
  sl_exec
  sl_step
  refine (Entails.of_eq (congrArg (fun c => ((bW1).view.loc (V d (cV L) (jV L)) ↦{fullShare} c : sProp 𝕄)) ?_)).trans .rfl
  funext y
  have o2 : k1_off12 k 1 = 0 := by rw [k1_off12_eq]; rfl
  have o3 : k1_off13 k 1 = 112 := by rw [k1_off13_eq]; rfl
  refine (two_stores1 (F := F) g'
    (fun y' : S128x128.Idx => if (y' 1).val = 0 then zeroF (F := F) else g' y')
    (fun y' : S128x128.Idx => if (y' 1).val = 127 then zeroF (F := F) else g' y') ?h2 ?h3 y).trans ?_
  case h2 =>
    intro x
    unfold k1_pay43
    rw [firstLane_apply]
    have e1 : (((Rect.unit (s := S128x128) (k1_off12 k) S1x16.size (k1_off12_inb L k k1_h)).emb x) 1).val = (x 1).val := by
      rw [Rect.emb_apply]; show k1_off12 k 1 + 1 * (x 1).val = _; omega
    simp only [e1]
    rfl
  case h3 =>
    intro x
    unfold k1_pay44 tripA1.sl.v187
    rw [lastLane_apply]
    have e1 : (((Rect.unit (s := S128x128) (k1_off13 k) S1x16.size (k1_off13_inb L k k1_h)).emb x) 1).val = 112 + (x 1).val := by
      rw [Rect.emb_apply]; show k1_off13 k 1 + 1 * (x 1).val = _; omega
    have e2 : ((x 1).val = 15) = (112 + (x 1).val = 127) := by apply propext; omega
    simp only [e1, e2]
    rfl
  simp only [Rect.mem_set_unit, Fin.forall_fin_two, k1_off12_eq, k1_off13_eq]
  have a0 : (![k.val + 1, 112] : Fin 2 → ℕ) 0 = k.val + 1 := rfl
  have a1 : (![k.val + 1, 112] : Fin 2 → ℕ) 1 = 112 := rfl
  have b0 : (![k.val + 1, 0] : Fin 2 → ℕ) 0 = k.val + 1 := rfl
  have b1 : (![k.val + 1, 0] : Fin 2 → ℕ) 1 = 0 := rfl
  have s0 : (![1, 16] : Fin 2 → ℕ) 0 = 1 := rfl
  have s1 : (![1, 16] : Fin 2 → ℕ) 1 = 16 := rfl
  simp only [a0, a1, b0, b1, s0, s1]
  have h1 : (y 1).val < 128 := (y 1).isLt
  coord_cases

end Cert.Proof.KI

end
-- ==== Proof.TripB1.lean ====
/-
  One trip of a vector subcore's fill loop on its second scratch buffer: on a boundary plane a trip zeroes row k whole and
  leaves every other row.
-/
import proofs.«203824_g32177894982282_cont_8to1_b_1676_14_alg».proof.Proof.BufStores

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Cert.Proof.PlaneMath

/-- One trip of the fill loop on scratch buffer 1: row `k` is zeroed whole, sixteen cells at a time. -/
theorem tripB1 (v2 : BitVec 32) (v6 v8 : IVec S16 1) (k1_h : k1_cond4 L = 1#1) (k : Fin k1_t4_loop.trips) (g' : Buf (Elt F) ((V d (cV L) (jV L)).loc cc1_scratch1)) :
    ((bW1).view.loc (V d (cV L) (jV L)) ↦{fullShare} g' : sProp 𝕄)
      ⊢ wp frame (wpE (defs₀ (F := F)) 𝒱₀ (V d (cV L) (jV L)) none) Set.univ
          (k1_t4_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => (bW1).view.loc (V d (cV L) (jV L)) ↦{fullShare}
            (fun y : S128x128.Idx => if (y 0).val = k.val then zeroF (F := F) else g' y) := by
  unfold k1_t4_body
  iintro Hb
  sl_exec
  sl_step
  refine (Entails.of_eq (congrArg (fun c => ((bW1).view.loc (V d (cV L) (jV L)) ↦{fullShare} c : sProp 𝕄)) ?_)).trans .rfl
  funext y
  refine (const_stores1 (F := F) g' (zeroF (F := F)) _ ?hz y).trans ?_
  case hz =>
    intro p hp x
    simp only [List.mem_cons, List.not_mem_nil, or_false] at hp
    rcases hp with rfl | rfl | rfl | rfl | rfl | rfl | rfl | rfl <;> exact zeroRow_apply x
  refine if_congr ?_ rfl rfl
  simp only [List.mem_cons, List.not_mem_nil, or_false, exists_eq_or_imp, exists_eq_left, Rect.mem_set_unit, Fin.forall_fin_two,
    k1_off14_eq, k1_off15_eq, k1_off16_eq, k1_off17_eq, k1_off18_eq, k1_off19_eq, k1_off20_eq, k1_off21_eq]
  have h1 : (y 1).val < 128 := (y 1).isLt
  simp; omega

end Cert.Proof.KI

end
-- ==== Proof.TripA2.lean ====
/-
  One trip of a vector subcore's frame loop on its third scratch buffer: inside the grid a trip zeroes the two end cells
  of row k + 1 and leaves every other cell.
-/
import proofs.«203824_g32177894982282_cont_8to1_b_1676_14_alg».proof.Proof.BufStores

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Cert.Proof.PlaneMath

/-- One trip of the frame loop on scratch buffer 2: the two end cells of row `k + 1` are zeroed. -/
theorem tripA2 (k1_h : k1_cond5 L = 1#1) (k : Fin k1_t5_loop.trips) (g' : Buf (Elt F) ((V d (cV L) (jV L)).loc cc1_scratch2)) :
    ((bW2).view.loc (V d (cV L) (jV L)) ↦{fullShare} g' : sProp 𝕄)
      ⊢ wp frame (wpE (defs₀ (F := F)) 𝒱₀ (V d (cV L) (jV L)) none) Set.univ
          (k1_t5_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => (bW2).view.loc (V d (cV L) (jV L)) ↦{fullShare}
            (fun y : S128x128.Idx => if (y 0).val = k.val + 1 ∧ eN (y 1).val then zeroF (F := F) else g' y) := by
  unfold k1_t5_body
  iintro Hb
  sl_exec
  sl_step
  refine (Entails.of_eq (congrArg (fun c => ((bW2).view.loc (V d (cV L) (jV L)) ↦{fullShare} c : sProp 𝕄)) ?_)).trans .rfl
  funext y
  have o2 : k1_off22 k 1 = 0 := by rw [k1_off22_eq]; rfl
  have o3 : k1_off23 k 1 = 112 := by rw [k1_off23_eq]; rfl
  refine (two_stores2 (F := F) g'
    (fun y' : S128x128.Idx => if (y' 1).val = 0 then zeroF (F := F) else g' y')
    (fun y' : S128x128.Idx => if (y' 1).val = 127 then zeroF (F := F) else g' y') ?h2 ?h3 y).trans ?_
  case h2 =>
    intro x
    unfold k1_pay61
    rw [firstLane_apply]
    have e1 : (((Rect.unit (s := S128x128) (k1_off22 k) S1x16.size (k1_off22_inb L k k1_h)).emb x) 1).val = (x 1).val := by
      rw [Rect.emb_apply]; show k1_off22 k 1 + 1 * (x 1).val = _; omega
    simp only [e1]
    rfl
  case h3 =>
    intro x
    unfold k1_pay62 tripA2.sl.v187
    rw [lastLane_apply]
    have e1 : (((Rect.unit (s := S128x128) (k1_off23 k) S1x16.size (k1_off23_inb L k k1_h)).emb x) 1).val = 112 + (x 1).val := by
      rw [Rect.emb_apply]; show k1_off23 k 1 + 1 * (x 1).val = _; omega
    have e2 : ((x 1).val = 15) = (112 + (x 1).val = 127) := by apply propext; omega
    simp only [e1, e2]
    rfl
  simp only [Rect.mem_set_unit, Fin.forall_fin_two, k1_off22_eq, k1_off23_eq]
  have a0 : (![k.val + 1, 112] : Fin 2 → ℕ) 0 = k.val + 1 := rfl
  have a1 : (![k.val + 1, 112] : Fin 2 → ℕ) 1 = 112 := rfl
  have b0 : (![k.val + 1, 0] : Fin 2 → ℕ) 0 = k.val + 1 := rfl
  have b1 : (![k.val + 1, 0] : Fin 2 → ℕ) 1 = 0 := rfl
  have s0 : (![1, 16] : Fin 2 → ℕ) 0 = 1 := rfl
  have s1 : (![1, 16] : Fin 2 → ℕ) 1 = 16 := rfl
  simp only [a0, a1, b0, b1, s0, s1]
  have h1 : (y 1).val < 128 := (y 1).isLt
  coord_cases

end Cert.Proof.KI

end
-- ==== Proof.TripB2.lean ====
/-
  One trip of a vector subcore's fill loop on its third scratch buffer: on a boundary plane a trip zeroes row k whole and
  leaves every other row.
-/
import proofs.«203824_g32177894982282_cont_8to1_b_1676_14_alg».proof.Proof.BufStores

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Cert.Proof.PlaneMath

/-- One trip of the fill loop on scratch buffer 2: row `k` is zeroed whole, sixteen cells at a time. -/
theorem tripB2 (v2 : BitVec 32) (v6 v8 : IVec S16 1) (k1_h : k1_cond6 L = 1#1) (k : Fin k1_t6_loop.trips) (g' : Buf (Elt F) ((V d (cV L) (jV L)).loc cc1_scratch2)) :
    ((bW2).view.loc (V d (cV L) (jV L)) ↦{fullShare} g' : sProp 𝕄)
      ⊢ wp frame (wpE (defs₀ (F := F)) 𝒱₀ (V d (cV L) (jV L)) none) Set.univ
          (k1_t6_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => (bW2).view.loc (V d (cV L) (jV L)) ↦{fullShare}
            (fun y : S128x128.Idx => if (y 0).val = k.val then zeroF (F := F) else g' y) := by
  unfold k1_t6_body
  iintro Hb
  sl_exec
  sl_step
  refine (Entails.of_eq (congrArg (fun c => ((bW2).view.loc (V d (cV L) (jV L)) ↦{fullShare} c : sProp 𝕄)) ?_)).trans .rfl
  funext y
  refine (const_stores2 (F := F) g' (zeroF (F := F)) _ ?hz y).trans ?_
  case hz =>
    intro p hp x
    simp only [List.mem_cons, List.not_mem_nil, or_false] at hp
    rcases hp with rfl | rfl | rfl | rfl | rfl | rfl | rfl | rfl <;> exact zeroRow_apply x
  refine if_congr ?_ rfl rfl
  simp only [List.mem_cons, List.not_mem_nil, or_false, exists_eq_or_imp, exists_eq_left, Rect.mem_set_unit, Fin.forall_fin_two,
    k1_off24_eq, k1_off25_eq, k1_off26_eq, k1_off27_eq, k1_off28_eq, k1_off29_eq, k1_off30_eq, k1_off31_eq]
  have h1 : (y 1).val < 128 := (y 1).isLt
  simp; omega

end Cert.Proof.KI

end
-- ==== Proof.TripA3.lean ====
/-
  One trip of a vector subcore's frame loop on its fourth scratch buffer: inside the grid a trip zeroes the two end cells
  of row k + 1 and leaves every other cell.
-/
import proofs.«203824_g32177894982282_cont_8to1_b_1676_14_alg».proof.Proof.BufStores

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Cert.Proof.PlaneMath

/-- One trip of the frame loop on scratch buffer 3: the two end cells of row `k + 1` are zeroed. -/
theorem tripA3 (k1_h : k1_cond7 L = 1#1) (k : Fin k1_t7_loop.trips) (g' : Buf (Elt F) ((V d (cV L) (jV L)).loc cc1_scratch3)) :
    ((bW3).view.loc (V d (cV L) (jV L)) ↦{fullShare} g' : sProp 𝕄)
      ⊢ wp frame (wpE (defs₀ (F := F)) 𝒱₀ (V d (cV L) (jV L)) none) Set.univ
          (k1_t7_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => (bW3).view.loc (V d (cV L) (jV L)) ↦{fullShare}
            (fun y : S128x128.Idx => if (y 0).val = k.val + 1 ∧ eN (y 1).val then zeroF (F := F) else g' y) := by
  unfold k1_t7_body
  iintro Hb
  sl_exec
  sl_step
  refine (Entails.of_eq (congrArg (fun c => ((bW3).view.loc (V d (cV L) (jV L)) ↦{fullShare} c : sProp 𝕄)) ?_)).trans .rfl
  funext y
  have o2 : k1_off32 k 1 = 0 := by rw [k1_off32_eq]; rfl
  have o3 : k1_off33 k 1 = 112 := by rw [k1_off33_eq]; rfl
  refine (two_stores3 (F := F) g'
    (fun y' : S128x128.Idx => if (y' 1).val = 0 then zeroF (F := F) else g' y')
    (fun y' : S128x128.Idx => if (y' 1).val = 127 then zeroF (F := F) else g' y') ?h2 ?h3 y).trans ?_
  case h2 =>
    intro x
    unfold k1_pay79
    rw [firstLane_apply]
    have e1 : (((Rect.unit (s := S128x128) (k1_off32 k) S1x16.size (k1_off32_inb L k k1_h)).emb x) 1).val = (x 1).val := by
      rw [Rect.emb_apply]; show k1_off32 k 1 + 1 * (x 1).val = _; omega
    simp only [e1]
    rfl
  case h3 =>
    intro x
    unfold k1_pay80 tripA3.sl.v187
    rw [lastLane_apply]
    have e1 : (((Rect.unit (s := S128x128) (k1_off33 k) S1x16.size (k1_off33_inb L k k1_h)).emb x) 1).val = 112 + (x 1).val := by
      rw [Rect.emb_apply]; show k1_off33 k 1 + 1 * (x 1).val = _; omega
    have e2 : ((x 1).val = 15) = (112 + (x 1).val = 127) := by apply propext; omega
    simp only [e1, e2]
    rfl
  simp only [Rect.mem_set_unit, Fin.forall_fin_two, k1_off32_eq, k1_off33_eq]
  have a0 : (![k.val + 1, 112] : Fin 2 → ℕ) 0 = k.val + 1 := rfl
  have a1 : (![k.val + 1, 112] : Fin 2 → ℕ) 1 = 112 := rfl
  have b0 : (![k.val + 1, 0] : Fin 2 → ℕ) 0 = k.val + 1 := rfl
  have b1 : (![k.val + 1, 0] : Fin 2 → ℕ) 1 = 0 := rfl
  have s0 : (![1, 16] : Fin 2 → ℕ) 0 = 1 := rfl
  have s1 : (![1, 16] : Fin 2 → ℕ) 1 = 16 := rfl
  simp only [a0, a1, b0, b1, s0, s1]
  have h1 : (y 1).val < 128 := (y 1).isLt
  coord_cases

end Cert.Proof.KI

end
-- ==== Proof.TripB3.lean ====
/-
  One trip of a vector subcore's fill loop on its fourth scratch buffer: on a boundary plane a trip zeroes row k whole and
  leaves every other row.
-/
import proofs.«203824_g32177894982282_cont_8to1_b_1676_14_alg».proof.Proof.BufStores

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Cert.Proof.PlaneMath

/-- One trip of the fill loop on scratch buffer 3: row `k` is zeroed whole, sixteen cells at a time. -/
theorem tripB3 (k1_h : k1_cond8 L = 1#1) (k : Fin k1_t8_loop.trips) (g' : Buf (Elt F) ((V d (cV L) (jV L)).loc cc1_scratch3)) :
    ((bW3).view.loc (V d (cV L) (jV L)) ↦{fullShare} g' : sProp 𝕄)
      ⊢ wp frame (wpE (defs₀ (F := F)) 𝒱₀ (V d (cV L) (jV L)) none) Set.univ
          (k1_t8_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_h k ⟨⟩)
          fun _ => (bW3).view.loc (V d (cV L) (jV L)) ↦{fullShare}
            (fun y : S128x128.Idx => if (y 0).val = k.val then zeroF (F := F) else g' y) := by
  unfold k1_t8_body
  iintro Hb
  sl_exec
  sl_step
  refine (Entails.of_eq (congrArg (fun c => ((bW3).view.loc (V d (cV L) (jV L)) ↦{fullShare} c : sProp 𝕄)) ?_)).trans .rfl
  funext y
  refine (const_stores3 (F := F) g' (zeroF (F := F)) _ ?hz y).trans ?_
  case hz =>
    intro p hp x
    simp only [List.mem_cons, List.not_mem_nil, or_false] at hp
    rcases hp with rfl | rfl | rfl | rfl | rfl | rfl | rfl | rfl <;> exact zeroRow_apply x
  refine if_congr ?_ rfl rfl
  simp only [List.mem_cons, List.not_mem_nil, or_false, exists_eq_or_imp, exists_eq_left, Rect.mem_set_unit, Fin.forall_fin_two,
    k1_off34_eq, k1_off35_eq, k1_off36_eq, k1_off37_eq, k1_off38_eq, k1_off39_eq, k1_off40_eq, k1_off41_eq]
  have h1 : (y 1).val < 128 := (y 1).isLt
  simp; omega

end Cert.Proof.KI

end
-- ==== Proof.TileEmb.lean ====
/-
  Where the cells of a step's plane sit in the grid array: cell [y, x] of the sliced plane z is cell [z, y, x], for the
  operand's plane and for the result's. With it, the value a plane of the result must hold, cell by cell.
-/
import proofs.«203824_g32177894982282_cont_8to1_b_1676_14_alg».proof.Proof.TileRes
import proofs.«203824_g32177894982282_cont_8to1_b_1676_14_alg».proof.Proof.PlaneMath

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Idealize.ShloMosaic.ValueIdx Cert.Proof.PlaneMath

omit [FloatOps F] in
theorem emb_srcK (t : Fin 4) (y : S128x128.Idx) : (srcK L t).view.emb y = (ix3 (zOf L t) (y 0) (y 1) : S128x128x128.Idx) := by
  show (planeK L t).emb (Shape.reshapeEquiv squeezes_S1x128x128_S128x128.numel_eq y) = _
  have hq : Shape.reshapeEquiv squeezes_S1x128x128_S128x128.numel_eq y = (ix3 (0 : Fin 1) (y 0) (y 1) : S1x128x128.Idx) :=
    Shape.reshapeEquiv_eq_of_rowMajor _ (by rw [Shape.rowMajor_val_three, Shape.rowMajor_val_two]; simp)
  rw [hq]
  funext a
  refine Fin.ext ?_
  rw [Rect.emb_apply]
  show k1_off1 L (BitVec.ofNat 32 t.val) a + 1 * _ = _
  rw [k1_off1_eq]
  match a with
  | ⟨0, _⟩ => simp [zOf]
  | ⟨1, _⟩ => simp
  | ⟨2, _⟩ => simp

omit [FloatOps F] in
theorem emb_dstK (t : Fin 4) (y : S128x128.Idx) : (dstK L t).view.emb y = (ix3 (zOf L t) (y 0) (y 1) : S128x128x128.Idx) := emb_srcK L t y

/-- Plane `z` of the no-slip values of `w`, cell by cell: the plane's own cells of `w` with the frame zeroed, or all
    zero on the two boundary planes. -/
theorem twOut_plane (w : Buf (Elt F) (wLoc d)) (z : Fin 128) (y : S128x128.Idx) :
    twOut d w (ix3 z (y 0) (y 1)) = planeOut (zeroF (F := F)) z (fun y' : S128x128.Idx => w (ix3 z (y' 0) (y' 1))) y := by
  show Cert.Spec.valZ (zeroF (F := F)) (Cert.Spec.grid3 w) z (y 0) (y 1) = _
  have hv : Cert.Spec.valZ (zeroF (F := F)) (Cert.Spec.grid3 w) z (y 0) (y 1)
      = if eN z.val ∨ eN (y 0).val ∨ eN (y 1).val then zeroF (F := F) else w (ix3 z (y 0) (y 1)) := by
    unfold Cert.Spec.valZ Cert.Spec.grid3
    by_cases h : Cert.Spec.edge z ∨ Cert.Spec.edge (y 0) ∨ Cert.Spec.edge (y 1)
    · exact (if_pos h).trans (if_pos (show eN z.val ∨ eN (y 0).val ∨ eN (y 1).val from h)).symm
    · exact (if_neg h).trans (if_neg (show ¬ (eN z.val ∨ eN (y 0).val ∨ eN (y 1).val) from h)).symm
  rw [hv]
  unfold planeOut frameZero
  by_cases hz : eN z.val
  · rw [if_pos (Or.inl hz), if_pos hz]
  · rw [if_neg hz]
    show _ = if eN (y 0).val ∨ eN (y 1).val then zeroF (F := F) else w (ix3 z (y 0) (y 1))
    by_cases hy : eN (y 0).val ∨ eN (y 1).val
    · rw [if_pos (Or.inr hy), if_pos hy]
    · rw [if_neg (fun h => h.elim hz hy), if_neg hy]

end Cert.Proof.KI

end
-- ==== Proof.TileLoops.lean ====
/-
  The two row loops of each step of a vector subcore, by invariant. With c the step's plane of the operand as copied
  into the scratch buffer: after k trips of the frame loop the buffer holds c with rows 0 and 127 zeroed and, in rows
  1 … k, the two end cells zeroed; after k trips of the fill loop it holds c with rows 0 … k − 1 zeroed whole.
-/
import proofs.«203824_g32177894982282_cont_8to1_b_1676_14_alg».proof.Proof.TripA0
import proofs.«203824_g32177894982282_cont_8to1_b_1676_14_alg».proof.Proof.TripB0
import proofs.«203824_g32177894982282_cont_8to1_b_1676_14_alg».proof.Proof.TripA1
import proofs.«203824_g32177894982282_cont_8to1_b_1676_14_alg».proof.Proof.TripB1
import proofs.«203824_g32177894982282_cont_8to1_b_1676_14_alg».proof.Proof.TripA2
import proofs.«203824_g32177894982282_cont_8to1_b_1676_14_alg».proof.Proof.TripB2
import proofs.«203824_g32177894982282_cont_8to1_b_1676_14_alg».proof.Proof.TripA3
import proofs.«203824_g32177894982282_cont_8to1_b_1676_14_alg».proof.Proof.TripB3
import proofs.«203824_g32177894982282_cont_8to1_b_1676_14_alg».proof.Proof.TileEmb

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Idealize.ShloMosaic.ValueIdx Cert.Proof.PlaneMath

/-- Plane `z` of a grid array, as a plane [y, x]. -/
def planeOf (w : Buf (Elt F) (wLoc d)) (z : Fin 128) : S128x128.Idx → Elt F .f32 := fun y => w (ix3 z (y 0) (y 1))

/-- What a copy of step `t`'s plane of the operand reads: that plane. -/
theorem read_srcK (t : Fin 4) : View.read (Elt F) (srcK L t).view w = planeOf d w (zOf L t) := by
  funext y
  show w ((srcK L t).view.emb y) = _
  rw [emb_srcK]; rfl

/-! ## Scratch buffer 0 -/

/-- Stores of zero rows into buffer 0: a cell in any of the rectangles is zero, the others keep their contents. -/
theorem zero_rows0 (f : S128x128.Idx → Elt F .f32) (Ls : List (View.Piece (Elt F) S128x128 .f32))
    (hz : ∀ p ∈ Ls, ∀ x, p.2 x = zeroF (F := F)) (Pc : S128x128.Idx → Prop) [DecidablePred Pc]
    (hcov : ∀ y, (∃ p ∈ Ls, y ∈ p.1.set) ↔ Pc y) :
    (bW0).view.writes (Elt F) f Ls = fun y => if Pc y then zeroF (F := F) else f y := by
  funext y
  refine (const_stores0 (F := F) f (zeroF (F := F)) Ls hz y).trans ?_
  exact if_congr (hcov y) rfl rfl

/-- The frame loop's invariant on buffer 0. -/
def invA0 (c : S128x128.Idx → Elt F .f32) (k : Nat) (_ : PUnit.{1}) : sProp 𝕄 :=
  iprop(∃ g' : Buf (Elt F) ((V d (cV L) (jV L)).loc cc1_scratch0),
    ((bW0).view.loc (V d (cV L) (jV L)) ↦{fullShare} g') ∗ ⌜g' = frameUpTo (zeroF (F := F)) c k⌝)
/-- The fill loop's invariant on buffer 0. -/
def invB0 (c : S128x128.Idx → Elt F .f32) (k : Nat) (_ : PUnit.{1}) : sProp 𝕄 :=
  iprop(∃ g' : Buf (Elt F) ((V d (cV L) (jV L)).loc cc1_scratch0),
    ((bW0).view.loc (V d (cV L) (jV L)) ↦{fullShare} g') ∗ ⌜g' = fillUpTo (zeroF (F := F)) c k⌝)

theorem regionA0 (c : S128x128.Idx → Elt F .f32) (k1_h : k1_cond1 L = 1#1) (k : Fin k1_t1_loop.trips) :
    invA0 (F := F) d L c k.val ⟨⟩
      ⊢ wp frame (wpE (defs₀ (F := F)) 𝒱₀ (V d (cV L) (jV L)) none) Set.univ
          (k1_t1_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => invA0 (F := F) d L c (k.val + 1) ⟨⟩ := by
  have hQ : ∀ _ : Unit, ((bW0).view.loc (V d (cV L) (jV L)) ↦{fullShare}
        (fun y : S128x128.Idx => if (y 0).val = k.val + 1 ∧ eN (y 1).val then zeroF (F := F) else frameUpTo (zeroF (F := F)) c k.val y) : sProp 𝕄)
      ⊢ invA0 (F := F) d L c (k.val + 1) ⟨⟩ := fun _ => by
    unfold invA0
    iintro Hb
    iexists _
    isplitl [Hb]; · iexact Hb
    ipureintro; exact frameUpTo_succ _ c k.val
  unfold invA0
  iintro ⟨%g', Hb, %hg⟩
  subst hg
  iapply ((tripA0 (F := F) d L k1_h k _).trans (wp_mono frame _ _ hQ)) $$ Hb

theorem regionB0 (c : S128x128.Idx → Elt F .f32) (v2 : BitVec 32) (v6 v8 : IVec S16 1) (k1_h : k1_cond2 L = 1#1) (k : Fin k1_t2_loop.trips) :
    invB0 (F := F) d L c k.val ⟨⟩
      ⊢ wp frame (wpE (defs₀ (F := F)) 𝒱₀ (V d (cV L) (jV L)) none) Set.univ
          (k1_t2_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => invB0 (F := F) d L c (k.val + 1) ⟨⟩ := by
  have hQ : ∀ _ : Unit, ((bW0).view.loc (V d (cV L) (jV L)) ↦{fullShare}
        (fun y : S128x128.Idx => if (y 0).val = k.val then zeroF (F := F) else fillUpTo (zeroF (F := F)) c k.val y) : sProp 𝕄)
      ⊢ invB0 (F := F) d L c (k.val + 1) ⟨⟩ := fun _ => by
    unfold invB0
    iintro Hb
    iexists _
    isplitl [Hb]; · iexact Hb
    ipureintro; exact fillUpTo_succ _ c k.val
  unfold invB0
  iintro ⟨%g', Hb, %hg⟩
  subst hg
  iapply ((tripB0 (F := F) d L v2 v6 v8 k1_h k _).trans (wp_mono frame _ _ hQ)) $$ Hb

/-! ## Scratch buffer 1 -/

/-- Stores of zero rows into buffer 1: a cell in any of the rectangles is zero, the others keep their contents. -/
theorem zero_rows1 (f : S128x128.Idx → Elt F .f32) (Ls : List (View.Piece (Elt F) S128x128 .f32))
    (hz : ∀ p ∈ Ls, ∀ x, p.2 x = zeroF (F := F)) (Pc : S128x128.Idx → Prop) [DecidablePred Pc]
    (hcov : ∀ y, (∃ p ∈ Ls, y ∈ p.1.set) ↔ Pc y) :
    (bW1).view.writes (Elt F) f Ls = fun y => if Pc y then zeroF (F := F) else f y := by
  funext y
  refine (const_stores1 (F := F) f (zeroF (F := F)) Ls hz y).trans ?_
  exact if_congr (hcov y) rfl rfl

/-- The frame loop's invariant on buffer 1. -/
def invA1 (c : S128x128.Idx → Elt F .f32) (k : Nat) (_ : PUnit.{1}) : sProp 𝕄 :=
  iprop(∃ g' : Buf (Elt F) ((V d (cV L) (jV L)).loc cc1_scratch1),
    ((bW1).view.loc (V d (cV L) (jV L)) ↦{fullShare} g') ∗ ⌜g' = frameUpTo (zeroF (F := F)) c k⌝)
/-- The fill loop's invariant on buffer 1. -/
def invB1 (c : S128x128.Idx → Elt F .f32) (k : Nat) (_ : PUnit.{1}) : sProp 𝕄 :=
  iprop(∃ g' : Buf (Elt F) ((V d (cV L) (jV L)).loc cc1_scratch1),
    ((bW1).view.loc (V d (cV L) (jV L)) ↦{fullShare} g') ∗ ⌜g' = fillUpTo (zeroF (F := F)) c k⌝)

theorem regionA1 (c : S128x128.Idx → Elt F .f32) (k1_h : k1_cond3 L = 1#1) (k : Fin k1_t3_loop.trips) :
    invA1 (F := F) d L c k.val ⟨⟩
      ⊢ wp frame (wpE (defs₀ (F := F)) 𝒱₀ (V d (cV L) (jV L)) none) Set.univ
          (k1_t3_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => invA1 (F := F) d L c (k.val + 1) ⟨⟩ := by
  have hQ : ∀ _ : Unit, ((bW1).view.loc (V d (cV L) (jV L)) ↦{fullShare}
        (fun y : S128x128.Idx => if (y 0).val = k.val + 1 ∧ eN (y 1).val then zeroF (F := F) else frameUpTo (zeroF (F := F)) c k.val y) : sProp 𝕄)
      ⊢ invA1 (F := F) d L c (k.val + 1) ⟨⟩ := fun _ => by
    unfold invA1
    iintro Hb
    iexists _
    isplitl [Hb]; · iexact Hb
    ipureintro; exact frameUpTo_succ _ c k.val
  unfold invA1
  iintro ⟨%g', Hb, %hg⟩
  subst hg
  iapply ((tripA1 (F := F) d L k1_h k _).trans (wp_mono frame _ _ hQ)) $$ Hb

theorem regionB1 (c : S128x128.Idx → Elt F .f32) (v2 : BitVec 32) (v6 v8 : IVec S16 1) (k1_h : k1_cond4 L = 1#1) (k : Fin k1_t4_loop.trips) :
    invB1 (F := F) d L c k.val ⟨⟩
      ⊢ wp frame (wpE (defs₀ (F := F)) 𝒱₀ (V d (cV L) (jV L)) none) Set.univ
          (k1_t4_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => invB1 (F := F) d L c (k.val + 1) ⟨⟩ := by
  have hQ : ∀ _ : Unit, ((bW1).view.loc (V d (cV L) (jV L)) ↦{fullShare}
        (fun y : S128x128.Idx => if (y 0).val = k.val then zeroF (F := F) else fillUpTo (zeroF (F := F)) c k.val y) : sProp 𝕄)
      ⊢ invB1 (F := F) d L c (k.val + 1) ⟨⟩ := fun _ => by
    unfold invB1
    iintro Hb
    iexists _
    isplitl [Hb]; · iexact Hb
    ipureintro; exact fillUpTo_succ _ c k.val
  unfold invB1
  iintro ⟨%g', Hb, %hg⟩
  subst hg
  iapply ((tripB1 (F := F) d L v2 v6 v8 k1_h k _).trans (wp_mono frame _ _ hQ)) $$ Hb

/-! ## Scratch buffer 2 -/

/-- Stores of zero rows into buffer 2: a cell in any of the rectangles is zero, the others keep their contents. -/
theorem zero_rows2 (f : S128x128.Idx → Elt F .f32) (Ls : List (View.Piece (Elt F) S128x128 .f32))
    (hz : ∀ p ∈ Ls, ∀ x, p.2 x = zeroF (F := F)) (Pc : S128x128.Idx → Prop) [DecidablePred Pc]
    (hcov : ∀ y, (∃ p ∈ Ls, y ∈ p.1.set) ↔ Pc y) :
    (bW2).view.writes (Elt F) f Ls = fun y => if Pc y then zeroF (F := F) else f y := by
  funext y
  refine (const_stores2 (F := F) f (zeroF (F := F)) Ls hz y).trans ?_
  exact if_congr (hcov y) rfl rfl

/-- The frame loop's invariant on buffer 2. -/
def invA2 (c : S128x128.Idx → Elt F .f32) (k : Nat) (_ : PUnit.{1}) : sProp 𝕄 :=
  iprop(∃ g' : Buf (Elt F) ((V d (cV L) (jV L)).loc cc1_scratch2),
    ((bW2).view.loc (V d (cV L) (jV L)) ↦{fullShare} g') ∗ ⌜g' = frameUpTo (zeroF (F := F)) c k⌝)
/-- The fill loop's invariant on buffer 2. -/
def invB2 (c : S128x128.Idx → Elt F .f32) (k : Nat) (_ : PUnit.{1}) : sProp 𝕄 :=
  iprop(∃ g' : Buf (Elt F) ((V d (cV L) (jV L)).loc cc1_scratch2),
    ((bW2).view.loc (V d (cV L) (jV L)) ↦{fullShare} g') ∗ ⌜g' = fillUpTo (zeroF (F := F)) c k⌝)

theorem regionA2 (c : S128x128.Idx → Elt F .f32) (k1_h : k1_cond5 L = 1#1) (k : Fin k1_t5_loop.trips) :
    invA2 (F := F) d L c k.val ⟨⟩
      ⊢ wp frame (wpE (defs₀ (F := F)) 𝒱₀ (V d (cV L) (jV L)) none) Set.univ
          (k1_t5_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => invA2 (F := F) d L c (k.val + 1) ⟨⟩ := by
  have hQ : ∀ _ : Unit, ((bW2).view.loc (V d (cV L) (jV L)) ↦{fullShare}
        (fun y : S128x128.Idx => if (y 0).val = k.val + 1 ∧ eN (y 1).val then zeroF (F := F) else frameUpTo (zeroF (F := F)) c k.val y) : sProp 𝕄)
      ⊢ invA2 (F := F) d L c (k.val + 1) ⟨⟩ := fun _ => by
    unfold invA2
    iintro Hb
    iexists _
    isplitl [Hb]; · iexact Hb
    ipureintro; exact frameUpTo_succ _ c k.val
  unfold invA2
  iintro ⟨%g', Hb, %hg⟩
  subst hg
  iapply ((tripA2 (F := F) d L k1_h k _).trans (wp_mono frame _ _ hQ)) $$ Hb

theorem regionB2 (c : S128x128.Idx → Elt F .f32) (v2 : BitVec 32) (v6 v8 : IVec S16 1) (k1_h : k1_cond6 L = 1#1) (k : Fin k1_t6_loop.trips) :
    invB2 (F := F) d L c k.val ⟨⟩
      ⊢ wp frame (wpE (defs₀ (F := F)) 𝒱₀ (V d (cV L) (jV L)) none) Set.univ
          (k1_t6_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => invB2 (F := F) d L c (k.val + 1) ⟨⟩ := by
  have hQ : ∀ _ : Unit, ((bW2).view.loc (V d (cV L) (jV L)) ↦{fullShare}
        (fun y : S128x128.Idx => if (y 0).val = k.val then zeroF (F := F) else fillUpTo (zeroF (F := F)) c k.val y) : sProp 𝕄)
      ⊢ invB2 (F := F) d L c (k.val + 1) ⟨⟩ := fun _ => by
    unfold invB2
    iintro Hb
    iexists _
    isplitl [Hb]; · iexact Hb
    ipureintro; exact fillUpTo_succ _ c k.val
  unfold invB2
  iintro ⟨%g', Hb, %hg⟩
  subst hg
  iapply ((tripB2 (F := F) d L v2 v6 v8 k1_h k _).trans (wp_mono frame _ _ hQ)) $$ Hb

/-! ## Scratch buffer 3 -/

/-- Stores of zero rows into buffer 3: a cell in any of the rectangles is zero, the others keep their contents. -/
theorem zero_rows3 (f : S128x128.Idx → Elt F .f32) (Ls : List (View.Piece (Elt F) S128x128 .f32))
    (hz : ∀ p ∈ Ls, ∀ x, p.2 x = zeroF (F := F)) (Pc : S128x128.Idx → Prop) [DecidablePred Pc]
    (hcov : ∀ y, (∃ p ∈ Ls, y ∈ p.1.set) ↔ Pc y) :
    (bW3).view.writes (Elt F) f Ls = fun y => if Pc y then zeroF (F := F) else f y := by
  funext y
  refine (const_stores3 (F := F) f (zeroF (F := F)) Ls hz y).trans ?_
  exact if_congr (hcov y) rfl rfl

/-- The frame loop's invariant on buffer 3. -/
def invA3 (c : S128x128.Idx → Elt F .f32) (k : Nat) (_ : PUnit.{1}) : sProp 𝕄 :=
  iprop(∃ g' : Buf (Elt F) ((V d (cV L) (jV L)).loc cc1_scratch3),
    ((bW3).view.loc (V d (cV L) (jV L)) ↦{fullShare} g') ∗ ⌜g' = frameUpTo (zeroF (F := F)) c k⌝)
/-- The fill loop's invariant on buffer 3. -/
def invB3 (c : S128x128.Idx → Elt F .f32) (k : Nat) (_ : PUnit.{1}) : sProp 𝕄 :=
  iprop(∃ g' : Buf (Elt F) ((V d (cV L) (jV L)).loc cc1_scratch3),
    ((bW3).view.loc (V d (cV L) (jV L)) ↦{fullShare} g') ∗ ⌜g' = fillUpTo (zeroF (F := F)) c k⌝)

theorem regionA3 (c : S128x128.Idx → Elt F .f32) (k1_h : k1_cond7 L = 1#1) (k : Fin k1_t7_loop.trips) :
    invA3 (F := F) d L c k.val ⟨⟩
      ⊢ wp frame (wpE (defs₀ (F := F)) 𝒱₀ (V d (cV L) (jV L)) none) Set.univ
          (k1_t7_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => invA3 (F := F) d L c (k.val + 1) ⟨⟩ := by
  have hQ : ∀ _ : Unit, ((bW3).view.loc (V d (cV L) (jV L)) ↦{fullShare}
        (fun y : S128x128.Idx => if (y 0).val = k.val + 1 ∧ eN (y 1).val then zeroF (F := F) else frameUpTo (zeroF (F := F)) c k.val y) : sProp 𝕄)
      ⊢ invA3 (F := F) d L c (k.val + 1) ⟨⟩ := fun _ => by
    unfold invA3
    iintro Hb
    iexists _
    isplitl [Hb]; · iexact Hb
    ipureintro; exact frameUpTo_succ _ c k.val
  unfold invA3
  iintro ⟨%g', Hb, %hg⟩
  subst hg
  iapply ((tripA3 (F := F) d L k1_h k _).trans (wp_mono frame _ _ hQ)) $$ Hb

theorem regionB3 (c : S128x128.Idx → Elt F .f32) (k1_h : k1_cond8 L = 1#1) (k : Fin k1_t8_loop.trips) :
    invB3 (F := F) d L c k.val ⟨⟩
      ⊢ wp frame (wpE (defs₀ (F := F)) 𝒱₀ (V d (cV L) (jV L)) none) Set.univ
          (k1_t8_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_h k ⟨⟩)
          fun _ => invB3 (F := F) d L c (k.val + 1) ⟨⟩ := by
  have hQ : ∀ _ : Unit, ((bW3).view.loc (V d (cV L) (jV L)) ↦{fullShare}
        (fun y : S128x128.Idx => if (y 0).val = k.val then zeroF (F := F) else fillUpTo (zeroF (F := F)) c k.val y) : sProp 𝕄)
      ⊢ invB3 (F := F) d L c (k.val + 1) ⟨⟩ := fun _ => by
    unfold invB3
    iintro Hb
    iexists _
    isplitl [Hb]; · iexact Hb
    ipureintro; exact fillUpTo_succ _ c k.val
  unfold invB3
  iintro ⟨%g', Hb, %hg⟩
  subst hg
  iapply ((tripB3 (F := F) d L k1_h k _).trans (wp_mono frame _ _ hQ)) $$ Hb

end Cert.Proof.KI

end
-- ==== Proof.TileOut.lean ====
/-
  What a step's copy out leaves in the result array: the step's plane of the result holds the no-slip values of the
  operand, once the scratch buffer it was copied from held the operand's plane with its frame (or, on a boundary plane, all
  of it) zeroed.
-/
import proofs.«203824_g32177894982282_cont_8to1_b_1676_14_alg».proof.Proof.TileLoops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Idealize.ShloMosaic.ValueIdx Cert.Proof.PlaneMath

theorem plane_written (t : Fin 4) (pay : S128x128.Idx → Elt F .f32)
    (hp : ∀ y, pay y = planeOut (zeroF (F := F)) (zOf L t) (planeOf d w (zOf L t)) y) :
    ((dstK L t).view.loc (V d (cV L) (jV L)) ↦[(dstK L t).view.set]{fullShare}
        (dstK L t).view.writes (Elt F) f₀ [⟨Rect.whole S128x128, pay⟩] : sProp 𝕄)
      ⊢ twPlane d (twOut d w) (zOf L t) := by
  refine Entails.of_eq ?_
  rw [pts_dstK]
  refine pointsTo_congr fun i hi => ?_
  rw [← set_dstK L t] at hi
  obtain ⟨y, -, rfl⟩ := Finset.mem_map.mp hi
  have h1 := View.read_writes_cons_emb (dstK L t).view f₀ (Rect.whole S128x128) pay [] y
  rw [Rect.emb_whole_apply] at h1
  refine Eq.trans h1 ?_
  rw [hp y]
  show _ = twOut d w ((dstK L t).view.emb y)
  rw [emb_dstK, twOut_plane]
  rfl

end Cert.Proof.KI

end
-- ==== Proof.Conds.lean ====
/-
  Which branch each step of a vector subcore takes. Step t works on plane z = 8 s + 4 c + t. The first branch (zero the
  frame of the plane) runs when 1 ≤ z ≤ 126, the second (zero the whole plane) otherwise; only step 0 of subcore (0, 0)
  (z = 0) and step 3 of subcore (1, 15) (z = 127) take the second.
-/
import proofs.«203824_g32177894982282_cont_8to1_b_1676_14_alg».proof.Proof.Planes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- A plane strictly inside the grid. -/
def inner (z : Fin 128) : Prop := 1 ≤ z.val ∧ z.val ≤ 126
instance (z : Fin 128) : Decidable (inner z) := by unfold inner; infer_instance

theorem inner_iff_not_edge (z : Fin 128) : inner z ↔ ¬ Cert.Spec.edge z := by
  unfold inner Cert.Spec.edge; have := z.isLt; omega

theorem cond1_iff : ∀ L : grid1.Coords, k1_cond1 L = 1#1 ↔ inner (zOf L 0) := by decide +kernel
theorem cond2_iff : ∀ L : grid1.Coords, k1_cond2 L = 1#1 ↔ ¬ inner (zOf L 0) := by decide +kernel
theorem cond3_iff : ∀ L : grid1.Coords, k1_cond3 L = 1#1 ↔ inner (zOf L 1) := by decide +kernel
theorem cond4_iff : ∀ L : grid1.Coords, k1_cond4 L = 1#1 ↔ ¬ inner (zOf L 1) := by decide +kernel
theorem cond5_iff : ∀ L : grid1.Coords, k1_cond5 L = 1#1 ↔ inner (zOf L 2) := by decide +kernel
theorem cond6_iff : ∀ L : grid1.Coords, k1_cond6 L = 1#1 ↔ ¬ inner (zOf L 2) := by decide +kernel
theorem cond7_iff : ∀ L : grid1.Coords, k1_cond7 L = 1#1 ↔ inner (zOf L 3) := by decide +kernel
theorem cond8_iff : ∀ L : grid1.Coords, k1_cond8 L = 1#1 ↔ ¬ inner (zOf L 3) := by decide +kernel

end Cert.Proof.KI

end
-- ==== Proof.Tile.lean ====
/-
  The task of one vector subcore, run from its four planes of the operand and of the result array: the four copies in are
  issued, then for each plane in turn its copy is awaited, the plane is zeroed in its scratch buffer — its frame if it lies
  inside the grid, all of it if it is one of the two boundary planes — and copied out; last the four copies out are
  awaited. Each scratch buffer has its own pair of semaphores and is touched only between its copy in's wait and its copy
  out's issue. The subcore hands back its planes of the operand unchanged and its planes of the result at the no-slip
  values of the operand.
-/
import proofs.«203824_g32177894982282_cont_8to1_b_1676_14_alg».proof.Proof.TileOut
import proofs.«203824_g32177894982282_cont_8to1_b_1676_14_alg».proof.Proof.Conds

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]
variable (w : Buf (Elt F) (wLoc d)) (f₀ : Buf (Elt F) (twLoc d))

open Idealize.ShloMosaic.ValueIdx Cert.Proof.PlaneMath

/-- Steps 1 and 2 of every subcore work on planes strictly inside the grid. -/
theorem inner_z1 (L : grid1.Coords) : inner (zOf L 1) := by
  have h0 : (L 0).val < 2 := (L 0).isLt
  have h1 : (L 1).val < 16 := (L 1).isLt
  have hz : (zOf L 1).val = 8 * (L 1).val + 4 * (L 0).val + 1 := rfl
  unfold inner; rw [hz]; omega
theorem inner_z2 (L : grid1.Coords) : inner (zOf L 2) := by
  have h0 : (L 0).val < 2 := (L 0).isLt
  have h1 : (L 1).val < 16 := (L 1).isLt
  have hz : (zOf L 2).val = 8 * (L 1).val + 4 * (L 0).val + 2 := rfl
  unfold inner; rw [hz]; omega

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ goV d w f₀ L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11)
          fun _ => iprop(tdV d w L ∗ scopedBufs (V d (cV L) (jV L)) ∗ scopedSems0 (V d (cV L) (jV L)) ∗ ∃ W', ⌜∀ p ∈ W', p ∈ W ∨ p.2 = none⌝ ∗ owes (V d (cV L) (jV L)) O W') := by
  have k1_h3 : k1_cond3 L = 1#1 := (cond3_iff L).mpr (inner_z1 L)
  have k1_h4 : ¬ k1_cond4 L = 1#1 := fun h => (cond4_iff L).mp h (inner_z1 L)
  have k1_h5 : k1_cond5 L = 1#1 := (cond5_iff L).mpr (inner_z2 L)
  have k1_h6 : ¬ k1_cond6 L = 1#1 := fun h => (cond6_iff L).mp h (inner_z2 L)
  have hz1 : ¬ eN (zOf L 1).val := (inner_iff_not_edge _).mp (inner_z1 L)
  have hz2 : ¬ eN (zOf L 2).val := (inner_iff_not_edge _).mp (inner_z2 L)
  unfold tdV
  simp only [cc1__sc_body_eq_skeleton]; unfold cc1__sc_body_skel
  rw [(K (F := F)).scopedBufs_V hF d (cV L) (jV L), SparseCore.Cfg.scopedSems0_V (Val := Elt F) d (cV L) (jV L), ownSems0_split8, ownBufs_split4]
  unfold goV; rw [bigSep_fin4, bigSep_fin4]
  iintro ⟨#Hlv, -, ⟨⟨Hw0, Ht0⟩, ⟨Hw1, Ht1⟩, ⟨Hw2, Ht2⟩, ⟨Hw3, Ht3⟩⟩, ⟨⟨⟨%g0, Hb0⟩, ⟨%g1, Hb1⟩, ⟨%g2, Hb2⟩, ⟨%g3, Hb3⟩⟩, Hbufs⟩,
    ⟨⟨Hs0, Hs1, Hs2, Hs3, Hs4, Hs5, Hs6, Hs7⟩, Hsems⟩, HO⟩
  ihave Hmw := ((K (F := F)).mayWaits_none (thr := V d (cV L) (jV L)) hO) $$ Hlv
  ihave Hw0' := (Entails.of_eq (pts_src0 (F := F) d L w).symm) $$ Hw0
  ihave Hw1' := (Entails.of_eq (pts_src1 (F := F) d L w).symm) $$ Hw1
  ihave Hw2' := (Entails.of_eq (pts_src2 (F := F) d L w).symm) $$ Hw2
  ihave Hw3' := (Entails.of_eq (pts_src3 (F := F) d L w).symm) $$ Hw3
  ihave Ht0' := (Entails.of_eq (pts_dst0 (F := F) d L f₀).symm) $$ Ht0
  ihave Ht1' := (Entails.of_eq (pts_dst1 (F := F) d L f₀).symm) $$ Ht1
  ihave Ht2' := (Entails.of_eq (pts_dst2 (F := F) d L f₀).symm) $$ Ht2
  ihave Ht3' := (Entails.of_eq (pts_dst3 (F := F) d L f₀).symm) $$ Ht3
  ihave Hb0' := (Entails.of_eq (pts_b0 (F := F) d L g0).symm) $$ Hb0
  ihave Hb1' := (Entails.of_eq (pts_b1 (F := F) d L g1).symm) $$ Hb1
  ihave Hb2' := (Entails.of_eq (pts_b2 (F := F) d L g2).symm) $$ Hb2
  ihave Hb3' := (Entails.of_eq (pts_b3 (F := F) d L g3).symm) $$ Hb3
  sl_exec_parts
  -- plane 0: inside the grid, or the boundary plane z = 0
  by_cases k1_h1 : k1_cond1 L = 1#1
  case' pos =>
    have k1_h2 : ¬ k1_cond2 L = 1#1 := fun h => (cond2_iff L).mp h ((cond1_iff L).mp k1_h1)
    have hz0 : ¬ eN (zOf L 0).val := (inner_iff_not_edge _).mp ((cond1_iff L).mp k1_h1)
    sl_exec_parts
    sl_for (invA0 (F := F) d L (planeOf d w (zOf L 0))) $$ [Hb0']
    case region => intro k _; exact regionA0 (F := F) d L (planeOf d w (zOf L 0)) k1_h1 k
    · unfold invA0
      iexists _
      isplitl [Hb0']; · iexact Hb0'
      ipureintro
      rw [frameUpTo_zero]
      refine (zero_rows0 (F := F) _ _ ?hz (fun y => eN (y 0).val) ?hcov).trans ?_
      case hz =>
        intro p hp x
        simp only [List.mem_cons, List.not_mem_nil, _root_.or_false] at hp
        rcases hp with rfl | rfl | rfl | rfl | rfl | rfl | rfl | rfl | rfl | rfl | rfl | rfl | rfl | rfl | rfl | rfl <;> exact zeroRow_apply x
      case hcov =>
        intro y
        simp only [List.mem_cons, List.not_mem_nil, _root_.or_false, exists_eq_or_imp, exists_eq_left, Rect.mem_set_unit, Fin.forall_fin_two]
        have h1 : (y 1).val < 128 := (y 1).isLt
        have h0 : (y 0).val < 128 := (y 0).isLt
        simp [eN]; omega
      funext y
      unfold rowsZero
      refine if_congr Iff.rfl rfl ?_
      exact (congrFun (View.write_whole_univ (Val := Elt F) (cc1_scratch0 : Ref sig .scVector) g0 _) y).trans
        (congrFun (read_srcK (F := F) d L w 0) y)
    iintro %_ HI
    unfold invA0
    icases HI with ⟨%gP0, HbP0, %hgP0⟩
    rw [show Scf.trips k1_t1_loop.lb k1_t1_loop.ub k1_t1_loop.st = 126 from by decide, frameUpTo_last] at hgP0
    replace hgP0 : gP0 = planeOut (zeroF (F := F)) (zOf L 0) (planeOf d w (zOf L 0)) := by
      rw [hgP0]; unfold planeOut; rw [if_neg hz0]
  case' neg =>
    have k1_h2 : k1_cond2 L = 1#1 := (cond2_iff L).mpr (fun hi => k1_h1 ((cond1_iff L).mpr hi))
    have hz0 : eN (zOf L 0).val := Classical.not_not.mp fun h => k1_h1 ((cond1_iff L).mpr ((inner_iff_not_edge _).mpr h))
    sl_exec_parts
    sl_for (invB0 (F := F) d L (planeOf d w (zOf L 0))) $$ [Hb0']
    case region => intro k _; exact regionB0 (F := F) d L (planeOf d w (zOf L 0)) 0#32 k1_pay82 k1_pay83 k1_h2 k
    · unfold invB0
      iexists _
      isplitl [Hb0']; · iexact Hb0'
      ipureintro
      rw [fillUpTo_zero]
      funext y
      exact (congrFun (View.write_whole_univ (Val := Elt F) (cc1_scratch0 : Ref sig .scVector) g0 _) y).trans
        (congrFun (read_srcK (F := F) d L w 0) y)
    iintro %_ HI
    unfold invB0
    icases HI with ⟨%gP0, HbP0, %hgP0⟩
    rw [show Scf.trips k1_t2_loop.lb k1_t2_loop.ub k1_t2_loop.st = 128 from by decide, fillUpTo_last] at hgP0
    replace hgP0 : gP0 = planeOut (zeroF (F := F)) (zOf L 0) (planeOf d w (zOf L 0)) := by
      rw [hgP0]; unfold planeOut; rw [if_pos hz0]
  all_goals (
    -- planes 1 and 2: always inside the grid
    sl_exec_parts
    sl_for (invA1 (F := F) d L (planeOf d w (zOf L 1))) $$ [Hb1']
    case region => intro k _; exact regionA1 (F := F) d L (planeOf d w (zOf L 1)) k1_h3 k
    · unfold invA1
      iexists _
      isplitl [Hb1']; · iexact Hb1'
      ipureintro
      rw [frameUpTo_zero]
      refine (zero_rows1 (F := F) _ _ ?hz (fun y => eN (y 0).val) ?hcov).trans ?_
      case hz =>
        intro p hp x
        simp only [List.mem_cons, List.not_mem_nil, _root_.or_false] at hp
        rcases hp with rfl | rfl | rfl | rfl | rfl | rfl | rfl | rfl | rfl | rfl | rfl | rfl | rfl | rfl | rfl | rfl <;> exact zeroRow_apply x
      case hcov =>
        intro y
        simp only [List.mem_cons, List.not_mem_nil, _root_.or_false, exists_eq_or_imp, exists_eq_left, Rect.mem_set_unit, Fin.forall_fin_two]
        have h1 : (y 1).val < 128 := (y 1).isLt
        have h0 : (y 0).val < 128 := (y 0).isLt
        simp [eN]; omega
      funext y
      unfold rowsZero
      refine if_congr Iff.rfl rfl ?_
      exact (congrFun (View.write_whole_univ (Val := Elt F) (cc1_scratch1 : Ref sig .scVector) g1 _) y).trans
        (congrFun (read_srcK (F := F) d L w 1) y)
    iintro %_ HI
    unfold invA1
    icases HI with ⟨%gP1, HbP1, %hgP1⟩
    rw [show Scf.trips k1_t3_loop.lb k1_t3_loop.ub k1_t3_loop.st = 126 from by decide, frameUpTo_last] at hgP1
    replace hgP1 : gP1 = planeOut (zeroF (F := F)) (zOf L 1) (planeOf d w (zOf L 1)) := by
      rw [hgP1]; unfold planeOut; rw [if_neg hz1]
    sl_exec_parts
    sl_for (invA2 (F := F) d L (planeOf d w (zOf L 2))) $$ [Hb2']
    case region => intro k _; exact regionA2 (F := F) d L (planeOf d w (zOf L 2)) k1_h5 k
    · unfold invA2
      iexists _
      isplitl [Hb2']; · iexact Hb2'
      ipureintro
      rw [frameUpTo_zero]
      refine (zero_rows2 (F := F) _ _ ?hz (fun y => eN (y 0).val) ?hcov).trans ?_
      case hz =>
        intro p hp x
        simp only [List.mem_cons, List.not_mem_nil, _root_.or_false] at hp
        rcases hp with rfl | rfl | rfl | rfl | rfl | rfl | rfl | rfl | rfl | rfl | rfl | rfl | rfl | rfl | rfl | rfl <;> exact zeroRow_apply x
      case hcov =>
        intro y
        simp only [List.mem_cons, List.not_mem_nil, _root_.or_false, exists_eq_or_imp, exists_eq_left, Rect.mem_set_unit, Fin.forall_fin_two]
        have h1 : (y 1).val < 128 := (y 1).isLt
        have h0 : (y 0).val < 128 := (y 0).isLt
        simp [eN]; omega
      funext y
      unfold rowsZero
      refine if_congr Iff.rfl rfl ?_
      exact (congrFun (View.write_whole_univ (Val := Elt F) (cc1_scratch2 : Ref sig .scVector) g2 _) y).trans
        (congrFun (read_srcK (F := F) d L w 2) y)
    iintro %_ HI
    unfold invA2
    icases HI with ⟨%gP2, HbP2, %hgP2⟩
    rw [show Scf.trips k1_t5_loop.lb k1_t5_loop.ub k1_t5_loop.st = 126 from by decide, frameUpTo_last] at hgP2
    replace hgP2 : gP2 = planeOut (zeroF (F := F)) (zOf L 2) (planeOf d w (zOf L 2)) := by
      rw [hgP2]; unfold planeOut; rw [if_neg hz2]
    sl_exec_parts
    -- plane 3: inside the grid, or the boundary plane z = 127
    by_cases k1_h7 : k1_cond7 L = 1#1
    case' pos =>
      have k1_h8 : ¬ k1_cond8 L = 1#1 := fun h => (cond8_iff L).mp h ((cond7_iff L).mp k1_h7)
      have hz3 : ¬ eN (zOf L 3).val := (inner_iff_not_edge _).mp ((cond7_iff L).mp k1_h7)
      sl_exec_parts
      sl_for (invA3 (F := F) d L (planeOf d w (zOf L 3))) $$ [Hb3']
      case region => intro k _; exact regionA3 (F := F) d L (planeOf d w (zOf L 3)) k1_h7 k
      · unfold invA3
        iexists _
        isplitl [Hb3']; · iexact Hb3'
        ipureintro
        rw [frameUpTo_zero]
        refine (zero_rows3 (F := F) _ _ ?hz (fun y => eN (y 0).val) ?hcov).trans ?_
        case hz =>
          intro p hp x
          simp only [List.mem_cons, List.not_mem_nil, _root_.or_false] at hp
          rcases hp with rfl | rfl | rfl | rfl | rfl | rfl | rfl | rfl | rfl | rfl | rfl | rfl | rfl | rfl | rfl | rfl <;> exact zeroRow_apply x
        case hcov =>
          intro y
          simp only [List.mem_cons, List.not_mem_nil, _root_.or_false, exists_eq_or_imp, exists_eq_left, Rect.mem_set_unit, Fin.forall_fin_two]
          have h1 : (y 1).val < 128 := (y 1).isLt
          have h0 : (y 0).val < 128 := (y 0).isLt
          simp [eN]; omega
        funext y
        unfold rowsZero
        refine if_congr Iff.rfl rfl ?_
        exact (congrFun (View.write_whole_univ (Val := Elt F) (cc1_scratch3 : Ref sig .scVector) g3 _) y).trans
          (congrFun (read_srcK (F := F) d L w 3) y)
      iintro %_ HI
      unfold invA3
      icases HI with ⟨%gP3, HbP3, %hgP3⟩
      rw [show Scf.trips k1_t7_loop.lb k1_t7_loop.ub k1_t7_loop.st = 126 from by decide, frameUpTo_last] at hgP3
      replace hgP3 : gP3 = planeOut (zeroF (F := F)) (zOf L 3) (planeOf d w (zOf L 3)) := by
        rw [hgP3]; unfold planeOut; rw [if_neg hz3]
    case' neg =>
      have k1_h8 : k1_cond8 L = 1#1 := (cond8_iff L).mpr (fun hi => k1_h7 ((cond7_iff L).mpr hi))
      have hz3 : eN (zOf L 3).val := Classical.not_not.mp fun h => k1_h7 ((cond7_iff L).mpr ((inner_iff_not_edge _).mpr h))
      sl_exec_parts
      sl_for (invB3 (F := F) d L (planeOf d w (zOf L 3))) $$ [Hb3']
      case region => intro k _; exact regionB3 (F := F) d L (planeOf d w (zOf L 3)) k1_h8 k
      · unfold invB3
        iexists _
        isplitl [Hb3']; · iexact Hb3'
        ipureintro
        rw [fillUpTo_zero]
        funext y
        exact (congrFun (View.write_whole_univ (Val := Elt F) (cc1_scratch3 : Ref sig .scVector) g3 _) y).trans
          (congrFun (read_srcK (F := F) d L w 3) y)
      iintro %_ HI
      unfold invB3
      icases HI with ⟨%gP3, HbP3, %hgP3⟩
      rw [show Scf.trips k1_t8_loop.lb k1_t8_loop.ub k1_t8_loop.st = 128 from by decide, fillUpTo_last] at hgP3
      replace hgP3 : gP3 = planeOut (zeroF (F := F)) (zOf L 3) (planeOf d w (zOf L 3)) := by
        rw [hgP3]; unfold planeOut; rw [if_pos hz3]
    all_goals (
      sl_exec_parts
      sl_step
      isplitl [Hw0' Hw1' Hw2' Hw3' Ht0' Ht1' Ht2' Ht3']
      · isplitl [Hw0' Ht0']
        · isplitl [Hw0']
          · iapply (Entails.of_eq (pts_src0 (F := F) d L w)); iexact Hw0'
          · iapply (plane_written (F := F) d L w f₀ 0 _ (fun y => congrFun hgP0 y)); iexact Ht0'
        isplitl [Hw1' Ht1']
        · isplitl [Hw1']
          · iapply (Entails.of_eq (pts_src1 (F := F) d L w)); iexact Hw1'
          · iapply (plane_written (F := F) d L w f₀ 1 _ (fun y => congrFun hgP1 y)); iexact Ht1'
        isplitl [Hw2' Ht2']
        · isplitl [Hw2']
          · iapply (Entails.of_eq (pts_src2 (F := F) d L w)); iexact Hw2'
          · iapply (plane_written (F := F) d L w f₀ 2 _ (fun y => congrFun hgP2 y)); iexact Ht2'
        isplitl [Hw3']
        · iapply (Entails.of_eq (pts_src3 (F := F) d L w)); iexact Hw3'
        · iapply (plane_written (F := F) d L w f₀ 3 _ (fun y => congrFun hgP3 y)); iexact Ht3'
      isplitl [HbP0 HbP1 HbP2 HbP3 Hbufs]
      · isplitl [HbP0 HbP1 HbP2 HbP3]
        · isplitl [HbP0]; · iexists _; iexact HbP0
          isplitl [HbP1]; · iexists _; iexact HbP1
          isplitl [HbP2]; · iexists _; iexact HbP2
          iexists _; iexact HbP3
        iexact Hbufs
      isplitl [Hs0 Hs1 Hs2 Hs3 Hs4 Hs5 Hs6 Hs7 Hsems]
      · isplitl [Hs0 Hs1 Hs2 Hs3 Hs4 Hs5 Hs6 Hs7]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          iexact Hs7
        iexact Hsems
      iexists _; isplitr
      swap
      · iexact HO
      ipureintro; intro p hp
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      exact .inl hp
))

end Cert.Proof.KI

end
-- ==== Proof.Launch.lean ====
/-
  The idealized kernel's run: every weakly fair execution of the device's 35 threads ends, and in the final memory the three
  arguments are unchanged and the three results are the specification's functions of them. By the SparseCore launch theorem
  from the vector subcores' task, the trivial split of the call's operands among the subcores, @main on the TensorCore, and a
  launch element that funds the pipelined region's staging cells.
-/
import proofs.«203824_g32177894982282_cont_8to1_b_1676_14_alg».proof.Proof.Main
import proofs.«203824_g32177894982282_cont_8to1_b_1676_14_alg».proof.Proof.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "wW" => (Memref.whole Cert.KernelIdeal.main_v2_scv : Memref Cert.KernelIdeal.sig Kind.scVector Space.hbm Cert.KernelIdeal.S128x128x128 EltTy.f32)
local notation "twW" => (Memref.whole Cert.KernelIdeal.main_v4_scv : Memref Cert.KernelIdeal.sig Kind.scVector Space.hbm Cert.KernelIdeal.S128x128x128 EltTy.f32)
local notation "bW0" => (Memref.whole Cert.KernelIdeal.cc1_scratch0 : Memref Cert.KernelIdeal.sig Kind.scVector Space.vmem Cert.KernelIdeal.S128x128 EltTy.f32)
local notation "bW1" => (Memref.whole Cert.KernelIdeal.cc1_scratch1 : Memref Cert.KernelIdeal.sig Kind.scVector Space.vmem Cert.KernelIdeal.S128x128 EltTy.f32)
local notation "bW2" => (Memref.whole Cert.KernelIdeal.cc1_scratch2 : Memref Cert.KernelIdeal.sig Kind.scVector Space.vmem Cert.KernelIdeal.S128x128 EltTy.f32)
local notation "bW3" => (Memref.whole Cert.KernelIdeal.cc1_scratch3 : Memref Cert.KernelIdeal.sig Kind.scVector Space.vmem Cert.KernelIdeal.S128x128 EltTy.f32)

variable [FloatOps F]

open Idealize.ShloMosaic.TcCoe

variable (m : (ℓ : Loc nD τ sig) → Buf (Elt F) ℓ) (ρ : Dev nD → PrngReg)

/-! ## The launch theorem's obligations -/

theorem defs₀_vector (c : Fin τ.nSC) (s : Fin τ.nSub) :
    defs₀ (F := F) (.scVector c s) 1 ()
      = SparseCore.onTile hcore1 hsub1 (fun c s => cc1__sc_body (coordsV c s) wW (Memref.isWhole_whole _) twW (Memref.isWhole_whole _)
          bW0 (Memref.isWhole_whole _) bW1 (Memref.isWhole_whole _) bW2 (Memref.isWhole_whole _) bW3 (Memref.isWhole_whole _)
          cc1_scratch4 cc1_scratch5 cc1_scratch6 cc1_scratch7 cc1_scratch8 cc1_scratch9 cc1_scratch10 cc1_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (w : (d : Dev nD) → Buf (Elt F) (wLoc d)) (f₀ : (d : Dev nD) → Buf (Elt F) (twLoc d))

theorem tileObl (hF : (K (F := F)).Facts) : (K (F := F)).TileObl (D (F := F)) 𝒱 (P (F := F) w f₀) v₀ 0 := by
  intro d c i O W hO _ _
  -- this kernel owes nothing for a protocol of its own
  simp only [show (P (F := F) w f₀).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body (F := F) d (coordsV ⟨_, hc.1⟩ ⟨_, hc.2⟩) (w d) (f₀ d) hF O W hO).trans (wp_mono frame _ _ fun _ => obl_post)

/-- A SparseCore's share of the call is its subcores' shares, and back. -/
theorem vecSplit : (K (F := F)).VecSplit' (P (F := F) w f₀) 0 := by
  intro d c
  show (bigSep (Finset.univ : Finset (Fin ((K (F := F)).nSub 0))) fun i => goV d (w d) (f₀ d) (coordsV (Fin.cast nCore_zero c) (Fin.cast nSub_zero i)))
    ⊢ |={Set.univ}=> iprop((bigSep (Finset.univ : Finset (Fin ((K (F := F)).nSub 0))) fun i => goV d (w d) (f₀ d) (coordsV (Fin.cast nCore_zero c) (Fin.cast nSub_zero i)))
      ∗ ((bigSep (Finset.univ : Finset (Fin ((K (F := F)).nSub 0))) fun i => tdV d (w d) (coordsV (Fin.cast nCore_zero c) (Fin.cast nSub_zero i)))
        -∗ bigSep (Finset.univ : Finset (Fin ((K (F := F)).nSub 0))) fun i => tdV d (w d) (coordsV (Fin.cast nCore_zero c) (Fin.cast nSub_zero i))))
  iintro H; imodintro
  isplitl [H]; · iexact H
  iintro H; iexact H

/-! ## The launch element: the handshakes' rounds and the pipelined region's staging cells -/

def u₀ : UU := (initOf (K (F := F)).hsCells (K (F := F)).hsToks, (u₀P, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (GP (F := F)))
        ∗ bigSep Finset.univ fun thr : Thread nD τ => bigSep Finset.univ fun q : Fin 1 => (P (F := F) w f₀).x q thr) := by
  unfold u₀
  iintro Hu
  ihave H := (ownU_split _ _ _) $$ Hu
  icases H with ⟨HH, HP⟩
  imod (fundP (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the final memory holds -/

omit [FloatOps F] in
theorem pts_SI (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- The claim's reading of a device's final memory. -/
def fq (d : Dev nD) (s' : Phys nD τ sig (Elt F)) : Prop :=
  s'.mem.mem ((SparseCore.T d).loc main_v5) = (Cert.Spec.outU (oneF (F := F)) (m ((SparseCore.T d).loc main_arg0)) : Buf (Elt F) ((SparseCore.T d).loc main_v5))
  ∧ s'.mem.mem ((SparseCore.T d).loc main_v6) = (Cert.Spec.outZ (zeroF (F := F)) (m ((SparseCore.T d).loc main_arg1)) : Buf (Elt F) ((SparseCore.T d).loc main_v6))
  ∧ s'.mem.mem ((SparseCore.T d).loc main_v7) = (Cert.Spec.outZ (zeroF (F := F)) (m ((SparseCore.T d).loc main_arg2)) : Buf (Elt F) ((SparseCore.T d).loc main_v7))
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  have h0 : iprop(FIN m d ∗ SI s') ⊢ (⌜s'.mem.mem ((SparseCore.T d).loc main_arg0) = m ((SparseCore.T d).loc main_arg0)⌝ : sProp 𝕄) := by
    unfold FIN; iintro ⟨⟨H0, H1, H2, H3, H4, H5⟩, HSI⟩
    iapply (pts_SI (F := F) _ _ s'); isplitl [H0]; · iexact H0
    iexact HSI
  have h1 : iprop(FIN m d ∗ SI s') ⊢ (⌜s'.mem.mem ((SparseCore.T d).loc main_arg1) = m ((SparseCore.T d).loc main_arg1)⌝ : sProp 𝕄) := by
    unfold FIN; iintro ⟨⟨H0, H1, H2, H3, H4, H5⟩, HSI⟩
    iapply (pts_SI (F := F) _ _ s'); isplitl [H1]; · iexact H1
    iexact HSI
  have h2 : iprop(FIN m d ∗ SI s') ⊢ (⌜s'.mem.mem ((SparseCore.T d).loc main_arg2) = m ((SparseCore.T d).loc main_arg2)⌝ : sProp 𝕄) := by
    unfold FIN; iintro ⟨⟨H0, H1, H2, H3, H4, H5⟩, HSI⟩
    iapply (pts_SI (F := F) _ _ s'); isplitl [H2]; · iexact H2
    iexact HSI
  have h3 : iprop(FIN m d ∗ SI s') ⊢ (⌜s'.mem.mem ((SparseCore.T d).loc main_v5) = (Cert.Spec.outU (oneF (F := F)) (m ((SparseCore.T d).loc main_arg0)) : Buf (Elt F) ((SparseCore.T d).loc main_v5))⌝ : sProp 𝕄) := by
    unfold FIN; iintro ⟨⟨H0, H1, H2, H3, H4, H5⟩, HSI⟩
    iapply (pts_SI (F := F) _ _ s'); isplitl [H3]; · iexact H3
    iexact HSI
  have h4 : iprop(FIN m d ∗ SI s') ⊢ (⌜s'.mem.mem ((SparseCore.T d).loc main_v6) = (Cert.Spec.outZ (zeroF (F := F)) (m ((SparseCore.T d).loc main_arg1)) : Buf (Elt F) ((SparseCore.T d).loc main_v6))⌝ : sProp 𝕄) := by
    unfold FIN; iintro ⟨⟨H0, H1, H2, H3, H4, H5⟩, HSI⟩
    iapply (pts_SI (F := F) _ _ s'); isplitl [H4]; · iexact H4
    iexact HSI
  have h5 : iprop(FIN m d ∗ SI s') ⊢ (⌜s'.mem.mem ((SparseCore.T d).loc main_v7) = (Cert.Spec.outZ (zeroF (F := F)) (m ((SparseCore.T d).loc main_arg2)) : Buf (Elt F) ((SparseCore.T d).loc main_v7))⌝ : sProp 𝕄) := by
    unfold FIN; iintro ⟨⟨H0, H1, H2, H3, H4, H5⟩, HSI⟩
    iapply (pts_SI (F := F) _ _ s'); isplitl [H5]; · iexact H5
    iexact HSI
  exact fun x hx => ⟨h3 x hx, h4 x hx, h5 x hx, h0 x hx, h1 x hx, h2 x hx⟩

/-! ## The program's run -/

/-- What the claims read: on every device the three results at the specification, the three arguments unchanged. -/
def QC : PUnit × MemSt nD τ sig (Elt F) → Prop := fun r => ∀ c : Dev nD,
  r.2.mem ((SparseCore.T c).loc main_v5) = (Cert.Spec.outU (oneF (F := F)) (m ((SparseCore.T c).loc main_arg0)) : Buf (Elt F) ((SparseCore.T c).loc main_v5))
  ∧ r.2.mem ((SparseCore.T c).loc main_v6) = (Cert.Spec.outZ (zeroF (F := F)) (m ((SparseCore.T c).loc main_arg1)) : Buf (Elt F) ((SparseCore.T c).loc main_v6))
  ∧ r.2.mem ((SparseCore.T c).loc main_v7) = (Cert.Spec.outZ (zeroF (F := F)) (m ((SparseCore.T c).loc main_arg2)) : Buf (Elt F) ((SparseCore.T c).loc main_v7))
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (F := F) (W2 m) (F4 m) facts)
    (fun q _ => match q with | 0 => SparseCore.Cfg.VecSplit.of_plain (vecSplit (F := F) (W2 m) (F4 m)))
    m ρ main (GP (F := F)) (FIN m) (u₀ (F := F)) (sep_elim_left.trans (hu₀ (F := F) (W2 m) (F4 m))) (hmain m ρ) (fq m) (hfin m) (QC m) (fun _ h => h)

end Cert.Proof.KI

end
-- ==== Proof.SetupBits.lean ====
/-
  The idealized kernel as the SparseCore launch theorem sees it: the program's label signature, its SparseCore
  configuration, its body table, the side conditions of the configuration, and the ghost state — the launch
  handshakes' rounds, the TensorCore pipeline's rounds, and the transfer counters of the vector subcores' own copies.
-/
import proofs.«203824_g32177894982282_cont_8to1_b_1676_14_alg».proof.Defs
import proofs.«203824_g32177894982282_cont_8to1_b_1676_14_alg».proof.Proof.Gen.Kernel
import proofs.«203824_g32177894982282_cont_8to1_b_1676_14_alg».proof.Proof.Gen.Kernel.Skeleton
import proofs.«203824_g32177894982282_cont_8to1_b_1676_14_alg».proof.Proof.Gen.Kernel.Launch
import proofs.«203824_g32177894982282_cont_8to1_b_1676_14_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the TensorCore side: the kernels' own and the one pipelined region's. -/
abbrev ΛP : Labels := Pipeline.Sig Λ₀ (Fin 1) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table below the SparseCore launch: the kernels' bodies and the pipelined region. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipeline's rounds: the left factor of the right factor (the counters, the right factor of the right factor,
    are found by instance). -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The launch element splits: the handshakes' part, the pipeline's part; the counters' part is dropped. -/
theorem ownU_split (a : UH) (b : UP) (c : Counters) :
    (ownU (a, (b, c)) : sProp (MT nD τ sig (HIx 1) (Elt F) ℕ UU ℕ)) ⊢ iprop(BI.own (EH a) ∗ BI.own (EP b)) := by
  iintro Hu
  ihave H := (ownU_pair _ _) $$ Hu
  icases H with ⟨HH, HR⟩
  ihave HR' := (own_pair_emb embR b c) $$ HR
  icases HR' with ⟨HP, -⟩
  isplitl [HH]; · iexact HH
  unfold EP; iexact HP

end Cert.Proof.KB

end
-- ==== Proof.RegionBodyBits.lean ====
/-
  The TensorCore kernel's body on whole staging buffers: from the two input blocks it leaves, in the two output
  buffers, one pure function each of the input block and the grid point.
-/
import proofs.«203824_g32177894982282_cont_8to1_b_1676_14_alg».proof.Proof.SetupBits
import Idealize.ShloMosaic.Lib.Pipeline.FrameBody

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## What the body leaves in each output buffer -/

/-- The one rectangle every access of the body goes through: the whole block. -/
abbrev rB : Rect S16x128x128 := Rect.unit (s := S16x128x128) ![0, 0, 0] S16x128x128.size inb_S16x128x128_S16x128x128_0_0_0

/-- The first output's block, from the first input's block at grid point `i`: its one store, over the payloads. -/
def blkU (i : grid0.Coords) (x0 : Vec F S16x128x128 .f32) : Vec F S16x128x128 .f32 :=
  View.canon [⟨rB, k0_pay1 (k0_pay3 (View.ld x0 rB)) (k0_pay5 i) (k0_pay7 (View.ld x0 rB)) k0_pay8⟩]

/-- The second output's block, from the second input's block at grid point `i`. -/
def blkV (i : grid0.Coords) (x1 : Vec F S16x128x128 .f32) : Vec F S16x128x128 .f32 :=
  View.canon [⟨rB, k0_pay2 (k0_pay4 (View.ld x1 rB)) (k0_pay5 i) (iota .tc S1x128x1 32 [1] iota_S1x128x1_d1_w32) k0_pay6⟩]

/-- One store through the whole block covers the block. -/
theorem coverB (p0 : Vec F S16x128x128 .f32) (y : S16x128x128.Idx) :
    ∃ pc ∈ ([⟨rB, p0⟩] : List (View.Piece (Elt F) S16x128x128 .f32)), y ∈ pc.1.set :=
  View.cover_of_tiled [⟨rB, p0⟩] S16x128x128.size (by rfl) y

/-! ## The body's triple -/

set_option maxHeartbeats 1000000 in
/-- On whole staging buffers, the inputs' at contents `x0`, `x1` and the outputs' at anything, the body runs to the
    continuation holding the inputs' as they were and the outputs' at `blkU i x0`, `blkV i x1`. -/
theorem sound_kernel (c : Dev nD) (E : Set ℕ) (i : grid0.Coords)
    (arg1 : Memref sig .tc .vmem S16x128x128 .f32) (harg1 : arg1.IsWhole) (arg2 : Memref sig .tc .vmem S16x128x128 .f32) (harg2 : arg2.IsWhole)
    (arg3 : Memref sig .tc .vmem S16x128x128 .f32) (harg3 : arg3.IsWhole) (arg4 : Memref sig .tc .vmem S16x128x128 .f32) (harg4 : arg4.IsWhole)
    (x0 : Vec F S16x128x128 .f32) (x1 : Vec F S16x128x128 .f32) (Kc : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (blkU i x0) ∗ owns (c : Thread nD τ) arg4 fullShare (blkV i x1)) -∗ Kc ⟨⟩))
      ⊢ wp frame (wpE (defs₀ (F := F)) Variants.none c none) E (cc0__tc_kernel i arg1 harg1 arg2 harg2 arg3 harg3 arg4 harg4) Kc := by
  simp only [cc0__tc_kernel_eq_skeleton]; unfold cc0__tc_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverB _)
  iexists _; isplitr
  swap; · iexact H3
  ipureintro
  exact View.read_writes_eq_canon _ _ _ (coverB _)

end Cert.Proof.KB

end
-- ==== Proof.RegionDatBits.lean ====
/-
  The pipeline's proof data on a TensorCore: the four windowed arrays at given contents, each input's staging buffer
  at its block of the array, each output's at the body's function of the input block; the body obligation.
-/
import proofs.«203824_g32177894982282_cont_8to1_b_1676_14_alg».proof.Proof.RegionBodyBits
import proofs.«203824_g32177894982282_cont_8to1_b_1676_14_alg».proof.Proof.Gen.Kernel.Launch
import proofs.«203824_g32177894982282_cont_8to1_b_1676_14_alg».proof.Proof.Gen.Kernel.Points

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The contents of an array of the grid's shape. -/
abbrev Arr3 : Type := S128x128x128.Idx → Elt F .f32

variable (O : CellTallies nD τ sig (HIx 1)) (B : Set (SemLoc sig × HIx 1)) (a0 a1 f0 f1 : Arr3 (F := F))

/-- The windowed arrays' contents when the region is entered: the two inputs, the two results at anything. -/
def arrs (c : Dev nD) : (w : Fin cfg0.W) → Buf (Elt F) ((cfg0.win w).arr.view.loc (c : Thread nD τ))
  | ⟨0, _⟩ => a0
  | ⟨1, _⟩ => a1
  | ⟨2, _⟩ => f0
  | ⟨3, _⟩ => f1

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (arrs a0 a1 f0 f1 c w)

/-- The proof data: after the body at point `t` each input's buffer holds its block and each output's the body's
    function of the input block; the invariant is the scoped rest (nothing); the core owes `O` throughout, its
    recorded pairs within `B`; full shares. -/
def dats (_ : Fin 1) (c : Dev nD) : Dat τ (Elt F) (HIx 1) ℕ UU ℕ cfg0 c where
  A := arrs a0 a1 f0 f1 c
  after w t := match w with
    | ⟨0, _⟩ => iblk a0 a1 f0 f1 c 0 t
    | ⟨1, _⟩ => iblk a0 a1 f0 f1 c 1 t
    | ⟨2, _⟩ => blkU (grid0.coords t) (iblk a0 a1 f0 f1 c 0 t)
    | ⟨3, _⟩ => blkV (grid0.coords t) (iblk a0 a1 f0 f1 c 1 t)
  Φ _ := Pipeline.scopedRest (Ix := HIx 1) (Name := ℕ) (U := UU) (Lvl := ℕ) (Val := Elt F) spec0 c
  q _ := fullShare
  owed _ := O
  recorded _ := B

theorem A_eq (c : Dev nD) (w : Fin cfg0.W) : (dats O B a0 a1 f0 f1 0 c).A w = arrs a0 a1 f0 f1 c w := by
  dsimp only [dats]

theorem after0 (c : Dev nD) (t : Fin cfg0.N) : (dats O B a0 a1 f0 f1 0 c).after 0 t = iblk a0 a1 f0 f1 c 0 t := by dsimp only [dats]
theorem after1 (c : Dev nD) (t : Fin cfg0.N) : (dats O B a0 a1 f0 f1 0 c).after 1 t = iblk a0 a1 f0 f1 c 1 t := by dsimp only [dats]
theorem after2 (c : Dev nD) (t : Fin cfg0.N) :
    (dats O B a0 a1 f0 f1 0 c).after 2 t = blkU (grid0.coords t) (iblk a0 a1 f0 f1 c 0 t) := by dsimp only [dats]
theorem after3 (c : Dev nD) (t : Fin cfg0.N) :
    (dats O B a0 a1 f0 f1 0 c).after 3 t = blkV (grid0.coords t) (iblk a0 a1 f0 f1 c 1 t) := by dsimp only [dats]

/-- Each input's current staging buffer holds its block at every point. -/
theorem before0 (c : Dev nD) (t : Fin cfg0.N) (d) : (dats O B a0 a1 f0 f1 0 c).before 0 t d = iblk a0 a1 f0 f1 c 0 t :=
  ((dats O B a0 a1 f0 f1 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats O B a0 a1 f0 f1 0 c).before 1 t d = iblk a0 a1 f0 f1 c 1 t :=
  ((dats O B a0 a1 f0 f1 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats O B a0 a1 f0 f1 0 c).Φ t.castSucc ∗ (dats O B a0 a1 f0 f1 0 c).owesAt none t.castSucc
    ∗ (∃ d, owns (c : Thread nD τ) (st0_0 t) fullShare ((dats O B a0 a1 f0 f1 0 c).before 0 t d))
    ∗ (∃ d, owns (c : Thread nD τ) (st0_1 t) fullShare ((dats O B a0 a1 f0 f1 0 c).before 1 t d))
    ∗ (∃ d, owns (c : Thread nD τ) (st0_2 t) fullShare ((dats O B a0 a1 f0 f1 0 c).before 2 t d))
    ∗ (∃ d, owns (c : Thread nD τ) (st0_3 t) fullShare ((dats O B a0 a1 f0 f1 0 c).before 3 t d)))

def bodyPost (c : Dev nD) (t : Fin cfg0.N) : sProp 𝕄 :=
  iprop((dats O B a0 a1 f0 f1 0 c).Φ t.succ ∗ (dats O B a0 a1 f0 f1 0 c).owesAt none t.succ
    ∗ owns (c : Thread nD τ) (st0_0 t) fullShare ((dats O B a0 a1 f0 f1 0 c).after 0 t)
    ∗ owns (c : Thread nD τ) (st0_1 t) fullShare ((dats O B a0 a1 f0 f1 0 c).after 1 t)
    ∗ owns (c : Thread nD τ) (st0_2 t) fullShare ((dats O B a0 a1 f0 f1 0 c).after 2 t)
    ∗ owns (c : Thread nD τ) (st0_3 t) fullShare ((dats O B a0 a1 f0 f1 0 c).after 3 t))

theorem sound_body (c : Dev nD) (t : Fin cfg0.N) :
    bodyPre O B a0 a1 f0 f1 c t ⊢ wp frame (wpE (defs₀ (F := F)) Variants.none c none) Set.univ (bodyAt0 t) (fun _ => bodyPost O B a0 a1 f0 f1 c t) := by
  unfold bodyPre bodyPost bodyAt0
  simp only [before0, before1]
  rw [show (dats O B a0 a1 f0 f1 0 c).Φ t.succ = (dats O B a0 a1 f0 f1 0 c).Φ t.castSucc from rfl,
    show (dats O B a0 a1 f0 f1 0 c).owesAt none t.succ = (dats O B a0 a1 f0 f1 0 c).owesAt none t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk a0 a1 f0 f1 c 0 t) (iblk a0 a1 f0 f1 c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats O B a0 a1 f0 f1 0 c) (defs₀ (F := F)) Variants.none none Set.univ := fun t => by
  rw [bigSep_W0, bigSep_W0]
  exact sound_body O B a0 a1 f0 f1 c t

end Cert.Proof.KB

end
-- ==== Proof.RegionRunBits.lean ====
/-
  The region's run on a TensorCore inside the SparseCore program: from the four arrays, the region boundary, the
  staging cells' ghost state and what the TensorCore owes, the pipelined region runs to the arrays at what the
  pipeline library computes from the proof data, everything else handed back.
-/
import proofs.«203824_g32177894982282_cont_8to1_b_1676_14_alg».proof.Proof.RegionDatBits
import Idealize.ShloMosaic.Lib.Pipeline.Regions

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The pipeline prefetches no table: its one admissible contents. -/
abbrev adm : (p : Fin 1) → (pcfgs (F := F) p).Adm := fun p => (cfgs p).toPCfg_adm

/-- The rounds ghost state of the pipeline's staging cells on device `d`, with its duty tokens. -/
def GP (d : Dev nD) : sProp 𝕄 :=
  iprop(Pipeline.cellsGhost (Pipeline.pin (pcfgs (F := F)) adm) EP 0 d ∗ Pipeline.toksInit (Pipeline.pin (pcfgs (F := F)) adm) EP 0 d)

/-- The launch element's component for the pipeline's rounds. -/
def u₀P : UP := initOf (Pipeline.cells (nD := nD) (τ := τ) cfgs cellOf_inj) (Pipeline.launchToks (nD := nD) (τ := τ) cfgs cellOf_inj)

/-- What the TensorCore owes before the SparseCore call is all at a call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

variable (a0 a1 f0 f1 : Arr3 (F := F))

/-- The recorded pairs the TensorCore may hold before the call: those at level zero. -/
def Bd (c : Dev nD) : Set (SemLoc sig × HIx 1) := {p | (K (F := F)).lev ((T c : Thread nD τ), p.1) p.2 ≤ 0}

/-- The proof data of the pipeline on each device. -/
abbrev pdats (p : Fin 1) (c : Dev nD) : Dat τ (Elt F) (HIx 1) ℕ UU ℕ cfg0 c :=
  dats ((K (F := F)).Otc c 0) (Bd (F := F) c) a0 a1 f0 f1 p c

/-- What the TensorCore owes, as its handshake state holds it. -/
abbrev owesIn (c : Dev nD) : sProp 𝕄 :=
  iprop(∃ W, ⌜(K (F := F)).WBelow (T c) W (8 * 0)⌝ ∗ owes (T c : Thread nD τ) ((K (F := F)).Otc c 0) W)

/-- The four arrays at contents `G w`, one by one. -/
abbrev arrPts (c : Dev nD) (G : (w : Fin cfg0.W) → Buf (Elt F) ((cfg0.win w).arr.view.loc (c : Thread nD τ))) : sProp 𝕄 :=
  iprop((((c : Thread nD τ).loc main_v0) ↦{fullShare} G 0) ∗ (((c : Thread nD τ).loc main_v1) ↦{fullShare} G 1)
    ∗ (((c : Thread nD τ).loc main_v3_0) ↦{fullShare} G 2) ∗ (((c : Thread nD τ).loc main_v3_1) ↦{fullShare} G 3))

theorem share_full (c : Dev nD) (w : Fin cfg0.W) : (pdats a0 a1 f0 f1 0 c).share w = fullShare :=
  (pdats a0 a1 f0 f1 0 c).share_full (fun _ => rfl) w

set_option backward.isDefEq.respectTransparency.types false in
/-- The proof data's arrays are the four points-to. -/
theorem arrays_pts (c : Dev nD) (G : (w : Fin cfg0.W) → Buf (Elt F) ((cfg0.win w).arr.view.loc (c : Thread nD τ))) :
    (pdats a0 a1 f0 f1 0 c).arrays G = arrPts c G := by
  rw [Pipeline.arrays_eq (Pipeline.pin (pcfgs (F := F)) adm) (pdats a0 a1 f0 f1) 0 c launch0.arr_whole (share_full a0 a1 f0 f1 c) G, bigSep_W0]

set_option backward.isDefEq.respectTransparency.types false in
/-- THE REGION as the library's record: the launch kit's layout, no semaphore of the kernel's own, the body obligation,
    the wait evidence from the handshakes' levels (the TensorCore owes only at a call's index, its staging cells wait at
    index `none`); entered from the four arrays and what the core owes, left with the arrays at the computed contents. -/
def reg0 : Pipeline.RegionSeg (pcfgs (F := F)) adm (pdats a0 a1 f0 f1) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation _ _ a0 a1 f0 f1 c).loose
  hwaits c := Pipeline.cellsWaits_intro (Pipeline.pin (pcfgs (F := F)) adm) (pdats a0 a1 f0 f1) none 0 c fun w s t =>
    (K (F := F)).mayWait_none _ (fun g => Otc_none c 0 g)
  pre c := iprop(arrPts c (arrs a0 a1 f0 f1 c) ∗ owesIn c)
  post c := iprop(arrPts c ((pdats a0 a1 f0 f1 0 c).arrAt · cfg0.N) ∗ owesIn c)
  X _ := iprop(emp)
  Y _ := iprop(emp)
  Z _ := iprop(emp)
  hentry c := by
    rw [arrays_pts]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats a0 a1 f0 f1 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats a0 a1 f0 f1 0 c).Φ (Fin.last cfg0.N) = Pipeline.scopedRest (Ix := HIx 1) (Name := ℕ) (U := UU) (Lvl := ℕ) (Val := Elt F) spec0 c from rfl]
    iintro Hr
    isplitr; · iempintro
    isplitr; · iempintro
    iexact Hr
  hexit c := by
    rw [arrays_pts]
    iintro ⟨Ha, HO, -, -⟩
    imodintro
    isplitl [Ha]; · iexact Ha
    unfold Pipeline.Dat.owesAt Pipeline.owesWithin
    icases HO with ⟨%W, %hW, HO⟩; iexists W; isplitr
    · ipureintro
      intro p hp
      rcases hW hp with h | ⟨w, s, rfl⟩
      · exact h
      · exact Nat.le_of_eq rfl
    iexact HO

theorem reg0_pre (c : Dev nD) : (reg0 a0 a1 f0 f1).pre c = iprop(arrPts c (arrs a0 a1 f0 f1 c) ∗ owesIn c) := rfl
theorem reg0_post (c : Dev nD) : (reg0 a0 a1 f0 f1).post c = iprop(arrPts c ((pdats a0 a1 f0 f1 0 c).arrAt · cfg0.N) ∗ owesIn c) := rfl

set_option backward.isDefEq.respectTransparency.types false in
/-- The region's run under the program's own body table: from the level facts, the region boundary, the staging cells'
    ghost state, the four arrays and what the core owes, the region runs to the continuation holding the boundary, the
    arrays at what the pipeline library computes, and what the core owes. -/
theorem region_run_inner [∀ e, Nonempty (Elt F e)] (d : Dev nD) (Φ : PUnit → sProp 𝕄) :
    iprop(levAts (K (F := F)).L (K (F := F)).lev ∗ boundary (T d : Thread nD τ) ∗ GP d ∗ arrPts d (arrs a0 a1 f0 f1 d) ∗ owesIn d
        ∗ (iprop(boundary (T d : Thread nD τ) ∗ arrPts d ((pdats a0 a1 f0 f1 0 d).arrAt · cfg0.N) ∗ owesIn d) -∗ Φ ⟨⟩))
      ⊢ wp frame (wpE (D (F := F)) 𝒱 (T d) none) Set.univ (.op (.customCall (Pipeline.entry 0) ()) Prog.ret) Φ := by
  unfold GP
  iintro ⟨Hlv, Hb, ⟨Hg, Ht⟩, Ha, HO, Hk⟩
  iapply (Pipeline.RegionSeg.wp (pcfgs (F := F)) adm (pdats a0 a1 f0 f1) none cellOf_inj EP defs₀ 𝒱₀ (K (F := F)).L (K (F := F)).lev
    (reg0 a0 a1 f0 f1) d none (fun _ h => nomatch h) Prog.ret Φ)
  rw [reg0_pre, reg0_post]
  isplitl [Hk]
  · iintro ⟨Hb, Ha, HO⟩
    rw [wp_ret]; imodintro
    iapply Hk
    isplitl [Hb]; · iexact Hb
    isplitl [Ha]; · iexact Ha
    iexact HO
  isplitl [Hb]; · iexact Hb
  isplitl [Ha HO]
  · isplitl [Ha]; · iexact Ha
    iexact HO
  isplitl [Hlv]; · iexact Hlv
  isplitl [Hg]; · iexact Hg
  iexact Ht

/-- THE REGION'S RUN on device `d`'s TensorCore, inside the SparseCore program: the same under the extended body table. -/
theorem region_run [∀ e, Nonempty (Elt F e)] (d : Dev nD) (Φ : PUnit → sProp 𝕄) :
    iprop(levAts (K (F := F)).L (K (F := F)).lev ∗ boundary (T d : Thread nD τ) ∗ GP d ∗ arrPts d (arrs a0 a1 f0 f1 d) ∗ owesIn d
        ∗ (iprop(boundary (T d : Thread nD τ) ∗ arrPts d ((pdats a0 a1 f0 f1 0 d).arrAt · cfg0.N) ∗ owesIn d) -∗ Φ ⟨⟩))
      ⊢ wp frame (wpE ((K (F := F)).defs (D (F := F))) 𝒱 (T d) none) Set.univ
          (Prog.lift (.customCall (SparseCore.inner (Pipeline.entry 0)) ())) Φ :=
  (region_run_inner a0 a1 f0 f1 d Φ).trans
    ((K (F := F)).wp_liftProg (D (F := F)) 𝒱 (T d) Set.univ none (.op (.customCall (Pipeline.entry 0) ()) Prog.ret) Φ)

end Cert.Proof.KB

end
-- ==== Proof.RegionPayBits.lean ====
/-
  The TensorCore kernel's two stored values read at coordinates of the block: the layout operations of rank 3 at
  coordinates, the iota masks decided over the coordinates' ranges, and each payload as a chain of conditions on
  (grid point, plane, row, column) over the loaded block.
-/
import proofs.«203824_g32177894982282_cont_8to1_b_1676_14_alg».proof.Proof.Gen.Kernel.Skeleton
import proofs.«203824_g32177894982282_cont_8to1_b_1676_14_alg».proof.Proof.Spec
import Idealize.ShloMosaic.Lib.Pipeline.Value
import Idealize.ShloMosaic.Lib.ValueIdx

noncomputable section

namespace Cert.Proof.KB

open Cert.Kernel Cert.Kernel.Gen
open Idealize.ShloMosaic Idealize.ShloMosaic.ValueIdx

variable {F : FTy → Type} [FloatOps F]

/-! ## Layout operations of rank 3 read at coordinates -/

/-- A rank-3 broadcast read at coordinates: the operand at the same coordinates, `0` on its unit axes. -/
theorem bcast3 {α : Type} {m0 m1 m2 n0 n1 n2 : Nat} (v : (⟨3, ![m0, m1, m2]⟩ : Shape).Idx → α)
    (h : Shape.Broadcasts ⟨3, ![m0, m1, m2]⟩ ⟨3, ![n0, n1, n2]⟩) (a : Fin n0) (b : Fin n1) (c : Fin n2)
    (a' : Fin m0) (b' : Fin m1) (c' : Fin m2)
    (ha : a'.val = if m0 = 1 then 0 else a.val) (hb : b'.val = if m1 = 1 then 0 else b.val) (hc : c'.val = if m2 = 1 then 0 else c.val) :
    broadcastTo ⟨3, ![n0, n1, n2]⟩ v h (ix3 a b c) = v (ix3 a' b' c') :=
  broadcastTo_apply v h _ _ fun x => match x with | ⟨0, _⟩ => ha | ⟨1, _⟩ => hb | ⟨2, _⟩ => hc

/-- A rank-3 unit-stride slice read at coordinates: the operand at the coordinates shifted by the offsets. -/
theorem slice3 {α : Type} {m0 m1 m2 n0 n1 n2 : Nat} (off : Fin 3 → Nat) (x : (⟨3, ![m0, m1, m2]⟩ : Shape).Idx → α)
    (h : Shape.Slices ⟨3, ![m0, m1, m2]⟩ off ⟨3, ![n0, n1, n2]⟩) (a : Fin n0) (b : Fin n1) (c : Fin n2)
    (a' : Fin m0) (b' : Fin m1) (c' : Fin m2)
    (ha : a'.val = off 0 + a.val) (hb : b'.val = off 1 + b.val) (hc : c'.val = off 2 + c.val) :
    extractStridedSlice ⟨3, ![n0, n1, n2]⟩ off x h (ix3 a b c) = x (ix3 a' b' c') :=
  extractStridedSlice_apply off x h _ _ fun y => match y with | ⟨0, _⟩ => ha | ⟨1, _⟩ => hb | ⟨2, _⟩ => hc

/-! ## The masks, decided over the coordinates' ranges -/

/-- A select on a decided bit. -/
theorem select_ite {α : Type} (c : Prop) [Decidable c] (A B : α) : Scalar.select (if c then 1#1 else 0#1) A B = if c then A else B := by
  by_cases h : c
  · rw [if_pos h, if_pos h]; exact select_one A B
  · rw [if_neg h, if_neg h]; exact select_zero A B

/-- The global plane of local plane `p` of block `i0`, as the body computes it. -/
abbrev gzW (i0 p : Nat) : BitVec 32 := IntOp.addi (BitVec.ofNat 32 p) (Scalar.muli (BitVec.ofNat 32 i0) 16#32)

theorem gz_eq127 : ∀ (i0 : Fin 8) (p : Fin 16), IntOp.cmpi .eq (gzW i0.val p.val) 127#32 = if i0.val * 16 + p.val = 127 then 1#1 else 0#1 := by
  decide +kernel
theorem gz_eq0 : ∀ (i0 : Fin 8) (p : Fin 16), IntOp.cmpi .eq (gzW i0.val p.val) 0#32 = if i0.val * 16 + p.val = 0 then 1#1 else 0#1 := by
  decide +kernel
theorem co_eq0 : ∀ q : Fin 128, IntOp.cmpi .eq (BitVec.ofNat 32 q.val) 0#32 = if q.val = 0 then 1#1 else 0#1 := by decide +kernel
theorem co_eq127 : ∀ q : Fin 128, IntOp.cmpi .eq (BitVec.ofNat 32 q.val) 127#32 = if q.val = 127 then 1#1 else 0#1 := by decide +kernel
theorem co_int : ∀ q : Fin 128, IntOp.andi (IntOp.cmpi .sge (BitVec.ofNat 32 q.val) 1#32) (IntOp.cmpi .sle (BitVec.ofNat 32 q.val) 126#32)
    = if 1 ≤ q.val ∧ q.val ≤ 126 then 1#1 else 0#1 := by decide +kernel
theorem co_edge : ∀ r : Fin 128, IntOp.ori (IntOp.cmpi .eq (BitVec.ofNat 32 r.val) 0#32) (IntOp.cmpi .eq (BitVec.ofNat 32 r.val) 127#32)
    = if r.val = 0 ∨ r.val = 127 then 1#1 else 0#1 := by decide +kernel
theorem and_bits (a b : Prop) [Decidable a] [Decidable b] : IntOp.andi (if a then 1#1 else 0#1) (if b then 1#1 else 0#1) = if a ∧ b then 1#1 else 0#1 := by
  by_cases ha : a <;> by_cases hb : b <;> simp [ha, hb] <;> decide
theorem or_bits (a b : Prop) [Decidable a] [Decidable b] : IntOp.ori (if a then 1#1 else 0#1) (if b then 1#1 else 0#1) = if a ∨ b then 1#1 else 0#1 := by
  by_cases ha : a <;> by_cases hb : b <;> simp [ha, hb] <;> decide

theorem andi_apply {s : Shape} {w : Nat} (x y : IVec s w) (i : s.Idx) : andi x y i = IntOp.andi (x i) (y i) := rfl
theorem ori_apply {s : Shape} {w : Nat} (x y : IVec s w) (i : s.Idx) : ori x y i = IntOp.ori (x i) (y i) := rfl
theorem cmpi_apply {s : Shape} {w : Nat} (pr : CmpIPredicate) (x y : IVec s w) (i : s.Idx) : cmpi pr x y i = IntOp.cmpi pr (x i) (y i) := rfl

/-! ## The payloads read at coordinates -/

/-- The global plane of a block's local plane, as the body computes it. -/
theorem k0_pay5_apply (i : grid0.Coords) (p : Fin 16) : k0_pay5 i (ix3 p (0 : Fin 1) (0 : Fin 1)) = gzW (i 0).val p.val := by
  unfold k0_pay5
  show IntOp.addi (iota .tc S16x1x1 32 [0] iota_S16x1x1_d0_w32 (ix3 p (0 : Fin 1) (0 : Fin 1))) _ = _
  rw [iota_single_apply]; rfl

/-- The x-edge mask. -/
theorem k0_pay6_apply (r : Fin 128) : k0_pay6 (ix3 (0 : Fin 1) (0 : Fin 1) r) = if r.val = 0 ∨ r.val = 127 then 1#1 else 0#1 := by
  unfold k0_pay6
  show IntOp.ori (IntOp.cmpi .eq (iota .tc S1x1x128 32 [2] iota_S1x1x128_d2_w32 (ix3 (0 : Fin 1) (0 : Fin 1) r)) 0#32)
    (IntOp.cmpi .eq (iota .tc S1x1x128 32 [2] iota_S1x1x128_d2_w32 (ix3 (0 : Fin 1) (0 : Fin 1) r)) 127#32) = _
  rw [iota_single_apply]; exact co_edge r

/-- The y coordinate as the body's iota reads it. -/
theorem iotaY_apply (q : Fin 128) : iota .tc S1x128x1 32 [1] iota_S1x128x1_d1_w32 (ix3 (0 : Fin 1) q (0 : Fin 1)) = BitVec.ofNat 32 q.val := by
  rw [iota_single_apply]

/-- The first result's payload over its four operands, at coordinates. -/
theorem k0_pay1_apply (v1 : FVec F S16x128x128 .f32) (v7 : IVec S16x1x1 32) (v42 : FVec F S16x128x128 .f32) (v43 : IVec S16x1x1 32)
    (p : Fin 16) (q r : Fin 128) :
    k0_pay1 v1 v7 v42 v43 (ix3 p q r)
      = Scalar.select (IntOp.cmpi .eq (v7 (ix3 p (0 : Fin 1) (0 : Fin 1))) 127#32) (v1 (ix3 (14 : Fin 16) q r))
          (Scalar.select (IntOp.cmpi .eq (v7 (ix3 p (0 : Fin 1) (0 : Fin 1))) (v43 (ix3 p (0 : Fin 1) (0 : Fin 1)))) (v1 (ix3 (1 : Fin 16) q r)) (v42 (ix3 p q r))) := by
  unfold k0_pay1
  simp only [shapeCast_self, select_apply]
  rw [bcast3 _ _ p q r p (0 : Fin 1) (0 : Fin 1) rfl rfl rfl, bcast3 _ _ p q r p (0 : Fin 1) (0 : Fin 1) rfl rfl rfl,
    bcast3 _ _ p q r (0 : Fin 1) q r rfl rfl rfl, bcast3 _ _ p q r (0 : Fin 1) q r rfl rfl rfl,
    slice3 _ _ _ (0 : Fin 1) q r (14 : Fin 16) q r rfl (Nat.zero_add _).symm (Nat.zero_add _).symm,
    slice3 _ _ _ (0 : Fin 1) q r (1 : Fin 16) q r rfl (Nat.zero_add _).symm (Nat.zero_add _).symm]
  rfl

/-- The lid-and-rows payload over the loaded block, at coordinates, the masks still as words. -/
theorem k0_pay7_raw (x0 : Vec F S16x128x128 .f32) (p : Fin 16) (q r : Fin 128) :
    k0_pay7 x0 (ix3 p q r)
      = Scalar.select (IntOp.andi (k0_pay6 (ix3 (0 : Fin 1) (0 : Fin 1) r))
            (IntOp.andi (IntOp.cmpi .sge (BitVec.ofNat 32 q.val) 1#32) (IntOp.cmpi .sle (BitVec.ofNat 32 q.val) 126#32)))
          (Scalar.ofBits .f32 0x3F800000#32 : F .f32)
          (Scalar.select (IntOp.cmpi .eq (BitVec.ofNat 32 q.val) 0#32) (x0 (ix3 p (1 : Fin 128) r))
            (Scalar.select (IntOp.cmpi .eq (BitVec.ofNat 32 q.val) 127#32) (x0 (ix3 p (126 : Fin 128) r)) (x0 (ix3 p q r)))) := by
  unfold k0_pay7 k0_pay3
  simp only [shapeCast_self, select_apply]
  rw [bcast3 _ _ p q r (0 : Fin 1) q r rfl rfl rfl]
  simp only [andi_apply]
  rw [bcast3 _ _ (0 : Fin 1) q r (0 : Fin 1) (0 : Fin 1) r rfl rfl rfl, bcast3 _ _ (0 : Fin 1) q r (0 : Fin 1) q (0 : Fin 1) rfl rfl rfl,
    bcast3 _ _ p q r (0 : Fin 1) q (0 : Fin 1) rfl rfl rfl, bcast3 _ _ p q r (0 : Fin 1) q (0 : Fin 1) rfl rfl rfl,
    bcast3 _ _ p q r p (0 : Fin 1) r rfl rfl rfl, bcast3 _ _ p q r p (0 : Fin 1) r rfl rfl rfl,
    slice3 _ _ _ p (0 : Fin 1) r p (1 : Fin 128) r (Nat.zero_add _).symm rfl (Nat.zero_add _).symm,
    slice3 _ _ _ p (0 : Fin 1) r p (126 : Fin 128) r (Nat.zero_add _).symm rfl (Nat.zero_add _).symm]
  simp only [andi_apply, cmpi_apply, broadcast_apply]
  rw [iotaY_apply q]

/-- The no-slip payload over its four operands, at coordinates. -/
theorem k0_pay2_apply (v3 : FVec F S16x128x128 .f32) (v7 : IVec S16x1x1 32) (v8 : IVec S1x128x1 32) (v30 : IVec S1x1x128 1)
    (p : Fin 16) (q r : Fin 128) :
    k0_pay2 v3 v7 v8 v30 (ix3 p q r)
      = Scalar.select (IntOp.ori (IntOp.ori (IntOp.ori
            (IntOp.ori (IntOp.cmpi .eq (v7 (ix3 p (0 : Fin 1) (0 : Fin 1))) 0#32) (IntOp.cmpi .eq (v7 (ix3 p (0 : Fin 1) (0 : Fin 1))) 127#32))
            (IntOp.cmpi .eq (v8 (ix3 (0 : Fin 1) q (0 : Fin 1))) 0#32))
            (IntOp.cmpi .eq (v8 (ix3 (0 : Fin 1) q (0 : Fin 1))) 127#32))
            (v30 (ix3 (0 : Fin 1) (0 : Fin 1) r)))
          (Scalar.ofBits .f32 0x00000000#32 : F .f32) (v3 (ix3 p q r)) := by
  unfold k0_pay2
  simp only [select_apply, ori_apply]
  rw [bcast3 _ _ p q r p q (0 : Fin 1) rfl rfl rfl, bcast3 _ _ p q r (0 : Fin 1) (0 : Fin 1) r rfl rfl rfl]
  simp only [ori_apply]
  rw [bcast3 _ _ p q (0 : Fin 1) p (0 : Fin 1) (0 : Fin 1) rfl rfl rfl, bcast3 _ _ p q (0 : Fin 1) (0 : Fin 1) q (0 : Fin 1) rfl rfl rfl,
    bcast3 _ _ p q (0 : Fin 1) (0 : Fin 1) q (0 : Fin 1) rfl rfl rfl]
  simp only [ori_apply, cmpi_apply, broadcast_apply]

/-! ## The two blocks' payloads as functions of coordinates -/

/-- The lid-and-rows payload at coordinates: the lid speed on the two x planes of an interior row, row 1 for row 0, row 126
    for row 127, the element itself elsewhere. -/
theorem k0_pay7_apply (x0 : Vec F S16x128x128 .f32) (p : Fin 16) (q r : Fin 128) :
    k0_pay7 x0 (ix3 p q r)
      = if (r.val = 0 ∨ r.val = 127) ∧ (1 ≤ q.val ∧ q.val ≤ 126) then (Scalar.ofBits .f32 0x3F800000#32 : F .f32)
        else if q.val = 0 then x0 (ix3 p (1 : Fin 128) r)
        else if q.val = 127 then x0 (ix3 p (126 : Fin 128) r) else x0 (ix3 p q r) := by
  rw [k0_pay7_raw, k0_pay6_apply, co_int q, and_bits, co_eq0 q, co_eq127 q, select_ite, select_ite, select_ite]

/-- The first result's block at coordinates, from the loaded block `x0` at grid point `i`. -/
theorem payU_apply (i : grid0.Coords) (x0 : Vec F S16x128x128 .f32) (p : Fin 16) (q r : Fin 128) :
    k0_pay1 (k0_pay3 x0) (k0_pay5 i) (k0_pay7 x0) k0_pay8 (ix3 p q r)
      = if (i 0).val * 16 + p.val = 127 then x0 (ix3 (14 : Fin 16) q r)
        else if (i 0).val * 16 + p.val = 0 then x0 (ix3 (1 : Fin 16) q r)
        else if (r.val = 0 ∨ r.val = 127) ∧ (1 ≤ q.val ∧ q.val ≤ 126) then (Scalar.ofBits .f32 0x3F800000#32 : F .f32)
        else if q.val = 0 then x0 (ix3 p (1 : Fin 128) r)
        else if q.val = 127 then x0 (ix3 p (126 : Fin 128) r) else x0 (ix3 p q r) := by
  rw [k0_pay1_apply, k0_pay5_apply, k0_pay7_apply]
  unfold k0_pay3 k0_pay8
  simp only [shapeCast_self, broadcast_apply]
  rw [gz_eq127 (i 0) p, gz_eq0 (i 0) p, select_ite, select_ite]

/-- The second result's block at coordinates, from the loaded block `x1` at grid point `i`. -/
theorem payV_apply (i : grid0.Coords) (x1 : Vec F S16x128x128 .f32) (p : Fin 16) (q r : Fin 128) :
    k0_pay2 (k0_pay4 x1) (k0_pay5 i) (iota .tc S1x128x1 32 [1] iota_S1x128x1_d1_w32) k0_pay6 (ix3 p q r)
      = if ((((i 0).val * 16 + p.val = 0 ∨ (i 0).val * 16 + p.val = 127) ∨ q.val = 0) ∨ q.val = 127) ∨ (r.val = 0 ∨ r.val = 127)
        then (Scalar.ofBits .f32 0x00000000#32 : F .f32) else x1 (ix3 p q r) := by
  rw [k0_pay2_apply, k0_pay5_apply, k0_pay6_apply, iotaY_apply]
  unfold k0_pay4
  simp only [shapeCast_self]
  rw [gz_eq127 (i 0) p, gz_eq0 (i 0) p, co_eq0 q, co_eq127 q, or_bits, or_bits, or_bits, or_bits, select_ite]

end Cert.Proof.KB

end
-- ==== Proof.RegionValueBits.lean ====
/-
  From blocks to arrays: what each grid point writes back is its block of the specification, the blocks cover the
  array, so after the region each result array IS the specification of its input array; the inputs are as they were.
-/
import proofs.«203824_g32177894982282_cont_8to1_b_1676_14_alg».proof.Proof.RegionRunBits
import proofs.«203824_g32177894982282_cont_8to1_b_1676_14_alg».proof.Proof.RegionPayBits
import proofs.«203824_g32177894982282_cont_8to1_b_1676_14_alg».proof.Proof.RegionArith
import Idealize.ShloMosaic.Lib.Pipeline.Value

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (a0 a1 f0 f1 : Arr3 (F := F))

theorem hz3 : (![0, 0, 0] : Fin 3 → Nat) = fun _ => 0 := funext fun a => by fin_cases a <;> rfl

/-- The printed index maps, decided over the grid: every window's block at point `t` is block `t` along z and the
    whole extent along y and x; the point's one coordinate is `t`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ ((grid0.coords t) 0).val = t.val :=
  (by decide +kernel : ∀ t : Fin grid0.N, _)

theorem t_lt (t : Fin cfg0.N) : t.val < 8 := lt_of_lt_of_eq t.isLt N_0

/-! ## A block's index inside the array, and inside the staging buffer -/

section Emb
variable (t : Fin cfg0.N)

/-- The array index under local index `j` of window 0's block at point `t`: plane `16 t + j₀`. -/
theorem emb0 (j : ((cfg0.win 0).xblock (cfg0.grid.coords t)).Idx) :
    ((cfg0.win 0).blk t).view.emb j = ix3 (⟨t.val * 16 + (j 0).val, by have := t_lt t; have : (j 0).val < 16 := (j 0).isLt; omega⟩ : Fin 128)
      (⟨(j 1).val, (j 1).isLt⟩ : Fin 128) (⟨(j 2).val, (j 2).isLt⟩ : Fin 128) := by
  obtain ⟨⟨e0, e1, e2⟩, -⟩ := idx_facts t
  funext a; apply Fin.ext
  match a with
  | ⟨0, _⟩ => show win0_0.index t (0 : Fin 3) * 16 + 1 * (j 0).val = t.val * 16 + (j 0).val; omega
  | ⟨1, _⟩ => show win0_0.index t (1 : Fin 3) * 128 + 1 * (j 1).val = (j 1).val; omega
  | ⟨2, _⟩ => show win0_0.index t (2 : Fin 3) * 128 + 1 * (j 2).val = (j 2).val; omega

theorem emb1 (j : ((cfg0.win 1).xblock (cfg0.grid.coords t)).Idx) :
    ((cfg0.win 1).blk t).view.emb j = ix3 (⟨t.val * 16 + (j 0).val, by have := t_lt t; have : (j 0).val < 16 := (j 0).isLt; omega⟩ : Fin 128)
      (⟨(j 1).val, (j 1).isLt⟩ : Fin 128) (⟨(j 2).val, (j 2).isLt⟩ : Fin 128) := by
  obtain ⟨-, ⟨e0, e1, e2⟩, -⟩ := idx_facts t
  funext a; apply Fin.ext
  match a with
  | ⟨0, _⟩ => show win0_1.index t (0 : Fin 3) * 16 + 1 * (j 0).val = t.val * 16 + (j 0).val; omega
  | ⟨1, _⟩ => show win0_1.index t (1 : Fin 3) * 128 + 1 * (j 1).val = (j 1).val; omega
  | ⟨2, _⟩ => show win0_1.index t (2 : Fin 3) * 128 + 1 * (j 2).val = (j 2).val; omega

theorem emb2 (j : ((cfg0.win 2).xblock (cfg0.grid.coords t)).Idx) :
    ((cfg0.win 2).blk t).view.emb j = ix3 (⟨t.val * 16 + (j 0).val, by have := t_lt t; have : (j 0).val < 16 := (j 0).isLt; omega⟩ : Fin 128)
      (⟨(j 1).val, (j 1).isLt⟩ : Fin 128) (⟨(j 2).val, (j 2).isLt⟩ : Fin 128) := by
  obtain ⟨-, -, ⟨e0, e1, e2⟩, -⟩ := idx_facts t
  funext a; apply Fin.ext
  match a with
  | ⟨0, _⟩ => show win0_2.index t (0 : Fin 3) * 16 + 1 * (j 0).val = t.val * 16 + (j 0).val; omega
  | ⟨1, _⟩ => show win0_2.index t (1 : Fin 3) * 128 + 1 * (j 1).val = (j 1).val; omega
  | ⟨2, _⟩ => show win0_2.index t (2 : Fin 3) * 128 + 1 * (j 2).val = (j 2).val; omega

theorem emb3 (j : ((cfg0.win 3).xblock (cfg0.grid.coords t)).Idx) :
    ((cfg0.win 3).blk t).view.emb j = ix3 (⟨t.val * 16 + (j 0).val, by have := t_lt t; have : (j 0).val < 16 := (j 0).isLt; omega⟩ : Fin 128)
      (⟨(j 1).val, (j 1).isLt⟩ : Fin 128) (⟨(j 2).val, (j 2).isLt⟩ : Fin 128) := by
  obtain ⟨-, -, -, ⟨e0, e1, e2⟩, -⟩ := idx_facts t
  funext a; apply Fin.ext
  match a with
  | ⟨0, _⟩ => show win0_3.index t (0 : Fin 3) * 16 + 1 * (j 0).val = t.val * 16 + (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega

/-- A local index of an uncut block, as an index of the staging buffer, by coordinates. -/
theorem xinj2 (j : ((cfg0.win 2).xblock (cfg0.grid.coords t)).Idx) :
    (cfg0.win 2).xinj (cfg0.grid.coords t) j = ix3 (⟨(j 0).val, (j 0).isLt⟩ : Fin 16) (⟨(j 1).val, (j 1).isLt⟩ : Fin 128) (⟨(j 2).val, (j 2).isLt⟩ : Fin 128) := by
  funext a; match a with | ⟨0, _⟩ => rfl | ⟨1, _⟩ => rfl | ⟨2, _⟩ => rfl
theorem xinj3 (j : ((cfg0.win 3).xblock (cfg0.grid.coords t)).Idx) :
    (cfg0.win 3).xinj (cfg0.grid.coords t) j = ix3 (⟨(j 0).val, (j 0).isLt⟩ : Fin 16) (⟨(j 1).val, (j 1).isLt⟩ : Fin 128) (⟨(j 2).val, (j 2).isLt⟩ : Fin 128) := by
  funext a; match a with | ⟨0, _⟩ => rfl | ⟨1, _⟩ => rfl | ⟨2, _⟩ => rfl

end Emb

/-- Each input's block at point `t`, read at coordinates: the array at plane `16 t + p`. -/
theorem iblk0_apply (c : Dev nD) (t : Fin cfg0.N) (p : Fin 16) (q r : Fin 128) :
    iblk a0 a1 f0 f1 c 0 t (ix3 p q r) = a0 (ix3 (⟨t.val * 16 + p.val, by have := t_lt t; have := p.isLt; omega⟩ : Fin 128) q r) := by
  show a0 (((cfg0.win 0).blk t).view.emb (ix3 p q r)) = _
  rw [emb0 t (ix3 p q r)]
  rfl
theorem iblk1_apply (c : Dev nD) (t : Fin cfg0.N) (p : Fin 16) (q r : Fin 128) :
    iblk a0 a1 f0 f1 c 1 t (ix3 p q r) = a1 (ix3 (⟨t.val * 16 + p.val, by have := t_lt t; have := p.isLt; omega⟩ : Fin 128) q r) := by
  show a1 (((cfg0.win 1).blk t).view.emb (ix3 p q r)) = _
  rw [emb1 t (ix3 p q r)]
  rfl

/-! ## What each point writes back -/

/-- Point `t` writes back, to the first result, block `t` of the first specification of the first input. -/
theorem flushed2_eq (c : Dev nD) (t : Fin cfg0.N) :
    (pdats a0 a1 f0 f1 0 c).flushed 2 t
      = ((cfg0.win 2).blk t).view.read (Elt F) (Cert.Spec.out3U (Scalar.ofBits .f32 0x3F800000#32 : Elt F .f32) a0) := by
  show (cfg0.win 2).cut (grid0.coords t) ((pdats a0 a1 f0 f1 0 c).after 2 t) = _
  rw [after2]
  funext j
  show blkU (grid0.coords t) (iblk a0 a1 f0 f1 c 0 t) ((cfg0.win 2).xinj (cfg0.grid.coords t) j)
    = Cert.Spec.out3U (Scalar.ofBits .f32 0x3F800000#32 : Elt F .f32) a0 (((cfg0.win 2).blk t).view.emb j)
  rw [xinj2 t j, emb2 t j]
  unfold blkU
  rw [View.canon_unit_zero hz3]
  simp only [View.ld_unit_zero (S := S16x128x128) hz3]
  rw [payU_apply, (idx_facts t).2.2.2.2]
  exact Cert.Proof.KI.valU_block _ a0 t.val (t_lt t) (iblk a0 a1 f0 f1 c 0 t) (fun p' q' r' => iblk0_apply a0 a1 f0 f1 c t p' q' r') _ _ _

/-- Point `t` writes back, to the second result, block `t` of the second specification of the second input. -/
theorem flushed3_eq (c : Dev nD) (t : Fin cfg0.N) :
    (pdats a0 a1 f0 f1 0 c).flushed 3 t
      = ((cfg0.win 3).blk t).view.read (Elt F) (Cert.Spec.out3Z (Scalar.ofBits .f32 0x00000000#32 : Elt F .f32) a1) := by
  show (cfg0.win 3).cut (grid0.coords t) ((pdats a0 a1 f0 f1 0 c).after 3 t) = _
  rw [after3]
  funext j
  show blkV (grid0.coords t) (iblk a0 a1 f0 f1 c 1 t) ((cfg0.win 3).xinj (cfg0.grid.coords t) j)
    = Cert.Spec.out3Z (Scalar.ofBits .f32 0x00000000#32 : Elt F .f32) a1 (((cfg0.win 3).blk t).view.emb j)
  rw [xinj3 t j, emb3 t j]
  unfold blkV
  rw [View.canon_unit_zero hz3]
  simp only [View.ld_unit_zero (S := S16x128x128) hz3]
  rw [payV_apply, (idx_facts t).2.2.2.2]
  exact Cert.Proof.KI.valZ_block _ a1 t.val (t_lt t) (iblk a0 a1 f0 f1 c 1 t) (fun p' q' r' => iblk1_apply a0 a1 f0 f1 c t p' q' r') _ _ _

/-! ## The blocks cover the arrays -/

theorem mem_blk2 (t : Fin cfg0.N) (i : S128x128x128.Idx) :
    i ∈ ((cfg0.win 2).blk t).view.set ↔ ∀ a : Fin 3, win0_2.index t a * S16x128x128.size a ≤ (i a).val ∧ (i a).val < win0_2.index t a * S16x128x128.size a + S16x128x128.size a := by
  show i ∈ ((View.whole main_v3_0).slice (win0_2.rect t)).set ↔ _
  rw [View.set_slice_whole, Rect.mem_set_unit]
  exact Iff.rfl
theorem mem_blk3 (t : Fin cfg0.N) (i : S128x128x128.Idx) :
    i ∈ ((cfg0.win 3).blk t).view.set ↔ ∀ a : Fin 3, win0_3.index t a * S16x128x128.size a ≤ (i a).val ∧ (i a).val < win0_3.index t a * S16x128x128.size a + S16x128x128.size a := by
  show i ∈ ((View.whole main_v3_1).slice (win0_3.rect t)).set ↔ _
  rw [View.set_slice_whole, Rect.mem_set_unit]
  exact Iff.rfl

/-- Plane `z` is in the block of point `z / 16`. -/
theorem cover2 (i : S128x128x128.Idx) : ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 128 := (i 2).isLt
  have hN : (i 0).val / 16 < cfg0.N := by show _ < grid0.N; rw [N_0]; omega
  obtain ⟨-, -, ⟨e0, e1, e2⟩, -⟩ := idx_facts ⟨(i 0).val / 16, hN⟩
  refine ⟨⟨(i 0).val / 16, hN⟩, flush0_2 _, ?_⟩
  rw [mem_blk2]
  intro a
  match a with
  | ⟨0, _⟩ => show win0_2.index ⟨(i 0).val / 16, hN⟩ (0 : Fin 3) * 16 ≤ (i 0).val ∧ (i 0).val < win0_2.index ⟨(i 0).val / 16, hN⟩ (0 : Fin 3) * 16 + 16; rw [e0]; dsimp only; omega
  | ⟨1, _⟩ => show win0_2.index ⟨(i 0).val / 16, hN⟩ (1 : Fin 3) * 128 ≤ (i 1).val ∧ (i 1).val < win0_2.index ⟨(i 0).val / 16, hN⟩ (1 : Fin 3) * 128 + 128; rw [e1]; omega
  | ⟨2, _⟩ => show win0_2.index ⟨(i 0).val / 16, hN⟩ (2 : Fin 3) * 128 ≤ (i 2).val ∧ (i 2).val < win0_2.index ⟨(i 0).val / 16, hN⟩ (2 : Fin 3) * 128 + 128; rw [e2]; omega
theorem cover3 (i : S128x128x128.Idx) : ∃ t : Fin cfg0.N, (cfg0.win 3).flush t = true ∧ i ∈ ((cfg0.win 3).blk t).view.set := by
  have hi0 : (i 0).val < 128 := (i 0).isLt
  have hi1 : (i 1).val < 128 := (i 1).isLt
  have hi2 : (i 2).val < 128 := (i 2).isLt
  have hN : (i 0).val / 16 < cfg0.N := by show _ < grid0.N; rw [N_0]; omega
  obtain ⟨-, -, -, ⟨e0, e1, e2⟩, -⟩ := idx_facts ⟨(i 0).val / 16, hN⟩
  refine ⟨⟨(i 0).val / 16, hN⟩, flush0_3 _, ?_⟩
  rw [mem_blk3]
  intro a
  match a with
  | ⟨0, _⟩ => show win0_3.index ⟨(i 0).val / 16, hN⟩ (0 : Fin 3) * 16 ≤ (i 0).val ∧ (i 0).val < win0_3.index ⟨(i 0).val / 16, hN⟩ (0 : Fin 3) * 16 + 16; rw [e0]; dsimp only; omega
  | ⟨1, _⟩ => show win0_3.index ⟨(i 0).val / 16, hN⟩ (1 : Fin 3) * 128 ≤ (i 1).val ∧ (i 1).val < win0_3.index ⟨(i 0).val / 16, hN⟩ (1 : Fin 3) * 128 + 128; rw [e1]; omega
  | ⟨2, _⟩ => show win0_3.index ⟨(i 0).val / 16, hN⟩ (2 : Fin 3) * 128 ≤ (i 2).val ∧ (i 2).val < win0_3.index ⟨(i 0).val / 16, hN⟩ (2 : Fin 3) * 128 + 128; rw [e2]; omega

/-! ## The arrays after the region -/

theorem final0 (c : Dev nD) : (pdats a0 a1 f0 f1 0 c).arrAt 0 cfg0.N = a0 :=
  (pdats a0 a1 f0 f1 0 c).arrAt_in 0 rfl _
theorem final1 (c : Dev nD) : (pdats a0 a1 f0 f1 0 c).arrAt 1 cfg0.N = a1 :=
  (pdats a0 a1 f0 f1 0 c).arrAt_in 1 rfl _
theorem final2 (c : Dev nD) : (pdats a0 a1 f0 f1 0 c).arrAt 2 cfg0.N = Cert.Spec.out3U (Scalar.ofBits .f32 0x3F800000#32 : Elt F .f32) a0 :=
  (pdats a0 a1 f0 f1 0 c).arrAt_eq_of_cover 2 _ (fun t _ => flushed2_eq a0 a1 f0 f1 c t) cover2
theorem final3 (c : Dev nD) : (pdats a0 a1 f0 f1 0 c).arrAt 3 cfg0.N = Cert.Spec.out3Z (Scalar.ofBits .f32 0x00000000#32 : Elt F .f32) a1 :=
  (pdats a0 a1 f0 f1 0 c).arrAt_eq_of_cover 3 _ (fun t _ => flushed3_eq a0 a1 f0 f1 c t) cover3

end Cert.Proof.KB

end
-- ==== Proof.RegionBits.lean ====
/-
  THE TENSORCORE REGION inside the SparseCore program, as one weakest-precondition lemma for @main's proof on the
  TensorCore: from the handshake state, the region boundary, the staging cells' ghost state, the two input arrays and
  the two result arrays at anything, the pipelined region runs to the continuation holding the same handshake state
  and boundary, the inputs unchanged, and the results at their specifications of the inputs. With the launch element's
  component for the pipeline's rounds and its funding.
-/
import proofs.«203824_g32177894982282_cont_8to1_b_1676_14_alg».proof.Proof.RegionValueBits
import proofs.«203824_g32177894982282_cont_8to1_b_1676_14_alg».proof.Proof.Spec

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A conjunction over the one pipeline is its one term. -/
theorem bigSep_fin1 (Ψ : Fin 1 → sProp 𝕄) : bigSep Finset.univ Ψ = Ψ 0 := by
  rw [show (Finset.univ : Finset (Fin 1)) = {0} from rfl, BI.bigSep_singleton]

/-- FUNDING: the launch element's pipeline component deals every device its staging cells' ghost state and duty tokens. -/
theorem fundP : (BI.own ((EP (F := F)) u₀P) : sProp 𝕄) ⊢ |={Set.univ}=> bigSep Finset.univ (GP (F := F)) := by
  have hG : (bigSep Finset.univ (GP (F := F)) : sProp 𝕄)
      = iprop((bigSep Finset.univ fun c : Dev nD => bigSep Finset.univ fun p : Fin 1 => Pipeline.cellsGhost (Pipeline.pin (pcfgs (F := F)) adm) EP p c)
          ∗ (bigSep Finset.univ fun c : Dev nD => bigSep Finset.univ fun p : Fin 1 => (Pipeline.toksInit (Pipeline.pin (pcfgs (F := F)) adm) EP p c : sProp 𝕄))) := by
    unfold GP; rw [bigSep_sep']; simp only [bigSep_fin1]
  rw [hG]; unfold u₀P
  iintro Hu
  imod (Pipeline.fund_ghost (Pipeline.pin (pcfgs (F := F)) adm) EP cellOf_inj) $$ Hu with H
  imodintro
  iexact H

/-- The four arrays after the region: the inputs as they were, the results at their specifications. -/
theorem arrPts_final (a0 a1 f0 f1 : Arr3 (F := F)) (d : Dev nD) :
    (arrPts d ((pdats a0 a1 f0 f1 0 d).arrAt · cfg0.N) : sProp 𝕄)
      = iprop((((d : Thread nD τ).loc main_v0) ↦{fullShare} a0) ∗ (((d : Thread nD τ).loc main_v1) ↦{fullShare} a1)
          ∗ (((d : Thread nD τ).loc main_v3_0) ↦{fullShare} (Cert.Spec.out3U (Scalar.ofBits .f32 0x3F800000#32 : Elt F .f32) a0 : Buf (Elt F) ((d : Thread nD τ).loc main_v3_0)))
          ∗ (((d : Thread nD τ).loc main_v3_1) ↦{fullShare} (Cert.Spec.out3Z (Scalar.ofBits .f32 0x00000000#32 : Elt F .f32) a1 : Buf (Elt F) ((d : Thread nD τ).loc main_v3_1)))) := by
  dsimp only [arrPts]
  rw [final0, final1, final2, final3]

/-- THE REGION on device `d`'s TensorCore, for @main's proof under the SparseCore launch theorem. -/
theorem region_wp [∀ e, Nonempty (Elt F e)] (P : (K (F := F)).Pay (nD := nD) (Val := Elt F) (Name := ℕ) (U := UU)) (κ : GSem nD τ sig → ℕ) (d : Dev nD)
    (a0 : Buf (Elt F) ((T d : Thread nD τ).loc main_v0)) (a1 : Buf (Elt F) ((T d : Thread nD τ).loc main_v1))
    (Φ : PUnit → sProp 𝕄) :
    iprop((K (F := F)).ctx EH P κ ∗ (K (F := F)).tcSt EH d 0 ∗ boundary (T d : Thread nD τ) ∗ GP d
        ∗ (((T d : Thread nD τ).loc main_v0) ↦{fullShare} a0) ∗ (((T d : Thread nD τ).loc main_v1) ↦{fullShare} a1)
        ∗ (∃ f, ((T d : Thread nD τ).loc main_v3_0) ↦{fullShare} f) ∗ (∃ f, ((T d : Thread nD τ).loc main_v3_1) ↦{fullShare} f)
        ∗ (iprop((K (F := F)).tcSt EH d 0 ∗ boundary (T d : Thread nD τ)
            ∗ (((T d : Thread nD τ).loc main_v0) ↦{fullShare} a0) ∗ (((T d : Thread nD τ).loc main_v1) ↦{fullShare} a1)
            ∗ (((T d : Thread nD τ).loc main_v3_0) ↦{fullShare} (Cert.Spec.out3U (Scalar.ofBits .f32 0x3F800000#32 : Elt F .f32) a0 : Buf (Elt F) ((T d : Thread nD τ).loc main_v3_0)))
            ∗ (((T d : Thread nD τ).loc main_v3_1) ↦{fullShare} (Cert.Spec.out3Z (Scalar.ofBits .f32 0x00000000#32 : Elt F .f32) a1 : Buf (Elt F) ((T d : Thread nD τ).loc main_v3_1)))) -∗ Φ ⟨⟩))
      ⊢ wp frame (wpE ((K (F := F)).defs (D (F := F))) 𝒱 (T d) none) Set.univ (Prog.lift (.customCall (SparseCore.inner (Pipeline.entry 0)) ())) Φ := by
  unfold SparseCore.Cfg.tcSt
  iintro ⟨#Hctx, ⟨HO, Hrest⟩, Hb, Hg, H0, H1, ⟨%f0, H2⟩, ⟨%f1, H3⟩, Hk⟩
  ihave Hlv := (SparseCore.Cfg.ctx_levAts (K := K (F := F)) (EH := EH) (P := P) κ) $$ Hctx
  iapply (region_run a0 a1 f0 f1 d Φ)
  rw [arrPts_final]
  isplitl [Hlv]; · iexact Hlv
  isplitl [Hb]; · iexact Hb
  isplitl [Hg]; · iexact Hg
  isplitl [H0 H1 H2 H3]
  · isplitl [H0]; · iexact H0
    isplitl [H1]; · iexact H1
    isplitl [H2]; · iexact H2
    iexact H3
  isplitl [HO]; · iexact HO
  iintro ⟨Hb, ⟨H0, H1, H2, H3⟩, HO⟩
  iapply Hk
  isplitl [HO Hrest]
  · isplitl [HO]; · iexact HO
    iexact Hrest
  isplitl [Hb]; · iexact Hb
  isplitl [H0]; · iexact H0
  isplitl [H1]; · iexact H1
  isplitl [H2]; · iexact H2
  iexact H3

end Cert.Proof.KB

end
-- ==== Proof.HostHeldBits.lean ====
/-
  @main's arrays on the TensorCore, held together: the three arguments, their reshapes to the grid, the two results of the
  pipelined region, the SparseCore call's result, and the three results reshaped back to the stored layout.
-/
import proofs.«203824_g32177894982282_cont_8to1_b_1676_14_alg».proof.Proof.SetupBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v30' : DevRef τ sig := Proc.devRef .tc (main_v3_0 : Ref sig .tc)
abbrev v31' : DevRef τ sig := Proc.devRef .tc (main_v3_1 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The TensorCore's unscoped arrays. -/
abbrev S12 : Finset (DevRef τ sig) := {a0', a1', a2', v0', v1', v2', v30', v31', v4', v5', v6', v7'}

variable [FloatOps F]

omit [FloatOps F] in
theorem held_S12 (d : Dev nD) (W : Valuation τ sig (Elt F)) :
    (held (T d) S12 W : sProp 𝕄) = iprop(((SparseCore.T d).loc main_arg0 ↦{fullShare} W a0')
      ∗ ((SparseCore.T d).loc main_arg1 ↦{fullShare} W a1')
      ∗ ((SparseCore.T d).loc main_arg2 ↦{fullShare} W a2')
      ∗ ((SparseCore.T d).loc main_v0 ↦{fullShare} W v0')
      ∗ ((SparseCore.T d).loc main_v1 ↦{fullShare} W v1')
      ∗ ((SparseCore.T d).loc main_v2 ↦{fullShare} W v2')
      ∗ ((SparseCore.T d).loc main_v3_0 ↦{fullShare} W v30')
      ∗ ((SparseCore.T d).loc main_v3_1 ↦{fullShare} W v31')
      ∗ ((SparseCore.T d).loc main_v4 ↦{fullShare} W v4')
      ∗ ((SparseCore.T d).loc main_v5 ↦{fullShare} W v5')
      ∗ ((SparseCore.T d).loc main_v6 ↦{fullShare} W v6')
      ∗ ((SparseCore.T d).loc main_v7 ↦{fullShare} W v7')) := by
  unfold held S12
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3_0 ↦{fullShare} W main_v3_0)
      ∗ ((SparseCore.T d).loc main_v3_1 ↦{fullShare} W main_v3_1)
      ∗ ((SparseCore.T d).loc main_v4 ↦{fullShare} W main_v4)
      ∗ ((SparseCore.T d).loc main_v5 ↦{fullShare} W main_v5)
      ∗ ((SparseCore.T d).loc main_v6 ↦{fullShare} W main_v6)
      ∗ ((SparseCore.T d).loc main_v7 ↦{fullShare} W main_v7)) := by
  unfold unscopedBufs
  rw [show (Finset.univ.filter fun b : Ref sig .tc => ¬ b.isScoped) = {main_arg0, main_arg1, main_arg2, main_v0, main_v1, main_v2, main_v3_0, main_v3_1, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S12 (V0 m d) := by
  rw [unscopedBufs_eq, held_S12]; rfl

end Cert.Proof.KB

end
-- ==== Proof.HostOpsBits.lean ====
/-
  One reshape of @main on the TensorCore, as a step on the two arrays it names: the source is read, the destination takes
  the source's cells in row-major order, nothing else is touched.
-/
import proofs.«203824_g32177894982282_cont_8to1_b_1676_14_alg».proof.Proof.HostHeldBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe

variable [FloatOps F]

omit [FloatOps F] in
theorem held_pair (d : Dev nD) (x y : Ref sig .tc) (hxy : x ≠ y) (W : Valuation τ sig (Elt F)) :
    (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by rw [Finset.mem_singleton]; exact fun e => hxy (Proc.devRef_injective _ e)), bigSep_singleton]

/-- The two arrays after the reshape. -/
theorem held_after (d : Dev nD) (x y : Ref sig .tc) (hxy : x ≠ y) (he : x.ty.elt = y.ty.elt)
    (hn : x.ty.shape.ShapeCasts y.ty.shape)
    (hx : x.space ≠ .host ∧ (x : DevRef τ sig).isScoped = false) (hy : y.space ≠ .host ∧ (y : DevRef τ sig).isScoped = false)
    (W : Valuation τ sig (Elt F)) :
    (held (T d) {Proc.devRef .tc x, Proc.devRef .tc y} ((StableHlo.reshape (τ := τ) (Val := Elt F) x y he hn hx hy).result W) : sProp 𝕄)
      = iprop(((SparseCore.T d).loc x ↦{fullShare} W (Proc.devRef .tc x))
          ∗ ((SparseCore.T d).loc y ↦{fullShare} (fun i => he ▸ shapeCast y.ty.shape (W (Proc.devRef .tc x)) hn i))) := by
  rw [held_pair d x y hxy, StableHlo.reshape_result', StableHlo.reshape_result_ne' (h := hxy)]

/-- A reshape of @main from `x` into `y`, from the two arrays alone. -/
theorem wp_reshape_step {α : Type} (d : Dev nD) (x y : Ref sig .tc) (hxy : x ≠ y) (he : x.ty.elt = y.ty.elt)
    (hn : x.ty.shape.ShapeCasts y.ty.shape)
    (hx : x.space ≠ .host ∧ (x : DevRef τ sig).isScoped = false) (hy : y.space ≠ .host ∧ (y : DevRef τ sig).isScoped = false)
    (W : Valuation τ sig (Elt F))
    (k : ((b : (StableHlo.reshape (τ := τ) (Val := Elt F) x y he hn hx hy).writes) → b.1.ty.Contents (Elt F))
      → Prog (TpuEff nD τ sig (Elt F) (SparseCore.Sig (ΛP (F := F)) 1) .tc) α) (Q : α → sProp 𝕄) :
    iprop(boundary (T d : Thread nD τ) ∗ ((SparseCore.T d).loc x ↦{fullShare} W (Proc.devRef .tc x)) ∗ ((SparseCore.T d).loc y ↦{fullShare} W (Proc.devRef .tc y)))
      ⊢ iprop(((boundary (T d : Thread nD τ) ∗ ((SparseCore.T d).loc x ↦{fullShare} W (Proc.devRef .tc x))
            ∗ ((SparseCore.T d).loc y ↦{fullShare} (fun i => he ▸ shapeCast y.ty.shape (W (Proc.devRef .tc x)) hn i)))
          -∗ wp frame (wpE ((K (F := F)).defs (D (F := F))) 𝒱 (SparseCore.T d) none) Set.univ
              (k ((StableHlo.reshape (τ := τ) (Val := Elt F) x y he hn hx hy).fn fun b => W b.1)) Q)
        -∗ wp frame (wpE ((K (F := F)).defs (D (F := F))) 𝒱 (SparseCore.T d) none) Set.univ
            (hlo rfl (StableHlo.reshape (τ := τ) (Val := Elt F) x y he hn hx hy) k) Q) := by
  iintro ⟨Hb, Hx, Hy⟩ Hk
  iapply (wp_hlo_within 𝒱 (SparseCore.T d) none Set.univ (op := StableHlo.reshape (τ := τ) (Val := Elt F) x y he hn hx hy)
    (S := {Proc.devRef .tc x, Proc.devRef .tc y}) (Finset.Subset.refl _) (V := W)) $$ [Hb Hx Hy]
  · isplitl [Hb]; · iexact Hb
    rw [held_pair d x y hxy]
    isplitl [Hx]; · iexact Hx
    iexact Hy
  iintro ⟨Hb, Hh⟩
  ihave Hh' := (Entails.of_eq (held_after (F := F) d x y hxy he hn hx hy W)) $$ Hh
  icases Hh' with ⟨Hx, Hy⟩
  iapply Hk
  isplitl [Hb]; · iexact Hb
  isplitl [Hx]; · iexact Hx
  iexact Hy

/-- The same from the two arrays' contents `a`, `b`, whatever else the memory holds, for a reshape followed by a program
    that does not use its value. -/
theorem wp_reshape {α : Type} (W₀ : Valuation τ sig (Elt F)) (d : Dev nD) (x y : Ref sig .tc) (hxy : x ≠ y) (he : x.ty.elt = y.ty.elt)
    (hn : x.ty.shape.ShapeCasts y.ty.shape)
    (hx : x.space ≠ .host ∧ (x : DevRef τ sig).isScoped = false) (hy : y.space ≠ .host ∧ (y : DevRef τ sig).isScoped = false)
    (a : Buf (Elt F) ((SparseCore.T d : Thread nD τ).loc x)) (b : Buf (Elt F) ((SparseCore.T d : Thread nD τ).loc y))
    (p : Prog (TpuEff nD τ sig (Elt F) (SparseCore.Sig (ΛP (F := F)) 1) .tc) α) (Q : α → sProp 𝕄) :
    iprop(boundary (T d : Thread nD τ) ∗ ((SparseCore.T d).loc x ↦{fullShare} a) ∗ ((SparseCore.T d).loc y ↦{fullShare} b))
      ⊢ iprop(((boundary (T d : Thread nD τ) ∗ ((SparseCore.T d).loc x ↦{fullShare} a)
            ∗ ((SparseCore.T d).loc y ↦{fullShare} (fun i => he ▸ shapeCast y.ty.shape a hn i)))
          -∗ wp frame (wpE ((K (F := F)).defs (D (F := F))) 𝒱 (SparseCore.T d) none) Set.univ p Q)
        -∗ wp frame (wpE ((K (F := F)).defs (D (F := F))) 𝒱 (SparseCore.T d) none) Set.univ
            (hlo rfl (StableHlo.reshape (τ := τ) (Val := Elt F) x y he hn hx hy) (fun _ => p)) Q) := by
  have hne : (Proc.devRef .tc x : DevRef τ sig) ≠ Proc.devRef .tc y := fun e => hxy (Proc.devRef_injective _ e)
  have hWx : (Function.update (Function.update W₀ (Proc.devRef .tc x) a) (Proc.devRef .tc y) b) (Proc.devRef .tc x) = a := by
    rw [Function.update_of_ne hne, Function.update_self]
  have hWy : (Function.update (Function.update W₀ (Proc.devRef .tc x) a) (Proc.devRef .tc y) b) (Proc.devRef .tc y) = b :=
    Function.update_self _ _ _
  have h := wp_reshape_step (F := F) d x y hxy he hn hx hy (Function.update (Function.update W₀ (Proc.devRef .tc x) a) (Proc.devRef .tc y) b) (fun _ => p) Q
  rw [hWx, hWy] at h
  exact h

end Cert.Proof.KB

end
-- ==== Proof.PlanesBits.lean ====
/-
  The grid array [z, y, x] cut into its 128 planes z = const: the pieces the vector subcores work on. Subcore s of
  SparseCore c handles the four planes z = 8 s + 4 c + t, t < 4, so the 32 subcores cover every plane once.
-/
import proofs.«203824_g32177894982282_cont_8to1_b_1676_14_alg».proof.Proof.SetupBits
import proofs.«203824_g32177894982282_cont_8to1_b_1676_14_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The planes of the grid array -/

theorem hdiv128 : 128 ∣ S128x128x128.size 0 := ⟨1, rfl⟩

/-- Plane `z`: the indices [z, ·, ·]. -/
abbrev plane (z : Fin 128) : Rect S128x128x128 := Rect.part (s := S128x128x128) (a₀ := 0) hdiv128 z
abbrev planeSet (z : Fin 128) : Finset S128x128x128.Idx := (plane z).set

theorem planes_disjoint : ∀ i ∈ (Finset.univ : Finset (Fin 128)), ∀ j ∈ (Finset.univ : Finset (Fin 128)), i ≠ j → Disjoint (planeSet i) (planeSet j) :=
  fun i _ j _ h => Rect.part_disjoint hdiv128 h
theorem planes_cover : (Finset.univ : Finset (Fin 128)).biUnion planeSet = Finset.univ := Rect.biUnion_part hdiv128

/-! ## Which planes a vector subcore handles -/

/-- The plane number of step `t` on the subcore at grid coordinates `L` = (core, subcore). -/
def zOf (L : grid1.Coords) (t : Fin 4) : Fin 128 := ⟨8 * (L 1).val + 4 * (L 0).val + t.val, by
  have h0 : (L 0).val < 2 := (L 0).isLt
  have h1 : (L 1).val < 16 := (L 1).isLt
  omega⟩

/-- The printed slice of step `t`: the one-plane rectangle at the offsets the body computes. -/
abbrev planeK (L : grid1.Coords) (t : Fin 4) : Rect S128x128x128 :=
  Rect.unit (s := S128x128x128) (k1_off1 L (BitVec.ofNat 32 t.val)) S1x128x128.size (k1_off1_inb L t)

theorem planeK_eq (L : grid1.Coords) (t : Fin 4) : planeK L t = plane (zOf L t) := by
  unfold planeK plane Rect.part Rect.block
  congr 1 <;> funext a
  · rw [k1_off1_eq]
    match a with
    | 0 => simp [Shape.partIx, Shape.partSize, zOf]
    | 1 => simp [Shape.partIx, Shape.partSize]
    | 2 => simp [Shape.partIx, Shape.partSize]
  · match a with
    | 0 => simp [Shape.partSize]
    | 1 => simp [Shape.partSize]
    | 2 => simp [Shape.partSize]

end Cert.Proof.KB

end
-- ==== Proof.LanesBits.lean ====
/-
  The row payloads of the vector subcores' stores, read at a lane: a row of zeros; a loaded row of sixteen cells with its
  first lane zeroed; the same with its last lane zeroed.
-/
import proofs.«203824_g32177894982282_cont_8to1_b_1676_14_alg».proof.Proof.SetupBits

import Idealize.ShloMosaic.Lib.ValueIdx
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx

/-- The first-lane mask: lane 0 only. -/
theorem lane0_apply : ∀ j : Fin 16, (k1_pay82 (ix1 j) : BitVec 1) = if j.val = 0 then 1#1 else 0#1 := by decide +kernel
/-- The last-lane mask: lane 15 only. -/
theorem lane15_apply : ∀ j : Fin 16, (k1_pay83 (ix1 j) : BitVec 1) = if j.val = 15 then 1#1 else 0#1 := by decide +kernel

variable [FloatOps F]

/-- The kernel's zero. -/
abbrev zeroF : F .f32 := Scalar.ofBits .f32 0x00000000#32

/-- A row of sixteen cells is the same sixteen values whether indexed [j] or [0, j]. -/
theorem row_of_vec {α : Type} (v : S16.Idx → α) (x : S1x16.Idx) : shapeCast S1x16 v shapeCasts_S16_S1x16 x = v (ix1 (x 1)) := by
  refine shapeCast_apply v shapeCasts_S16_S1x16 x (ix1 (x 1)) ?_
  rw [Shape.rowMajor_val_one, Shape.rowMajor_val_two]
  have h0 : (x 0).val < 1 := (x 0).isLt
  simp; omega
theorem vec_of_row {α : Type} (v : S1x16.Idx → α) (j : Fin 16) : shapeCast S16 v shapeCasts_S1x16_S16 (ix1 j) = v (ix2 (0 : Fin 1) j) := by
  refine shapeCast_apply v shapeCasts_S1x16_S16 (ix1 j) (ix2 (0 : Fin 1) j) ?_
  rw [Shape.rowMajor_val_one, Shape.rowMajor_val_two]
  simp

/-- The zero row, at any lane. -/
theorem zeroRow_apply (x : S1x16.Idx) : shapeCast S1x16 (k1_pay81 (F := F)) shapeCasts_S16_S1x16 x = zeroF := by
  rw [row_of_vec]; rfl

/-- A row with its first lane zeroed. -/
theorem firstLane_apply (v : Vec F S1x16 .f32) (x : S1x16.Idx) :
    shapeCast S1x16 (select k1_pay82 (k1_pay81 (F := F)) (shapeCast S16 v shapeCasts_S1x16_S16)) shapeCasts_S16_S1x16 x
      = if (x 1).val = 0 then zeroF else v x := by
  obtain ⟨j, rfl⟩ : ∃ j : Fin 16, x = ix2 (0 : Fin 1) j := ⟨x 1, by
    have h0 : (x 0).val < 1 := (x 0).isLt
    funext a; match a with
    | ⟨0, _⟩ => exact Fin.ext (by show (x 0).val = 0; omega)
    | ⟨1, _⟩ => rfl⟩
  rw [row_of_vec]
  show Scalar.select (k1_pay82 (ix1 j)) (k1_pay81 (F := F) (ix1 j)) (shapeCast S16 v shapeCasts_S1x16_S16 (ix1 j)) = if j.val = 0 then zeroF else v (ix2 (0 : Fin 1) j)
  rw [lane0_apply, vec_of_row]
  by_cases h : j.val = 0
  · rw [if_pos h, if_pos h]; rfl
  · rw [if_neg h, if_neg h]; rfl

/-- A row with its last lane zeroed. -/
theorem lastLane_apply (v : Vec F S1x16 .f32) (x : S1x16.Idx) :
    shapeCast S1x16 (select k1_pay83 (k1_pay81 (F := F)) (shapeCast S16 v shapeCasts_S1x16_S16)) shapeCasts_S16_S1x16 x
      = if (x 1).val = 15 then zeroF else v x := by
  obtain ⟨j, rfl⟩ : ∃ j : Fin 16, x = ix2 (0 : Fin 1) j := ⟨x 1, by
    have h0 : (x 0).val < 1 := (x 0).isLt
    funext a; match a with
    | ⟨0, _⟩ => exact Fin.ext (by show (x 0).val = 0; omega)
    | ⟨1, _⟩ => rfl⟩
  rw [row_of_vec]
  show Scalar.select (k1_pay83 (ix1 j)) (k1_pay81 (F := F) (ix1 j)) (shapeCast S16 v shapeCasts_S1x16_S16 (ix1 j)) = if j.val = 15 then zeroF else v (ix2 (0 : Fin 1) j)
  rw [lane15_apply, vec_of_row]
  by_cases h : j.val = 15
  · rw [if_pos h, if_pos h]; rfl
  · rw [if_neg h, if_neg h]; rfl

end Cert.Proof.KB

end
-- ==== Proof.PayBits.lean ====
/-
  What the one SparseCore call carries: the third velocity component w (read) and its result tw (written), dealt plane
  by plane. Subcore (c, s) is handed its four planes of both arrays and hands back w unchanged and tw at the no-slip
  values of w on those planes.
-/
import proofs.«203824_g32177894982282_cont_8to1_b_1676_14_alg».proof.Proof.PlanesBits
import proofs.«203824_g32177894982282_cont_8to1_b_1676_14_alg».proof.Proof.LanesBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The call's operand and result, as the TensorCore names them. -/
abbrev wLoc (d : Dev nD) : Loc nD τ sig := (SparseCore.T d).loc main_v2
abbrev twLoc (d : Dev nD) : Loc nD τ sig := (SparseCore.T d).loc main_v4

variable [FloatOps F]

/-- The no-slip values of `w`: what the call leaves in the result array. -/
def twOut (d : Dev nD) (w : Buf (Elt F) (wLoc d)) : Buf (Elt F) (twLoc d) := Cert.Spec.out3Z (zeroF (F := F)) w

abbrev wPlane (d : Dev nD) (w : Buf (Elt F) (wLoc d)) (z : Fin 128) : sProp 𝕄 := wLoc d ↦[planeSet z]{fullShare} w
abbrev twPlane (d : Dev nD) (f : Buf (Elt F) (twLoc d)) (z : Fin 128) : sProp 𝕄 := twLoc d ↦[planeSet z]{fullShare} f

/-- The coordinates of subcore `i` of SparseCore `c` of the call's grid. -/
def coordsV (c : Fin (grid1.bound 0)) (s : Fin (grid1.bound 1)) : grid1.Coords :=
  fun | 0 => c | 1 => s | ⟨_ + 2, h⟩ => absurd h (Nat.not_lt.2 (Nat.le_add_left _ _))

/-- A subcore's share going in: its four planes of `w` and of the result array at its entry contents `f₀`. -/
def goV (d : Dev nD) (w : Buf (Elt F) (wLoc d)) (f₀ : Buf (Elt F) (twLoc d)) (L : grid1.Coords) : sProp 𝕄 :=
  bigSep (Finset.univ : Finset (Fin 4)) fun t => iprop(wPlane d w (zOf L t) ∗ twPlane d f₀ (zOf L t))
/-- and coming back: `w` as it was, the result planes at the no-slip values. -/
def tdV (d : Dev nD) (w : Buf (Elt F) (wLoc d)) (L : grid1.Coords) : sProp 𝕄 :=
  bigSep (Finset.univ : Finset (Fin 4)) fun t => iprop(wPlane d w (zOf L t) ∗ twPlane d (twOut d w) (zOf L t))

variable (w : (d : Dev nD) → Buf (Elt F) (wLoc d)) (f₀ : (d : Dev nD) → Buf (Elt F) (twLoc d))

/-- The call's payloads: each SparseCore gets its sixteen subcores' shares and deals them on. -/
def P : (K (F := F)).Pay (nD := nD) (Val := Elt F) (Name := ℕ) (U := UU) where
  st := fun q d c => match q with
    | 0 => bigSep (Finset.univ : Finset (Fin ((K (F := F)).nSub 0))) fun i => goV d (w d) (f₀ d) (coordsV (Fin.cast nCore_zero c) (Fin.cast nSub_zero i))
  dn := fun q d c => match q with
    | 0 => bigSep (Finset.univ : Finset (Fin ((K (F := F)).nSub 0))) fun i => tdV d (w d) (coordsV (Fin.cast nCore_zero c) (Fin.cast nSub_zero i))
  go := fun q d c i => match q with
    | 0 => goV d (w d) (f₀ d) (coordsV (Fin.cast nCore_zero c) (Fin.cast nSub_zero i))
  td := fun q d c i => match q with
    | 0 => tdV d (w d) (coordsV (Fin.cast nCore_zero c) (Fin.cast nSub_zero i))
  x := fun _ _ => iprop(emp)

instance P_storable : (P (F := F) w f₀).IsStorable where
  st q d c := match q with
    | 0 => (by unfold P goV; infer_instance)
  dn q d c := match q with
    | 0 => (by unfold P tdV; infer_instance)
  go q d c i := match q with
    | 0 => (by unfold P goV; infer_instance)
  td q d c i := match q with
    | 0 => (by unfold P tdV; infer_instance)

end Cert.Proof.KB

end
-- ==== Proof.PlaneSplitBits.lean ====
/-
  The grid arrays dealt plane by plane: an array held whole is its 128 planes held separately, and the 128 planes are the
  four planes of each of the sixteen subcores of each of the two SparseCores. With it, what the SparseCore call takes from
  the TensorCore and hands back, as the two arrays whole.
-/
import proofs.«203824_g32177894982282_cont_8to1_b_1676_14_alg».proof.Proof.PayBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- Plane number from (SparseCore, subcore, step). -/
def zEquiv : Fin 2 × Fin 16 × Fin 4 ≃ Fin 128 where
  toFun p := ⟨8 * p.2.1.val + 4 * p.1.val + p.2.2.val, by have := p.1.isLt; have := p.2.1.isLt; have := p.2.2.isLt; omega⟩
  invFun z := (⟨z.val / 4 % 2, by omega⟩, ⟨z.val / 8, by have := z.isLt; omega⟩, ⟨z.val % 4, by omega⟩)
  left_inv p := by
    obtain ⟨c, i, t⟩ := p
    have hc := c.isLt; have hi := i.isLt; have ht := t.isLt
    refine Prod.ext (Fin.ext ?_) (Prod.ext (Fin.ext ?_) (Fin.ext ?_)) <;> (show _ = _; simp only []; omega)
  right_inv z := by
    have hz := z.isLt
    refine Fin.ext ?_
    show 8 * (z.val / 8) + 4 * (z.val / 4 % 2) + z.val % 4 = z.val
    omega

theorem zOf_coordsV (c : Fin 2) (i : Fin 16) (t : Fin 4) : zOf (coordsV c i) t = zEquiv (c, i, t) := rfl

/-- A family over the 128 planes, regrouped by SparseCore, subcore and step. -/
theorem bigSep_planes (Φ : Fin 128 → sProp 𝕄) :
    bigSep Finset.univ Φ
      = bigSep (Finset.univ : Finset (Fin 2)) fun c => bigSep (Finset.univ : Finset (Fin 16)) fun i =>
          bigSep (Finset.univ : Finset (Fin 4)) fun t => Φ (zOf (coordsV c i) t) := by
  rw [← Finset.map_univ_equiv zEquiv, BI.bigSep_map, BI.bigSep_univ_prod]
  refine bigSep_congr fun c _ => ?_
  rw [BI.bigSep_univ_prod]
  rfl

variable (m : (ℓ : Loc nD τ sig) → Buf (Elt F) ℓ)

/-- An array of the grid shape held whole is its planes held one by one. -/
theorem w_planes (d : Dev nD) (f : Buf (Elt F) (wLoc d)) :
    (wLoc d ↦{fullShare} f : sProp 𝕄) = bigSep Finset.univ fun z : Fin 128 => wLoc d ↦[planeSet z]{fullShare} f := by
  rw [← pointsTo_biUnion Finset.univ (ℓ := wLoc d) planeSet planes_disjoint, planes_cover]; try rfl
theorem tw_planes (d : Dev nD) (f : Buf (Elt F) (twLoc d)) :
    (twLoc d ↦{fullShare} f : sProp 𝕄) = bigSep Finset.univ fun z : Fin 128 => twLoc d ↦[planeSet z]{fullShare} f := by
  rw [← pointsTo_biUnion Finset.univ (ℓ := twLoc d) planeSet planes_disjoint, planes_cover]; try rfl

variable [FloatOps F]
variable (w : (d : Dev nD) → Buf (Elt F) (wLoc d)) (f₀ : (d : Dev nD) → Buf (Elt F) (twLoc d))

/-- What the call takes: the operand and the result array, whole. -/
theorem st_all (d : Dev nD) :
    (bigSep Finset.univ fun c : Fin ((K (F := F)).nCore 0) => (P (F := F) w f₀).st 0 d c)
      = iprop((wLoc d ↦{fullShare} w d) ∗ (twLoc d ↦{fullShare} f₀ d)) := by
  show (bigSep (Finset.univ : Finset (Fin 2)) fun c => bigSep (Finset.univ : Finset (Fin 16)) fun i =>
      bigSep (Finset.univ : Finset (Fin 4)) fun t => iprop(wPlane d (w d) (zOf (coordsV c i) t) ∗ twPlane d (f₀ d) (zOf (coordsV c i) t))) = _
  rw [← bigSep_planes (F := F) (fun z => iprop(wPlane d (w d) z ∗ twPlane d (f₀ d) z)), bigSep_sep', w_planes, tw_planes]

/-- What it hands back: the operand unchanged, the result array at the no-slip values of the operand. -/
theorem dn_all (d : Dev nD) :
    (bigSep Finset.univ fun c : Fin ((K (F := F)).nCore 0) => (P (F := F) w f₀).dn 0 d c)
      = iprop((wLoc d ↦{fullShare} w d) ∗ (twLoc d ↦{fullShare} twOut d (w d))) := by
  show (bigSep (Finset.univ : Finset (Fin 2)) fun c => bigSep (Finset.univ : Finset (Fin 16)) fun i =>
      bigSep (Finset.univ : Finset (Fin 4)) fun t => iprop(wPlane d (w d) (zOf (coordsV c i) t) ∗ twPlane d (twOut d (w d)) (zOf (coordsV c i) t))) = _
  rw [← bigSep_planes (F := F) (fun z => iprop(wPlane d (w d) z ∗ twPlane d (twOut d (w d)) z)), bigSep_sep', w_planes, tw_planes]

end Cert.Proof.KB

end
-- ==== Proof.MainBits.lean ====
/-
  @main on the TensorCore, inside the SparseCore launch: the three arguments are reshaped to the grid, the pipelined region
  computes the first two results from the first two, the SparseCore call the third from the third, and the three are
  reshaped back. What the TensorCore is left holding: its arguments unchanged and the three results at the specification's
  functions of them.
-/
import proofs.«203824_g32177894982282_cont_8to1_b_1676_14_alg».proof.Proof.RegionBits
import proofs.«203824_g32177894982282_cont_8to1_b_1676_14_alg».proof.Proof.HostOpsBits
import proofs.«203824_g32177894982282_cont_8to1_b_1676_14_alg».proof.Proof.PlaneSplitBits
import proofs.«203824_g32177894982282_cont_8to1_b_1676_14_alg».proof.Proof.SpecReshape

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ) (ρ : Dev nD → PrngReg)
variable [FloatOps F]

/-- The kernel's one. -/
abbrev oneF : F .f32 := Scalar.ofBits .f32 0x3F800000#32

/-- The third argument on the grid: the SparseCore call's operand. -/
def W2 (d : Dev nD) : Buf (Elt F) (wLoc d) := shapeCast S128x128x128 (m ((SparseCore.T d).loc main_arg2)) shapeCasts_S1x128x128x128x1_S128x128x128
/-- The call's result array as the launch left it. -/
def F4 (d : Dev nD) : Buf (Elt F) (twLoc d) := m (twLoc d)

/-- The call's payloads at this launch. -/
abbrev PP : (K (F := F)).Pay (nD := nD) (Val := Elt F) (Name := ℕ) (U := UU) := P (F := F) (W2 m) (F4 m)

/-- What @main leaves the claim: the arguments unchanged, the results at the specification. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v5 ↦{fullShare} (Cert.Spec.outU (oneF (F := F)) (m ((SparseCore.T d).loc main_arg0)) : Buf (Elt F) ((SparseCore.T d).loc main_v5)))
    ∗ ((SparseCore.T d).loc main_v6 ↦{fullShare} (Cert.Spec.outZ (zeroF (F := F)) (m ((SparseCore.T d).loc main_arg1)) : Buf (Elt F) ((SparseCore.T d).loc main_v6)))
    ∗ ((SparseCore.T d).loc main_v7 ↦{fullShare} (Cert.Spec.outZ (zeroF (F := F)) (m ((SparseCore.T d).loc main_arg2)) : Buf (Elt F) ((SparseCore.T d).loc main_v7))))

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Hv0, Hv1, Hv2, Hv30, Hv31, Hv4, Hv5, Hv6, Hv7⟩, -, -⟩, HG⟩
  -- the three arguments to the grid
  iapply (wp_reshape (F := F) (V0 m d) d main_arg0 main_v0 (by decide) rfl shapeCasts_S1x128x128x128x1_S128x128x128 ⟨by decide, rfl⟩ ⟨by decide, rfl⟩ _ _ _ _) $$ [Hb Ha0 Hv0]
  · isplitl [Hb]; · iexact Hb
    isplitl [Ha0]; · iexact Ha0
    iexact Hv0
  iintro ⟨Hb, Ha0, Hv0⟩
  rw [wp_ret]; imodintro
  iapply (wp_reshape (F := F) (V0 m d) d main_arg1 main_v1 (by decide) rfl shapeCasts_S1x128x128x128x1_S128x128x128 ⟨by decide, rfl⟩ ⟨by decide, rfl⟩ _ _ _ _) $$ [Hb Ha1 Hv1]
  · isplitl [Hb]; · iexact Hb
    isplitl [Ha1]; · iexact Ha1
    iexact Hv1
  iintro ⟨Hb, Ha1, Hv1⟩
  rw [wp_ret]; imodintro
  iapply (wp_reshape (F := F) (V0 m d) d main_arg2 main_v2 (by decide) rfl shapeCasts_S1x128x128x128x1_S128x128x128 ⟨by decide, rfl⟩ ⟨by decide, rfl⟩ _ _ _ _) $$ [Hb Ha2 Hv2]
  · isplitl [Hb]; · iexact Hb
    isplitl [Ha2]; · iexact Ha2
    iexact Hv2
  iintro ⟨Hb, Ha2, Hv2⟩
  rw [wp_ret]; imodintro
  -- the pipelined region: the first two results
  iapply (region_wp (F := F) (PP m) κ d _ _ _) $$ [Hst Hb HG Ha0 Ha1 Ha2 Hv0 Hv1 Hv2 Hv30 Hv31 Hv4 Hv5 Hv6 Hv7]
  isplitr; · iexact Hctx
  isplitl [Hst]; · iexact Hst
  isplitl [Hb]; · iexact Hb
  isplitl [HG]; · iexact HG
  isplitl [Hv0]; · iexact Hv0
  isplitl [Hv1]; · iexact Hv1
  isplitl [Hv30]; · iexists _; iexact Hv30
  isplitl [Hv31]; · iexists _; iexact Hv31
  iintro ⟨Hst, Hb, Hv0, Hv1, Hv30, Hv31⟩
  -- the SparseCore call: the third result
  iapply ((K (F := F)).wp_run (D (F := F)) 𝒱 (EH := EH) (P := PP m) κ d 0) $$ [Hst Hb Ha0 Ha1 Ha2 Hv0 Hv1 Hv2 Hv30 Hv31 Hv4 Hv5 Hv6 Hv7]
  isplitr; · iexact Hctx
  isplitl [Hst]; · iexact Hst
  isplitl [Hv2 Hv4]
  · rw [st_all]
    isplitl [Hv2]; · iexact Hv2
    iexact Hv4
  iintro ⟨Hst, Hdn⟩
  ihave Hdn' := (Entails.of_eq (dn_all (F := F) (W2 m) (F4 m) d)) $$ Hdn
  icases Hdn' with ⟨Hv2, Hv4⟩
  -- the three results back to the stored layout
  iapply (wp_reshape (F := F) (V0 m d) d main_v3_0 main_v5 (by decide) rfl shapeCasts_S128x128x128_S1x128x128x128x1 ⟨by decide, rfl⟩ ⟨by decide, rfl⟩ _ _ _ _) $$ [Hb Hv30 Hv5]
  · isplitl [Hb]; · iexact Hb
    isplitl [Hv30]; · iexact Hv30
    iexact Hv5
  iintro ⟨Hb, Hv30, Hv5⟩
  rw [wp_ret]; imodintro
  iapply (wp_reshape (F := F) (V0 m d) d main_v3_1 main_v6 (by decide) rfl shapeCasts_S128x128x128_S1x128x128x128x1 ⟨by decide, rfl⟩ ⟨by decide, rfl⟩ _ _ _ _) $$ [Hb Hv31 Hv6]
  · isplitl [Hb]; · iexact Hb
    isplitl [Hv31]; · iexact Hv31
    iexact Hv6
  iintro ⟨Hb, Hv31, Hv6⟩
  rw [wp_ret]; imodintro
  iapply (wp_reshape (F := F) (V0 m d) d main_v4 main_v7 (by decide) rfl shapeCasts_S128x128x128_S1x128x128x128x1 ⟨by decide, rfl⟩ ⟨by decide, rfl⟩ _ _ _ _) $$ [Hb Hv4 Hv7]
  · isplitl [Hb]; · iexact Hb
    isplitl [Hv4]; · iexact Hv4
    iexact Hv7
  iintro ⟨Hb, Hv4, Hv7⟩
  rw [wp_ret]; imodintro
  imodintro
  isplitl [Hst]; · iexact Hst
  unfold FIN
  isplitl [Ha0]; · iexact Ha0
  isplitl [Ha1]; · iexact Ha1
  isplitl [Ha2]; · iexact Ha2
  isplitl [Hv5]
  · iapply (Entails.of_eq (congrArg (fun c => ((SparseCore.T d).loc main_v5 ↦{fullShare} c : sProp 𝕄))
      (Cert.Spec.outU_reshape (oneF (F := F)) (m ((SparseCore.T d).loc main_arg0)) shapeCasts_S1x128x128x128x1_S128x128x128 shapeCasts_S128x128x128_S1x128x128x128x1)))
    iexact Hv5
  isplitl [Hv6]
  · iapply (Entails.of_eq (congrArg (fun c => ((SparseCore.T d).loc main_v6 ↦{fullShare} c : sProp 𝕄))
      (Cert.Spec.outZ_reshape (zeroF (F := F)) (m ((SparseCore.T d).loc main_arg1)) shapeCasts_S1x128x128x128x1_S128x128x128 shapeCasts_S128x128x128_S1x128x128x128x1)))
    iexact Hv6
  · iapply (Entails.of_eq (congrArg (fun c => ((SparseCore.T d).loc main_v7 ↦{fullShare} c : sProp 𝕄))
      (Cert.Spec.outZ_reshape (zeroF (F := F)) (m ((SparseCore.T d).loc main_arg2)) shapeCasts_S1x128x128x128x1_S128x128x128 shapeCasts_S128x128x128_S1x128x128x128x1)))
    iexact Hv7

end Cert.Proof.KB

end
-- ==== Proof.TileResBits.lean ====
/-
  The holdings of one vector subcore, in the form its body's steps read them: its four planes of the operand and of the
  result as the sliced arrays the copies name, its four plane-sized scratch buffers, its eight copy semaphores.
-/
import proofs.«203824_g32177894982282_cont_8to1_b_1676_14_alg».proof.Proof.PayBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

/-- The vector subcore at grid coordinates `L`. -/
abbrev cV (L : grid1.Coords) : Fin τ.nSC := (L 0).castLE hcore1
abbrev jV (L : grid1.Coords) : Fin τ.nSub := (L 1).castLE hsub1

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

/-! ## The sliced arrays of step `t` -/

/-- Plane `zOf L t` of the operand, as the body slices it for its copy in. -/
abbrev srcK (L : grid1.Coords) (t : Fin 4) : Memref sig .scVector .hbm S128x128 .f32 :=
  ((wW).slice (planeK L t) (fun _ => rfl)).squeeze S128x128 squeezes_S1x128x128_S128x128
/-- The same plane of the result, as the body slices it for its copy out. -/
abbrev dstK (L : grid1.Coords) (t : Fin 4) : Memref sig .scVector .hbm S128x128 .f32 :=
  ((twW).slice (planeK L t) (fun _ => rfl)).squeeze S128x128 squeezes_S1x128x128_S128x128

omit [FloatOps F] in
theorem set_srcK (t : Fin 4) : (srcK L t).view.set = planeSet (zOf L t) := by
  show (((wW).view.slice (planeK L t)).reshape S128x128 squeezes_S1x128x128_S128x128.numel_eq).set = (plane (zOf L t)).set
  rw [View.set_reshape]
  have h : ∀ r : Rect S128x128x128, ((wW).view.slice r).set = r.set := fun r => by
    show ((View.whole (main_v2_scv : Ref sig .scVector)).slice r).set = _
    rw [View.set_slice]; exact Finset.map_refl
  rw [h]
  exact congrArg (fun r : Rect S128x128x128 => r.set) (planeK_eq L t)
omit [FloatOps F] in
theorem set_dstK (t : Fin 4) : (dstK L t).view.set = planeSet (zOf L t) := by
  show (((twW).view.slice (planeK L t)).reshape S128x128 squeezes_S1x128x128_S128x128.numel_eq).set = (plane (zOf L t)).set
  rw [View.set_reshape]
  have h : ∀ r : Rect S128x128x128, ((twW).view.slice r).set = r.set := fun r => by
    show ((View.whole (main_v4_scv : Ref sig .scVector)).slice r).set = _
    rw [View.set_slice]; exact Finset.map_refl
  rw [h]
  exact congrArg (fun r : Rect S128x128x128 => r.set) (planeK_eq L t)

omit [FloatOps F] in
theorem pts_srcK (t : Fin 4) (f : Buf (Elt F) (wLoc d)) :
    ((srcK L t).view.loc (V d (cV L) (jV L)) ↦[(srcK L t).view.set]{fullShare} f : sProp 𝕄) = wLoc d ↦[planeSet (zOf L t)]{fullShare} f := by
  rw [set_srcK]
omit [FloatOps F] in
theorem pts_dstK (t : Fin 4) (f : Buf (Elt F) (twLoc d)) :
    ((dstK L t).view.loc (V d (cV L) (jV L)) ↦[(dstK L t).view.set]{fullShare} f : sProp 𝕄) = twLoc d ↦[planeSet (zOf L t)]{fullShare} f := by
  rw [set_dstK]

/-! ## The same, spelt with the body's literal words -/

abbrev src0 (L : grid1.Coords) : Memref sig .scVector .hbm S128x128 .f32 := ((wW).slice (Rect.unit (s := S128x128x128) (k1_off1 L 0#32) S1x128x128.size (k1_off1_inb L 0)) (fun _ => rfl)).squeeze S128x128 squeezes_S1x128x128_S128x128
abbrev src1 (L : grid1.Coords) : Memref sig .scVector .hbm S128x128 .f32 := ((wW).slice (Rect.unit (s := S128x128x128) (k1_off1 L 1#32) S1x128x128.size (k1_off1_inb L 1)) (fun _ => rfl)).squeeze S128x128 squeezes_S1x128x128_S128x128
abbrev src2 (L : grid1.Coords) : Memref sig .scVector .hbm S128x128 .f32 := ((wW).slice (Rect.unit (s := S128x128x128) (k1_off1 L 2#32) S1x128x128.size (k1_off1_inb L 2)) (fun _ => rfl)).squeeze S128x128 squeezes_S1x128x128_S128x128
abbrev src3 (L : grid1.Coords) : Memref sig .scVector .hbm S128x128 .f32 := ((wW).slice (Rect.unit (s := S128x128x128) (k1_off1 L 3#32) S1x128x128.size (k1_off1_inb L 3)) (fun _ => rfl)).squeeze S128x128 squeezes_S1x128x128_S128x128
abbrev dst0 (L : grid1.Coords) : Memref sig .scVector .hbm S128x128 .f32 := ((twW).slice (Rect.unit (s := S128x128x128) (k1_off1 L 0#32) S1x128x128.size (k1_off1_inb L 0)) (fun _ => rfl)).squeeze S128x128 squeezes_S1x128x128_S128x128
abbrev dst1 (L : grid1.Coords) : Memref sig .scVector .hbm S128x128 .f32 := ((twW).slice (Rect.unit (s := S128x128x128) (k1_off1 L 1#32) S1x128x128.size (k1_off1_inb L 1)) (fun _ => rfl)).squeeze S128x128 squeezes_S1x128x128_S128x128
abbrev dst2 (L : grid1.Coords) : Memref sig .scVector .hbm S128x128 .f32 := ((twW).slice (Rect.unit (s := S128x128x128) (k1_off1 L 2#32) S1x128x128.size (k1_off1_inb L 2)) (fun _ => rfl)).squeeze S128x128 squeezes_S1x128x128_S128x128
abbrev dst3 (L : grid1.Coords) : Memref sig .scVector .hbm S128x128 .f32 := ((twW).slice (Rect.unit (s := S128x128x128) (k1_off1 L 3#32) S1x128x128.size (k1_off1_inb L 3)) (fun _ => rfl)).squeeze S128x128 squeezes_S1x128x128_S128x128

omit [FloatOps F] in
theorem pts_src0 (f : Buf (Elt F) (wLoc d)) : ((src0 L).view.loc (V d (cV L) (jV L)) ↦[(src0 L).view.set]{fullShare} f : sProp 𝕄) = wLoc d ↦[planeSet (zOf L 0)]{fullShare} f := pts_srcK d L 0 f
omit [FloatOps F] in
theorem pts_src1 (f : Buf (Elt F) (wLoc d)) : ((src1 L).view.loc (V d (cV L) (jV L)) ↦[(src1 L).view.set]{fullShare} f : sProp 𝕄) = wLoc d ↦[planeSet (zOf L 1)]{fullShare} f := pts_srcK d L 1 f
omit [FloatOps F] in
theorem pts_src2 (f : Buf (Elt F) (wLoc d)) : ((src2 L).view.loc (V d (cV L) (jV L)) ↦[(src2 L).view.set]{fullShare} f : sProp 𝕄) = wLoc d ↦[planeSet (zOf L 2)]{fullShare} f := pts_srcK d L 2 f
omit [FloatOps F] in
theorem pts_src3 (f : Buf (Elt F) (wLoc d)) : ((src3 L).view.loc (V d (cV L) (jV L)) ↦[(src3 L).view.set]{fullShare} f : sProp 𝕄) = wLoc d ↦[planeSet (zOf L 3)]{fullShare} f := pts_srcK d L 3 f
omit [FloatOps F] in
theorem pts_dst0 (f : Buf (Elt F) (twLoc d)) : ((dst0 L).view.loc (V d (cV L) (jV L)) ↦[(dst0 L).view.set]{fullShare} f : sProp 𝕄) = twLoc d ↦[planeSet (zOf L 0)]{fullShare} f := pts_dstK d L 0 f
omit [FloatOps F] in
theorem pts_dst1 (f : Buf (Elt F) (twLoc d)) : ((dst1 L).view.loc (V d (cV L) (jV L)) ↦[(dst1 L).view.set]{fullShare} f : sProp 𝕄) = twLoc d ↦[planeSet (zOf L 1)]{fullShare} f := pts_dstK d L 1 f
omit [FloatOps F] in
theorem pts_dst2 (f : Buf (Elt F) (twLoc d)) : ((dst2 L).view.loc (V d (cV L) (jV L)) ↦[(dst2 L).view.set]{fullShare} f : sProp 𝕄) = twLoc d ↦[planeSet (zOf L 2)]{fullShare} f := pts_dstK d L 2 f
omit [FloatOps F] in
theorem pts_dst3 (f : Buf (Elt F) (twLoc d)) : ((dst3 L).view.loc (V d (cV L) (jV L)) ↦[(dst3 L).view.set]{fullShare} f : sProp 𝕄) = twLoc d ↦[planeSet (zOf L 3)]{fullShare} f := pts_dstK d L 3 f

omit [FloatOps F] in
theorem pts_b0 (f : Buf (Elt F) ((V d (cV L) (jV L)).loc cc1_scratch0)) : ((bW0).view.loc (V d (cV L) (jV L)) ↦{fullShare} f : sProp 𝕄) = (V d (cV L) (jV L)).loc cc1_scratch0 ↦{fullShare} f := rfl
omit [FloatOps F] in
theorem pts_b1 (f : Buf (Elt F) ((V d (cV L) (jV L)).loc cc1_scratch1)) : ((bW1).view.loc (V d (cV L) (jV L)) ↦{fullShare} f : sProp 𝕄) = (V d (cV L) (jV L)).loc cc1_scratch1 ↦{fullShare} f := rfl
omit [FloatOps F] in
theorem pts_b2 (f : Buf (Elt F) ((V d (cV L) (jV L)).loc cc1_scratch2)) : ((bW2).view.loc (V d (cV L) (jV L)) ↦{fullShare} f : sProp 𝕄) = (V d (cV L) (jV L)).loc cc1_scratch2 ↦{fullShare} f := rfl
omit [FloatOps F] in
theorem pts_b3 (f : Buf (Elt F) ((V d (cV L) (jV L)).loc cc1_scratch3)) : ((bW3).view.loc (V d (cV L) (jV L)) ↦{fullShare} f : sProp 𝕄) = (V d (cV L) (jV L)).loc cc1_scratch3 ↦{fullShare} f := rfl

/-! ## The scratch buffers and the copy semaphores -/

/-- Scratch buffer `k`. -/
def bufK : Fin 4 → Ref sig .scVector := fun | 0 => cc1_scratch0 | 1 => cc1_scratch1 | 2 => cc1_scratch2 | 3 => cc1_scratch3
/-- Copy semaphore `k`: 0–3 for the copies in, 4–7 for the copies out. -/
def semK : Fin 8 → DmaSem sig := fun
  | 0 => cc1_scratch4.sem | 1 => cc1_scratch5.sem | 2 => cc1_scratch6.sem | 3 => cc1_scratch7.sem
  | 4 => cc1_scratch8.sem | 5 => cc1_scratch9.sem | 6 => cc1_scratch10.sem | 7 => cc1_scratch11.sem

theorem bufK_inj : Function.Injective bufK := by decide
theorem semK_inj : Function.Injective semK := by decide

/-- The subcore's four scratch buffers among its own. -/
def bufs4 (c : Fin τ.nSC) (i : Fin τ.nSub) : Finset (DevRef τ sig) :=
  (Finset.univ : Finset (Fin 4)).map ⟨fun k => (Proc.scVector c i).devRef (bufK k), fun _ _ e => bufK_inj (Proc.devRef_injective _ e)⟩
/-- The subcore's eight copy semaphores among its own cells. -/
def cells8 (thr : Thread nD τ) : Finset (GSem nD τ sig) :=
  (Finset.univ : Finset (Fin 8)).map ⟨fun k => (thr, SemLoc.dma (semK k)), fun _ _ e => semK_inj (SemLoc.dma.inj (Prod.mk.inj e).2)⟩

omit [FloatOps F] in
theorem cells8_sub (c : Fin τ.nSC) (i : Fin τ.nSub) : cells8 (V d c i) ⊆ ownCells (V d c i) := by
  intro g hg
  obtain ⟨k, -, rfl⟩ := Finset.mem_map.mp hg
  refine mem_ownCells.mpr ⟨rfl, ?_⟩
  have h : ∀ k : Fin 8, (SemLoc.dma (semK k) : SemLoc sig).isScoped .scVector = true := by decide
  exact h k

omit [FloatOps F] in
theorem bufs4_sub (c : Fin τ.nSC) (i : Fin τ.nSub) : bufs4 c i ⊆ ownRefs (τ := τ) (.scVector c i) := by
  intro b hb
  obtain ⟨k, -, rfl⟩ := Finset.mem_map.mp hb
  show (Proc.scVector c i).devRef (bufK k) ∈ ownRefs (τ := τ) (Proc.scVector c i)
  fin_cases k <;> exact SparseCore.Cfg.mem_ownRefs_of_owner (p := Proc.scVector c i) rfl

omit [FloatOps F] in
/-- The subcore's own semaphores at zero: the eight copy semaphores, and the rest. -/
theorem ownSems0_split (c : Fin τ.nSC) (i : Fin τ.nSub) :
    (ownSems0 (V d c i) : sProp 𝕄)
      = iprop((bigSep (Finset.univ : Finset (Fin 8)) fun k => semVal ((V d c i, SemLoc.dma (semK k)) : GSem nD τ sig) 0)
          ∗ bigSep (ownCells (V d c i) \ cells8 (V d c i)) fun g => semVal g 0) := by
  unfold SparseCore.Cfg.ownSems0
  rw [SparseCore.bigSep_sdiff_split' (cells8_sub d c i)]
  unfold cells8
  rw [BI.bigSep_map]
  rfl

omit [FloatOps F] in
/-- The subcore's own buffers: the four scratch buffers at some contents, and the rest. -/
theorem ownBufs_split (c : Fin τ.nSC) (i : Fin τ.nSub) :
    (ownBufs (V d c i) : sProp 𝕄)
      = iprop((bigSep (Finset.univ : Finset (Fin 4)) fun k => iprop(∃ f, (V d c i).loc (bufK k) ↦{fullShare} f))
          ∗ bigSep (ownRefs (τ := τ) (.scVector c i) \ bufs4 c i) fun b => iprop(∃ f, ((d, b) : Loc nD τ sig) ↦{fullShare} f)) := by
  unfold SparseCore.Cfg.ownBufs
  rw [show (V d c i : Thread nD τ).2 = .scVector c i from rfl, SparseCore.bigSep_sdiff_split' (bufs4_sub c i)]
  unfold bufs4
  rw [BI.bigSep_map]
  rfl

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

omit [FloatOps F] in
/-- The same with the eight semaphores by name. -/
theorem ownSems0_split8 (c : Fin τ.nSC) (i : Fin τ.nSub) :
    (ownSems0 (V d c i) : sProp 𝕄)
      = iprop((semVal ((V d c i, SemLoc.dma cc1_scratch4.sem) : GSem nD τ sig) 0 ∗ semVal ((V d c i, SemLoc.dma cc1_scratch5.sem) : GSem nD τ sig) 0
            ∗ semVal ((V d c i, SemLoc.dma cc1_scratch6.sem) : GSem nD τ sig) 0 ∗ semVal ((V d c i, SemLoc.dma cc1_scratch7.sem) : GSem nD τ sig) 0
            ∗ semVal ((V d c i, SemLoc.dma cc1_scratch8.sem) : GSem nD τ sig) 0 ∗ semVal ((V d c i, SemLoc.dma cc1_scratch9.sem) : GSem nD τ sig) 0
            ∗ semVal ((V d c i, SemLoc.dma cc1_scratch10.sem) : GSem nD τ sig) 0 ∗ semVal ((V d c i, SemLoc.dma cc1_scratch11.sem) : GSem nD τ sig) 0)
          ∗ bigSep (ownCells (V d c i) \ cells8 (V d c i)) fun g => semVal g 0) := by
  rw [ownSems0_split, bigSep_fin8]; rfl

omit [FloatOps F] in
/-- The same with the four buffers by name. -/
theorem ownBufs_split4 (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f)
            ∗ (∃ f, (V d c i).loc cc1_scratch2 ↦{fullShare} f) ∗ (∃ f, (V d c i).loc cc1_scratch3 ↦{fullShare} f))
          ∗ bigSep (ownRefs (τ := τ) (.scVector c i) \ bufs4 c i) fun b => iprop(∃ f, ((d, b) : Loc nD τ sig) ↦{fullShare} f)) := by
  rw [ownBufs_split, bigSep_fin4]; rfl

end Cert.Proof.KB

end
-- ==== Proof.BufStoresBits.lean ====
/-
  The two facts about runs of stores into a whole buffer (two lane-masked stores; any number of constant stores), stated
  for each of the four plane-sized scratch buffers with its shape spelt out.
-/
import proofs.«203824_g32177894982282_cont_8to1_b_1676_14_alg».proof.Proof.TileResBits
import proofs.«203824_g32177894982282_cont_8to1_b_1676_14_alg».proof.Proof.PlaneMath

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.Proof.PlaneMath

theorem two_stores0 (f : S128x128.Idx → Elt F .f32) {r₂ r₃ : Rect S128x128}
    {w₂ : r₂.shape.Idx → Elt F .f32} {w₃ : r₃.shape.Idx → Elt F .f32} (φ₂ φ₃ : S128x128.Idx → Elt F .f32)
    (h₂ : ∀ x, w₂ x = φ₂ (r₂.emb x)) (h₃ : ∀ x, w₃ x = φ₃ (r₃.emb x)) (y : S128x128.Idx) :
    (View.whole (cc1_scratch0 : Ref sig .scVector)).writes (Elt F) f [⟨r₃, w₃⟩, ⟨r₂, w₂⟩] y
      = if y ∈ r₃.set then φ₃ y else if y ∈ r₂.set then φ₂ y else f y :=
  two_stores (Val := Elt F) (cc1_scratch0 : Ref sig .scVector) f φ₂ φ₃ h₂ h₃ y

theorem const_stores0 (f : S128x128.Idx → Elt F .f32) (z : Elt F .f32) (Ls : List (View.Piece (Elt F) S128x128 .f32))
    (h : ∀ p ∈ Ls, ∀ x, p.2 x = z) (y : S128x128.Idx) :
    (View.whole (cc1_scratch0 : Ref sig .scVector)).writes (Elt F) f Ls y = if ∃ p ∈ Ls, y ∈ p.1.set then z else f y :=
  const_stores (Val := Elt F) (cc1_scratch0 : Ref sig .scVector) f z Ls h y

theorem two_stores1 (f : S128x128.Idx → Elt F .f32) {r₂ r₃ : Rect S128x128}
    {w₂ : r₂.shape.Idx → Elt F .f32} {w₃ : r₃.shape.Idx → Elt F .f32} (φ₂ φ₃ : S128x128.Idx → Elt F .f32)
    (h₂ : ∀ x, w₂ x = φ₂ (r₂.emb x)) (h₃ : ∀ x, w₃ x = φ₃ (r₃.emb x)) (y : S128x128.Idx) :
    (View.whole (cc1_scratch1 : Ref sig .scVector)).writes (Elt F) f [⟨r₃, w₃⟩, ⟨r₂, w₂⟩] y
      = if y ∈ r₃.set then φ₃ y else if y ∈ r₂.set then φ₂ y else f y :=
  two_stores (Val := Elt F) (cc1_scratch1 : Ref sig .scVector) f φ₂ φ₃ h₂ h₃ y

theorem const_stores1 (f : S128x128.Idx → Elt F .f32) (z : Elt F .f32) (Ls : List (View.Piece (Elt F) S128x128 .f32))
    (h : ∀ p ∈ Ls, ∀ x, p.2 x = z) (y : S128x128.Idx) :
    (View.whole (cc1_scratch1 : Ref sig .scVector)).writes (Elt F) f Ls y = if ∃ p ∈ Ls, y ∈ p.1.set then z else f y :=
  const_stores (Val := Elt F) (cc1_scratch1 : Ref sig .scVector) f z Ls h y

theorem two_stores2 (f : S128x128.Idx → Elt F .f32) {r₂ r₃ : Rect S128x128}
    {w₂ : r₂.shape.Idx → Elt F .f32} {w₃ : r₃.shape.Idx → Elt F .f32} (φ₂ φ₃ : S128x128.Idx → Elt F .f32)
    (h₂ : ∀ x, w₂ x = φ₂ (r₂.emb x)) (h₃ : ∀ x, w₃ x = φ₃ (r₃.emb x)) (y : S128x128.Idx) :
    (View.whole (cc1_scratch2 : Ref sig .scVector)).writes (Elt F) f [⟨r₃, w₃⟩, ⟨r₂, w₂⟩] y
      = if y ∈ r₃.set then φ₃ y else if y ∈ r₂.set then φ₂ y else f y :=
  two_stores (Val := Elt F) (cc1_scratch2 : Ref sig .scVector) f φ₂ φ₃ h₂ h₃ y

theorem const_stores2 (f : S128x128.Idx → Elt F .f32) (z : Elt F .f32) (Ls : List (View.Piece (Elt F) S128x128 .f32))
    (h : ∀ p ∈ Ls, ∀ x, p.2 x = z) (y : S128x128.Idx) :
    (View.whole (cc1_scratch2 : Ref sig .scVector)).writes (Elt F) f Ls y = if ∃ p ∈ Ls, y ∈ p.1.set then z else f y :=
  const_stores (Val := Elt F) (cc1_scratch2 : Ref sig .scVector) f z Ls h y

theorem two_stores3 (f : S128x128.Idx → Elt F .f32) {r₂ r₃ : Rect S128x128}
    {w₂ : r₂.shape.Idx → Elt F .f32} {w₃ : r₃.shape.Idx → Elt F .f32} (φ₂ φ₃ : S128x128.Idx → Elt F .f32)
    (h₂ : ∀ x, w₂ x = φ₂ (r₂.emb x)) (h₃ : ∀ x, w₃ x = φ₃ (r₃.emb x)) (y : S128x128.Idx) :
    (View.whole (cc1_scratch3 : Ref sig .scVector)).writes (Elt F) f [⟨r₃, w₃⟩, ⟨r₂, w₂⟩] y
      = if y ∈ r₃.set then φ₃ y else if y ∈ r₂.set then φ₂ y else f y :=
  two_stores (Val := Elt F) (cc1_scratch3 : Ref sig .scVector) f φ₂ φ₃ h₂ h₃ y

theorem const_stores3 (f : S128x128.Idx → Elt F .f32) (z : Elt F .f32) (Ls : List (View.Piece (Elt F) S128x128 .f32))
    (h : ∀ p ∈ Ls, ∀ x, p.2 x = z) (y : S128x128.Idx) :
    (View.whole (cc1_scratch3 : Ref sig .scVector)).writes (Elt F) f Ls y = if ∃ p ∈ Ls, y ∈ p.1.set then z else f y :=
  const_stores (Val := Elt F) (cc1_scratch3 : Ref sig .scVector) f z Ls h y

end Cert.Proof.KB

end
-- ==== Proof.TripA0Bits.lean ====
/-
  One trip of a vector subcore's frame loop on its first scratch buffer: inside the grid a trip zeroes the two end cells
  of row k + 1 and leaves every other cell.
-/
import proofs.«203824_g32177894982282_cont_8to1_b_1676_14_alg».proof.Proof.BufStoresBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Cert.Proof.PlaneMath

/-- One trip of the frame loop on scratch buffer 0: the two end cells of row `k + 1` are zeroed. -/
theorem tripA0 (k1_h : k1_cond1 L = 1#1) (k : Fin k1_t1_loop.trips) (g' : Buf (Elt F) ((V d (cV L) (jV L)).loc cc1_scratch0)) :
    ((bW0).view.loc (V d (cV L) (jV L)) ↦{fullShare} g' : sProp 𝕄)
      ⊢ wp frame (wpE (defs₀ (F := F)) 𝒱₀ (V d (cV L) (jV L)) none) Set.univ
          (k1_t1_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => (bW0).view.loc (V d (cV L) (jV L)) ↦{fullShare}
            (fun y : S128x128.Idx => if (y 0).val = k.val + 1 ∧ eN (y 1).val then zeroF (F := F) else g' y) := by
  unfold k1_t1_body
  iintro Hb
  sl_exec
  sl_step
  refine (Entails.of_eq (congrArg (fun c => ((bW0).view.loc (V d (cV L) (jV L)) ↦{fullShare} c : sProp 𝕄)) ?_)).trans .rfl
  funext y
  have o2 : k1_off2 k 1 = 0 := by rw [k1_off2_eq]; rfl
  have o3 : k1_off3 k 1 = 112 := by rw [k1_off3_eq]; rfl
  refine (two_stores0 (F := F) g'
    (fun y' : S128x128.Idx => if (y' 1).val = 0 then zeroF (F := F) else g' y')
    (fun y' : S128x128.Idx => if (y' 1).val = 127 then zeroF (F := F) else g' y') ?h2 ?h3 y).trans ?_
  case h2 =>
    intro x
    unfold k1_pay25
    rw [firstLane_apply]
    have e1 : (((Rect.unit (s := S128x128) (k1_off2 k) S1x16.size (k1_off2_inb L k k1_h)).emb x) 1).val = (x 1).val := by
      rw [Rect.emb_apply]; show k1_off2 k 1 + 1 * (x 1).val = _; omega
    simp only [e1]
    rfl
  case h3 =>
    intro x
    unfold k1_pay26 tripA0.sl.v187
    rw [lastLane_apply]
    have e1 : (((Rect.unit (s := S128x128) (k1_off3 k) S1x16.size (k1_off3_inb L k k1_h)).emb x) 1).val = 112 + (x 1).val := by
      rw [Rect.emb_apply]; show k1_off3 k 1 + 1 * (x 1).val = _; omega
    have e2 : ((x 1).val = 15) = (112 + (x 1).val = 127) := by apply propext; omega
    simp only [e1, e2]
    rfl
  simp only [Rect.mem_set_unit, Fin.forall_fin_two, k1_off2_eq, k1_off3_eq]
  have a0 : (![k.val + 1, 112] : Fin 2 → ℕ) 0 = k.val + 1 := rfl
  have a1 : (![k.val + 1, 112] : Fin 2 → ℕ) 1 = 112 := rfl
  have b0 : (![k.val + 1, 0] : Fin 2 → ℕ) 0 = k.val + 1 := rfl
  have b1 : (![k.val + 1, 0] : Fin 2 → ℕ) 1 = 0 := rfl
  have s0 : (![1, 16] : Fin 2 → ℕ) 0 = 1 := rfl
  have s1 : (![1, 16] : Fin 2 → ℕ) 1 = 16 := rfl
  simp only [a0, a1, b0, b1, s0, s1]
  have h1 : (y 1).val < 128 := (y 1).isLt
  coord_cases

end Cert.Proof.KB

end
-- ==== Proof.TripB0Bits.lean ====
/-
  One trip of a vector subcore's fill loop on its first scratch buffer: on a boundary plane a trip zeroes row k whole and
  leaves every other row.
-/
import proofs.«203824_g32177894982282_cont_8to1_b_1676_14_alg».proof.Proof.BufStoresBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Cert.Proof.PlaneMath

/-- One trip of the fill loop on scratch buffer 0: row `k` is zeroed whole, sixteen cells at a time. -/
theorem tripB0 (v2 : BitVec 32) (v6 v8 : IVec S16 1) (k1_h : k1_cond2 L = 1#1) (k : Fin k1_t2_loop.trips) (g' : Buf (Elt F) ((V d (cV L) (jV L)).loc cc1_scratch0)) :
    ((bW0).view.loc (V d (cV L) (jV L)) ↦{fullShare} g' : sProp 𝕄)
      ⊢ wp frame (wpE (defs₀ (F := F)) 𝒱₀ (V d (cV L) (jV L)) none) Set.univ
          (k1_t2_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => (bW0).view.loc (V d (cV L) (jV L)) ↦{fullShare}
            (fun y : S128x128.Idx => if (y 0).val = k.val then zeroF (F := F) else g' y) := by
  unfold k1_t2_body
  iintro Hb
  sl_exec
  sl_step
  refine (Entails.of_eq (congrArg (fun c => ((bW0).view.loc (V d (cV L) (jV L)) ↦{fullShare} c : sProp 𝕄)) ?_)).trans .rfl
  funext y
  refine (const_stores0 (F := F) g' (zeroF (F := F)) _ ?hz y).trans ?_
  case hz =>
    intro p hp x
    simp only [List.mem_cons, List.not_mem_nil, or_false] at hp
    rcases hp with rfl | rfl | rfl | rfl | rfl | rfl | rfl | rfl <;> exact zeroRow_apply x
  refine if_congr ?_ rfl rfl
  simp only [List.mem_cons, List.not_mem_nil, or_false, exists_eq_or_imp, exists_eq_left, Rect.mem_set_unit, Fin.forall_fin_two,
    k1_off4_eq, k1_off5_eq, k1_off6_eq, k1_off7_eq, k1_off8_eq, k1_off9_eq, k1_off10_eq, k1_off11_eq]
  have h1 : (y 1).val < 128 := (y 1).isLt
  simp; omega

end Cert.Proof.KB

end
-- ==== Proof.TripA1Bits.lean ====
/-
  One trip of a vector subcore's frame loop on its second scratch buffer: inside the grid a trip zeroes the two end cells
  of row k + 1 and leaves every other cell.
-/
import proofs.«203824_g32177894982282_cont_8to1_b_1676_14_alg».proof.Proof.BufStoresBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Cert.Proof.PlaneMath

/-- One trip of the frame loop on scratch buffer 1: the two end cells of row `k + 1` are zeroed. -/
theorem tripA1 (k1_h : k1_cond3 L = 1#1) (k : Fin k1_t3_loop.trips) (g' : Buf (Elt F) ((V d (cV L) (jV L)).loc cc1_scratch1)) :
    ((bW1).view.loc (V d (cV L) (jV L)) ↦{fullShare} g' : sProp 𝕄)
      ⊢ wp frame (wpE (defs₀ (F := F)) 𝒱₀ (V d (cV L) (jV L)) none) Set.univ
          (k1_t3_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => (bW1).view.loc (V d (cV L) (jV L)) ↦{fullShare}
            (fun y : S128x128.Idx => if (y 0).val = k.val + 1 ∧ eN (y 1).val then zeroF (F := F) else g' y) := by
  unfold k1_t3_body
  iintro Hb
  sl_exec
  sl_step
  refine (Entails.of_eq (congrArg (fun c => ((bW1).view.loc (V d (cV L) (jV L)) ↦{fullShare} c : sProp 𝕄)) ?_)).trans .rfl
  funext y
  have o2 : k1_off12 k 1 = 0 := by rw [k1_off12_eq]; rfl
  have o3 : k1_off13 k 1 = 112 := by rw [k1_off13_eq]; rfl
  refine (two_stores1 (F := F) g'
    (fun y' : S128x128.Idx => if (y' 1).val = 0 then zeroF (F := F) else g' y')
    (fun y' : S128x128.Idx => if (y' 1).val = 127 then zeroF (F := F) else g' y') ?h2 ?h3 y).trans ?_
  case h2 =>
    intro x
    unfold k1_pay43
    rw [firstLane_apply]
    have e1 : (((Rect.unit (s := S128x128) (k1_off12 k) S1x16.size (k1_off12_inb L k k1_h)).emb x) 1).val = (x 1).val := by
      rw [Rect.emb_apply]; show k1_off12 k 1 + 1 * (x 1).val = _; omega
    simp only [e1]
    rfl
  case h3 =>
    intro x
    unfold k1_pay44 tripA1.sl.v187
    rw [lastLane_apply]
    have e1 : (((Rect.unit (s := S128x128) (k1_off13 k) S1x16.size (k1_off13_inb L k k1_h)).emb x) 1).val = 112 + (x 1).val := by
      rw [Rect.emb_apply]; show k1_off13 k 1 + 1 * (x 1).val = _; omega
    have e2 : ((x 1).val = 15) = (112 + (x 1).val = 127) := by apply propext; omega
    simp only [e1, e2]
    rfl
  simp only [Rect.mem_set_unit, Fin.forall_fin_two, k1_off12_eq, k1_off13_eq]
  have a0 : (![k.val + 1, 112] : Fin 2 → ℕ) 0 = k.val + 1 := rfl
  have a1 : (![k.val + 1, 112] : Fin 2 → ℕ) 1 = 112 := rfl
  have b0 : (![k.val + 1, 0] : Fin 2 → ℕ) 0 = k.val + 1 := rfl
  have b1 : (![k.val + 1, 0] : Fin 2 → ℕ) 1 = 0 := rfl
  have s0 : (![1, 16] : Fin 2 → ℕ) 0 = 1 := rfl
  have s1 : (![1, 16] : Fin 2 → ℕ) 1 = 16 := rfl
  simp only [a0, a1, b0, b1, s0, s1]
  have h1 : (y 1).val < 128 := (y 1).isLt
  coord_cases

end Cert.Proof.KB

end
-- ==== Proof.TripB1Bits.lean ====
/-
  One trip of a vector subcore's fill loop on its second scratch buffer: on a boundary plane a trip zeroes row k whole and
  leaves every other row.
-/
import proofs.«203824_g32177894982282_cont_8to1_b_1676_14_alg».proof.Proof.BufStoresBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Cert.Proof.PlaneMath

/-- One trip of the fill loop on scratch buffer 1: row `k` is zeroed whole, sixteen cells at a time. -/
theorem tripB1 (v2 : BitVec 32) (v6 v8 : IVec S16 1) (k1_h : k1_cond4 L = 1#1) (k : Fin k1_t4_loop.trips) (g' : Buf (Elt F) ((V d (cV L) (jV L)).loc cc1_scratch1)) :
    ((bW1).view.loc (V d (cV L) (jV L)) ↦{fullShare} g' : sProp 𝕄)
      ⊢ wp frame (wpE (defs₀ (F := F)) 𝒱₀ (V d (cV L) (jV L)) none) Set.univ
          (k1_t4_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => (bW1).view.loc (V d (cV L) (jV L)) ↦{fullShare}
            (fun y : S128x128.Idx => if (y 0).val = k.val then zeroF (F := F) else g' y) := by
  unfold k1_t4_body
  iintro Hb
  sl_exec
  sl_step
  refine (Entails.of_eq (congrArg (fun c => ((bW1).view.loc (V d (cV L) (jV L)) ↦{fullShare} c : sProp 𝕄)) ?_)).trans .rfl
  funext y
  refine (const_stores1 (F := F) g' (zeroF (F := F)) _ ?hz y).trans ?_
  case hz =>
    intro p hp x
    simp only [List.mem_cons, List.not_mem_nil, or_false] at hp
    rcases hp with rfl | rfl | rfl | rfl | rfl | rfl | rfl | rfl <;> exact zeroRow_apply x
  refine if_congr ?_ rfl rfl
  simp only [List.mem_cons, List.not_mem_nil, or_false, exists_eq_or_imp, exists_eq_left, Rect.mem_set_unit, Fin.forall_fin_two,
    k1_off14_eq, k1_off15_eq, k1_off16_eq, k1_off17_eq, k1_off18_eq, k1_off19_eq, k1_off20_eq, k1_off21_eq]
  have h1 : (y 1).val < 128 := (y 1).isLt
  simp; omega

end Cert.Proof.KB

end
-- ==== Proof.TripA2Bits.lean ====
/-
  One trip of a vector subcore's frame loop on its third scratch buffer: inside the grid a trip zeroes the two end cells
  of row k + 1 and leaves every other cell.
-/
import proofs.«203824_g32177894982282_cont_8to1_b_1676_14_alg».proof.Proof.BufStoresBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Cert.Proof.PlaneMath

/-- One trip of the frame loop on scratch buffer 2: the two end cells of row `k + 1` are zeroed. -/
theorem tripA2 (k1_h : k1_cond5 L = 1#1) (k : Fin k1_t5_loop.trips) (g' : Buf (Elt F) ((V d (cV L) (jV L)).loc cc1_scratch2)) :
    ((bW2).view.loc (V d (cV L) (jV L)) ↦{fullShare} g' : sProp 𝕄)
      ⊢ wp frame (wpE (defs₀ (F := F)) 𝒱₀ (V d (cV L) (jV L)) none) Set.univ
          (k1_t5_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => (bW2).view.loc (V d (cV L) (jV L)) ↦{fullShare}
            (fun y : S128x128.Idx => if (y 0).val = k.val + 1 ∧ eN (y 1).val then zeroF (F := F) else g' y) := by
  unfold k1_t5_body
  iintro Hb
  sl_exec
  sl_step
  refine (Entails.of_eq (congrArg (fun c => ((bW2).view.loc (V d (cV L) (jV L)) ↦{fullShare} c : sProp 𝕄)) ?_)).trans .rfl
  funext y
  have o2 : k1_off22 k 1 = 0 := by rw [k1_off22_eq]; rfl
  have o3 : k1_off23 k 1 = 112 := by rw [k1_off23_eq]; rfl
  refine (two_stores2 (F := F) g'
    (fun y' : S128x128.Idx => if (y' 1).val = 0 then zeroF (F := F) else g' y')
    (fun y' : S128x128.Idx => if (y' 1).val = 127 then zeroF (F := F) else g' y') ?h2 ?h3 y).trans ?_
  case h2 =>
    intro x
    unfold k1_pay61
    rw [firstLane_apply]
    have e1 : (((Rect.unit (s := S128x128) (k1_off22 k) S1x16.size (k1_off22_inb L k k1_h)).emb x) 1).val = (x 1).val := by
      rw [Rect.emb_apply]; show k1_off22 k 1 + 1 * (x 1).val = _; omega
    simp only [e1]
    rfl
  case h3 =>
    intro x
    unfold k1_pay62 tripA2.sl.v187
    rw [lastLane_apply]
    have e1 : (((Rect.unit (s := S128x128) (k1_off23 k) S1x16.size (k1_off23_inb L k k1_h)).emb x) 1).val = 112 + (x 1).val := by
      rw [Rect.emb_apply]; show k1_off23 k 1 + 1 * (x 1).val = _; omega
    have e2 : ((x 1).val = 15) = (112 + (x 1).val = 127) := by apply propext; omega
    simp only [e1, e2]
    rfl
  simp only [Rect.mem_set_unit, Fin.forall_fin_two, k1_off22_eq, k1_off23_eq]
  have a0 : (![k.val + 1, 112] : Fin 2 → ℕ) 0 = k.val + 1 := rfl
  have a1 : (![k.val + 1, 112] : Fin 2 → ℕ) 1 = 112 := rfl
  have b0 : (![k.val + 1, 0] : Fin 2 → ℕ) 0 = k.val + 1 := rfl
  have b1 : (![k.val + 1, 0] : Fin 2 → ℕ) 1 = 0 := rfl
  have s0 : (![1, 16] : Fin 2 → ℕ) 0 = 1 := rfl
  have s1 : (![1, 16] : Fin 2 → ℕ) 1 = 16 := rfl
  simp only [a0, a1, b0, b1, s0, s1]
  have h1 : (y 1).val < 128 := (y 1).isLt
  coord_cases

end Cert.Proof.KB

end
-- ==== Proof.TripB2Bits.lean ====
/-
  One trip of a vector subcore's fill loop on its third scratch buffer: on a boundary plane a trip zeroes row k whole and
  leaves every other row.
-/
import proofs.«203824_g32177894982282_cont_8to1_b_1676_14_alg».proof.Proof.BufStoresBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Cert.Proof.PlaneMath

/-- One trip of the fill loop on scratch buffer 2: row `k` is zeroed whole, sixteen cells at a time. -/
theorem tripB2 (v2 : BitVec 32) (v6 v8 : IVec S16 1) (k1_h : k1_cond6 L = 1#1) (k : Fin k1_t6_loop.trips) (g' : Buf (Elt F) ((V d (cV L) (jV L)).loc cc1_scratch2)) :
    ((bW2).view.loc (V d (cV L) (jV L)) ↦{fullShare} g' : sProp 𝕄)
      ⊢ wp frame (wpE (defs₀ (F := F)) 𝒱₀ (V d (cV L) (jV L)) none) Set.univ
          (k1_t6_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => (bW2).view.loc (V d (cV L) (jV L)) ↦{fullShare}
            (fun y : S128x128.Idx => if (y 0).val = k.val then zeroF (F := F) else g' y) := by
  unfold k1_t6_body
  iintro Hb
  sl_exec
  sl_step
  refine (Entails.of_eq (congrArg (fun c => ((bW2).view.loc (V d (cV L) (jV L)) ↦{fullShare} c : sProp 𝕄)) ?_)).trans .rfl
  funext y
  refine (const_stores2 (F := F) g' (zeroF (F := F)) _ ?hz y).trans ?_
  case hz =>
    intro p hp x
    simp only [List.mem_cons, List.not_mem_nil, or_false] at hp
    rcases hp with rfl | rfl | rfl | rfl | rfl | rfl | rfl | rfl <;> exact zeroRow_apply x
  refine if_congr ?_ rfl rfl
  simp only [List.mem_cons, List.not_mem_nil, or_false, exists_eq_or_imp, exists_eq_left, Rect.mem_set_unit, Fin.forall_fin_two,
    k1_off24_eq, k1_off25_eq, k1_off26_eq, k1_off27_eq, k1_off28_eq, k1_off29_eq, k1_off30_eq, k1_off31_eq]
  have h1 : (y 1).val < 128 := (y 1).isLt
  simp; omega

end Cert.Proof.KB

end
-- ==== Proof.TripA3Bits.lean ====
/-
  One trip of a vector subcore's frame loop on its fourth scratch buffer: inside the grid a trip zeroes the two end cells
  of row k + 1 and leaves every other cell.
-/
import proofs.«203824_g32177894982282_cont_8to1_b_1676_14_alg».proof.Proof.BufStoresBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Cert.Proof.PlaneMath

/-- One trip of the frame loop on scratch buffer 3: the two end cells of row `k + 1` are zeroed. -/
theorem tripA3 (k1_h : k1_cond7 L = 1#1) (k : Fin k1_t7_loop.trips) (g' : Buf (Elt F) ((V d (cV L) (jV L)).loc cc1_scratch3)) :
    ((bW3).view.loc (V d (cV L) (jV L)) ↦{fullShare} g' : sProp 𝕄)
      ⊢ wp frame (wpE (defs₀ (F := F)) 𝒱₀ (V d (cV L) (jV L)) none) Set.univ
          (k1_t7_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => (bW3).view.loc (V d (cV L) (jV L)) ↦{fullShare}
            (fun y : S128x128.Idx => if (y 0).val = k.val + 1 ∧ eN (y 1).val then zeroF (F := F) else g' y) := by
  unfold k1_t7_body
  iintro Hb
  sl_exec
  sl_step
  refine (Entails.of_eq (congrArg (fun c => ((bW3).view.loc (V d (cV L) (jV L)) ↦{fullShare} c : sProp 𝕄)) ?_)).trans .rfl
  funext y
  have o2 : k1_off32 k 1 = 0 := by rw [k1_off32_eq]; rfl
  have o3 : k1_off33 k 1 = 112 := by rw [k1_off33_eq]; rfl
  refine (two_stores3 (F := F) g'
    (fun y' : S128x128.Idx => if (y' 1).val = 0 then zeroF (F := F) else g' y')
    (fun y' : S128x128.Idx => if (y' 1).val = 127 then zeroF (F := F) else g' y') ?h2 ?h3 y).trans ?_
  case h2 =>
    intro x
    unfold k1_pay79
    rw [firstLane_apply]
    have e1 : (((Rect.unit (s := S128x128) (k1_off32 k) S1x16.size (k1_off32_inb L k k1_h)).emb x) 1).val = (x 1).val := by
      rw [Rect.emb_apply]; show k1_off32 k 1 + 1 * (x 1).val = _; omega
    simp only [e1]
    rfl
  case h3 =>
    intro x
    unfold k1_pay80 tripA3.sl.v187
    rw [lastLane_apply]
    have e1 : (((Rect.unit (s := S128x128) (k1_off33 k) S1x16.size (k1_off33_inb L k k1_h)).emb x) 1).val = 112 + (x 1).val := by
      rw [Rect.emb_apply]; show k1_off33 k 1 + 1 * (x 1).val = _; omega
    have e2 : ((x 1).val = 15) = (112 + (x 1).val = 127) := by apply propext; omega
    simp only [e1, e2]
    rfl
  simp only [Rect.mem_set_unit, Fin.forall_fin_two, k1_off32_eq, k1_off33_eq]
  have a0 : (![k.val + 1, 112] : Fin 2 → ℕ) 0 = k.val + 1 := rfl
  have a1 : (![k.val + 1, 112] : Fin 2 → ℕ) 1 = 112 := rfl
  have b0 : (![k.val + 1, 0] : Fin 2 → ℕ) 0 = k.val + 1 := rfl
  have b1 : (![k.val + 1, 0] : Fin 2 → ℕ) 1 = 0 := rfl
  have s0 : (![1, 16] : Fin 2 → ℕ) 0 = 1 := rfl
  have s1 : (![1, 16] : Fin 2 → ℕ) 1 = 16 := rfl
  simp only [a0, a1, b0, b1, s0, s1]
  have h1 : (y 1).val < 128 := (y 1).isLt
  coord_cases

end Cert.Proof.KB

end
-- ==== Proof.TripB3Bits.lean ====
/-
  One trip of a vector subcore's fill loop on its fourth scratch buffer: on a boundary plane a trip zeroes row k whole and
  leaves every other row.
-/
import proofs.«203824_g32177894982282_cont_8to1_b_1676_14_alg».proof.Proof.BufStoresBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Cert.Proof.PlaneMath

/-- One trip of the fill loop on scratch buffer 3: row `k` is zeroed whole, sixteen cells at a time. -/
theorem tripB3 (k1_h : k1_cond8 L = 1#1) (k : Fin k1_t8_loop.trips) (g' : Buf (Elt F) ((V d (cV L) (jV L)).loc cc1_scratch3)) :
    ((bW3).view.loc (V d (cV L) (jV L)) ↦{fullShare} g' : sProp 𝕄)
      ⊢ wp frame (wpE (defs₀ (F := F)) 𝒱₀ (V d (cV L) (jV L)) none) Set.univ
          (k1_t8_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_h k ⟨⟩)
          fun _ => (bW3).view.loc (V d (cV L) (jV L)) ↦{fullShare}
            (fun y : S128x128.Idx => if (y 0).val = k.val then zeroF (F := F) else g' y) := by
  unfold k1_t8_body
  iintro Hb
  sl_exec
  sl_step
  refine (Entails.of_eq (congrArg (fun c => ((bW3).view.loc (V d (cV L) (jV L)) ↦{fullShare} c : sProp 𝕄)) ?_)).trans .rfl
  funext y
  refine (const_stores3 (F := F) g' (zeroF (F := F)) _ ?hz y).trans ?_
  case hz =>
    intro p hp x
    simp only [List.mem_cons, List.not_mem_nil, or_false] at hp
    rcases hp with rfl | rfl | rfl | rfl | rfl | rfl | rfl | rfl <;> exact zeroRow_apply x
  refine if_congr ?_ rfl rfl
  simp only [List.mem_cons, List.not_mem_nil, or_false, exists_eq_or_imp, exists_eq_left, Rect.mem_set_unit, Fin.forall_fin_two,
    k1_off34_eq, k1_off35_eq, k1_off36_eq, k1_off37_eq, k1_off38_eq, k1_off39_eq, k1_off40_eq, k1_off41_eq]
  have h1 : (y 1).val < 128 := (y 1).isLt
  simp; omega

end Cert.Proof.KB

end
-- ==== Proof.TileEmbBits.lean ====
/-
  Where the cells of a step's plane sit in the grid array: cell [y, x] of the sliced plane z is cell [z, y, x], for the
  operand's plane and for the result's. With it, the value a plane of the result must hold, cell by cell.
-/
import proofs.«203824_g32177894982282_cont_8to1_b_1676_14_alg».proof.Proof.TileResBits
import proofs.«203824_g32177894982282_cont_8to1_b_1676_14_alg».proof.Proof.PlaneMath

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Idealize.ShloMosaic.ValueIdx Cert.Proof.PlaneMath

omit [FloatOps F] in
theorem emb_srcK (t : Fin 4) (y : S128x128.Idx) : (srcK L t).view.emb y = (ix3 (zOf L t) (y 0) (y 1) : S128x128x128.Idx) := by
  show (planeK L t).emb (Shape.reshapeEquiv squeezes_S1x128x128_S128x128.numel_eq y) = _
  have hq : Shape.reshapeEquiv squeezes_S1x128x128_S128x128.numel_eq y = (ix3 (0 : Fin 1) (y 0) (y 1) : S1x128x128.Idx) :=
    Shape.reshapeEquiv_eq_of_rowMajor _ (by rw [Shape.rowMajor_val_three, Shape.rowMajor_val_two]; simp)
  rw [hq]
  funext a
  refine Fin.ext ?_
  rw [Rect.emb_apply]
  show k1_off1 L (BitVec.ofNat 32 t.val) a + 1 * _ = _
  rw [k1_off1_eq]
  match a with
  | ⟨0, _⟩ => simp [zOf]
  | ⟨1, _⟩ => simp
  | ⟨2, _⟩ => simp

omit [FloatOps F] in
theorem emb_dstK (t : Fin 4) (y : S128x128.Idx) : (dstK L t).view.emb y = (ix3 (zOf L t) (y 0) (y 1) : S128x128x128.Idx) := emb_srcK L t y

/-- Plane `z` of the no-slip values of `w`, cell by cell: the plane's own cells of `w` with the frame zeroed, or all
    zero on the two boundary planes. -/
theorem twOut_plane (w : Buf (Elt F) (wLoc d)) (z : Fin 128) (y : S128x128.Idx) :
    twOut d w (ix3 z (y 0) (y 1)) = planeOut (zeroF (F := F)) z (fun y' : S128x128.Idx => w (ix3 z (y' 0) (y' 1))) y := by
  show Cert.Spec.valZ (zeroF (F := F)) (Cert.Spec.grid3 w) z (y 0) (y 1) = _
  have hv : Cert.Spec.valZ (zeroF (F := F)) (Cert.Spec.grid3 w) z (y 0) (y 1)
      = if eN z.val ∨ eN (y 0).val ∨ eN (y 1).val then zeroF (F := F) else w (ix3 z (y 0) (y 1)) := by
    unfold Cert.Spec.valZ Cert.Spec.grid3
    by_cases h : Cert.Spec.edge z ∨ Cert.Spec.edge (y 0) ∨ Cert.Spec.edge (y 1)
    · exact (if_pos h).trans (if_pos (show eN z.val ∨ eN (y 0).val ∨ eN (y 1).val from h)).symm
    · exact (if_neg h).trans (if_neg (show ¬ (eN z.val ∨ eN (y 0).val ∨ eN (y 1).val) from h)).symm
  rw [hv]
  unfold planeOut frameZero
  by_cases hz : eN z.val
  · rw [if_pos (Or.inl hz), if_pos hz]
  · rw [if_neg hz]
    show _ = if eN (y 0).val ∨ eN (y 1).val then zeroF (F := F) else w (ix3 z (y 0) (y 1))
    by_cases hy : eN (y 0).val ∨ eN (y 1).val
    · rw [if_pos (Or.inr hy), if_pos hy]
    · rw [if_neg (fun h => h.elim hz hy), if_neg hy]

end Cert.Proof.KB

end
-- ==== Proof.TileLoopsBits.lean ====
/-
  The two row loops of each step of a vector subcore, by invariant. With c the step's plane of the operand as copied
  into the scratch buffer: after k trips of the frame loop the buffer holds c with rows 0 and 127 zeroed and, in rows
  1 … k, the two end cells zeroed; after k trips of the fill loop it holds c with rows 0 … k − 1 zeroed whole.
-/
import proofs.«203824_g32177894982282_cont_8to1_b_1676_14_alg».proof.Proof.TripA0Bits
import proofs.«203824_g32177894982282_cont_8to1_b_1676_14_alg».proof.Proof.TripB0Bits
import proofs.«203824_g32177894982282_cont_8to1_b_1676_14_alg».proof.Proof.TripA1Bits
import proofs.«203824_g32177894982282_cont_8to1_b_1676_14_alg».proof.Proof.TripB1Bits
import proofs.«203824_g32177894982282_cont_8to1_b_1676_14_alg».proof.Proof.TripA2Bits
import proofs.«203824_g32177894982282_cont_8to1_b_1676_14_alg».proof.Proof.TripB2Bits
import proofs.«203824_g32177894982282_cont_8to1_b_1676_14_alg».proof.Proof.TripA3Bits
import proofs.«203824_g32177894982282_cont_8to1_b_1676_14_alg».proof.Proof.TripB3Bits
import proofs.«203824_g32177894982282_cont_8to1_b_1676_14_alg».proof.Proof.TileEmbBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Idealize.ShloMosaic.ValueIdx Cert.Proof.PlaneMath

/-- Plane `z` of a grid array, as a plane [y, x]. -/
def planeOf (w : Buf (Elt F) (wLoc d)) (z : Fin 128) : S128x128.Idx → Elt F .f32 := fun y => w (ix3 z (y 0) (y 1))

/-- What a copy of step `t`'s plane of the operand reads: that plane. -/
theorem read_srcK (t : Fin 4) : View.read (Elt F) (srcK L t).view w = planeOf d w (zOf L t) := by
  funext y
  show w ((srcK L t).view.emb y) = _
  rw [emb_srcK]; rfl

/-! ## Scratch buffer 0 -/

/-- Stores of zero rows into buffer 0: a cell in any of the rectangles is zero, the others keep their contents. -/
theorem zero_rows0 (f : S128x128.Idx → Elt F .f32) (Ls : List (View.Piece (Elt F) S128x128 .f32))
    (hz : ∀ p ∈ Ls, ∀ x, p.2 x = zeroF (F := F)) (Pc : S128x128.Idx → Prop) [DecidablePred Pc]
    (hcov : ∀ y, (∃ p ∈ Ls, y ∈ p.1.set) ↔ Pc y) :
    (bW0).view.writes (Elt F) f Ls = fun y => if Pc y then zeroF (F := F) else f y := by
  funext y
  refine (const_stores0 (F := F) f (zeroF (F := F)) Ls hz y).trans ?_
  exact if_congr (hcov y) rfl rfl

/-- The frame loop's invariant on buffer 0. -/
def invA0 (c : S128x128.Idx → Elt F .f32) (k : Nat) (_ : PUnit.{1}) : sProp 𝕄 :=
  iprop(∃ g' : Buf (Elt F) ((V d (cV L) (jV L)).loc cc1_scratch0),
    ((bW0).view.loc (V d (cV L) (jV L)) ↦{fullShare} g') ∗ ⌜g' = frameUpTo (zeroF (F := F)) c k⌝)
/-- The fill loop's invariant on buffer 0. -/
def invB0 (c : S128x128.Idx → Elt F .f32) (k : Nat) (_ : PUnit.{1}) : sProp 𝕄 :=
  iprop(∃ g' : Buf (Elt F) ((V d (cV L) (jV L)).loc cc1_scratch0),
    ((bW0).view.loc (V d (cV L) (jV L)) ↦{fullShare} g') ∗ ⌜g' = fillUpTo (zeroF (F := F)) c k⌝)

theorem regionA0 (c : S128x128.Idx → Elt F .f32) (k1_h : k1_cond1 L = 1#1) (k : Fin k1_t1_loop.trips) :
    invA0 (F := F) d L c k.val ⟨⟩
      ⊢ wp frame (wpE (defs₀ (F := F)) 𝒱₀ (V d (cV L) (jV L)) none) Set.univ
          (k1_t1_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => invA0 (F := F) d L c (k.val + 1) ⟨⟩ := by
  have hQ : ∀ _ : Unit, ((bW0).view.loc (V d (cV L) (jV L)) ↦{fullShare}
        (fun y : S128x128.Idx => if (y 0).val = k.val + 1 ∧ eN (y 1).val then zeroF (F := F) else frameUpTo (zeroF (F := F)) c k.val y) : sProp 𝕄)
      ⊢ invA0 (F := F) d L c (k.val + 1) ⟨⟩ := fun _ => by
    unfold invA0
    iintro Hb
    iexists _
    isplitl [Hb]; · iexact Hb
    ipureintro; exact frameUpTo_succ _ c k.val
  unfold invA0
  iintro ⟨%g', Hb, %hg⟩
  subst hg
  iapply ((tripA0 (F := F) d L k1_h k _).trans (wp_mono frame _ _ hQ)) $$ Hb

theorem regionB0 (c : S128x128.Idx → Elt F .f32) (v2 : BitVec 32) (v6 v8 : IVec S16 1) (k1_h : k1_cond2 L = 1#1) (k : Fin k1_t2_loop.trips) :
    invB0 (F := F) d L c k.val ⟨⟩
      ⊢ wp frame (wpE (defs₀ (F := F)) 𝒱₀ (V d (cV L) (jV L)) none) Set.univ
          (k1_t2_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => invB0 (F := F) d L c (k.val + 1) ⟨⟩ := by
  have hQ : ∀ _ : Unit, ((bW0).view.loc (V d (cV L) (jV L)) ↦{fullShare}
        (fun y : S128x128.Idx => if (y 0).val = k.val then zeroF (F := F) else fillUpTo (zeroF (F := F)) c k.val y) : sProp 𝕄)
      ⊢ invB0 (F := F) d L c (k.val + 1) ⟨⟩ := fun _ => by
    unfold invB0
    iintro Hb
    iexists _
    isplitl [Hb]; · iexact Hb
    ipureintro; exact fillUpTo_succ _ c k.val
  unfold invB0
  iintro ⟨%g', Hb, %hg⟩
  subst hg
  iapply ((tripB0 (F := F) d L v2 v6 v8 k1_h k _).trans (wp_mono frame _ _ hQ)) $$ Hb

/-! ## Scratch buffer 1 -/

/-- Stores of zero rows into buffer 1: a cell in any of the rectangles is zero, the others keep their contents. -/
theorem zero_rows1 (f : S128x128.Idx → Elt F .f32) (Ls : List (View.Piece (Elt F) S128x128 .f32))
    (hz : ∀ p ∈ Ls, ∀ x, p.2 x = zeroF (F := F)) (Pc : S128x128.Idx → Prop) [DecidablePred Pc]
    (hcov : ∀ y, (∃ p ∈ Ls, y ∈ p.1.set) ↔ Pc y) :
    (bW1).view.writes (Elt F) f Ls = fun y => if Pc y then zeroF (F := F) else f y := by
  funext y
  refine (const_stores1 (F := F) f (zeroF (F := F)) Ls hz y).trans ?_
  exact if_congr (hcov y) rfl rfl

/-- The frame loop's invariant on buffer 1. -/
def invA1 (c : S128x128.Idx → Elt F .f32) (k : Nat) (_ : PUnit.{1}) : sProp 𝕄 :=
  iprop(∃ g' : Buf (Elt F) ((V d (cV L) (jV L)).loc cc1_scratch1),
    ((bW1).view.loc (V d (cV L) (jV L)) ↦{fullShare} g') ∗ ⌜g' = frameUpTo (zeroF (F := F)) c k⌝)
/-- The fill loop's invariant on buffer 1. -/
def invB1 (c : S128x128.Idx → Elt F .f32) (k : Nat) (_ : PUnit.{1}) : sProp 𝕄 :=
  iprop(∃ g' : Buf (Elt F) ((V d (cV L) (jV L)).loc cc1_scratch1),
    ((bW1).view.loc (V d (cV L) (jV L)) ↦{fullShare} g') ∗ ⌜g' = fillUpTo (zeroF (F := F)) c k⌝)

theorem regionA1 (c : S128x128.Idx → Elt F .f32) (k1_h : k1_cond3 L = 1#1) (k : Fin k1_t3_loop.trips) :
    invA1 (F := F) d L c k.val ⟨⟩
      ⊢ wp frame (wpE (defs₀ (F := F)) 𝒱₀ (V d (cV L) (jV L)) none) Set.univ
          (k1_t3_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => invA1 (F := F) d L c (k.val + 1) ⟨⟩ := by
  have hQ : ∀ _ : Unit, ((bW1).view.loc (V d (cV L) (jV L)) ↦{fullShare}
        (fun y : S128x128.Idx => if (y 0).val = k.val + 1 ∧ eN (y 1).val then zeroF (F := F) else frameUpTo (zeroF (F := F)) c k.val y) : sProp 𝕄)
      ⊢ invA1 (F := F) d L c (k.val + 1) ⟨⟩ := fun _ => by
    unfold invA1
    iintro Hb
    iexists _
    isplitl [Hb]; · iexact Hb
    ipureintro; exact frameUpTo_succ _ c k.val
  unfold invA1
  iintro ⟨%g', Hb, %hg⟩
  subst hg
  iapply ((tripA1 (F := F) d L k1_h k _).trans (wp_mono frame _ _ hQ)) $$ Hb

theorem regionB1 (c : S128x128.Idx → Elt F .f32) (v2 : BitVec 32) (v6 v8 : IVec S16 1) (k1_h : k1_cond4 L = 1#1) (k : Fin k1_t4_loop.trips) :
    invB1 (F := F) d L c k.val ⟨⟩
      ⊢ wp frame (wpE (defs₀ (F := F)) 𝒱₀ (V d (cV L) (jV L)) none) Set.univ
          (k1_t4_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => invB1 (F := F) d L c (k.val + 1) ⟨⟩ := by
  have hQ : ∀ _ : Unit, ((bW1).view.loc (V d (cV L) (jV L)) ↦{fullShare}
        (fun y : S128x128.Idx => if (y 0).val = k.val then zeroF (F := F) else fillUpTo (zeroF (F := F)) c k.val y) : sProp 𝕄)
      ⊢ invB1 (F := F) d L c (k.val + 1) ⟨⟩ := fun _ => by
    unfold invB1
    iintro Hb
    iexists _
    isplitl [Hb]; · iexact Hb
    ipureintro; exact fillUpTo_succ _ c k.val
  unfold invB1
  iintro ⟨%g', Hb, %hg⟩
  subst hg
  iapply ((tripB1 (F := F) d L v2 v6 v8 k1_h k _).trans (wp_mono frame _ _ hQ)) $$ Hb

/-! ## Scratch buffer 2 -/

/-- Stores of zero rows into buffer 2: a cell in any of the rectangles is zero, the others keep their contents. -/
theorem zero_rows2 (f : S128x128.Idx → Elt F .f32) (Ls : List (View.Piece (Elt F) S128x128 .f32))
    (hz : ∀ p ∈ Ls, ∀ x, p.2 x = zeroF (F := F)) (Pc : S128x128.Idx → Prop) [DecidablePred Pc]
    (hcov : ∀ y, (∃ p ∈ Ls, y ∈ p.1.set) ↔ Pc y) :
    (bW2).view.writes (Elt F) f Ls = fun y => if Pc y then zeroF (F := F) else f y := by
  funext y
  refine (const_stores2 (F := F) f (zeroF (F := F)) Ls hz y).trans ?_
  exact if_congr (hcov y) rfl rfl

/-- The frame loop's invariant on buffer 2. -/
def invA2 (c : S128x128.Idx → Elt F .f32) (k : Nat) (_ : PUnit.{1}) : sProp 𝕄 :=
  iprop(∃ g' : Buf (Elt F) ((V d (cV L) (jV L)).loc cc1_scratch2),
    ((bW2).view.loc (V d (cV L) (jV L)) ↦{fullShare} g') ∗ ⌜g' = frameUpTo (zeroF (F := F)) c k⌝)
/-- The fill loop's invariant on buffer 2. -/
def invB2 (c : S128x128.Idx → Elt F .f32) (k : Nat) (_ : PUnit.{1}) : sProp 𝕄 :=
  iprop(∃ g' : Buf (Elt F) ((V d (cV L) (jV L)).loc cc1_scratch2),
    ((bW2).view.loc (V d (cV L) (jV L)) ↦{fullShare} g') ∗ ⌜g' = fillUpTo (zeroF (F := F)) c k⌝)

theorem regionA2 (c : S128x128.Idx → Elt F .f32) (k1_h : k1_cond5 L = 1#1) (k : Fin k1_t5_loop.trips) :
    invA2 (F := F) d L c k.val ⟨⟩
      ⊢ wp frame (wpE (defs₀ (F := F)) 𝒱₀ (V d (cV L) (jV L)) none) Set.univ
          (k1_t5_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => invA2 (F := F) d L c (k.val + 1) ⟨⟩ := by
  have hQ : ∀ _ : Unit, ((bW2).view.loc (V d (cV L) (jV L)) ↦{fullShare}
        (fun y : S128x128.Idx => if (y 0).val = k.val + 1 ∧ eN (y 1).val then zeroF (F := F) else frameUpTo (zeroF (F := F)) c k.val y) : sProp 𝕄)
      ⊢ invA2 (F := F) d L c (k.val + 1) ⟨⟩ := fun _ => by
    unfold invA2
    iintro Hb
    iexists _
    isplitl [Hb]; · iexact Hb
    ipureintro; exact frameUpTo_succ _ c k.val
  unfold invA2
  iintro ⟨%g', Hb, %hg⟩
  subst hg
  iapply ((tripA2 (F := F) d L k1_h k _).trans (wp_mono frame _ _ hQ)) $$ Hb

theorem regionB2 (c : S128x128.Idx → Elt F .f32) (v2 : BitVec 32) (v6 v8 : IVec S16 1) (k1_h : k1_cond6 L = 1#1) (k : Fin k1_t6_loop.trips) :
    invB2 (F := F) d L c k.val ⟨⟩
      ⊢ wp frame (wpE (defs₀ (F := F)) 𝒱₀ (V d (cV L) (jV L)) none) Set.univ
          (k1_t6_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 v2 k1_pay81 v6 v8 k1_h k ⟨⟩)
          fun _ => invB2 (F := F) d L c (k.val + 1) ⟨⟩ := by
  have hQ : ∀ _ : Unit, ((bW2).view.loc (V d (cV L) (jV L)) ↦{fullShare}
        (fun y : S128x128.Idx => if (y 0).val = k.val then zeroF (F := F) else fillUpTo (zeroF (F := F)) c k.val y) : sProp 𝕄)
      ⊢ invB2 (F := F) d L c (k.val + 1) ⟨⟩ := fun _ => by
    unfold invB2
    iintro Hb
    iexists _
    isplitl [Hb]; · iexact Hb
    ipureintro; exact fillUpTo_succ _ c k.val
  unfold invB2
  iintro ⟨%g', Hb, %hg⟩
  subst hg
  iapply ((tripB2 (F := F) d L v2 v6 v8 k1_h k _).trans (wp_mono frame _ _ hQ)) $$ Hb

/-! ## Scratch buffer 3 -/

/-- Stores of zero rows into buffer 3: a cell in any of the rectangles is zero, the others keep their contents. -/
theorem zero_rows3 (f : S128x128.Idx → Elt F .f32) (Ls : List (View.Piece (Elt F) S128x128 .f32))
    (hz : ∀ p ∈ Ls, ∀ x, p.2 x = zeroF (F := F)) (Pc : S128x128.Idx → Prop) [DecidablePred Pc]
    (hcov : ∀ y, (∃ p ∈ Ls, y ∈ p.1.set) ↔ Pc y) :
    (bW3).view.writes (Elt F) f Ls = fun y => if Pc y then zeroF (F := F) else f y := by
  funext y
  refine (const_stores3 (F := F) f (zeroF (F := F)) Ls hz y).trans ?_
  exact if_congr (hcov y) rfl rfl

/-- The frame loop's invariant on buffer 3. -/
def invA3 (c : S128x128.Idx → Elt F .f32) (k : Nat) (_ : PUnit.{1}) : sProp 𝕄 :=
  iprop(∃ g' : Buf (Elt F) ((V d (cV L) (jV L)).loc cc1_scratch3),
    ((bW3).view.loc (V d (cV L) (jV L)) ↦{fullShare} g') ∗ ⌜g' = frameUpTo (zeroF (F := F)) c k⌝)
/-- The fill loop's invariant on buffer 3. -/
def invB3 (c : S128x128.Idx → Elt F .f32) (k : Nat) (_ : PUnit.{1}) : sProp 𝕄 :=
  iprop(∃ g' : Buf (Elt F) ((V d (cV L) (jV L)).loc cc1_scratch3),
    ((bW3).view.loc (V d (cV L) (jV L)) ↦{fullShare} g') ∗ ⌜g' = fillUpTo (zeroF (F := F)) c k⌝)

theorem regionA3 (c : S128x128.Idx → Elt F .f32) (k1_h : k1_cond7 L = 1#1) (k : Fin k1_t7_loop.trips) :
    invA3 (F := F) d L c k.val ⟨⟩
      ⊢ wp frame (wpE (defs₀ (F := F)) 𝒱₀ (V d (cV L) (jV L)) none) Set.univ
          (k1_t7_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_pay82 k1_pay83 k1_h k ⟨⟩)
          fun _ => invA3 (F := F) d L c (k.val + 1) ⟨⟩ := by
  have hQ : ∀ _ : Unit, ((bW3).view.loc (V d (cV L) (jV L)) ↦{fullShare}
        (fun y : S128x128.Idx => if (y 0).val = k.val + 1 ∧ eN (y 1).val then zeroF (F := F) else frameUpTo (zeroF (F := F)) c k.val y) : sProp 𝕄)
      ⊢ invA3 (F := F) d L c (k.val + 1) ⟨⟩ := fun _ => by
    unfold invA3
    iintro Hb
    iexists _
    isplitl [Hb]; · iexact Hb
    ipureintro; exact frameUpTo_succ _ c k.val
  unfold invA3
  iintro ⟨%g', Hb, %hg⟩
  subst hg
  iapply ((tripA3 (F := F) d L k1_h k _).trans (wp_mono frame _ _ hQ)) $$ Hb

theorem regionB3 (c : S128x128.Idx → Elt F .f32) (k1_h : k1_cond8 L = 1#1) (k : Fin k1_t8_loop.trips) :
    invB3 (F := F) d L c k.val ⟨⟩
      ⊢ wp frame (wpE (defs₀ (F := F)) 𝒱₀ (V d (cV L) (jV L)) none) Set.univ
          (k1_t8_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11 k1_pay81 k1_h k ⟨⟩)
          fun _ => invB3 (F := F) d L c (k.val + 1) ⟨⟩ := by
  have hQ : ∀ _ : Unit, ((bW3).view.loc (V d (cV L) (jV L)) ↦{fullShare}
        (fun y : S128x128.Idx => if (y 0).val = k.val then zeroF (F := F) else fillUpTo (zeroF (F := F)) c k.val y) : sProp 𝕄)
      ⊢ invB3 (F := F) d L c (k.val + 1) ⟨⟩ := fun _ => by
    unfold invB3
    iintro Hb
    iexists _
    isplitl [Hb]; · iexact Hb
    ipureintro; exact fillUpTo_succ _ c k.val
  unfold invB3
  iintro ⟨%g', Hb, %hg⟩
  subst hg
  iapply ((tripB3 (F := F) d L k1_h k _).trans (wp_mono frame _ _ hQ)) $$ Hb

end Cert.Proof.KB

end
-- ==== Proof.TileOutBits.lean ====
/-
  What a step's copy out leaves in the result array: the step's plane of the result holds the no-slip values of the
  operand, once the scratch buffer it was copied from held the operand's plane with its frame (or, on a boundary plane, all
  of it) zeroed.
-/
import proofs.«203824_g32177894982282_cont_8to1_b_1676_14_alg».proof.Proof.TileLoopsBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Idealize.ShloMosaic.ValueIdx Cert.Proof.PlaneMath

theorem plane_written (t : Fin 4) (pay : S128x128.Idx → Elt F .f32)
    (hp : ∀ y, pay y = planeOut (zeroF (F := F)) (zOf L t) (planeOf d w (zOf L t)) y) :
    ((dstK L t).view.loc (V d (cV L) (jV L)) ↦[(dstK L t).view.set]{fullShare}
        (dstK L t).view.writes (Elt F) f₀ [⟨Rect.whole S128x128, pay⟩] : sProp 𝕄)
      ⊢ twPlane d (twOut d w) (zOf L t) := by
  refine Entails.of_eq ?_
  rw [pts_dstK]
  refine pointsTo_congr fun i hi => ?_
  rw [← set_dstK L t] at hi
  obtain ⟨y, -, rfl⟩ := Finset.mem_map.mp hi
  have h1 := View.read_writes_cons_emb (dstK L t).view f₀ (Rect.whole S128x128) pay [] y
  rw [Rect.emb_whole_apply] at h1
  refine Eq.trans h1 ?_
  rw [hp y]
  show _ = twOut d w ((dstK L t).view.emb y)
  rw [emb_dstK, twOut_plane]
  rfl

end Cert.Proof.KB

end
-- ==== Proof.CondsBits.lean ====
/-
  Which branch each step of a vector subcore takes. Step t works on plane z = 8 s + 4 c + t. The first branch (zero the
  frame of the plane) runs when 1 ≤ z ≤ 126, the second (zero the whole plane) otherwise; only step 0 of subcore (0, 0)
  (z = 0) and step 3 of subcore (1, 15) (z = 127) take the second.
-/
import proofs.«203824_g32177894982282_cont_8to1_b_1676_14_alg».proof.Proof.PlanesBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- A plane strictly inside the grid. -/
def inner (z : Fin 128) : Prop := 1 ≤ z.val ∧ z.val ≤ 126
instance (z : Fin 128) : Decidable (inner z) := by unfold inner; infer_instance

theorem inner_iff_not_edge (z : Fin 128) : inner z ↔ ¬ Cert.Spec.edge z := by
  unfold inner Cert.Spec.edge; have := z.isLt; omega

theorem cond1_iff : ∀ L : grid1.Coords, k1_cond1 L = 1#1 ↔ inner (zOf L 0) := by decide +kernel
theorem cond2_iff : ∀ L : grid1.Coords, k1_cond2 L = 1#1 ↔ ¬ inner (zOf L 0) := by decide +kernel
theorem cond3_iff : ∀ L : grid1.Coords, k1_cond3 L = 1#1 ↔ inner (zOf L 1) := by decide +kernel
theorem cond4_iff : ∀ L : grid1.Coords, k1_cond4 L = 1#1 ↔ ¬ inner (zOf L 1) := by decide +kernel
theorem cond5_iff : ∀ L : grid1.Coords, k1_cond5 L = 1#1 ↔ inner (zOf L 2) := by decide +kernel
theorem cond6_iff : ∀ L : grid1.Coords, k1_cond6 L = 1#1 ↔ ¬ inner (zOf L 2) := by decide +kernel
theorem cond7_iff : ∀ L : grid1.Coords, k1_cond7 L = 1#1 ↔ inner (zOf L 3) := by decide +kernel
theorem cond8_iff : ∀ L : grid1.Coords, k1_cond8 L = 1#1 ↔ ¬ inner (zOf L 3) := by decide +kernel

end Cert.Proof.KB

end
-- ==== Proof.TileBits.lean ====
/-
  The task of one vector subcore, run from its four planes of the operand and of the result array: the four copies in are
  issued, then for each plane in turn its copy is awaited, the plane is zeroed in its scratch buffer — its frame if it lies
  inside the grid, all of it if it is one of the two boundary planes — and copied out; last the four copies out are
  awaited. Each scratch buffer has its own pair of semaphores and is touched only between its copy in's wait and its copy
  out's issue. The subcore hands back its planes of the operand unchanged and its planes of the result at the no-slip
  values of the operand.
-/
import proofs.«203824_g32177894982282_cont_8to1_b_1676_14_alg».proof.Proof.TileOutBits
import proofs.«203824_g32177894982282_cont_8to1_b_1676_14_alg».proof.Proof.CondsBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid1.Coords)

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]
variable (w : Buf (Elt F) (wLoc d)) (f₀ : Buf (Elt F) (twLoc d))

open Idealize.ShloMosaic.ValueIdx Cert.Proof.PlaneMath

/-- Steps 1 and 2 of every subcore work on planes strictly inside the grid. -/
theorem inner_z1 (L : grid1.Coords) : inner (zOf L 1) := by
  have h0 : (L 0).val < 2 := (L 0).isLt
  have h1 : (L 1).val < 16 := (L 1).isLt
  have hz : (zOf L 1).val = 8 * (L 1).val + 4 * (L 0).val + 1 := rfl
  unfold inner; rw [hz]; omega
theorem inner_z2 (L : grid1.Coords) : inner (zOf L 2) := by
  have h0 : (L 0).val < 2 := (L 0).isLt
  have h1 : (L 1).val < 16 := (L 1).isLt
  have hz : (zOf L 2).val = 8 * (L 1).val + 4 * (L 0).val + 2 := rfl
  unfold inner; rw [hz]; omega

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ goV d w f₀ L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L wW (Memref.isWhole_whole _) twW (Memref.isWhole_whole _) bW0 (Memref.isWhole_whole _) bW1 (Memref.isWhole_whole _)
            bW2 (Memref.isWhole_whole _) bW3 (Memref.isWhole_whole _)
            cc1_scratch4 cc1_scratch5 cc1_scratch6 cc1_scratch7 cc1_scratch8 cc1_scratch9 cc1_scratch10 cc1_scratch11)
          fun _ => iprop(tdV d w L ∗ scopedBufs (V d (cV L) (jV L)) ∗ scopedSems0 (V d (cV L) (jV L)) ∗ ∃ W', ⌜∀ p ∈ W', p ∈ W ∨ p.2 = none⌝ ∗ owes (V d (cV L) (jV L)) O W') := by
  have k1_h3 : k1_cond3 L = 1#1 := (cond3_iff L).mpr (inner_z1 L)
  have k1_h4 : ¬ k1_cond4 L = 1#1 := fun h => (cond4_iff L).mp h (inner_z1 L)
  have k1_h5 : k1_cond5 L = 1#1 := (cond5_iff L).mpr (inner_z2 L)
  have k1_h6 : ¬ k1_cond6 L = 1#1 := fun h => (cond6_iff L).mp h (inner_z2 L)
  have hz1 : ¬ eN (zOf L 1).val := (inner_iff_not_edge _).mp (inner_z1 L)
  have hz2 : ¬ eN (zOf L 2).val := (inner_iff_not_edge _).mp (inner_z2 L)
  unfold tdV
  simp only [cc1__sc_body_eq_skeleton]; unfold cc1__sc_body_skel
  rw [(K (F := F)).scopedBufs_V hF d (cV L) (jV L), SparseCore.Cfg.scopedSems0_V (Val := Elt F) d (cV L) (jV L), ownSems0_split8, ownBufs_split4]
  unfold goV; rw [bigSep_fin4, bigSep_fin4]
  iintro ⟨#Hlv, -, ⟨⟨Hw0, Ht0⟩, ⟨Hw1, Ht1⟩, ⟨Hw2, Ht2⟩, ⟨Hw3, Ht3⟩⟩, ⟨⟨⟨%g0, Hb0⟩, ⟨%g1, Hb1⟩, ⟨%g2, Hb2⟩, ⟨%g3, Hb3⟩⟩, Hbufs⟩,
    ⟨⟨Hs0, Hs1, Hs2, Hs3, Hs4, Hs5, Hs6, Hs7⟩, Hsems⟩, HO⟩
  ihave Hmw := ((K (F := F)).mayWaits_none (thr := V d (cV L) (jV L)) hO) $$ Hlv
  ihave Hw0' := (Entails.of_eq (pts_src0 (F := F) d L w).symm) $$ Hw0
  ihave Hw1' := (Entails.of_eq (pts_src1 (F := F) d L w).symm) $$ Hw1
  ihave Hw2' := (Entails.of_eq (pts_src2 (F := F) d L w).symm) $$ Hw2
  ihave Hw3' := (Entails.of_eq (pts_src3 (F := F) d L w).symm) $$ Hw3
  ihave Ht0' := (Entails.of_eq (pts_dst0 (F := F) d L f₀).symm) $$ Ht0
  ihave Ht1' := (Entails.of_eq (pts_dst1 (F := F) d L f₀).symm) $$ Ht1
  ihave Ht2' := (Entails.of_eq (pts_dst2 (F := F) d L f₀).symm) $$ Ht2
  ihave Ht3' := (Entails.of_eq (pts_dst3 (F := F) d L f₀).symm) $$ Ht3
  ihave Hb0' := (Entails.of_eq (pts_b0 (F := F) d L g0).symm) $$ Hb0
  ihave Hb1' := (Entails.of_eq (pts_b1 (F := F) d L g1).symm) $$ Hb1
  ihave Hb2' := (Entails.of_eq (pts_b2 (F := F) d L g2).symm) $$ Hb2
  ihave Hb3' := (Entails.of_eq (pts_b3 (F := F) d L g3).symm) $$ Hb3
  sl_exec_parts
  -- plane 0: inside the grid, or the boundary plane z = 0
  by_cases k1_h1 : k1_cond1 L = 1#1
  case' pos =>
    have k1_h2 : ¬ k1_cond2 L = 1#1 := fun h => (cond2_iff L).mp h ((cond1_iff L).mp k1_h1)
    have hz0 : ¬ eN (zOf L 0).val := (inner_iff_not_edge _).mp ((cond1_iff L).mp k1_h1)
    sl_exec_parts
    sl_for (invA0 (F := F) d L (planeOf d w (zOf L 0))) $$ [Hb0']
    case region => intro k _; exact regionA0 (F := F) d L (planeOf d w (zOf L 0)) k1_h1 k
    · unfold invA0
      iexists _
      isplitl [Hb0']; · iexact Hb0'
      ipureintro
      rw [frameUpTo_zero]
      refine (zero_rows0 (F := F) _ _ ?hz (fun y => eN (y 0).val) ?hcov).trans ?_
      case hz =>
        intro p hp x
        simp only [List.mem_cons, List.not_mem_nil, _root_.or_false] at hp
        rcases hp with rfl | rfl | rfl | rfl | rfl | rfl | rfl | rfl | rfl | rfl | rfl | rfl | rfl | rfl | rfl | rfl <;> exact zeroRow_apply x
      case hcov =>
        intro y
        simp only [List.mem_cons, List.not_mem_nil, _root_.or_false, exists_eq_or_imp, exists_eq_left, Rect.mem_set_unit, Fin.forall_fin_two]
        have h1 : (y 1).val < 128 := (y 1).isLt
        have h0 : (y 0).val < 128 := (y 0).isLt
        simp [eN]; omega
      funext y
      unfold rowsZero
      refine if_congr Iff.rfl rfl ?_
      exact (congrFun (View.write_whole_univ (Val := Elt F) (cc1_scratch0 : Ref sig .scVector) g0 _) y).trans
        (congrFun (read_srcK (F := F) d L w 0) y)
    iintro %_ HI
    unfold invA0
    icases HI with ⟨%gP0, HbP0, %hgP0⟩
    rw [show Scf.trips k1_t1_loop.lb k1_t1_loop.ub k1_t1_loop.st = 126 from by decide, frameUpTo_last] at hgP0
    replace hgP0 : gP0 = planeOut (zeroF (F := F)) (zOf L 0) (planeOf d w (zOf L 0)) := by
      rw [hgP0]; unfold planeOut; rw [if_neg hz0]
  case' neg =>
    have k1_h2 : k1_cond2 L = 1#1 := (cond2_iff L).mpr (fun hi => k1_h1 ((cond1_iff L).mpr hi))
    have hz0 : eN (zOf L 0).val := Classical.not_not.mp fun h => k1_h1 ((cond1_iff L).mpr ((inner_iff_not_edge _).mpr h))
    sl_exec_parts
    sl_for (invB0 (F := F) d L (planeOf d w (zOf L 0))) $$ [Hb0']
    case region => intro k _; exact regionB0 (F := F) d L (planeOf d w (zOf L 0)) 0#32 k1_pay82 k1_pay83 k1_h2 k
    · unfold invB0
      iexists _
      isplitl [Hb0']; · iexact Hb0'
      ipureintro
      rw [fillUpTo_zero]
      funext y
      exact (congrFun (View.write_whole_univ (Val := Elt F) (cc1_scratch0 : Ref sig .scVector) g0 _) y).trans
        (congrFun (read_srcK (F := F) d L w 0) y)
    iintro %_ HI
    unfold invB0
    icases HI with ⟨%gP0, HbP0, %hgP0⟩
    rw [show Scf.trips k1_t2_loop.lb k1_t2_loop.ub k1_t2_loop.st = 128 from by decide, fillUpTo_last] at hgP0
    replace hgP0 : gP0 = planeOut (zeroF (F := F)) (zOf L 0) (planeOf d w (zOf L 0)) := by
      rw [hgP0]; unfold planeOut; rw [if_pos hz0]
  all_goals (
    -- planes 1 and 2: always inside the grid
    sl_exec_parts
    sl_for (invA1 (F := F) d L (planeOf d w (zOf L 1))) $$ [Hb1']
    case region => intro k _; exact regionA1 (F := F) d L (planeOf d w (zOf L 1)) k1_h3 k
    · unfold invA1
      iexists _
      isplitl [Hb1']; · iexact Hb1'
      ipureintro
      rw [frameUpTo_zero]
      refine (zero_rows1 (F := F) _ _ ?hz (fun y => eN (y 0).val) ?hcov).trans ?_
      case hz =>
        intro p hp x
        simp only [List.mem_cons, List.not_mem_nil, _root_.or_false] at hp
        rcases hp with rfl | rfl | rfl | rfl | rfl | rfl | rfl | rfl | rfl | rfl | rfl | rfl | rfl | rfl | rfl | rfl <;> exact zeroRow_apply x
      case hcov =>
        intro y
        simp only [List.mem_cons, List.not_mem_nil, _root_.or_false, exists_eq_or_imp, exists_eq_left, Rect.mem_set_unit, Fin.forall_fin_two]
        have h1 : (y 1).val < 128 := (y 1).isLt
        have h0 : (y 0).val < 128 := (y 0).isLt
        simp [eN]; omega
      funext y
      unfold rowsZero
      refine if_congr Iff.rfl rfl ?_
      exact (congrFun (View.write_whole_univ (Val := Elt F) (cc1_scratch1 : Ref sig .scVector) g1 _) y).trans
        (congrFun (read_srcK (F := F) d L w 1) y)
    iintro %_ HI
    unfold invA1
    icases HI with ⟨%gP1, HbP1, %hgP1⟩
    rw [show Scf.trips k1_t3_loop.lb k1_t3_loop.ub k1_t3_loop.st = 126 from by decide, frameUpTo_last] at hgP1
    replace hgP1 : gP1 = planeOut (zeroF (F := F)) (zOf L 1) (planeOf d w (zOf L 1)) := by
      rw [hgP1]; unfold planeOut; rw [if_neg hz1]
    sl_exec_parts
    sl_for (invA2 (F := F) d L (planeOf d w (zOf L 2))) $$ [Hb2']
    case region => intro k _; exact regionA2 (F := F) d L (planeOf d w (zOf L 2)) k1_h5 k
    · unfold invA2
      iexists _
      isplitl [Hb2']; · iexact Hb2'
      ipureintro
      rw [frameUpTo_zero]
      refine (zero_rows2 (F := F) _ _ ?hz (fun y => eN (y 0).val) ?hcov).trans ?_
      case hz =>
        intro p hp x
        simp only [List.mem_cons, List.not_mem_nil, _root_.or_false] at hp
        rcases hp with rfl | rfl | rfl | rfl | rfl | rfl | rfl | rfl | rfl | rfl | rfl | rfl | rfl | rfl | rfl | rfl <;> exact zeroRow_apply x
      case hcov =>
        intro y
        simp only [List.mem_cons, List.not_mem_nil, _root_.or_false, exists_eq_or_imp, exists_eq_left, Rect.mem_set_unit, Fin.forall_fin_two]
        have h1 : (y 1).val < 128 := (y 1).isLt
        have h0 : (y 0).val < 128 := (y 0).isLt
        simp [eN]; omega
      funext y
      unfold rowsZero
      refine if_congr Iff.rfl rfl ?_
      exact (congrFun (View.write_whole_univ (Val := Elt F) (cc1_scratch2 : Ref sig .scVector) g2 _) y).trans
        (congrFun (read_srcK (F := F) d L w 2) y)
    iintro %_ HI
    unfold invA2
    icases HI with ⟨%gP2, HbP2, %hgP2⟩
    rw [show Scf.trips k1_t5_loop.lb k1_t5_loop.ub k1_t5_loop.st = 126 from by decide, frameUpTo_last] at hgP2
    replace hgP2 : gP2 = planeOut (zeroF (F := F)) (zOf L 2) (planeOf d w (zOf L 2)) := by
      rw [hgP2]; unfold planeOut; rw [if_neg hz2]
    sl_exec_parts
    -- plane 3: inside the grid, or the boundary plane z = 127
    by_cases k1_h7 : k1_cond7 L = 1#1
    case' pos =>
      have k1_h8 : ¬ k1_cond8 L = 1#1 := fun h => (cond8_iff L).mp h ((cond7_iff L).mp k1_h7)
      have hz3 : ¬ eN (zOf L 3).val := (inner_iff_not_edge _).mp ((cond7_iff L).mp k1_h7)
      sl_exec_parts
      sl_for (invA3 (F := F) d L (planeOf d w (zOf L 3))) $$ [Hb3']
      case region => intro k _; exact regionA3 (F := F) d L (planeOf d w (zOf L 3)) k1_h7 k
      · unfold invA3
        iexists _
        isplitl [Hb3']; · iexact Hb3'
        ipureintro
        rw [frameUpTo_zero]
        refine (zero_rows3 (F := F) _ _ ?hz (fun y => eN (y 0).val) ?hcov).trans ?_
        case hz =>
          intro p hp x
          simp only [List.mem_cons, List.not_mem_nil, _root_.or_false] at hp
          rcases hp with rfl | rfl | rfl | rfl | rfl | rfl | rfl | rfl | rfl | rfl | rfl | rfl | rfl | rfl | rfl | rfl <;> exact zeroRow_apply x
        case hcov =>
          intro y
          simp only [List.mem_cons, List.not_mem_nil, _root_.or_false, exists_eq_or_imp, exists_eq_left, Rect.mem_set_unit, Fin.forall_fin_two]
          have h1 : (y 1).val < 128 := (y 1).isLt
          have h0 : (y 0).val < 128 := (y 0).isLt
          simp [eN]; omega
        funext y
        unfold rowsZero
        refine if_congr Iff.rfl rfl ?_
        exact (congrFun (View.write_whole_univ (Val := Elt F) (cc1_scratch3 : Ref sig .scVector) g3 _) y).trans
          (congrFun (read_srcK (F := F) d L w 3) y)
      iintro %_ HI
      unfold invA3
      icases HI with ⟨%gP3, HbP3, %hgP3⟩
      rw [show Scf.trips k1_t7_loop.lb k1_t7_loop.ub k1_t7_loop.st = 126 from by decide, frameUpTo_last] at hgP3
      replace hgP3 : gP3 = planeOut (zeroF (F := F)) (zOf L 3) (planeOf d w (zOf L 3)) := by
        rw [hgP3]; unfold planeOut; rw [if_neg hz3]
    case' neg =>
      have k1_h8 : k1_cond8 L = 1#1 := (cond8_iff L).mpr (fun hi => k1_h7 ((cond7_iff L).mpr hi))
      have hz3 : eN (zOf L 3).val := Classical.not_not.mp fun h => k1_h7 ((cond7_iff L).mpr ((inner_iff_not_edge _).mpr h))
      sl_exec_parts
      sl_for (invB3 (F := F) d L (planeOf d w (zOf L 3))) $$ [Hb3']
      case region => intro k _; exact regionB3 (F := F) d L (planeOf d w (zOf L 3)) k1_h8 k
      · unfold invB3
        iexists _
        isplitl [Hb3']; · iexact Hb3'
        ipureintro
        rw [fillUpTo_zero]
        funext y
        exact (congrFun (View.write_whole_univ (Val := Elt F) (cc1_scratch3 : Ref sig .scVector) g3 _) y).trans
          (congrFun (read_srcK (F := F) d L w 3) y)
      iintro %_ HI
      unfold invB3
      icases HI with ⟨%gP3, HbP3, %hgP3⟩
      rw [show Scf.trips k1_t8_loop.lb k1_t8_loop.ub k1_t8_loop.st = 128 from by decide, fillUpTo_last] at hgP3
      replace hgP3 : gP3 = planeOut (zeroF (F := F)) (zOf L 3) (planeOf d w (zOf L 3)) := by
        rw [hgP3]; unfold planeOut; rw [if_pos hz3]
    all_goals (
      sl_exec_parts
      sl_step
      isplitl [Hw0' Hw1' Hw2' Hw3' Ht0' Ht1' Ht2' Ht3']
      · isplitl [Hw0' Ht0']
        · isplitl [Hw0']
          · iapply (Entails.of_eq (pts_src0 (F := F) d L w)); iexact Hw0'
          · iapply (plane_written (F := F) d L w f₀ 0 _ (fun y => congrFun hgP0 y)); iexact Ht0'
        isplitl [Hw1' Ht1']
        · isplitl [Hw1']
          · iapply (Entails.of_eq (pts_src1 (F := F) d L w)); iexact Hw1'
          · iapply (plane_written (F := F) d L w f₀ 1 _ (fun y => congrFun hgP1 y)); iexact Ht1'
        isplitl [Hw2' Ht2']
        · isplitl [Hw2']
          · iapply (Entails.of_eq (pts_src2 (F := F) d L w)); iexact Hw2'
          · iapply (plane_written (F := F) d L w f₀ 2 _ (fun y => congrFun hgP2 y)); iexact Ht2'
        isplitl [Hw3']
        · iapply (Entails.of_eq (pts_src3 (F := F) d L w)); iexact Hw3'
        · iapply (plane_written (F := F) d L w f₀ 3 _ (fun y => congrFun hgP3 y)); iexact Ht3'
      isplitl [HbP0 HbP1 HbP2 HbP3 Hbufs]
      · isplitl [HbP0 HbP1 HbP2 HbP3]
        · isplitl [HbP0]; · iexists _; iexact HbP0
          isplitl [HbP1]; · iexists _; iexact HbP1
          isplitl [HbP2]; · iexists _; iexact HbP2
          iexists _; iexact HbP3
        iexact Hbufs
      isplitl [Hs0 Hs1 Hs2 Hs3 Hs4 Hs5 Hs6 Hs7 Hsems]
      · isplitl [Hs0 Hs1 Hs2 Hs3 Hs4 Hs5 Hs6 Hs7]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          iexact Hs7
        iexact Hsems
      iexists _; isplitr
      swap
      · iexact HO
      ipureintro; intro p hp
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      rcases Finset.mem_insert.mp hp with rfl | hp; · exact .inr rfl
      exact .inl hp
))

end Cert.Proof.KB

end
-- ==== Proof.LaunchBits.lean ====
/-
  The idealized kernel's run: every weakly fair execution of the device's 35 threads ends, and in the final memory the three
  arguments are unchanged and the three results are the specification's functions of them. By the SparseCore launch theorem
  from the vector subcores' task, the trivial split of the call's operands among the subcores, @main on the TensorCore, and a
  launch element that funds the pipelined region's staging cells.
-/
import proofs.«203824_g32177894982282_cont_8to1_b_1676_14_alg».proof.Proof.MainBits
import proofs.«203824_g32177894982282_cont_8to1_b_1676_14_alg».proof.Proof.TileBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "wW" => (Memref.whole Cert.Kernel.main_v2_scv : Memref Cert.Kernel.sig Kind.scVector Space.hbm Cert.Kernel.S128x128x128 EltTy.f32)
local notation "twW" => (Memref.whole Cert.Kernel.main_v4_scv : Memref Cert.Kernel.sig Kind.scVector Space.hbm Cert.Kernel.S128x128x128 EltTy.f32)
local notation "bW0" => (Memref.whole Cert.Kernel.cc1_scratch0 : Memref Cert.Kernel.sig Kind.scVector Space.vmem Cert.Kernel.S128x128 EltTy.f32)
local notation "bW1" => (Memref.whole Cert.Kernel.cc1_scratch1 : Memref Cert.Kernel.sig Kind.scVector Space.vmem Cert.Kernel.S128x128 EltTy.f32)
local notation "bW2" => (Memref.whole Cert.Kernel.cc1_scratch2 : Memref Cert.Kernel.sig Kind.scVector Space.vmem Cert.Kernel.S128x128 EltTy.f32)
local notation "bW3" => (Memref.whole Cert.Kernel.cc1_scratch3 : Memref Cert.Kernel.sig Kind.scVector Space.vmem Cert.Kernel.S128x128 EltTy.f32)

variable [FloatOps F]

open Idealize.ShloMosaic.TcCoe

variable (m : (ℓ : Loc nD τ sig) → Buf (Elt F) ℓ) (ρ : Dev nD → PrngReg)

/-! ## The launch theorem's obligations -/

theorem defs₀_vector (c : Fin τ.nSC) (s : Fin τ.nSub) :
    defs₀ (F := F) (.scVector c s) 1 ()
      = SparseCore.onTile hcore1 hsub1 (fun c s => cc1__sc_body (coordsV c s) wW (Memref.isWhole_whole _) twW (Memref.isWhole_whole _)
          bW0 (Memref.isWhole_whole _) bW1 (Memref.isWhole_whole _) bW2 (Memref.isWhole_whole _) bW3 (Memref.isWhole_whole _)
          cc1_scratch4 cc1_scratch5 cc1_scratch6 cc1_scratch7 cc1_scratch8 cc1_scratch9 cc1_scratch10 cc1_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (w : (d : Dev nD) → Buf (Elt F) (wLoc d)) (f₀ : (d : Dev nD) → Buf (Elt F) (twLoc d))

theorem tileObl (hF : (K (F := F)).Facts) : (K (F := F)).TileObl (D (F := F)) 𝒱 (P (F := F) w f₀) v₀ 0 := by
  intro d c i O W hO _ _
  -- this kernel owes nothing for a protocol of its own
  simp only [show (P (F := F) w f₀).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body (F := F) d (coordsV ⟨_, hc.1⟩ ⟨_, hc.2⟩) (w d) (f₀ d) hF O W hO).trans (wp_mono frame _ _ fun _ => obl_post)

/-- A SparseCore's share of the call is its subcores' shares, and back. -/
theorem vecSplit : (K (F := F)).VecSplit' (P (F := F) w f₀) 0 := by
  intro d c
  show (bigSep (Finset.univ : Finset (Fin ((K (F := F)).nSub 0))) fun i => goV d (w d) (f₀ d) (coordsV (Fin.cast nCore_zero c) (Fin.cast nSub_zero i)))
    ⊢ |={Set.univ}=> iprop((bigSep (Finset.univ : Finset (Fin ((K (F := F)).nSub 0))) fun i => goV d (w d) (f₀ d) (coordsV (Fin.cast nCore_zero c) (Fin.cast nSub_zero i)))
      ∗ ((bigSep (Finset.univ : Finset (Fin ((K (F := F)).nSub 0))) fun i => tdV d (w d) (coordsV (Fin.cast nCore_zero c) (Fin.cast nSub_zero i)))
        -∗ bigSep (Finset.univ : Finset (Fin ((K (F := F)).nSub 0))) fun i => tdV d (w d) (coordsV (Fin.cast nCore_zero c) (Fin.cast nSub_zero i))))
  iintro H; imodintro
  isplitl [H]; · iexact H
  iintro H; iexact H

/-! ## The launch element: the handshakes' rounds and the pipelined region's staging cells -/

def u₀ : UU := (initOf (K (F := F)).hsCells (K (F := F)).hsToks, (u₀P, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (GP (F := F)))
        ∗ bigSep Finset.univ fun thr : Thread nD τ => bigSep Finset.univ fun q : Fin 1 => (P (F := F) w f₀).x q thr) := by
  unfold u₀
  iintro Hu
  ihave H := (ownU_split _ _ _) $$ Hu
  icases H with ⟨HH, HP⟩
  imod (fundP (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the final memory holds -/

omit [FloatOps F] in
theorem pts_SI (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- The claim's reading of a device's final memory. -/
def fq (d : Dev nD) (s' : Phys nD τ sig (Elt F)) : Prop :=
  s'.mem.mem ((SparseCore.T d).loc main_v5) = (Cert.Spec.outU (oneF (F := F)) (m ((SparseCore.T d).loc main_arg0)) : Buf (Elt F) ((SparseCore.T d).loc main_v5))
  ∧ s'.mem.mem ((SparseCore.T d).loc main_v6) = (Cert.Spec.outZ (zeroF (F := F)) (m ((SparseCore.T d).loc main_arg1)) : Buf (Elt F) ((SparseCore.T d).loc main_v6))
  ∧ s'.mem.mem ((SparseCore.T d).loc main_v7) = (Cert.Spec.outZ (zeroF (F := F)) (m ((SparseCore.T d).loc main_arg2)) : Buf (Elt F) ((SparseCore.T d).loc main_v7))
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  have h0 : iprop(FIN m d ∗ SI s') ⊢ (⌜s'.mem.mem ((SparseCore.T d).loc main_arg0) = m ((SparseCore.T d).loc main_arg0)⌝ : sProp 𝕄) := by
    unfold FIN; iintro ⟨⟨H0, H1, H2, H3, H4, H5⟩, HSI⟩
    iapply (pts_SI (F := F) _ _ s'); isplitl [H0]; · iexact H0
    iexact HSI
  have h1 : iprop(FIN m d ∗ SI s') ⊢ (⌜s'.mem.mem ((SparseCore.T d).loc main_arg1) = m ((SparseCore.T d).loc main_arg1)⌝ : sProp 𝕄) := by
    unfold FIN; iintro ⟨⟨H0, H1, H2, H3, H4, H5⟩, HSI⟩
    iapply (pts_SI (F := F) _ _ s'); isplitl [H1]; · iexact H1
    iexact HSI
  have h2 : iprop(FIN m d ∗ SI s') ⊢ (⌜s'.mem.mem ((SparseCore.T d).loc main_arg2) = m ((SparseCore.T d).loc main_arg2)⌝ : sProp 𝕄) := by
    unfold FIN; iintro ⟨⟨H0, H1, H2, H3, H4, H5⟩, HSI⟩
    iapply (pts_SI (F := F) _ _ s'); isplitl [H2]; · iexact H2
    iexact HSI
  have h3 : iprop(FIN m d ∗ SI s') ⊢ (⌜s'.mem.mem ((SparseCore.T d).loc main_v5) = (Cert.Spec.outU (oneF (F := F)) (m ((SparseCore.T d).loc main_arg0)) : Buf (Elt F) ((SparseCore.T d).loc main_v5))⌝ : sProp 𝕄) := by
    unfold FIN; iintro ⟨⟨H0, H1, H2, H3, H4, H5⟩, HSI⟩
    iapply (pts_SI (F := F) _ _ s'); isplitl [H3]; · iexact H3
    iexact HSI
  have h4 : iprop(FIN m d ∗ SI s') ⊢ (⌜s'.mem.mem ((SparseCore.T d).loc main_v6) = (Cert.Spec.outZ (zeroF (F := F)) (m ((SparseCore.T d).loc main_arg1)) : Buf (Elt F) ((SparseCore.T d).loc main_v6))⌝ : sProp 𝕄) := by
    unfold FIN; iintro ⟨⟨H0, H1, H2, H3, H4, H5⟩, HSI⟩
    iapply (pts_SI (F := F) _ _ s'); isplitl [H4]; · iexact H4
    iexact HSI
  have h5 : iprop(FIN m d ∗ SI s') ⊢ (⌜s'.mem.mem ((SparseCore.T d).loc main_v7) = (Cert.Spec.outZ (zeroF (F := F)) (m ((SparseCore.T d).loc main_arg2)) : Buf (Elt F) ((SparseCore.T d).loc main_v7))⌝ : sProp 𝕄) := by
    unfold FIN; iintro ⟨⟨H0, H1, H2, H3, H4, H5⟩, HSI⟩
    iapply (pts_SI (F := F) _ _ s'); isplitl [H5]; · iexact H5
    iexact HSI
  exact fun x hx => ⟨h3 x hx, h4 x hx, h5 x hx, h0 x hx, h1 x hx, h2 x hx⟩

/-! ## The program's run -/

/-- What the claims read: on every device the three results at the specification, the three arguments unchanged. -/
def QC : PUnit × MemSt nD τ sig (Elt F) → Prop := fun r => ∀ c : Dev nD,
  r.2.mem ((SparseCore.T c).loc main_v5) = (Cert.Spec.outU (oneF (F := F)) (m ((SparseCore.T c).loc main_arg0)) : Buf (Elt F) ((SparseCore.T c).loc main_v5))
  ∧ r.2.mem ((SparseCore.T c).loc main_v6) = (Cert.Spec.outZ (zeroF (F := F)) (m ((SparseCore.T c).loc main_arg1)) : Buf (Elt F) ((SparseCore.T c).loc main_v6))
  ∧ r.2.mem ((SparseCore.T c).loc main_v7) = (Cert.Spec.outZ (zeroF (F := F)) (m ((SparseCore.T c).loc main_arg2)) : Buf (Elt F) ((SparseCore.T c).loc main_v7))
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (F := F) (W2 m) (F4 m) facts)
    (fun q _ => match q with | 0 => SparseCore.Cfg.VecSplit.of_plain (vecSplit (F := F) (W2 m) (F4 m)))
    m ρ main (GP (F := F)) (FIN m) (u₀ (F := F)) (sep_elim_left.trans (hu₀ (F := F) (W2 m) (F4 m))) (hmain m ρ) (fq m) (hfin m) (QC m) (fun _ h => h)

end Cert.Proof.KB

end
-- ==== Proof.LibScatterSet.lean ====
import Idealize.ShloMosaic.PureOps.ShapeOps

/-!
# Reading a set-scatter at an index

`Host.scatter d f x idx upd` is a left fold over the update indices in row-major order: an update
index `j` whose result index `d.resultIdx? j idx` is `some i` replaces the element at `i` by
`f (old element) (upd j)`, and an update index whose result index is `none` is dropped.

For the body `f = fun _ b => b` (the update replaces the element) this file says what the folded
function is at a given operand index `i'`:

* `scatter_set_miss`: when no update index lands at `i'`, the element is the operand's, `x i'`;
* `scatter_set_hit`: when some update index lands at `i'` and every update index landing there
  carries the same value `v`, the element is `v` (whatever the order of the fold).

Both come from the same two facts about a left fold, over an arbitrary list, of a step that
overwrites one element or does nothing (`foldl_step_miss`, `foldl_step_hit`), proved by induction
on the list. The scatter is the case of the list of all row-major positions: every update index is
the image of its own position under the inverse of the row-major equivalence.
-/

namespace Cert.Lib.ScatterSet

open Idealize.ShloMosaic

section ListFold

variable {ι κ α : Type} [DecidableEq ι]

/-- Let `stepf r n` overwrite `r` at `i` by `g n` when `ri n = some i`, and be `r` when
    `ri n = none`. Folding `stepf` over a list none of whose members writes at `i'` leaves the
    element at `i'` as it was. -/
theorem foldl_step_miss (ri : κ → Option ι) (g : κ → α) (stepf : (ι → α) → κ → ι → α)
    (hsome : ∀ r n i, ri n = some i → stepf r n = fun i'' => if i'' = i then g n else r i'')
    (hnone : ∀ r n, ri n = none → stepf r n = r)
    (L : List κ) (x : ι → α) (i' : ι) (hno : ∀ n ∈ L, ri n ≠ some i') :
    L.foldl stepf x i' = x i' := by
  induction L generalizing x with
  | nil => rfl
  | cons n L ih =>
    rw [List.foldl_cons, ih _ (fun m hm => hno m (List.mem_cons_of_mem _ hm))]
    have h := hno n List.mem_cons_self
    cases hr : ri n with
    | none => rw [hnone x n hr]
    | some i =>
      have hne : i' ≠ i := fun e => h (by rw [hr, e])
      rw [hsome x n i hr]; exact if_neg hne

/-- With `stepf` as above: folding it over a list some member of which writes at `i'`, every
    member that writes at `i'` writing `v`, gives `v` at `i'` — the last member that writes there
    decides, and it writes `v`. -/
theorem foldl_step_hit (ri : κ → Option ι) (g : κ → α) (stepf : (ι → α) → κ → ι → α)
    (hsome : ∀ r n i, ri n = some i → stepf r n = fun i'' => if i'' = i then g n else r i'')
    (hnone : ∀ r n, ri n = none → stepf r n = r)
    (L : List κ) (x : ι → α) (i' : ι) (v : α)
    (hex : ∃ n ∈ L, ri n = some i') (hall : ∀ n ∈ L, ri n = some i' → g n = v) :
    L.foldl stepf x i' = v := by
  induction L generalizing x with
  | nil => obtain ⟨n, hn, _⟩ := hex; cases hn
  | cons n L ih =>
    rw [List.foldl_cons]
    by_cases htail : ∃ m ∈ L, ri m = some i'
    · -- a later member still writes at `i'`: what the head does is overwritten
      exact ih _ htail (fun m hm => hall m (List.mem_cons_of_mem _ hm))
    · -- no later member writes at `i'`: the tail keeps the head's value there, and the member
      -- that writes at `i'` can only be the head
      rw [foldl_step_miss ri g stepf hsome hnone L _ i' (fun m hm e => htail ⟨m, hm, e⟩)]
      obtain ⟨m, hm, hmi⟩ := hex
      rcases List.mem_cons.1 hm with rfl | hm'
      · rw [hsome x m i' hmi]
        exact (if_pos rfl).trans (hall m List.mem_cons_self hmi)
      · exact absurd ⟨m, hm', hmi⟩ htail

end ListFold

section Scatter

variable {s : Shape} {α : Type} {w : Nat} {si u : Shape}

/-- A set-scatter leaves the operand's element at `i'` when no update index lands at `i'`. -/
theorem scatter_set_miss (d : ScatterDims s si u) (x : s.Idx → α) (idx : IVec si w) (upd : u.Idx → α)
    (i' : s.Idx) (hno : ∀ j : u.Idx, d.resultIdx? j idx ≠ some i') :
    Host.scatter d (fun _ b => b) x idx upd i' = x i' := by
  unfold Host.scatter
  refine foldl_step_miss (fun n => d.resultIdx? (u.rowMajor.symm n) idx) (fun n => upd (u.rowMajor.symm n))
    _ ?_ ?_ (List.finRange u.numel) x i' (fun n _ => hno (u.rowMajor.symm n))
  · intro r n i h; simp only [h]
  · intro r n h; simp only [h]

/-- A set-scatter has the value `v` at `i'` when some update index lands at `i'` and every update
    index that lands at `i'` carries `v`. -/
theorem scatter_set_hit (d : ScatterDims s si u) (x : s.Idx → α) (idx : IVec si w) (upd : u.Idx → α)
    (i' : s.Idx) (v : α) (hex : ∃ j : u.Idx, d.resultIdx? j idx = some i')
    (hall : ∀ j : u.Idx, d.resultIdx? j idx = some i' → upd j = v) :
    Host.scatter d (fun _ b => b) x idx upd i' = v := by
  unfold Host.scatter
  obtain ⟨j, hj⟩ := hex
  refine foldl_step_hit (fun n => d.resultIdx? (u.rowMajor.symm n) idx) (fun n => upd (u.rowMajor.symm n))
    _ ?_ ?_ (List.finRange u.numel) x i' v
    ⟨u.rowMajor j, List.mem_finRange _, by simpa using hj⟩
    (fun n _ h => hall (u.rowMajor.symm n) h)
  · intro r n i h; simp only [h]
  · intro r n h; simp only [h]

end Scatter

end Cert.Lib.ScatterSet
-- ==== Proof.RefScatterLanding.lean ====
/-
  A set-scatter (the update replaces the element) whose update indices all land inside the operand, at pairwise
  different places: the result at an operand index is the update's value when an update index lands there, and the
  operand's element otherwise.

  The landing place of update index `j` is given as a function `g j`. That it IS the landing place is stated on every
  axis: the window's start plus the window coordinate is the coordinate of `g j`.
-/
import proofs.«203824_g32177894982282_cont_8to1_b_1676_14_alg».proof.Proof.LibScatterSet

namespace Cert.Proof.RefScatterLanding

open Idealize.ShloMosaic

variable {s si u : Shape} {α : Type} {w : Nat}

/-- An update index whose start plus window coordinate is, on every axis, the coordinate of `i` lands at `i`. -/
theorem resultIdx?_eq_some (d : ScatterDims s si u) (j : u.Idx) (idx : IVec si w) (i : s.Idx)
    (h : ∀ a, d.start j idx a + (d.window j a : Int) = ((i a).val : Int)) :
    d.resultIdx? j idx = some i := by
  unfold ScatterDims.resultIdx?
  have hin : ∀ a, 0 ≤ d.start j idx a + (d.window j a : Int) ∧ d.start j idx a + (d.window j a : Int) < s.size a := by
    intro a
    rw [h a]
    exact ⟨Int.natCast_nonneg _, by exact_mod_cast (i a).isLt⟩
  rw [dif_pos hin]
  congr 1
  funext a
  apply Fin.ext
  show (d.start j idx a + (d.window j a : Int)).toNat = (i a).val
  rw [h a]
  exact Int.toNat_natCast _

/-- Where update index `j` lands, the set-scatter has the update's value at `j`: no other update index lands there. -/
theorem scatter_set_at_landing (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j :=
  Cert.Lib.ScatterSet.scatter_set_hit d x idx upd (g j) (upd j) ⟨j, hg j⟩
    (fun j' hj' => by
      rw [hg j'] at hj'
      exact congrArg upd (hinj (Option.some.inj hj')))

/-- Where no update index lands, the set-scatter keeps the operand's element. -/
theorem scatter_set_off_landing (d : ScatterDims s si u) (x : s.Idx → α) (idx : IVec si w) (upd : u.Idx → α)
    (g : u.Idx → s.Idx) (hg : ∀ j, d.resultIdx? j idx = some (g j)) (i : s.Idx) (hno : ∀ j, g j ≠ i) :
    Host.scatter d (fun _ b => b) x idx upd i = x i :=
  Cert.Lib.ScatterSet.scatter_set_miss d x idx upd i
    (fun j hj => by
      rw [hg j] at hj
      exact hno j (Option.some.inj hj))

end Cert.Proof.RefScatterLanding
-- ==== Proof.RefPlaneWrites.lean ====
/-
  The reference's plane writes, read at an index.

  Each of the reference's eighteen writes is a set-scatter of a 128 × 128 update into a [1, 128, 128, 128, 1] array at the
  start vector [0, n, 0], read along the three inserted axes: the update fills the plane "coordinate = n" of one grid
  axis — the x axis (stored axis 3), the y axis (stored axis 2) or the z axis (stored axis 1) — and its two coordinates
  run over the other two grid axes, in order. So the written array at [0, z, y, x, 0] is the update at the two free
  coordinates when the cell is on the plane, and the old array's element when it is not.

  The updates the first result reads back from the argument are planes of it: a slice of thickness one, reshaped to
  128 × 128, read at [p, q] is the argument on that plane at the free coordinates p, q.
-/
import proofs.«203824_g32177894982282_cont_8to1_b_1676_14_alg».proof.Proof.Gen.ReferenceIdeal
import proofs.«203824_g32177894982282_cont_8to1_b_1676_14_alg».proof.Proof.RefScatterLanding
import Idealize.ShloMosaic.Lib.Pipeline.Value
import Idealize.ShloMosaic.Lib.ValueIdx

namespace Cert.Proof.RefPlaneWrites

open Idealize.ShloMosaic Idealize.ShloMosaic.ValueIdx
open Cert.ReferenceIdeal Cert.ReferenceIdeal.Gen
open Cert.Proof.RefScatterLanding

variable {α : Type}

/-- Three one-element vectors joined, read at the first place: the first vector's element. -/
theorem join3_first (p0 p1 p2 : S1.Idx → α) (h : Shape.Concatenates [S1, S1, S1] S3 0) (i : S3.Idx) (hi : (i 0).val = 0) :
    concatenate S3 0 [⟨S1, p0⟩, ⟨S1, p1⟩, ⟨S1, p2⟩] h i = p0 (ix1 0) :=
  concatenate_apply_piece (0 : Fin S3.rank) [⟨S1, p0⟩, ⟨S1, p1⟩, ⟨S1, p2⟩] h i 0 (Nat.zero_lt_succ _) S1 p0 rfl rfl 0 rfl (ix1 0)
    (fun b hb => absurd (Fin.ext (by have : b.val < 1 := b.isLt; show b.val = 0; omega)) hb)
    (by show 0 + 0 = (i 0).val; omega)

/-- Read at the second place: the second vector's element. -/
theorem join3_second (p0 p1 p2 : S1.Idx → α) (h : Shape.Concatenates [S1, S1, S1] S3 0) (i : S3.Idx) (hi : (i 0).val = 1) :
    concatenate S3 0 [⟨S1, p0⟩, ⟨S1, p1⟩, ⟨S1, p2⟩] h i = p1 (ix1 0) :=
  concatenate_apply_piece (0 : Fin S3.rank) [⟨S1, p0⟩, ⟨S1, p1⟩, ⟨S1, p2⟩] h i 1 (Nat.succ_lt_succ (Nat.zero_lt_succ _)) S1 p1 rfl rfl 1 rfl (ix1 0)
    (fun b hb => absurd (Fin.ext (by have : b.val < 1 := b.isLt; show b.val = 0; omega)) hb)
    (by show 1 + 0 = (i 0).val; omega)

/-- Read at the third place: the third vector's element. -/
theorem join3_third (p0 p1 p2 : S1.Idx → α) (h : Shape.Concatenates [S1, S1, S1] S3 0) (i : S3.Idx) (hi : (i 0).val = 2) :
    concatenate S3 0 [⟨S1, p0⟩, ⟨S1, p1⟩, ⟨S1, p2⟩] h i = p2 (ix1 0) :=
  concatenate_apply_piece (0 : Fin S3.rank) [⟨S1, p0⟩, ⟨S1, p1⟩, ⟨S1, p2⟩] h i 2 (Nat.succ_lt_succ (Nat.succ_lt_succ (Nat.zero_lt_succ _))) S1 p2 rfl rfl 2 rfl (ix1 0)
    (fun b hb => absurd (Fin.ext (by have : b.val < 1 := b.isLt; show b.val = 0; omega)) hb)
    (by show 2 + 0 = (i 0).val; omega)

/-- The start vector `[0, c, 0]` of a plane write: three one-element constant vectors joined. -/
abbrev startVec (c : BitVec 32) : IVec S3 32 :=
  concatenate S3 0 [⟨S1, broadcastInDim S1 ![] bcast_S_S1 (constantI S_ 32 0#32)⟩,
    ⟨S1, broadcastInDim S1 ![] bcast_S_S1 (constantI S_ 32 c)⟩,
    ⟨S1, broadcastInDim S1 ![] bcast_S_S1 (constantI S_ 32 0#32)⟩] concatenates_S1_S1_S1_S3_d0

theorem startVec_first (c : BitVec 32) (i : S3.Idx) (hi : (i 0).val = 0) : startVec c i = 0#32 :=
  join3_first _ _ _ _ i hi
theorem startVec_middle (c : BitVec 32) (i : S3.Idx) (hi : (i 0).val = 1) : startVec c i = c :=
  join3_second _ _ _ _ i hi
theorem startVec_last (c : BitVec 32) (i : S3.Idx) (hi : (i 0).val = 2) : startVec c i = 0#32 :=
  join3_third _ _ _ _ i hi

abbrev dX := scatter_S1x128x128x128x1_S3_S128x128_01_034_034_0
abbrev dY := scatter_S1x128x128x128x1_S3_S128x128_01_024_024_0
abbrev dZ := scatter_S1x128x128x128x1_S3_S128x128_01_014_014_0

/-- An x-plane write's update index `[p, q]` lands at `[0, p, q, n, 0]`. -/
theorem lands_x (c : BitVec 32) (n : Fin 128) (hc : c.toInt = n.val) (j : S128x128.Idx) :
    dX.resultIdx? j (startVec c) = some (ix5 (0 : Fin 1) (j 0) (j 1) n (0 : Fin 1)) := by
  refine resultIdx?_eq_some _ j _ _ (fun a => ?_)
  match a with
  | ⟨0, _⟩ =>
    show (startVec c (dX.siIdx j ⟨0, by decide⟩)).toInt + ((0 : Nat) : Int) = ((0 : Nat) : Int)
    rw [startVec_first c _ rfl]; rfl
  | ⟨1, _⟩ => show (0 : Int) + ((j 0).val : Int) = ((j 0).val : Int); omega
  | ⟨2, _⟩ => show (0 : Int) + ((j 1).val : Int) = ((j 1).val : Int); omega
  | ⟨3, _⟩ =>
    show (startVec c (dX.siIdx j ⟨1, by decide⟩)).toInt + ((0 : Nat) : Int) = (n.val : Int)
    rw [startVec_middle c _ rfl, hc]; omega
  | ⟨4, _⟩ =>
    show (startVec c (dX.siIdx j ⟨2, by decide⟩)).toInt + ((0 : Nat) : Int) = ((0 : Nat) : Int)
    rw [startVec_last c _ rfl]; rfl

/-- A y-plane write's update index `[p, q]` lands at `[0, p, n, q, 0]`. -/
theorem lands_y (c : BitVec 32) (n : Fin 128) (hc : c.toInt = n.val) (j : S128x128.Idx) :
    dY.resultIdx? j (startVec c) = some (ix5 (0 : Fin 1) (j 0) n (j 1) (0 : Fin 1)) := by
  refine resultIdx?_eq_some _ j _ _ (fun a => ?_)
  match a with
  | ⟨0, _⟩ =>
    show (startVec c (dY.siIdx j ⟨0, by decide⟩)).toInt + ((0 : Nat) : Int) = ((0 : Nat) : Int)
    rw [startVec_first c _ rfl]; rfl
  | ⟨1, _⟩ => show (0 : Int) + ((j 0).val : Int) = ((j 0).val : Int); omega
  | ⟨2, _⟩ =>
    show (startVec c (dY.siIdx j ⟨1, by decide⟩)).toInt + ((0 : Nat) : Int) = (n.val : Int)
    rw [startVec_middle c _ rfl, hc]; omega
  | ⟨3, _⟩ => show (0 : Int) + ((j 1).val : Int) = ((j 1).val : Int); omega
  | ⟨4, _⟩ =>
    show (startVec c (dY.siIdx j ⟨2, by decide⟩)).toInt + ((0 : Nat) : Int) = ((0 : Nat) : Int)
    rw [startVec_last c _ rfl]; rfl

/-- A z-plane write's update index `[p, q]` lands at `[0, n, p, q, 0]`. -/
theorem lands_z (c : BitVec 32) (n : Fin 128) (hc : c.toInt = n.val) (j : S128x128.Idx) :
    dZ.resultIdx? j (startVec c) = some (ix5 (0 : Fin 1) n (j 0) (j 1) (0 : Fin 1)) := by
  refine resultIdx?_eq_some _ j _ _ (fun a => ?_)
  match a with
  | ⟨0, _⟩ =>
    show (startVec c (dZ.siIdx j ⟨0, by decide⟩)).toInt + ((0 : Nat) : Int) = ((0 : Nat) : Int)
    rw [startVec_first c _ rfl]; rfl
  | ⟨1, _⟩ =>
    show (startVec c (dZ.siIdx j ⟨1, by decide⟩)).toInt + ((0 : Nat) : Int) = (n.val : Int)
    rw [startVec_middle c _ rfl, hc]; omega
  | ⟨2, _⟩ => show (0 : Int) + ((j 0).val : Int) = ((j 0).val : Int); omega
  | ⟨3, _⟩ => show (0 : Int) + ((j 1).val : Int) = ((j 1).val : Int); omega
  | ⟨4, _⟩ =>
    show (startVec c (dZ.siIdx j ⟨2, by decide⟩)).toInt + ((0 : Nat) : Int) = ((0 : Nat) : Int)
    rw [startVec_last c _ rfl]; rfl

/-- A 128 × 128 index is its two coordinates. -/
theorem idx2_ext (j j' : S128x128.Idx) (h0 : j 0 = j' 0) (h1 : j 1 = j' 1) : j = j' := by
  rw [eq_ix2 j, eq_ix2 j', h0, h1]

/-- **An x-plane write read at a cell**: the update at `[z, y]` on the plane `x = n`, the old element elsewhere. -/
theorem write_x (c : BitVec 32) (n : Fin 128) (hc : c.toInt = n.val) (a : S1x128x128x128x1.Idx → α) (upd : S128x128.Idx → α)
    (z y x : Fin 128) :
    Host.scatter dX (fun _ b => b) a (startVec c) upd (ix5 (0 : Fin 1) z y x (0 : Fin 1))
      = if x.val = n.val then upd (ix2 z y) else a (ix5 (0 : Fin 1) z y x (0 : Fin 1)) := by
  by_cases h : x.val = n.val
  · rw [if_pos h]
    obtain rfl : x = n := Fin.ext h
    exact scatter_set_at_landing dX a (startVec c) upd (fun j => ix5 (0 : Fin 1) (j 0) (j 1) x (0 : Fin 1)) (lands_x c x hc)
      (fun j j' e => idx2_ext j j' (by have e1 := congrFun e ⟨1, by decide⟩; exact e1) (by have e2 := congrFun e ⟨2, by decide⟩; exact e2)) (ix2 z y)
  · rw [if_neg h]
    exact scatter_set_off_landing dX a (startVec c) upd (fun j => ix5 (0 : Fin 1) (j 0) (j 1) n (0 : Fin 1)) (lands_x c n hc) _
      (fun j e => h (congrArg Fin.val (congrFun e ⟨3, by decide⟩)).symm)

/-- **A y-plane write read at a cell**: the update at `[z, x]` on the plane `y = n`, the old element elsewhere. -/
theorem write_y (c : BitVec 32) (n : Fin 128) (hc : c.toInt = n.val) (a : S1x128x128x128x1.Idx → α) (upd : S128x128.Idx → α)
    (z y x : Fin 128) :
    Host.scatter dY (fun _ b => b) a (startVec c) upd (ix5 (0 : Fin 1) z y x (0 : Fin 1))
      = if y.val = n.val then upd (ix2 z x) else a (ix5 (0 : Fin 1) z y x (0 : Fin 1)) := by
  by_cases h : y.val = n.val
  · rw [if_pos h]
    obtain rfl : y = n := Fin.ext h
    exact scatter_set_at_landing dY a (startVec c) upd (fun j => ix5 (0 : Fin 1) (j 0) y (j 1) (0 : Fin 1)) (lands_y c y hc)
      (fun j j' e => idx2_ext j j' (by have e1 := congrFun e ⟨1, by decide⟩; exact e1) (by have e2 := congrFun e ⟨3, by decide⟩; exact e2)) (ix2 z x)
  · rw [if_neg h]
    exact scatter_set_off_landing dY a (startVec c) upd (fun j => ix5 (0 : Fin 1) (j 0) n (j 1) (0 : Fin 1)) (lands_y c n hc) _
      (fun j e => h (congrArg Fin.val (congrFun e ⟨2, by decide⟩)).symm)

/-- **A z-plane write read at a cell**: the update at `[y, x]` on the plane `z = n`, the old element elsewhere. -/
theorem write_z (c : BitVec 32) (n : Fin 128) (hc : c.toInt = n.val) (a : S1x128x128x128x1.Idx → α) (upd : S128x128.Idx → α)
    (z y x : Fin 128) :
    Host.scatter dZ (fun _ b => b) a (startVec c) upd (ix5 (0 : Fin 1) z y x (0 : Fin 1))
      = if z.val = n.val then upd (ix2 y x) else a (ix5 (0 : Fin 1) z y x (0 : Fin 1)) := by
  by_cases h : z.val = n.val
  · rw [if_pos h]
    obtain rfl : z = n := Fin.ext h
    exact scatter_set_at_landing dZ a (startVec c) upd (fun j => ix5 (0 : Fin 1) z (j 0) (j 1) (0 : Fin 1)) (lands_z c z hc)
      (fun j j' e => idx2_ext j j' (by have e1 := congrFun e ⟨2, by decide⟩; exact e1) (by have e2 := congrFun e ⟨3, by decide⟩; exact e2)) (ix2 y x)
  · rw [if_neg h]
    exact scatter_set_off_landing dZ a (startVec c) upd (fun j => ix5 (0 : Fin 1) n (j 0) (j 1) (0 : Fin 1)) (lands_z c n hc) _
      (fun j e => h (congrArg Fin.val (congrFun e ⟨1, by decide⟩)).symm)

/-- The argument's plane `y = k`, as the reference slices and reshapes it, read at `[z, x]`. -/
theorem plane_y (k : Nat) (hk : k < 128) (a : S1x128x128x128x1.Idx → α)
    (h1 : S1x128x128x128x1.Slices ![0, 0, k, 0, 0] S1x128x1x128x1) (h2 : S1x128x1x128x1.ShapeCasts S128x128) (z x : Fin 128) :
    shapeCast S128x128 (extractStridedSlice S1x128x1x128x1 ![0, 0, k, 0, 0] a h1) h2 (ix2 z x)
      = a (ix5 (0 : Fin 1) z ⟨k, hk⟩ x (0 : Fin 1)) := by
  rw [shapeCast_apply _ h2 (ix2 z x) (ix5 (0 : Fin 1) z (0 : Fin 1) x (0 : Fin 1))
    (by rw [Shape.rowMajor_val_five, Shape.rowMajor_val_two]
        show (((0 * 128 + z.val) * 1 + 0) * 128 + x.val) * 1 + 0 = z.val * 128 + x.val; omega)]
  exact extractStridedSlice_apply _ a h1 _ _ (fun b => match b with
    | ⟨0, _⟩ => rfl
    | ⟨1, _⟩ => by show z.val = 0 + z.val; omega
    | ⟨2, _⟩ => by show k = k + 0; omega
    | ⟨3, _⟩ => by show x.val = 0 + x.val; omega
    | ⟨4, _⟩ => rfl)

/-- The argument's plane `z = k`, as the reference slices and reshapes it, read at `[y, x]`. -/
theorem plane_z (k : Nat) (hk : k < 128) (a : S1x128x128x128x1.Idx → α)
    (h1 : S1x128x128x128x1.Slices ![0, k, 0, 0, 0] S1x1x128x128x1) (h2 : S1x1x128x128x1.ShapeCasts S128x128) (y x : Fin 128) :
    shapeCast S128x128 (extractStridedSlice S1x1x128x128x1 ![0, k, 0, 0, 0] a h1) h2 (ix2 y x)
      = a (ix5 (0 : Fin 1) ⟨k, hk⟩ y x (0 : Fin 1)) := by
  rw [shapeCast_apply _ h2 (ix2 y x) (ix5 (0 : Fin 1) (0 : Fin 1) y x (0 : Fin 1))
    (by rw [Shape.rowMajor_val_five, Shape.rowMajor_val_two]
        show (((0 * 1 + 0) * 128 + y.val) * 128 + x.val) * 1 + 0 = y.val * 128 + x.val; omega)]
  exact extractStridedSlice_apply _ a h1 _ _ (fun b => match b with
    | ⟨0, _⟩ => rfl
    | ⟨1, _⟩ => by show k = k + 0; omega
    | ⟨2, _⟩ => by show y.val = 0 + y.val; omega
    | ⟨3, _⟩ => by show x.val = 0 + x.val; omega
    | ⟨4, _⟩ => rfl)

end Cert.Proof.RefPlaneWrites
-- ==== Proof.RefValue.lean ====
/-
  The reference's three results, as the specification's functions of its arguments (at the exact-real instance).

  Each result is a nest of six plane writes over its argument, the x planes innermost and the z planes outermost, the
  high plane of each pair written after the low one. Read at a cell [0, z, y, x, 0], outermost first, the nest is a
  chain of tests "is the cell on this plane": the first plane that holds the cell gives the value — for the first
  result the argument's neighbouring plane (z and y) or the lid speed 1 · 1 = 1 (x), for the other two the constant 0 —
  and a cell on no plane keeps the argument's element. That chain is the specification's, whose tests come in another
  order over the same disjoint cases.
-/
import proofs.«203824_g32177894982282_cont_8to1_b_1676_14_alg».proof.Proof.Gen.ReferenceIdeal.Read
import proofs.«203824_g32177894982282_cont_8to1_b_1676_14_alg».proof.Proof.Spec
import proofs.«203824_g32177894982282_cont_8to1_b_1676_14_alg».proof.Proof.RefPlaneWrites

noncomputable section

namespace Cert.Proof.RefValue

open Idealize.ShloMosaic Idealize.ShloMosaic.TcCoe Idealize.SL.Sem Idealize.ShloMosaic.ValueIdx
open Cert.ReferenceIdeal Cert.ReferenceIdeal.Gen
open Cert.Proof.RefPlaneWrites

/-- The pattern of `1.0` denotes the real number one, so the lid speed `1 · 1` is that same number. -/
theorem one_mul_one :
    Ideal.ofBits .f32 0x3F800000#32 * Ideal.ofBits .f32 0x3F800000#32 = Ideal.ofBits .f32 0x3F800000#32 := by
  have h : Ideal.ofBits .f32 0x3F800000#32 = 1 := by
    simp [Ideal.ofBits, Ideal.ieee, -EReal.coe_mul]; norm_num
  rw [h, one_mul]

/-- The update of the first result's x planes: the constant plane of ones times the lid speed. -/
abbrev lidPlane : FVec Ideal S128x128 .f32 :=
  mulf (broadcastInDim S128x128 ![] bcast_S_S128x128 (constant (F := Ideal) S_ .f32 0x3F800000#32))
    (broadcastInDim S128x128 ![] bcast_S_S128x128 (constant (F := Ideal) S_ .f32 0x3F800000#32))

/-- The update of every plane of the other two results: the constant plane of zeros. -/
abbrev restPlane : FVec Ideal S128x128 .f32 :=
  broadcastInDim S128x128 ![] bcast_S_S128x128 (constant (F := Ideal) S_ .f32 0x00000000#32)

theorem lidPlane_apply (i : S128x128.Idx) : lidPlane i = Ideal.ofBits .f32 0x3F800000#32 :=
  one_mul_one

theorem restPlane_apply (i : S128x128.Idx) : restPlane i = Ideal.ofBits .f32 0x00000000#32 := rfl

/-- The first result: zero-gradient in z and y from the argument's neighbouring planes, the lid speed on the x planes. -/
theorem first_result (a : (⟨S1x128x128x128x1, .f32⟩ : BufTy).Contents (Elt Ideal)) :
    Host.scatter dZ (fun _ b => b) (Host.scatter dZ (fun _ b => b) (Host.scatter dY (fun _ b => b) (Host.scatter dY (fun _ b => b)
      (Host.scatter dX (fun _ b => b) (Host.scatter dX (fun _ b => b) a (startVec 0#32) lidPlane) (startVec 127#32) lidPlane)
      (startVec 0#32) (shapeCast S128x128 (extractStridedSlice S1x128x1x128x1 ![0, 0, 1, 0, 0] a slices_S1x128x128x128x1_S1x128x1x128x1_0_0_1_0_0) shapeCasts_S1x128x1x128x1_S128x128))
      (startVec 127#32) (shapeCast S128x128 (extractStridedSlice S1x128x1x128x1 ![0, 0, 126, 0, 0] a slices_S1x128x128x128x1_S1x128x1x128x1_0_0_126_0_0) shapeCasts_S1x128x1x128x1_S128x128))
      (startVec 0#32) (shapeCast S128x128 (extractStridedSlice S1x1x128x128x1 ![0, 1, 0, 0, 0] a slices_S1x128x128x128x1_S1x1x128x128x1_0_1_0_0_0) shapeCasts_S1x1x128x128x1_S128x128))
      (startVec 127#32) (shapeCast S128x128 (extractStridedSlice S1x1x128x128x1 ![0, 126, 0, 0, 0] a slices_S1x128x128x128x1_S1x1x128x128x1_0_126_0_0_0) shapeCasts_S1x1x128x128x1_S128x128)
      = Cert.Spec.outU (Scalar.ofBits (F := Ideal) .f32 0x3F800000#32) a := by
  funext j
  obtain ⟨e0, z, y, x, e4, rfl⟩ : ∃ (e0 : Fin 1) (z y x : Fin 128) (e4 : Fin 1), j = ix5 e0 z y x e4 :=
    ⟨j 0, j 1, j 2, j 3, j 4, eq_ix5 j⟩
  obtain rfl : e0 = 0 := Subsingleton.elim _ _
  obtain rfl : e4 = 0 := Subsingleton.elim _ _
  rw [write_z 127#32 ⟨127, by omega⟩ rfl, write_z 0#32 ⟨0, by omega⟩ rfl, write_y 127#32 ⟨127, by omega⟩ rfl,
    write_y 0#32 ⟨0, by omega⟩ rfl, write_x 127#32 ⟨127, by omega⟩ rfl, write_x 0#32 ⟨0, by omega⟩ rfl,
    plane_z 126 (by omega), plane_z 1 (by omega), plane_y 126 (by omega), plane_y 1 (by omega), lidPlane_apply]
  show _ = Cert.Spec.valU (Ideal.ofBits .f32 0x3F800000#32) (Cert.Spec.grid a) z y x
  unfold Cert.Spec.valU Cert.Spec.grid Cert.Spec.lo Cert.Spec.hi
  show (if z.val = 127 then _ else if z.val = 0 then _ else if y.val = 127 then _ else if y.val = 0 then _
    else if x.val = 127 then _ else if x.val = 0 then _ else _) = _
  split_ifs <;> first | rfl | (unfold Cert.Spec.edge at *; omega)

/-- The second and third results: zero on every boundary plane, the argument's element inside. -/
theorem rest_result (a : (⟨S1x128x128x128x1, .f32⟩ : BufTy).Contents (Elt Ideal)) :
    Host.scatter dZ (fun _ b => b) (Host.scatter dZ (fun _ b => b) (Host.scatter dY (fun _ b => b) (Host.scatter dY (fun _ b => b)
      (Host.scatter dX (fun _ b => b) (Host.scatter dX (fun _ b => b) a (startVec 0#32) restPlane) (startVec 127#32) restPlane)
      (startVec 0#32) restPlane) (startVec 127#32) restPlane) (startVec 0#32) restPlane) (startVec 127#32) restPlane
      = Cert.Spec.outZ (Scalar.ofBits (F := Ideal) .f32 0x00000000#32) a := by
  funext j
  obtain ⟨e0, z, y, x, e4, rfl⟩ : ∃ (e0 : Fin 1) (z y x : Fin 128) (e4 : Fin 1), j = ix5 e0 z y x e4 :=
    ⟨j 0, j 1, j 2, j 3, j 4, eq_ix5 j⟩
  obtain rfl : e0 = 0 := Subsingleton.elim _ _
  obtain rfl : e4 = 0 := Subsingleton.elim _ _
  rw [write_z 127#32 ⟨127, by omega⟩ rfl, write_z 0#32 ⟨0, by omega⟩ rfl, write_y 127#32 ⟨127, by omega⟩ rfl,
    write_y 0#32 ⟨0, by omega⟩ rfl, write_x 127#32 ⟨127, by omega⟩ rfl, write_x 0#32 ⟨0, by omega⟩ rfl]
  show _ = Cert.Spec.valZ (Ideal.ofBits .f32 0x00000000#32) (Cert.Spec.grid a) z y x
  unfold Cert.Spec.valZ Cert.Spec.grid
  show (if z.val = 127 then _ else if z.val = 0 then _ else if y.val = 127 then _ else if y.val = 0 then _
    else if x.val = 127 then _ else if x.val = 0 then _ else _) = _
  split_ifs <;> first | rfl | (unfold Cert.Spec.edge at *; omega)

/-- Every weakly fair execution of the reference ends with its three results at the specification's functions of the
    arguments, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v93)
          = Cert.Spec.outU (Scalar.ofBits (F := Ideal) .f32 0x3F800000#32) (m ((c.tc : Thread nD τ).loc main_arg0))
      ∧ r.2.mem ((c.tc : Thread nD τ).loc main_v98)
          = Cert.Spec.outZ (Scalar.ofBits (F := Ideal) .f32 0x00000000#32) (m ((c.tc : Thread nD τ).loc main_arg1))
      ∧ r.2.mem ((c.tc : Thread nD τ).loc main_v103)
          = Cert.Spec.outZ (Scalar.ofBits (F := Ideal) .f32 0x00000000#32) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans (first_result _), (h c).2.1.trans (rest_result _), (h c).2.2.1.trans (rest_result _),
      (h c).2.2.2⟩)
    (Cert.ReferenceIdeal.Value.run (F := Ideal) m ρ)

end Cert.Proof.RefValue

end
-- ==== Proof.lean ====
/-
  Boundary conditions on three velocity components of a 128 × 128 × 128 grid. The kernel computes the first two results in a
  pipelined TensorCore region (blocks of sixteen z-planes) and the third on the SparseCores' 32 vector subcores (four
  z-planes each, zeroed in place between a copy in and a copy out); the reference applies eighteen plane writes in
  sequence. Both are the same functions of the arguments (Proof/Spec.lean): a zero-gradient condition in z and in y with
  the lid speed on the two x planes for the first component, no-slip for the other two. No arithmetic is involved beyond
  1 · 1 = 1 in the reference, so the results agree on every input and the finiteness of the inputs is not used.

  The kernel's run (Proof/Launch.lean, and its word-level copy) gives all three frames' content for the two printed
  kernels and the kernel side of the value claim; the reference's run (Proof/RefValue.lean) gives the reference's frame and
  its side. The ideal pass rewrote nothing, so there is nothing to preserve.
-/
import proofs.«203824_g32177894982282_cont_8to1_b_1676_14_alg».proof.Defs
import proofs.«203824_g32177894982282_cont_8to1_b_1676_14_alg».proof.Proof.Gen.Kernel
import proofs.«203824_g32177894982282_cont_8to1_b_1676_14_alg».proof.Proof.Gen.Kernel.Skeleton
import proofs.«203824_g32177894982282_cont_8to1_b_1676_14_alg».proof.Proof.Gen.Kernel.Launch
import proofs.«203824_g32177894982282_cont_8to1_b_1676_14_alg».proof.Proof.Gen.Kernel.Points
import proofs.«203824_g32177894982282_cont_8to1_b_1676_14_alg».proof.Proof.Gen.KernelIdeal
import proofs.«203824_g32177894982282_cont_8to1_b_1676_14_alg».proof.Proof.Gen.KernelIdeal.Skeleton
import proofs.«203824_g32177894982282_cont_8to1_b_1676_14_alg».proof.Proof.Gen.KernelIdeal.Launch
import proofs.«203824_g32177894982282_cont_8to1_b_1676_14_alg».proof.Proof.Gen.KernelIdeal.Points
import proofs.«203824_g32177894982282_cont_8to1_b_1676_14_alg».proof.Proof.Gen.ReferenceIdeal
import proofs.«203824_g32177894982282_cont_8to1_b_1676_14_alg».proof.Proof.Gen.Pre_finite_inputs
import proofs.«203824_g32177894982282_cont_8to1_b_1676_14_alg».proof.Proof.Gen.ReferenceIdeal.Read
import proofs.«203824_g32177894982282_cont_8to1_b_1676_14_alg».proof.Proof.Launch
import proofs.«203824_g32177894982282_cont_8to1_b_1676_14_alg».proof.Proof.LaunchBits
import proofs.«203824_g32177894982282_cont_8to1_b_1676_14_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k [Cert.Kernel.Facts] [Cert.Pre_finite_inputs.Facts] : Cert.frame_Kernel := fun m ρ _ =>
  (θ_run (Cert.Kernel.defs (F := Bits)) _ _).mono (fun _ h c => ⟨(h c).2.2.2.1, (h c).2.2.2.2.1, (h c).2.2.2.2.2⟩)
    (Cert.Proof.KB.run_main (F := Bits) m ρ)

/-- The idealized kernel runs and leaves its arguments as they were. -/
theorem frame_ki [Cert.KernelIdeal.Facts] [Cert.Pre_finite_inputs.Facts] : Cert.frame_KernelIdeal := fun m ρ _ =>
  (θ_run (Cert.KernelIdeal.defs (F := Ideal)) _ _).mono (fun _ h c => ⟨(h c).2.2.2.1, (h c).2.2.2.2.1, (h c).2.2.2.2.2⟩)
    (Cert.Proof.KI.run_main (F := Ideal) m ρ)

/-- The reference runs and leaves its arguments as they were. -/
theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2.2.2) (Cert.Proof.RefValue.run_spec m ρ)

/-- Both programs end with the specification's three functions of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, Cert.Proof.KI.run_main (F := Ideal) m ρ, ?_⟩
  refine (θ_run (Cert.ReferenceIdeal.defs (F := Ideal)) _ _).mono (fun _ h c => ?_) (Cert.Proof.RefValue.run_spec m' ρ')
  refine ⟨(h c).1.trans ?_, (h c).2.1.trans ?_, (h c).2.2.1.trans ?_, (h c).2.2.2⟩
  · rw [(hagree c).1]
  · rw [(hagree c).2.1]
  · rw [(hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
